-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S1024x384 .f32 .bf16
  ∧ IdealRules.truncf_extf.Statement Cert.KernelIdeal.S1024x384 .f32 .bf16
  ∧ IdealRules.truncf_extf.Statement Cert.KernelIdeal.S1024x128 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S8192 : Shape := ⟨1, ![8192]⟩
abbrev S128x64 : Shape := ⟨2, ![128, 64]⟩
abbrev S64 : Shape := ⟨1, ![64]⟩
abbrev S192x64 : Shape := ⟨2, ![192, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_

variable [Facts]

def fn_part1 {F : FTy → Type} [FloatOps F] (main_arg7 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S8192 32) (main_arg3 : IVec S8192 32) (main_arg4 : FVec F S128x64 .f32) (main_arg5 : FVec F S64 .f32) (main_arg6 : FVec F S192x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg6
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg7 main_v13 main_v16
-- ==== Kernel.lean ====
abbrev S50000x128 : Shape := ⟨2, ![50000, 128]⟩
abbrev S2x800000 : Shape := ⟨2, ![2, 800000]⟩
abbrev S8192 : Shape := ⟨1, ![8192]⟩
abbrev S128x64 : Shape := ⟨2, ![128, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x384 : Shape := ⟨2, ![50000, 384]⟩
abbrev S50000x64 : Shape := ⟨2, ![50000, 64]⟩
abbrev S1x64 : Shape := ⟨2, ![1, 64]⟩
abbrev S800000x64 : Shape := ⟨2, ![800000, 64]⟩
abbrev S50000x192 : Shape := ⟨2, ![50000, 192]⟩
abbrev S384 : Shape := ⟨1, ![384]⟩
abbrev S1x384 : Shape := ⟨2, ![1, 384]⟩
abbrev S8192x1 : Shape := ⟨2, ![8192, 1]⟩
abbrev S8192x384 : Shape := ⟨2, ![8192, 384]⟩
abbrev S128 : Shape := ⟨1, ![128]⟩
abbrev S1x128 : Shape := ⟨2, ![1, 128]⟩
abbrev S8192x128 : Shape := ⟨2, ![8192, 128]⟩
abbrev S1x8192 : Shape := ⟨2, ![1, 8192]⟩
abbrev S64x1024 : Shape := ⟨2, ![64, 1024]⟩
abbrev S1024x384 : Shape := ⟨2, ![1024, 384]⟩
abbrev S1024x128 : Shape := ⟨2, ![1024, 128]⟩
abbrev S1024x1 : Shape := ⟨2, ![1024, 1]⟩
abbrev S1x1024 : Shape := ⟨2, ![1, 1024]⟩
abbrev S8x128 : Shape := ⟨2, ![8, 128]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 250
  | .vmem => 18
  | .smem => 0
  | _ => 0

abbrev hbmTy0_0 (i : Nat) : BufTy := match i % 128 with
  | 0 => ⟨S50000x128, .f32⟩
  | 1 => ⟨S2x800000, .i32⟩
  | 2 => ⟨S8192, .i32⟩
  | 3 => ⟨S8192, .i32⟩
  | 4 => ⟨S128x64, .f32⟩
  | 5 => ⟨S64, .f32⟩
  | 6 => ⟨S192x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x1, .f32⟩
  | 45 => ⟨S50000x128, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x1, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S_, .f32⟩
  | 70 => ⟨S50000x128, .f32⟩
  | 71 => ⟨S50000x128, .f32⟩
  | 72 => ⟨S50000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x1, .f32⟩
  | 80 => ⟨S50000x128, .f32⟩
  | 81 => ⟨S50000x128, .f32⟩
  | 82 => ⟨S_, .f32⟩
  | 83 => ⟨S50000x128, .f32⟩
  | 84 => ⟨S50000x128, .i1⟩
  | 85 => ⟨S_, .f32⟩
  | 86 => ⟨S_, .f32⟩
  | 87 => ⟨S50000x128, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S50000x384, .f32⟩
  | 96 => ⟨S50000x64, .f32⟩
  | 97 => ⟨S1x64, .f32⟩
  | 98 => ⟨S50000x64, .f32⟩
  | 99 => ⟨S50000x64, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x1, .f32⟩
  | 114 => ⟨S50000x64, .f32⟩
  | 115 => ⟨S50000x64, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S800000x64, .f32⟩
  | 127 => ⟨S_, .f32⟩
  | _ => ⟨S50000x128, .f32⟩

abbrev hbmTy0_1 (i : Nat) : BufTy := match i % 128 with
  | 0 => ⟨S50000x64, .f32⟩
  | 1 => ⟨S800000x1, .i32⟩
  | 2 => ⟨S50000x64, .f32⟩
  | 3 => ⟨S50000x1, .f32⟩
  | 4 => ⟨S50000x64, .f32⟩
  | 5 => ⟨S50000x64, .f32⟩
  | 6 => ⟨S_, .f32⟩
  | 7 => ⟨S50000x64, .f32⟩
  | 8 => ⟨S50000x64, .i1⟩
  | 9 => ⟨S_, .f32⟩
  | 10 => ⟨S_, .f32⟩
  | 11 => ⟨S50000x64, .f32⟩
  | 12 => ⟨S50000x64, .f32⟩
  | 13 => ⟨S50000x64, .f32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S50000x1, .f32⟩
  | 21 => ⟨S50000x64, .f32⟩
  | 22 => ⟨S50000x64, .f32⟩
  | 23 => ⟨S_, .f32⟩
  | 24 => ⟨S50000x64, .f32⟩
  | 25 => ⟨S50000x64, .i1⟩
  | 26 => ⟨S_, .f32⟩
  | 27 => ⟨S_, .f32⟩
  | 28 => ⟨S50000x64, .f32⟩
  | 29 => ⟨S50000x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S50000x64, .f32⟩
  | 36 => ⟨S50000x192, .f32⟩
  | 37 => ⟨S50000x64, .f32⟩
  | 38 => ⟨S1x64, .f32⟩
  | 39 => ⟨S50000x64, .f32⟩
  | 40 => ⟨S50000x64, .f32⟩
  | 41 => ⟨S_, .i32⟩
  | 42 => ⟨S_, .f32⟩
  | 43 => ⟨S50000x128, .f32⟩
  | 44 => ⟨S_, .f32⟩
  | 45 => ⟨S384, .f32⟩
  | 46 => ⟨S1x384, .f32⟩
  | 47 => ⟨S_, .f32⟩
  | 48 => ⟨S1x384, .f32⟩
  | 49 => ⟨S1x384, .f32⟩
  | 50 => ⟨S50000x384, .f32⟩
  | 51 => ⟨S50000x384, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x384, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x384, .f32⟩
  | 70 => ⟨S8192x384, .f32⟩
  | 71 => ⟨S_, .f32⟩
  | 72 => ⟨S8192, .f32⟩
  | 73 => ⟨S8192, .f32⟩
  | 74 => ⟨S8192x384, .f32⟩
  | 75 => ⟨S_, .f32⟩
  | 76 => ⟨S8192, .f32⟩
  | 77 => ⟨S8192, .f32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x128, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x128, .f32⟩
  | 104 => ⟨S8192x128, .f32⟩
  | 105 => ⟨S_, .f32⟩
  | 106 => ⟨S8192, .f32⟩
  | 107 => ⟨S8192, .f32⟩
  | 108 => ⟨S8192x128, .f32⟩
  | 109 => ⟨S_, .f32⟩
  | 110 => ⟨S8192, .f32⟩
  | 111 => ⟨S8192, .f32⟩
  | 112 => ⟨S8192x1, .f32⟩
  | 113 => ⟨S1x8192, .f32⟩
  | 114 => ⟨S8192x1, .f32⟩
  | 115 => ⟨S1x8192, .f32⟩
  | 116 => ⟨S64x1024, .f32⟩
  | 117 => ⟨S_, .f32⟩
  | 118 => ⟨S_, .f32⟩
  | 119 => ⟨S_, .f32⟩
  | 120 => ⟨S_, .f32⟩
  | 121 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S8x128, .f32⟩
  | .local _ .vmem, ⟨17, _⟩ => ⟨S8x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_15 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_19 : Ref sig .tc := ⟨.hbm, 117, rfl⟩
abbrev main_v82 : Ref sig .tc := ⟨.hbm, 118, rfl⟩
abbrev main_v83 : Ref sig .tc := ⟨.hbm, 119, rfl⟩
abbrev main_c_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_cst_23 : Ref sig .tc := ⟨.hbm, 137, rfl⟩
abbrev main_call3_v0 : Ref sig .tc := ⟨.hbm, 138, rfl⟩
abbrev main_call3_v1 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_25 : Ref sig .tc := ⟨.hbm, 151, rfl⟩
abbrev main_v108 : Ref sig .tc := ⟨.hbm, 152, rfl⟩
abbrev main_v109 : Ref sig .tc := ⟨.hbm, 153, rfl⟩
abbrev main_cst_26 : Ref sig .tc := ⟨.hbm, 154, rfl⟩
abbrev main_call4_v0 : Ref sig .tc := ⟨.hbm, 155, rfl⟩
abbrev main_call4_v1 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_27 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_28 : Ref sig .tc := ⟨.hbm, 169, rfl⟩
abbrev main_call5_v0 : Ref sig .tc := ⟨.hbm, 170, rfl⟩
abbrev main_v121 : Ref sig .tc := ⟨.hbm, 171, rfl⟩
abbrev main_cst_29 : Ref sig .tc := ⟨.hbm, 172, rfl⟩
abbrev main_v122 : Ref sig .tc := ⟨.hbm, 173, rfl⟩
abbrev main_v123 : Ref sig .tc := ⟨.hbm, 174, rfl⟩
abbrev main_cst_30 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_c_31 : Ref sig .tc := ⟨.hbm, 180, rfl⟩
abbrev main_v128 : Ref sig .tc := ⟨.hbm, 181, rfl⟩
abbrev main_v129 : Ref sig .tc := ⟨.hbm, 182, rfl⟩
abbrev main_c_32 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_c_33 : Ref sig .tc := ⟨.hbm, 189, rfl⟩
abbrev main_v135 : Ref sig .tc := ⟨.hbm, 190, rfl⟩
abbrev main_v136 : Ref sig .tc := ⟨.hbm, 191, rfl⟩
abbrev main_c_34 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_35 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_36 : Ref sig .tc := ⟨.hbm, 203, rfl⟩
abbrev main_v146 : Ref sig .tc := ⟨.hbm, 204, rfl⟩
abbrev main_v147 : Ref sig .tc := ⟨.hbm, 205, rfl⟩
abbrev main_cst_37 : Ref sig .tc := ⟨.hbm, 206, rfl⟩
abbrev main_v148 : Ref sig .tc := ⟨.hbm, 207, rfl⟩
abbrev main_v149 : Ref sig .tc := ⟨.hbm, 208, rfl⟩
abbrev main_cst_38 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_c_39 : Ref sig .tc := ⟨.hbm, 214, rfl⟩
abbrev main_v154 : Ref sig .tc := ⟨.hbm, 215, rfl⟩
abbrev main_v155 : Ref sig .tc := ⟨.hbm, 216, rfl⟩
abbrev main_c_40 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_c_41 : Ref sig .tc := ⟨.hbm, 223, rfl⟩
abbrev main_v161 : Ref sig .tc := ⟨.hbm, 224, rfl⟩
abbrev main_v162 : Ref sig .tc := ⟨.hbm, 225, rfl⟩
abbrev main_c_42 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_43 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_44 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_cst_45 : Ref sig .tc := ⟨.hbm, 245, rfl⟩
abbrev main_v179 : Ref sig .tc := ⟨.hbm, 246, rfl⟩
abbrev main_cst_46 : Ref sig .tc := ⟨.hbm, 247, rfl⟩
abbrev main_v180 : Ref sig .tc := ⟨.hbm, 248, rfl⟩
abbrev main_v181 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  pads_S50000x64_S50000x128_000_0640 : S50000x64.Pads (![0, 0] : Fin 2 → Nat) ![0, 64] ![0, 0] S50000x128
  h_S_ : 0 < S_.numel
  reducesTo_S50000x384_S384_d0 : S50000x384.ReducesTo [0] S384
  bcast_S384_S1x384_1 : S384.BroadcastsInDim S1x384 (![1] : Fin 1 → Fin S1x384.rank)
  bcast_S_S1x384 : S_.BroadcastsInDim S1x384 (![] : Fin 0 → Fin S1x384.rank)
  bcast_S1x384_S50000x384_0_1 : S1x384.BroadcastsInDim S50000x384 (![0, 1] : Fin 2 → Fin S50000x384.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S8192x384_S8192_d1 : S8192x384.ReducesTo [1] S8192
  reducesTo_S50000x128_S128_d0 : S50000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  reducesTo_S8192x128_S8192_d1 : S8192x128.ReducesTo [1] S8192
  bcast_S8192_S1x8192_1 : S8192.BroadcastsInDim S1x8192 (![1] : Fin 1 → Fin S1x8192.rank)
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S64x1024_S_d0_1 : S64x1024.ReducesTo [0, 1] S_
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  gather_S50000x384_S8192x1_S8192x384_1_0_n_n_0_1_1384_wf : GatherDims.WF S50000x384 S8192x1 S8192x384 [1] [0] [] [0] [] 1 ![1, 384]
  gather_S50000x128_S8192x1_S8192x128_1_0_n_n_0_1_1128_wf : GatherDims.WF S50000x128 S8192x1 S8192x128 [1] [0] [] [0] [] 1 ![1, 128]
  dot_S1024x384_S1024x384_S1024x1024_1_1_0_0_n_n_wf : DotDims.WF S1024x384 S1024x384 S1024x1024 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S8192x384.size a
  hwx0_0 : ∀ i : grid0.Coords, EltTy.bits .f32 = 32 ∨ (Rect.block (s := S8192x384) S1024x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S8192x384.size a
  hwx0_1 : ∀ i : grid0.Coords, EltTy.bits .f32 = 32 ∨ (Rect.block (s := S8192x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .f32 = 32 ∨ (Rect.block (s := S1x8192) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S64x1024.size a
  hwx0_8 : ∀ i : grid0.Coords, EltTy.bits .f32 = 32 ∨ (Rect.block (s := S64x1024) S8x128.size (cc0_transform_8 i) (hinb0_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def gather_S50000x384_S8192x1_S8192x384_1_0_n_n_0_1_1384 : GatherDims S50000x384 S8192x1 S8192x384 where
  offsetDims := [1]
  collapsedSliceDims := [0]
  operandBatchingDims := []
  startIndicesBatchingDims := []
  startIndexMap := [0]
  indexVectorDim := 1
  sliceSizes := ![1, 384]
  wf := gather_S50000x384_S8192x1_S8192x384_1_0_n_n_0_1_1384_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S1024x384_S1024x384_S1024x1024_1_1_0_0_n_n : DotDims S1024x384 S1024x384 S1024x1024 where
  lhsContracting := [1]
  rhsContracting := [1]
  lhsNonContracting := [0]
  rhsNonContracting := [0]
  lhsBatch := []
  rhsBatch := []
  wf := dot_S1024x384_S1024x384_S1024x1024_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v134) S1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v141) S1024x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v160) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v167) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v174) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v175) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v176) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v177) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v178) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S8192 : Shape := ⟨1, ![8192]⟩
abbrev S128x64 : Shape := ⟨2, ![128, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x384 : Shape := ⟨2, ![50000, 384]⟩
abbrev S384 : Shape := ⟨1, ![384]⟩
abbrev S1x384 : Shape := ⟨2, ![1, 384]⟩
abbrev S8192x1 : Shape := ⟨2, ![8192, 1]⟩
abbrev S8192x384 : Shape := ⟨2, ![8192, 384]⟩
abbrev S384x8192 : Shape := ⟨2, ![384, 8192]⟩
abbrev S8192x8192 : Shape := ⟨2, ![8192, 8192]⟩
abbrev S1x8192 : Shape := ⟨2, ![1, 8192]⟩
abbrev S50000x64 : Shape := ⟨2, ![50000, 64]⟩
abbrev S1x64 : Shape := ⟨2, ![1, 64]⟩
abbrev S800000x64 : Shape := ⟨2, ![800000, 64]⟩
abbrev S50000x192 : Shape := ⟨2, ![50000, 192]⟩
abbrev S8192x64 : Shape := ⟨2, ![8192, 64]⟩
abbrev S64x8192 : Shape := ⟨2, ![64, 8192]⟩

abbrev nBuf : Space → Nat
  | .hbm => 312
  | .vmem => 0
  | .smem => 0
  | _ => 0

abbrev hbmTy0_0 (i : Nat) : BufTy := match i % 128 with
  | 0 => ⟨S50000x128, .f32⟩
  | 1 => ⟨S2x800000, .i32⟩
  | 2 => ⟨S8192, .i32⟩
  | 3 => ⟨S8192, .i32⟩
  | 4 => ⟨S128x64, .f32⟩
  | 5 => ⟨S64, .f32⟩
  | 6 => ⟨S192x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x1, .f32⟩
  | 45 => ⟨S50000x128, .f32⟩
  | 46 => ⟨S50000x128, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x1, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S_, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000x1, .f32⟩
  | 89 => ⟨S50000x128, .f32⟩
  | 90 => ⟨S50000x128, .f32⟩
  | 91 => ⟨S_, .f32⟩
  | 92 => ⟨S50000x128, .f32⟩
  | 93 => ⟨S50000x128, .i1⟩
  | 94 => ⟨S_, .f32⟩
  | 95 => ⟨S_, .f32⟩
  | 96 => ⟨S50000x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S50000x384, .f32⟩
  | 105 => ⟨S_, .f32⟩
  | 106 => ⟨S384, .f32⟩
  | 107 => ⟨S1x384, .f32⟩
  | 108 => ⟨S_, .f32⟩
  | 109 => ⟨S1x384, .f32⟩
  | 110 => ⟨S1x384, .f32⟩
  | 111 => ⟨S50000x384, .f32⟩
  | 112 => ⟨S50000x384, .f32⟩
  | 113 => ⟨S50000x384, .f32⟩
  | 114 => ⟨S_, .f32⟩
  | 115 => ⟨S50000, .f32⟩
  | 116 => ⟨S50000, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x384, .f32⟩
  | 126 => ⟨S_, .i32⟩
  | 127 => ⟨S8192, .i32⟩
  | _ => ⟨S50000x128, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x384, .f32⟩
  | 7 => ⟨S384x8192, .f32⟩
  | 8 => ⟨S8192x8192, .f32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .f32⟩
  | 18 => ⟨S8192x1, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192, .f32⟩
  | 28 => ⟨S1x8192, .f32⟩
  | 29 => ⟨S8192x8192, .f32⟩
  | 30 => ⟨S8192x8192, .f32⟩
  | 31 => ⟨S8192x8192, .f32⟩
  | 32 => ⟨S_, .f32⟩
  | 33 => ⟨S8192x8192, .f32⟩
  | 34 => ⟨S8192x8192, .f32⟩
  | 35 => ⟨S8192x8192, .f32⟩
  | 36 => ⟨S50000x64, .f32⟩
  | 37 => ⟨S1x64, .f32⟩
  | 38 => ⟨S50000x64, .f32⟩
  | 39 => ⟨S50000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S50000x1, .f32⟩
  | 54 => ⟨S50000x64, .f32⟩
  | 55 => ⟨S50000x64, .f32⟩
  | 56 => ⟨S50000x64, .f32⟩
  | 57 => ⟨S50000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S50000x1, .f32⟩
  | 72 => ⟨S50000x64, .f32⟩
  | 73 => ⟨S50000x64, .f32⟩
  | 74 => ⟨S_, .f32⟩
  | 75 => ⟨S50000x64, .f32⟩
  | 76 => ⟨S50000x64, .i1⟩
  | 77 => ⟨S_, .f32⟩
  | 78 => ⟨S_, .f32⟩
  | 79 => ⟨S50000x64, .f32⟩
  | 80 => ⟨S50000x64, .f32⟩
  | 81 => ⟨S50000x64, .f32⟩
  | 82 => ⟨S50000x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S50000x1, .f32⟩
  | 98 => ⟨S50000x64, .f32⟩
  | 99 => ⟨S50000x64, .f32⟩
  | 100 => ⟨S_, .f32⟩
  | 101 => ⟨S50000x64, .f32⟩
  | 102 => ⟨S50000x64, .i1⟩
  | 103 => ⟨S_, .f32⟩
  | 104 => ⟨S_, .f32⟩
  | 105 => ⟨S50000x64, .f32⟩
  | 106 => ⟨S50000x64, .f32⟩
  | 107 => ⟨S50000x64, .f32⟩
  | 108 => ⟨S50000x64, .f32⟩
  | 109 => ⟨S_, .f32⟩
  | 110 => ⟨S50000x64, .f32⟩
  | 111 => ⟨S50000x64, .f32⟩
  | 112 => ⟨S50000x64, .f32⟩
  | 113 => ⟨S50000x192, .f32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S64, .f32⟩
  | 120 => ⟨S1x64, .f32⟩
  | 121 => ⟨S_, .f32⟩
  | 122 => ⟨S1x64, .f32⟩
  | 123 => ⟨S1x64, .f32⟩
  | 124 => ⟨S50000x64, .f32⟩
  | 125 => ⟨S50000x64, .f32⟩
  | 126 => ⟨S50000x64, .f32⟩
  | 127 => ⟨S_, .f32⟩
  | _ => ⟨S50000x128, .f32⟩

abbrev hbmTy0_2 (i : Nat) : BufTy := match i % 128 with
  | 0 => ⟨S50000, .f32⟩
  | 1 => ⟨S50000, .f32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x64, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x64, .f32⟩
  | 20 => ⟨S64x8192, .f32⟩
  | 21 => ⟨S8192x8192, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192, .f32⟩
  | 31 => ⟨S8192x1, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .f32⟩
  | 41 => ⟨S1x8192, .f32⟩
  | 42 => ⟨S8192x8192, .f32⟩
  | 43 => ⟨S8192x8192, .f32⟩
  | 44 => ⟨S8192x8192, .f32⟩
  | 45 => ⟨S_, .f32⟩
  | 46 => ⟨S8192x8192, .f32⟩
  | 47 => ⟨S8192x8192, .f32⟩
  | 48 => ⟨S8192x8192, .f32⟩
  | 49 => ⟨S8192x8192, .f32⟩
  | 50 => ⟨S8192x8192, .f32⟩
  | 51 => ⟨S_, .f32⟩
  | 52 => ⟨S_, .f32⟩
  | 53 => ⟨S_, .f32⟩
  | 54 => ⟨S_, .f32⟩
  | 55 => ⟨S_, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_cst_16 : Ref sig .tc := ⟨.hbm, 94, rfl⟩
abbrev main_call2_v0 : Ref sig .tc := ⟨.hbm, 95, rfl⟩
abbrev main_call2_v1 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_17 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call3_v0 : Ref sig .tc := ⟨.hbm, 113, rfl⟩
abbrev main_call3_cst : Ref sig .tc := ⟨.hbm, 114, rfl⟩
abbrev main_call3_v1 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_v79 : Ref sig .tc := ⟨.hbm, 119, rfl⟩
abbrev main_c_21 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_22 : Ref sig .tc := ⟨.hbm, 126, rfl⟩
abbrev main_v85 : Ref sig .tc := ⟨.hbm, 127, rfl⟩
abbrev main_v86 : Ref sig .tc := ⟨.hbm, 128, rfl⟩
abbrev main_c_23 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_24 : Ref sig .tc := ⟨.hbm, 137, rfl⟩
abbrev main_v94 : Ref sig .tc := ⟨.hbm, 138, rfl⟩
abbrev main_v95 : Ref sig .tc := ⟨.hbm, 139, rfl⟩
abbrev main_c_25 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_26 : Ref sig .tc := ⟨.hbm, 147, rfl⟩
abbrev main_v102 : Ref sig .tc := ⟨.hbm, 148, rfl⟩
abbrev main_v103 : Ref sig .tc := ⟨.hbm, 149, rfl⟩
abbrev main_c_27 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_28 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_29 : Ref sig .tc := ⟨.hbm, 168, rfl⟩
abbrev main_v120 : Ref sig .tc := ⟨.hbm, 169, rfl⟩
abbrev main_v121 : Ref sig .tc := ⟨.hbm, 170, rfl⟩
abbrev main_c_30 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_31 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_32 : Ref sig .tc := ⟨.hbm, 186, rfl⟩
abbrev main_v135 : Ref sig .tc := ⟨.hbm, 187, rfl⟩
abbrev main_v136 : Ref sig .tc := ⟨.hbm, 188, rfl⟩
abbrev main_c_33 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_34 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_35 : Ref sig .tc := ⟨.hbm, 202, rfl⟩
abbrev main_v148 : Ref sig .tc := ⟨.hbm, 203, rfl⟩
abbrev main_v149 : Ref sig .tc := ⟨.hbm, 204, rfl⟩
abbrev main_cst_36 : Ref sig .tc := ⟨.hbm, 205, rfl⟩
abbrev main_call4_v0 : Ref sig .tc := ⟨.hbm, 206, rfl⟩
abbrev main_call4_v1 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_c_37 : Ref sig .tc := ⟨.hbm, 212, rfl⟩
abbrev main_v154 : Ref sig .tc := ⟨.hbm, 213, rfl⟩
abbrev main_v155 : Ref sig .tc := ⟨.hbm, 214, rfl⟩
abbrev main_c_38 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_39 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_40 : Ref sig .tc := ⟨.hbm, 228, rfl⟩
abbrev main_v167 : Ref sig .tc := ⟨.hbm, 229, rfl⟩
abbrev main_v168 : Ref sig .tc := ⟨.hbm, 230, rfl⟩
abbrev main_cst_41 : Ref sig .tc := ⟨.hbm, 231, rfl⟩
abbrev main_call5_v0 : Ref sig .tc := ⟨.hbm, 232, rfl⟩
abbrev main_call5_v1 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_42 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_cst_43 : Ref sig .tc := ⟨.hbm, 246, rfl⟩
abbrev main_v180 : Ref sig .tc := ⟨.hbm, 247, rfl⟩
abbrev main_v181 : Ref sig .tc := ⟨.hbm, 248, rfl⟩
abbrev main_cst_44 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_call6_v0 : Ref sig .tc := ⟨.hbm, 254, rfl⟩
abbrev main_call6_cst : Ref sig .tc := ⟨.hbm, 255, rfl⟩
abbrev main_call6_v1 : Ref sig .tc := ⟨.hbm, 256, rfl⟩
abbrev main_v186 : Ref sig .tc := ⟨.hbm, 257, rfl⟩
abbrev main_c_45 : Ref sig .tc := ⟨.hbm, 258, rfl⟩
abbrev main_v187 : Ref sig .tc := ⟨.hbm, 259, rfl⟩
abbrev main_v188 : Ref sig .tc := ⟨.hbm, 260, rfl⟩
abbrev main_c_46 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_c_47 : Ref sig .tc := ⟨.hbm, 267, rfl⟩
abbrev main_v194 : Ref sig .tc := ⟨.hbm, 268, rfl⟩
abbrev main_v195 : Ref sig .tc := ⟨.hbm, 269, rfl⟩
abbrev main_c_48 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_c_49 : Ref sig .tc := ⟨.hbm, 278, rfl⟩
abbrev main_v203 : Ref sig .tc := ⟨.hbm, 279, rfl⟩
abbrev main_v204 : Ref sig .tc := ⟨.hbm, 280, rfl⟩
abbrev main_c_50 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_c_51 : Ref sig .tc := ⟨.hbm, 288, rfl⟩
abbrev main_v211 : Ref sig .tc := ⟨.hbm, 289, rfl⟩
abbrev main_v212 : Ref sig .tc := ⟨.hbm, 290, rfl⟩
abbrev main_c_52 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_cst_53 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_cst_54 : Ref sig .tc := ⟨.hbm, 307, rfl⟩
abbrev main_v227 : Ref sig .tc := ⟨.hbm, 308, rfl⟩
abbrev main_cst_55 : Ref sig .tc := ⟨.hbm, 309, rfl⟩
abbrev main_v228 : Ref sig .tc := ⟨.hbm, 310, rfl⟩
abbrev main_v229 : Ref sig .tc := ⟨.hbm, 311, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  reducesTo_S50000x384_S384_d0 : S50000x384.ReducesTo [0] S384
  h_S_ : 0 < S_.numel
  bcast_S384_S1x384_1 : S384.BroadcastsInDim S1x384 (![1] : Fin 1 → Fin S1x384.rank)
  bcast_S_S1x384 : S_.BroadcastsInDim S1x384 (![] : Fin 0 → Fin S1x384.rank)
  bcast_S1x384_S50000x384_0_1 : S1x384.BroadcastsInDim S50000x384 (![0, 1] : Fin 2 → Fin S50000x384.rank)
  reducesTo_S50000x384_S50000_d1 : S50000x384.ReducesTo [1] S50000
  bcast_S_S8192 : S_.BroadcastsInDim S8192 (![] : Fin 0 → Fin S8192.rank)
  bcast_S8192_S8192x1_0 : S8192.BroadcastsInDim S8192x1 (![0] : Fin 1 → Fin S8192x1.rank)
  transposes_S8192x384_S384x8192_1_0 : S8192x384.Transposes [1, 0] S384x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  reducesTo_S50000x64_S64_d0 : S50000x64.ReducesTo [0] S64
  bcast_S_S1x64 : S_.BroadcastsInDim S1x64 (![] : Fin 0 → Fin S1x64.rank)
  reducesTo_S50000x64_S50000_d1 : S50000x64.ReducesTo [1] S50000
  transposes_S8192x64_S64x8192_1_0 : S8192x64.Transposes [1, 0] S64x8192
  reducesTo_S8192x8192_S_d0_1 : S8192x8192.ReducesTo [0, 1] S_
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x384_S8192x1_S8192x384_1_0_n_n_0_1_1384_wf : GatherDims.WF S50000x384 S8192x1 S8192x384 [1] [0] [] [0] [] 1 ![1, 384]
  dot_S8192x384_S384x8192_S8192x8192_1_0_0_1_n_n_wf : DotDims.WF S8192x384 S384x8192 S8192x8192 [1] [0] [0] [1] [] []
  gather_S50000_S8192x1_S8192_n_0_n_n_0_1_1_wf : GatherDims.WF S50000 S8192x1 S8192 [] [0] [] [0] [] 1 ![1]
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  gather_S50000x64_S8192x1_S8192x64_1_0_n_n_0_1_164_wf : GatherDims.WF S50000x64 S8192x1 S8192x64 [1] [0] [] [0] [] 1 ![1, 64]
  dot_S8192x64_S64x8192_S8192x8192_1_0_0_1_n_n_wf : DotDims.WF S8192x64 S64x8192 S8192x8192 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x384_S8192x1_S8192x384_1_0_n_n_0_1_1384 : GatherDims S50000x384 S8192x1 S8192x384 where
  offsetDims := [1]
  collapsedSliceDims := [0]
  operandBatchingDims := []
  startIndicesBatchingDims := []
  startIndexMap := [0]
  indexVectorDim := 1
  sliceSizes := ![1, 384]
  wf := gather_S50000x384_S8192x1_S8192x384_1_0_n_n_0_1_1384_wf
def dot_S8192x384_S384x8192_S8192x8192_1_0_0_1_n_n : DotDims S8192x384 S384x8192 S8192x8192 where
  lhsContracting := [1]
  rhsContracting := [0]
  lhsNonContracting := [0]
  rhsNonContracting := [1]
  lhsBatch := []
  rhsBatch := []
  wf := dot_S8192x384_S384x8192_S8192x8192_1_0_0_1_n_n_wf
def gather_S50000_S8192x1_S8192_n_0_n_n_0_1_1 : GatherDims S50000 S8192x1 S8192 where
  offsetDims := []
  collapsedSliceDims := [0]
  operandBatchingDims := []
  startIndicesBatchingDims := []
  startIndexMap := [0]
  indexVectorDim := 1
  sliceSizes := ![1]
  wf := gather_S50000_S8192x1_S8192_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KBase.lean ====
/-
  The region-entry contents of the word-level kernel program and what one grid point stores.

  @main is 236 host operations (the two moment blocks, the two encoders, centring, the gathers of the
  batch rows and their norms), ONE launch on an 8 × 8 grid, and a five-operation tail (the sum of the
  launch's output, the quotient by 8192², the root). This module fixes, once, the objects every other
  module speaks of: the valuation `V0` the launch finds (the fold of the 236 operations over the launch
  memory), a window's block at a grid point (`iblk`), and the 8 × 128 tile one grid point stores
  (`out0_8`): the mask-selected sum of squared cosine differences of the point's eight input blocks.
-/
import proofs.«101945_j60000693125366_2_alg».proof.Proof.Gen.Kernel.Launch
import proofs.«101945_j60000693125366_2_alg».proof.Proof.Gen.Kernel.Skeleton
import proofs.«101945_j60000693125366_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The thirteen stretches of host operations before the launch, in order. -/
abbrev preOps : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12]

/-- Core `c`'s buffer contents when the launch is entered: the 236 host operations folded over the launch memory. -/
abbrev V0 (c : Dev nD) : Valuation τ sig (Elt F) :=
  StableHlo.after (List.flatten [hostOps0, hostOps0_1, hostOps0_2, hostOps0_3, hostOps0_4, hostOps0_5, hostOps0_6, hostOps0_7, hostOps0_8,
    hostOps0_9, hostOps0_10, hostOps0_11, hostOps0_12]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: every load and the one store take a whole staging buffer -/

abbrev rX : Rect S1024x384 := Rect.unit (s := S1024x384) ![0, 0] S1024x384.size inb_S1024x384_S1024x384_0_0
abbrev rH : Rect S1024x128 := Rect.unit (s := S1024x128) ![0, 0] S1024x128.size inb_S1024x128_S1024x128_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0
abbrev rO : Rect S8x128 := Rect.unit (s := S8x128) ![0, 0] S8x128.size inb_S8x128_S8x128_0_0

/-- The output window's staging buffer after the body, from the eight input blocks: its one store, of the
    masked tile (entry (0,0) the sum over the 1024 × 1024 pairs of squared cosine differences, zero elsewhere). -/
def out0_8 (x0 x1 : Vec F S1024x384 .f32) (x2 x3 : Vec F S1024x128 .f32) (x4 : Vec F S1024x1 .f32) (x5 : Vec F S1x1024 .f32)
    (x6 : Vec F S1024x1 .f32) (x7 : Vec F S1x1024 .f32) : Vec F S8x128 .f32 :=
  View.canon [⟨rO, k0_pay1 (k0_pay2 (View.ld x0 rX) (View.ld x1 rX)) (k0_pay3 (View.ld x2 rH) (View.ld x3 rH))
    (k0_pay4 (View.ld x4 rC)) (k0_pay5 (View.ld x5 rR)) (View.ld x6 rC) (View.ld x7 rR)⟩]

end Cert.Kernel.Frame

end
-- ==== Proof.KFrame.lean ====
/-
  The frame of the program: @main is thirteen stretches of host operations, one launch on an 8 × 8 grid,
  and a five-operation tail. The kernel body loads its eight input staging buffers whole, computes, reads
  the output staging buffer once (the value is unused) and stores the whole 8 × 128 output buffer once.

  From that: the host operations before the launch allocate nothing and touch TensorCore references only, so
  @main reduces to the launch continued by the tail; no host operation writes an argument array, so each
  ends as launched; every input staging buffer holds its window's block at every grid point (fetched there
  or not: unfetched, the block index has not moved); the body's triple, with the output buffer left at the
  one stored tile; the proof data of the pipeline; the body obligation; the run; the frame.
-/
import proofs.«101945_j60000693125366_2_alg».proof.Proof.KBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

set_option maxRecDepth 65536 in
/-- No operation of the stretch allocates. -/
theorem hostOps0_fresh : (hostOps0 : List (HloOp τ sig (Elt F))).Forall fun op => op.fresh = ∅ := by
  simp only [List.Forall]; repeat' constructor
set_option maxRecDepth 65536 in
/-- No operation of the stretch allocates. -/
theorem hostOps0_1_fresh : (hostOps0_1 : List (HloOp τ sig (Elt F))).Forall fun op => op.fresh = ∅ := by
  simp only [List.Forall]; repeat' constructor
set_option maxRecDepth 65536 in
/-- No operation of the stretch allocates. -/
theorem hostOps0_2_fresh : (hostOps0_2 : List (HloOp τ sig (Elt F))).Forall fun op => op.fresh = ∅ := by
  simp only [List.Forall]; repeat' constructor
set_option maxRecDepth 65536 in
/-- No operation of the stretch allocates. -/
theorem hostOps0_3_fresh : (hostOps0_3 : List (HloOp τ sig (Elt F))).Forall fun op => op.fresh = ∅ := by
  simp only [List.Forall]; repeat' constructor
set_option maxRecDepth 65536 in
/-- No operation of the stretch allocates. -/
theorem hostOps0_4_fresh : (hostOps0_4 : List (HloOp τ sig (Elt F))).Forall fun op => op.fresh = ∅ := by
  simp only [List.Forall]; repeat' constructor
set_option maxRecDepth 65536 in
/-- No operation of the stretch allocates. -/
theorem hostOps0_5_fresh : (hostOps0_5 : List (HloOp τ sig (Elt F))).Forall fun op => op.fresh = ∅ := by
  simp only [List.Forall]; repeat' constructor
set_option maxRecDepth 65536 in
/-- No operation of the stretch allocates. -/
theorem hostOps0_6_fresh : (hostOps0_6 : List (HloOp τ sig (Elt F))).Forall fun op => op.fresh = ∅ := by
  simp only [List.Forall]; repeat' constructor
set_option maxRecDepth 65536 in
/-- No operation of the stretch allocates. -/
theorem hostOps0_7_fresh : (hostOps0_7 : List (HloOp τ sig (Elt F))).Forall fun op => op.fresh = ∅ := by
  simp only [List.Forall]; repeat' constructor
set_option maxRecDepth 65536 in
/-- No operation of the stretch allocates. -/
theorem hostOps0_8_fresh : (hostOps0_8 : List (HloOp τ sig (Elt F))).Forall fun op => op.fresh = ∅ := by
  simp only [List.Forall]; repeat' constructor
set_option maxRecDepth 65536 in
/-- No operation of the stretch allocates. -/
theorem hostOps0_9_fresh : (hostOps0_9 : List (HloOp τ sig (Elt F))).Forall fun op => op.fresh = ∅ := by
  simp only [List.Forall]; repeat' constructor
set_option maxRecDepth 65536 in
/-- No operation of the stretch allocates. -/
theorem hostOps0_10_fresh : (hostOps0_10 : List (HloOp τ sig (Elt F))).Forall fun op => op.fresh = ∅ := by
  simp only [List.Forall]; repeat' constructor
set_option maxRecDepth 65536 in
/-- No operation of the stretch allocates. -/
theorem hostOps0_11_fresh : (hostOps0_11 : List (HloOp τ sig (Elt F))).Forall fun op => op.fresh = ∅ := by
  simp only [List.Forall]; repeat' constructor
set_option maxRecDepth 65536 in
/-- No operation of the stretch allocates. -/
theorem hostOps0_12_fresh : (hostOps0_12 : List (HloOp τ sig (Elt F))).Forall fun op => op.fresh = ∅ := by
  simp only [List.Forall]; repeat' constructor
set_option maxRecDepth 65536 in
/-- No operation of the stretch allocates. -/
theorem hostOps1_fresh : (hostOps1 : List (HloOp τ sig (Elt F))).Forall fun op => op.fresh = ∅ := by
  simp only [List.Forall]; repeat' constructor

/-- The stretches before the launch touch TensorCore references only. -/
theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩
/-- And allocate nothing. -/
theorem preOps_fresh : (preOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩

/-- @main around the launch: the host stretches before it, the launch, the tail after it; it reduces to the launch
    continued by the tail, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The tail touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (each operation writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays are written by no host operation -/

set_option maxHeartbeats 4000000 in
/-- No host operation before the launch writes `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the launch writes `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the launch writes `main_arg2`: the launch finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the launch writes `main_arg3`: the launch finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
/-- No host operation before the launch writes `main_arg4`: the launch finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
/-- No host operation before the launch writes `main_arg5`: the launch finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
/-- No host operation before the launch writes `main_arg6`: the launch finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 4000000 in
/-- No host operation before the launch writes `main_arg7`: the launch finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Input window 0's current staging buffer holds its block at every point, fetched there or not, for any proof
    data whose array is `V`'s and whose body leaves the block in place: unfetched, the block index has not moved; the
    window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: unfetched, the block index has not moved; the
    window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: unfetched, the block index has not moved; the
    window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: unfetched, the block index has not moved; the
    window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: unfetched, the block index has not moved; the
    window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place: unfetched, the block index has not moved; the
    window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place: unfetched, the block index has not moved; the
    window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s and whose body leaves the block in place: unfetched, the block index has not moved; the
    window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no window stages an argument array, so the run's post gives each as the tail leaves
    it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's one store covers the output buffer -/

theorem cover0_8 (p0 : Vec F S8x128 .f32) (y : S8x128.Idx) :
    ∃ pc ∈ ([⟨rO, p0⟩] : List (View.Piece (Elt F) S8x128 .f32)), y ∈ pc.1.set :=
  View.cover_of_tiled [⟨rO, p0⟩] S8x128.size (by rfl) y

/-! ## The body's triple -/

set_option maxHeartbeats 1000000 in
/-- The kernel body on whole staging memrefs, the inputs' at contents `x0 … x7` and the output's at anything, runs to
    the continuation holding the inputs' as they were and the output's at `out0_8` of the inputs'. -/
theorem sound_kernel (c : Dev nD) (E : Set ℕ) (i : grid0.Coords) (arg2 : Memref sig .tc .vmem S1024x384 .f32) (harg2 : arg2.IsWhole) (arg3 : Memref sig .tc .vmem S1024x384 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S8x128 .f32) (harg10 : arg10.IsWhole)
    (x0 : Vec F S1024x384 .f32) (x1 : Vec F S1024x384 .f32) (x2 : Vec F S1024x128 .f32) (x3 : Vec F S1024x128 .f32) (x4 : Vec F S1024x1 .f32) (x5 : Vec F S1x1024 .f32) (x6 : Vec F S1024x1 .f32) (x7 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7)) -∗ K ⟨⟩))
      ⊢ wp frame (wpE (defs₀ (F := F)) Variants.none c none) E (cc0__fused_sim_kernel i arg2 harg2 arg3 harg3 arg4 harg4 arg5 harg5 arg6 harg6 arg7 harg7 arg8 harg8 arg9 harg9 arg10 harg10) K := by
  simp only [cc0__fused_sim_kernel_eq_skeleton]; unfold cc0__fused_sim_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The proof data of the one pipeline on core `c`: the arrays as the launch finds them; after the body at point `t`
    each input's buffer at its block and the output's at `out0_8` of the input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the contents the launch finds (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data give and every
    other unscoped buffer as the tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frame

end
-- ==== Proof.KIBase.lean ====
/-
  The region-entry contents of the idealized kernel program and what one grid point stores.

  @main is 236 host operations (the two moment blocks, the two encoders, centring, the gathers of the
  batch rows and their norms), ONE launch on an 8 × 8 grid, and a five-operation tail (the sum of the
  launch's output, the quotient by 8192², the root). This module fixes, once, the objects every other
  module speaks of: the valuation `V0` the launch finds (the fold of the 236 operations over the launch
  memory), a window's block at a grid point (`iblk`), and the 8 × 128 tile one grid point stores
  (`out0_8`): the mask-selected sum of squared cosine differences of the point's eight input blocks.
-/
import proofs.«101945_j60000693125366_2_alg».proof.Proof.Gen.KernelIdeal.Launch
import proofs.«101945_j60000693125366_2_alg».proof.Proof.Gen.KernelIdeal.Skeleton
import proofs.«101945_j60000693125366_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The thirteen stretches of host operations before the launch, in order. -/
abbrev preOps : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12]

/-- Core `c`'s buffer contents when the launch is entered: the 236 host operations folded over the launch memory. -/
abbrev V0 (c : Dev nD) : Valuation τ sig (Elt F) :=
  StableHlo.after (List.flatten [hostOps0, hostOps0_1, hostOps0_2, hostOps0_3, hostOps0_4, hostOps0_5, hostOps0_6, hostOps0_7, hostOps0_8,
    hostOps0_9, hostOps0_10, hostOps0_11, hostOps0_12]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: every load and the one store take a whole staging buffer -/

abbrev rX : Rect S1024x384 := Rect.unit (s := S1024x384) ![0, 0] S1024x384.size inb_S1024x384_S1024x384_0_0
abbrev rH : Rect S1024x128 := Rect.unit (s := S1024x128) ![0, 0] S1024x128.size inb_S1024x128_S1024x128_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0
abbrev rO : Rect S8x128 := Rect.unit (s := S8x128) ![0, 0] S8x128.size inb_S8x128_S8x128_0_0

/-- The output window's staging buffer after the body, from the eight input blocks: its one store, of the
    masked tile (entry (0,0) the sum over the 1024 × 1024 pairs of squared cosine differences, zero elsewhere). -/
def out0_8 (x0 x1 : Vec F S1024x384 .f32) (x2 x3 : Vec F S1024x128 .f32) (x4 : Vec F S1024x1 .f32) (x5 : Vec F S1x1024 .f32)
    (x6 : Vec F S1024x1 .f32) (x7 : Vec F S1x1024 .f32) : Vec F S8x128 .f32 :=
  View.canon [⟨rO, k0_pay1 (k0_pay2 (View.ld x0 rX) (View.ld x1 rX)) (k0_pay3 (View.ld x2 rH) (View.ld x3 rH))
    (k0_pay4 (View.ld x4 rC)) (k0_pay5 (View.ld x5 rR)) (View.ld x6 rC) (View.ld x7 rR)⟩]

end Cert.KernelIdeal.Frame

end
-- ==== Proof.KIFrame.lean ====
/-
  The frame of the program: @main is thirteen stretches of host operations, one launch on an 8 × 8 grid,
  and a five-operation tail. The kernel body loads its eight input staging buffers whole, computes, reads
  the output staging buffer once (the value is unused) and stores the whole 8 × 128 output buffer once.

  From that: the host operations before the launch allocate nothing and touch TensorCore references only, so
  @main reduces to the launch continued by the tail; no host operation writes an argument array, so each
  ends as launched; every input staging buffer holds its window's block at every grid point (fetched there
  or not: unfetched, the block index has not moved); the body's triple, with the output buffer left at the
  one stored tile; the proof data of the pipeline; the body obligation; the run; the frame.
-/
import proofs.«101945_j60000693125366_2_alg».proof.Proof.KIBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

set_option maxRecDepth 65536 in
/-- No operation of the stretch allocates. -/
theorem hostOps0_fresh : (hostOps0 : List (HloOp τ sig (Elt F))).Forall fun op => op.fresh = ∅ := by
  simp only [List.Forall]; repeat' constructor
set_option maxRecDepth 65536 in
/-- No operation of the stretch allocates. -/
theorem hostOps0_1_fresh : (hostOps0_1 : List (HloOp τ sig (Elt F))).Forall fun op => op.fresh = ∅ := by
  simp only [List.Forall]; repeat' constructor
set_option maxRecDepth 65536 in
/-- No operation of the stretch allocates. -/
theorem hostOps0_2_fresh : (hostOps0_2 : List (HloOp τ sig (Elt F))).Forall fun op => op.fresh = ∅ := by
  simp only [List.Forall]; repeat' constructor
set_option maxRecDepth 65536 in
/-- No operation of the stretch allocates. -/
theorem hostOps0_3_fresh : (hostOps0_3 : List (HloOp τ sig (Elt F))).Forall fun op => op.fresh = ∅ := by
  simp only [List.Forall]; repeat' constructor
set_option maxRecDepth 65536 in
/-- No operation of the stretch allocates. -/
theorem hostOps0_4_fresh : (hostOps0_4 : List (HloOp τ sig (Elt F))).Forall fun op => op.fresh = ∅ := by
  simp only [List.Forall]; repeat' constructor
set_option maxRecDepth 65536 in
/-- No operation of the stretch allocates. -/
theorem hostOps0_5_fresh : (hostOps0_5 : List (HloOp τ sig (Elt F))).Forall fun op => op.fresh = ∅ := by
  simp only [List.Forall]; repeat' constructor
set_option maxRecDepth 65536 in
/-- No operation of the stretch allocates. -/
theorem hostOps0_6_fresh : (hostOps0_6 : List (HloOp τ sig (Elt F))).Forall fun op => op.fresh = ∅ := by
  simp only [List.Forall]; repeat' constructor
set_option maxRecDepth 65536 in
/-- No operation of the stretch allocates. -/
theorem hostOps0_7_fresh : (hostOps0_7 : List (HloOp τ sig (Elt F))).Forall fun op => op.fresh = ∅ := by
  simp only [List.Forall]; repeat' constructor
set_option maxRecDepth 65536 in
/-- No operation of the stretch allocates. -/
theorem hostOps0_8_fresh : (hostOps0_8 : List (HloOp τ sig (Elt F))).Forall fun op => op.fresh = ∅ := by
  simp only [List.Forall]; repeat' constructor
set_option maxRecDepth 65536 in
/-- No operation of the stretch allocates. -/
theorem hostOps0_9_fresh : (hostOps0_9 : List (HloOp τ sig (Elt F))).Forall fun op => op.fresh = ∅ := by
  simp only [List.Forall]; repeat' constructor
set_option maxRecDepth 65536 in
/-- No operation of the stretch allocates. -/
theorem hostOps0_10_fresh : (hostOps0_10 : List (HloOp τ sig (Elt F))).Forall fun op => op.fresh = ∅ := by
  simp only [List.Forall]; repeat' constructor
set_option maxRecDepth 65536 in
/-- No operation of the stretch allocates. -/
theorem hostOps0_11_fresh : (hostOps0_11 : List (HloOp τ sig (Elt F))).Forall fun op => op.fresh = ∅ := by
  simp only [List.Forall]; repeat' constructor
set_option maxRecDepth 65536 in
/-- No operation of the stretch allocates. -/
theorem hostOps0_12_fresh : (hostOps0_12 : List (HloOp τ sig (Elt F))).Forall fun op => op.fresh = ∅ := by
  simp only [List.Forall]; repeat' constructor
set_option maxRecDepth 65536 in
/-- No operation of the stretch allocates. -/
theorem hostOps1_fresh : (hostOps1 : List (HloOp τ sig (Elt F))).Forall fun op => op.fresh = ∅ := by
  simp only [List.Forall]; repeat' constructor

/-- The stretches before the launch touch TensorCore references only. -/
theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩
/-- And allocate nothing. -/
theorem preOps_fresh : (preOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩

/-- @main around the launch: the host stretches before it, the launch, the tail after it; it reduces to the launch
    continued by the tail, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The tail touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (each operation writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays are written by no host operation -/

set_option maxHeartbeats 4000000 in
/-- No host operation before the launch writes `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the launch writes `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the launch writes `main_arg2`: the launch finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the launch writes `main_arg3`: the launch finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
/-- No host operation before the launch writes `main_arg4`: the launch finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
/-- No host operation before the launch writes `main_arg5`: the launch finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
/-- No host operation before the launch writes `main_arg6`: the launch finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 4000000 in
/-- No host operation before the launch writes `main_arg7`: the launch finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the launch writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Input window 0's current staging buffer holds its block at every point, fetched there or not, for any proof
    data whose array is `V`'s and whose body leaves the block in place: unfetched, the block index has not moved; the
    window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: unfetched, the block index has not moved; the
    window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: unfetched, the block index has not moved; the
    window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: unfetched, the block index has not moved; the
    window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: unfetched, the block index has not moved; the
    window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place: unfetched, the block index has not moved; the
    window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place: unfetched, the block index has not moved; the
    window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s and whose body leaves the block in place: unfetched, the block index has not moved; the
    window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no window stages an argument array, so the run's post gives each as the tail leaves
    it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's one store covers the output buffer -/

theorem cover0_8 (p0 : Vec F S8x128 .f32) (y : S8x128.Idx) :
    ∃ pc ∈ ([⟨rO, p0⟩] : List (View.Piece (Elt F) S8x128 .f32)), y ∈ pc.1.set :=
  View.cover_of_tiled [⟨rO, p0⟩] S8x128.size (by rfl) y

/-! ## The body's triple -/

set_option maxHeartbeats 1000000 in
/-- The kernel body on whole staging memrefs, the inputs' at contents `x0 … x7` and the output's at anything, runs to
    the continuation holding the inputs' as they were and the output's at `out0_8` of the inputs'. -/
theorem sound_kernel (c : Dev nD) (E : Set ℕ) (i : grid0.Coords) (arg2 : Memref sig .tc .vmem S1024x384 .f32) (harg2 : arg2.IsWhole) (arg3 : Memref sig .tc .vmem S1024x384 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S8x128 .f32) (harg10 : arg10.IsWhole)
    (x0 : Vec F S1024x384 .f32) (x1 : Vec F S1024x384 .f32) (x2 : Vec F S1024x128 .f32) (x3 : Vec F S1024x128 .f32) (x4 : Vec F S1024x1 .f32) (x5 : Vec F S1x1024 .f32) (x6 : Vec F S1024x1 .f32) (x7 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7)) -∗ K ⟨⟩))
      ⊢ wp frame (wpE (defs₀ (F := F)) Variants.none c none) E (cc0__fused_sim_kernel i arg2 harg2 arg3 harg3 arg4 harg4 arg5 harg5 arg6 harg6 arg7 harg7 arg8 harg8 arg9 harg9 arg10 harg10) K := by
  simp only [cc0__fused_sim_kernel_eq_skeleton]; unfold cc0__fused_sim_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The proof data of the one pipeline on core `c`: the arrays as the launch finds them; after the body at point `t`
    each input's buffer at its block and the output's at `out0_8` of the input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the contents the launch finds (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data give and every
    other unscoped buffer as the tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frame

end
-- ==== Proof.Spec.lean ====
/-
  The mathematics both programs compute, over plain functions into the extended reals.

  For two families of row vectors (the 384 moment features, and the encoder's embedding), each centred
  over all nodes and gathered at the batch's source rows `A` and target rows `B`, with the rows'
  Euclidean norms `nA`, `nB`: entry (a, b) of a cosine matrix is the dot product of row a of `A` with
  row b of `B` over `nA a * nB b + eps`. The loss is the root of the mean, over all pairs (a, b), of the
  squared difference of the embedding's cosine and the features' cosine.
-/
import Idealize.ShloMosaic.PureOps.Ideal
import Mathlib.Algebra.BigOperators.Fin

noncomputable section

namespace Cert.SimSpec

open Idealize.ShloMosaic
open scoped BigOperators

/-- The float word of the norm's guard (1e-8 rounded to f32) read as an extended real; never evaluated. -/
def eps : EReal := Ideal.ofBits .f32 0x322BCC77#32

/-- The float word of 8192² = 2²⁶ read as an extended real; never evaluated. -/
def cnt : EReal := Ideal.ofBits .f32 0x4C800000#32

/-- One cosine entry: row `a` of `A` against row `b` of `B`, over the product of their norms plus `eps`. -/
def cosv {n K : ℕ} (A B : Fin n → Fin K → EReal) (nA nB : Fin n → EReal) (a b : Fin n) : EReal :=
  Ideal.div (∑ k : Fin K, A a k * B b k) (nA a * nB b + eps)

/-- The squared difference of the embedding's cosine and the features' cosine at the pair (a, b). -/
def sqd {n KX KH : ℕ} (AX BX : Fin n → Fin KX → EReal) (nAX nBX : Fin n → EReal)
    (AH BH : Fin n → Fin KH → EReal) (nAH nBH : Fin n → EReal) (a b : Fin n) : EReal :=
  (cosv AH BH nAH nBH a b - cosv AX BX nAX nBX a b) * (cosv AH BH nAH nBH a b - cosv AX BX nAX nBX a b)

/-- The squared differences summed over all pairs. -/
def total {n KX KH : ℕ} (AX BX : Fin n → Fin KX → EReal) (nAX nBX : Fin n → EReal)
    (AH BH : Fin n → Fin KH → EReal) (nAH nBH : Fin n → EReal) : EReal :=
  ∑ a : Fin n, ∑ b : Fin n, sqd AX BX nAX nBX AH BH nAH nBH a b

/-- The loss from the total: the root of the total over the number of pairs. -/
def lossOf (t : EReal) : EReal := Ideal.sqrt (Ideal.div t cnt)

end Cert.SimSpec

end
-- ==== Proof.LibReal.lean ====
/-
  The real-number layer under the extended reals.

  An extended real is REAL when it is the image of a real number (neither infinity).  Sums, products, differences,
  maxima, quotients by a nonzero real and reciprocal square roots of positive reals of real values are real; the three
  float words the programs spell denote real numbers.  On real values the extended-real arithmetic is the arithmetic
  of the reals, so the textbook identity

      (1/N) ∑ (z r - m)² = (1/N) ∑ (z r)² - m²,      m = (1/N) ∑ z r,   N = the number of terms,

  holds for extended reals z r that are all real (it fails at the infinities, where a difference may be junk), and
  its left side is the image of a nonnegative real.
-/
import Mathlib.Data.EReal.Operations
import Mathlib.Data.EReal.Inv
import Mathlib.Analysis.SpecialFunctions.Pow.Real
import Idealize.ShloMosaic.PureOps.Ideal
import Idealize.ShloMosaic.PureOps.Ideal.Laws

noncomputable section

open scoped BigOperators

namespace Cert.Lib

open Idealize.ShloMosaic

/-- An extended real that is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real value is neither infinity. -/
theorem IsReal.ne_top {x : EReal} (h : IsReal x) : x ≠ ⊤ := by
  obtain ⟨a, rfl⟩ := h; exact EReal.coe_ne_top a

theorem IsReal.ne_bot {x : EReal} (h : IsReal x) : x ≠ ⊥ := by
  obtain ⟨a, rfl⟩ := h; exact EReal.coe_ne_bot a

/-- An extended real that is neither infinity is real. -/
theorem isReal_of_ne {x : EReal} (hb : x ≠ ⊥) (ht : x ≠ ⊤) : IsReal x := by
  induction x using EReal.rec with
  | bot => exact absurd rfl hb
  | coe a => exact ⟨a, rfl⟩
  | top => exact absurd rfl ht

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real value is real. -/
theorem IsReal.neg {x : EReal} (hx : IsReal x) : IsReal (-x) := by
  obtain ⟨a, rfl⟩ := hx; exact ⟨-a, (EReal.coe_neg a).symm⟩

/-- The difference of two real values is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The maximum of two real values is real. -/
theorem IsReal.max {x y : EReal} (hx : IsReal x) (hy : IsReal y) : IsReal (max x y) := by
  rcases le_total x y with h | h
  · rw [max_eq_right h]; exact hy
  · rw [max_eq_left h]; exact hx

/-- The minimum of two real values is real. -/
theorem IsReal.min {x y : EReal} (hx : IsReal x) (hy : IsReal y) : IsReal (min x y) := by
  rcases le_total x y with h | h
  · rw [min_eq_left h]; exact hx
  · rw [min_eq_right h]; exact hy

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of real values over a whole finite type is real. -/
theorem IsReal.sum_univ {ι : Type*} [Fintype ι] (f : ι → EReal) (h : ∀ i, IsReal (f i)) :
    IsReal (∑ i, f i) := IsReal.sum _ f fun i _ => h i

/-- The quotient of the images of two reals, the divisor nonzero, is the image of the quotient. -/
theorem div_coe_coe (a : ℝ) {d : ℝ} (hd : d ≠ 0) :
    Ideal.div (a : EReal) (d : EReal) = ((a / d : ℝ) : EReal) := by
  rw [Ideal.div_coe hd, ← EReal.coe_mul, mul_one_div]

/-- The quotient of a real value by a nonzero real is real. -/
theorem IsReal.div_coe {x : EReal} (hx : IsReal x) {d : ℝ} (hd : d ≠ 0) : IsReal (Ideal.div x (d : EReal)) := by
  obtain ⟨a, rfl⟩ := hx; exact ⟨a / d, div_coe_coe a hd⟩

/-- The reciprocal square root of a positive real is the image of the reciprocal of its square root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_pos {v : ℝ} (hv : 0 < v) : IsReal (Ideal.rsqrt (v : EReal)) :=
  ⟨_, rsqrt_coe_pos hv⟩

/-- The reciprocal square root of a nonnegative real plus a positive real is real. -/
theorem isReal_rsqrt_add_pos {v e : ℝ} (hv : 0 ≤ v) (he : 0 < e) :
    IsReal (Ideal.rsqrt ((v : EReal) + (e : EReal))) := by
  rw [← EReal.coe_add]; exact isReal_rsqrt_pos (by linarith)

/-- The word `0x47435000` denotes the real `50000`. -/
theorem ofBits_50000 : Ideal.ofBits .f32 0x47435000#32 = ((50000 : ℝ) : EReal) := by
  simp [Ideal.ofBits, Ideal.ieee, -EReal.coe_mul]; norm_num

/-- The word `0x3727C5AC` (about `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word `0x3727C5AC` denotes a real. -/
theorem isReal_ofBits_eps : IsReal (Ideal.ofBits .f32 0x3727C5AC#32) := by
  obtain ⟨e, _, h⟩ := ofBits_eps_pos; exact ⟨e, h⟩

/-- The word `0x47435000` denotes a real. -/
theorem isReal_ofBits_50000 : IsReal (Ideal.ofBits .f32 0x47435000#32) := ⟨_, ofBits_50000⟩

/-- The word `0x00000000` denotes a real (zero). -/
theorem isReal_ofBits_zero : IsReal (Ideal.ofBits .f32 0x00000000#32) := by
  rw [Ideal.ofBits_zero_f32]; exact isReal_zero

/-- Real witnesses of a family of real values. -/
theorem exists_real_family {ι : Type*} (z : ι → EReal) (hz : ∀ r, IsReal (z r)) :
    ∃ w : ι → ℝ, z = fun r => (w r : EReal) := by
  choose w hw using hz; exact ⟨w, funext hw⟩

/-- The identity among reals: the mean of the squared deviations from the mean is the mean of the squares less the
    square of the mean, when the divisor is the number of terms. -/
theorem real_var_identity {n : ℕ} (w : Fin n → ℝ) (N : ℝ) (hN : N ≠ 0) (hn : (n : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      Fintype.card_fin, nsmul_eq_mul, hn]
  rw [h1]; field_simp; ring

/-- The variance identity on the extended reals, for real entries: with `mean = (∑ z) / N` and `N` the number of
    entries, `(∑ (z - mean)²) / N = (∑ z²) / N - mean²`. -/
theorem var_identity {n : ℕ} (z : Fin n → EReal) (hz : ∀ r, IsReal (z r)) (N : ℝ) (hN : N ≠ 0) (hn : (n : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity w N hN hn]

/-- The same identity with every sum spelled from a zero start, `0 + ∑`. -/
theorem var_identity_zero_add {n : ℕ} (z : Fin n → EReal) (hz : ∀ r, IsReal (z r)) (N : ℝ) (hN : N ≠ 0)
    (hn : (n : ℝ) = N) :
    Ideal.div (0 + ∑ r, (z r - Ideal.div (0 + ∑ r, z r) (N : EReal)) * (z r - Ideal.div (0 + ∑ r, z r) (N : EReal)))
        (N : EReal)
      = Ideal.div (0 + ∑ r, z r * z r) (N : EReal)
          - Ideal.div (0 + ∑ r, z r) (N : EReal) * Ideal.div (0 + ∑ r, z r) (N : EReal) := by
  simp only [zero_add]; exact var_identity z hz N hN hn

/-- The mean of the squared deviations of real entries is the image of a nonnegative real. -/
theorem var_nonneg {n : ℕ} (z : Fin n → EReal) (hz : ∀ r, IsReal (z r)) (N : ℝ) (hN : N ≠ 0) (hn : (n : ℝ) = N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  have hNpos : 0 < N := lt_of_le_of_ne (hn ▸ Nat.cast_nonneg n) (Ne.symm hN)
  simp only [← coe_finset_sum, div_coe_coe _ hN, ← EReal.coe_sub, ← EReal.coe_mul]
  exact ⟨_, div_nonneg (Finset.sum_nonneg fun r _ => mul_self_nonneg _) hNpos.le, rfl⟩

/-- The mean of the squares less the square of the mean, of real entries, is the image of a nonnegative real. -/
theorem var_nonneg' {n : ℕ} (z : Fin n → EReal) (hz : ∀ r, IsReal (z r)) (N : ℝ) (hN : N ≠ 0) (hn : (n : ℝ) = N) :
    ∃ v : ℝ, 0 ≤ v ∧
      Ideal.div (∑ r, z r * z r) (N : EReal)
          - Ideal.div (∑ r, z r) (N : EReal) * Ideal.div (∑ r, z r) (N : EReal) = (v : EReal) := by
  rw [← var_identity z hz N hN hn]; exact var_nonneg z hz N hN hn

/-- The reciprocal square root of a nonnegative real plus the stabiliser word `0x3727C5AC` is real. -/
theorem isReal_rsqrt_add_eps {x : EReal} (hx : ∃ v : ℝ, 0 ≤ v ∧ x = (v : EReal)) :
    IsReal (Ideal.rsqrt (x + Ideal.ofBits .f32 0x3727C5AC#32)) := by
  obtain ⟨v, hv, rfl⟩ := hx
  obtain ⟨e, he, h⟩ := ofBits_eps_pos
  rw [h]; exact isReal_rsqrt_add_pos hv he

end Cert.Lib

end
-- ==== Proof.LibColumn.lean ====
/-
  A vector kept as a column and spread over the columns of a matrix, read at an index: the two layout steps a
  `keepdims` row reduction prints in a kernel body — an [a] vector cast to [a, 1], and an [a, 1] column broadcast to
  [a, b] — and their composite, which at (p, c) is the vector's entry p whatever the column c. Any extents, any
  element type.
-/
import Idealize.ShloMosaic.Lib.Pipeline.Value
import Idealize.ShloMosaic.Lib.ValueIdx

namespace Cert.Lib.Column

open Idealize.ShloMosaic Idealize.ShloMosaic.ValueIdx

variable {α : Type}

/-- An [a] vector cast to the column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The composite: an [a] vector kept as a column and spread over b columns reads, at (p, c), the vector at p. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.Lib.Column
-- ==== Proof.KBody.lean ====
/-
  The value one grid point of the similarity kernel stores, read at an index of its 8 × 128 tile.

  The point holds two 1024-row blocks of each of two feature families (384 moment features, 128 embedding
  columns) and the rows' norms.  For each family it forms the 1024 × 1024 matrix of dot products of the
  first block's rows with the second block's rows, as the sum of three products of a two-term split of the
  operands (the operand, and the operand less itself).  On the extended reals, where a change of float format is the
  identity, the second term of the split is `a - a`, which is zero exactly when `a` is real (at an infinity the
  difference is not zero): so, for real entries, the three products add up to the one product
  `∑ k, A a k * B b k`.  Each entry is divided by the product of the two rows' norms plus a guard, the two
  families' quotients are subtracted and squared, the squares are summed over all 1024 × 1024 pairs, and the total is
  placed at entry (0, 0) of the tile, every other entry being zero.
-/
import proofs.«101945_j60000693125366_2_alg».proof.Proof.Gen.KernelIdeal.Skeleton
import proofs.«101945_j60000693125366_2_alg».proof.Proof.Spec
import proofs.«101945_j60000693125366_2_alg».proof.Proof.LibReal
import proofs.«101945_j60000693125366_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KBody

open Cert.KernelIdeal Cert.KernelIdeal.Gen Idealize.ShloMosaic ValueIdx
open scoped BigOperators

/-! ## Real entries, and the split product -/

/-- A real value less itself is zero (on the extended reals this fails at the infinities). -/
theorem sub_self_of_isReal {x : EReal} (h : Cert.Lib.IsReal x) : x - x = 0 := by
  obtain ⟨r, rfl⟩ := h
  rw [← EReal.coe_sub, sub_self, EReal.coe_zero]

/-- The three-product split of a matrix product whose operands are real entrywise: the low parts `a - a` and
    `b - b` are zero, a product against a zero operand is the zero matrix, and only the product of the operands
    themselves is left, as the sum over the contraction index. -/
theorem split_product_apply {sl sr so : Shape} (D : DotDims sl sr so) (a : FVec Ideal sl .f32) (b : FVec Ideal sr .f32)
    (ha : ∀ i, Cert.Lib.IsReal (a i)) (hb : ∀ i, Cert.Lib.IsReal (b i)) (hlt : FTy.bits .bf16 < FTy.bits .f32) (j : so.Idx) :
    addf (addf (matmul D none (truncf .bf16 a hlt) (truncf .bf16 b hlt) (constant (F := Ideal) so .f32 0x00000000#32))
               (matmul D none (truncf .bf16 a hlt) (truncf .bf16 (subf b b) hlt) (constant (F := Ideal) so .f32 0x00000000#32)))
         (matmul D none (truncf .bf16 (subf a a) hlt) (truncf .bf16 b hlt) (constant (F := Ideal) so .f32 0x00000000#32)) j
      = ∑ k : D.contr.Idx, a (D.lhsIdx j k) * b (D.rhsIdx j k) := by
  show (Ideal.ofBits .f32 0x00000000#32 + ∑ k : D.contr.Idx, a (D.lhsIdx j k) * b (D.rhsIdx j k))
        + (Ideal.ofBits .f32 0x00000000#32 + ∑ k : D.contr.Idx, a (D.lhsIdx j k) * (b (D.rhsIdx j k) - b (D.rhsIdx j k)))
        + (Ideal.ofBits .f32 0x00000000#32 + ∑ k : D.contr.Idx, (a (D.lhsIdx j k) - a (D.lhsIdx j k)) * b (D.rhsIdx j k)) = _
  have e2 : ∑ k : D.contr.Idx, a (D.lhsIdx j k) * (b (D.rhsIdx j k) - b (D.rhsIdx j k)) = 0 :=
    Finset.sum_eq_zero fun k _ => by rw [sub_self_of_isReal (hb _), mul_zero]
  have e3 : ∑ k : D.contr.Idx, (a (D.lhsIdx j k) - a (D.lhsIdx j k)) * b (D.rhsIdx j k) = 0 :=
    Finset.sum_eq_zero fun k _ => by rw [sub_self_of_isReal (ha _), zero_mul]
  rw [e2, e3, Ideal.ofBits_zero_f32]
  simp only [zero_add, add_zero]

/-! ## The two products at an index: rows of the first block against rows of the second -/

/-- The product of the 384-column blocks: both operands contract their column axis. -/
abbrev DX : DotDims S1024x384 S1024x384 S1024x1024 := dot_S1024x384_S1024x384_S1024x1024_1_1_0_0_n_n
/-- The product of the 128-column blocks. -/
abbrev DH : DotDims S1024x128 S1024x128 S1024x1024 := dot_S1024x128_S1024x128_S1024x1024_1_1_0_0_n_n

theorem lhsX_0 (i : S1024x1024.Idx) (k : DX.contr.Idx) : (DX.lhsIdx i k 0).val = (i 0).val := by
  unfold DotDims.lhsIdx
  rw [dif_neg (show ¬(0 : Fin S1024x384.rank) ∈ DX.lhsBatch by decide), dif_pos (show (0 : Fin S1024x384.rank) ∈ DX.lhsNonContracting by decide)]
  rfl
theorem lhsX_1 (i : S1024x1024.Idx) (k : DX.contr.Idx) : (DX.lhsIdx i k 1).val = (k ⟨0, by decide⟩).val :=
  DX.lhsIdx_val_of_single rfl i k
theorem rhsX_0 (i : S1024x1024.Idx) (k : DX.contr.Idx) : (DX.rhsIdx i k 0).val = (i 1).val := by
  unfold DotDims.rhsIdx
  rw [dif_neg (show ¬(0 : Fin S1024x384.rank) ∈ DX.rhsBatch by decide), dif_pos (show (0 : Fin S1024x384.rank) ∈ DX.rhsNonContracting by decide)]
  rfl
theorem rhsX_1 (i : S1024x1024.Idx) (k : DX.contr.Idx) : (DX.rhsIdx i k 1).val = (k ⟨0, by decide⟩).val :=
  DX.rhsIdx_val_of_single rfl i k

/-- Entry (p, q) of the product of the 384-column blocks: row p of the first against row q of the second. -/
theorem dotX_sum (a b : FVec Ideal S1024x384 .f32) (p q : Fin 1024) :
    ∑ k : DX.contr.Idx, a (DX.lhsIdx (ix2 p q) k) * b (DX.rhsIdx (ix2 p q) k) = ∑ k : Fin 384, a (ix2 p k) * b (ix2 q k) := by
  rw [← Equiv.sum_comp (contrEquiv1 DX 384 rfl rfl).symm]
  refine Finset.sum_congr rfl fun k _ => ?_
  have hk := contrEquiv1_symm_val DX 384 rfl rfl k
  have el : DX.lhsIdx (ix2 p q) ((contrEquiv1 DX 384 rfl rfl).symm k) = ix2 p k := funext fun c => Fin.ext (by
    match c with
    | ⟨0, _⟩ => exact lhsX_0 _ _
    | ⟨1, _⟩ => exact (lhsX_1 _ _).trans hk)
  have er : DX.rhsIdx (ix2 p q) ((contrEquiv1 DX 384 rfl rfl).symm k) = ix2 q k := funext fun c => Fin.ext (by
    match c with
    | ⟨0, _⟩ => exact rhsX_0 _ _
    | ⟨1, _⟩ => exact (rhsX_1 _ _).trans hk)
  rw [el, er]

theorem lhsH_0 (i : S1024x1024.Idx) (k : DH.contr.Idx) : (DH.lhsIdx i k 0).val = (i 0).val := by
  unfold DotDims.lhsIdx
  rw [dif_neg (show ¬(0 : Fin S1024x128.rank) ∈ DH.lhsBatch by decide), dif_pos (show (0 : Fin S1024x128.rank) ∈ DH.lhsNonContracting by decide)]
  rfl
theorem lhsH_1 (i : S1024x1024.Idx) (k : DH.contr.Idx) : (DH.lhsIdx i k 1).val = (k ⟨0, by decide⟩).val :=
  DH.lhsIdx_val_of_single rfl i k
theorem rhsH_0 (i : S1024x1024.Idx) (k : DH.contr.Idx) : (DH.rhsIdx i k 0).val = (i 1).val := by
  unfold DotDims.rhsIdx
  rw [dif_neg (show ¬(0 : Fin S1024x128.rank) ∈ DH.rhsBatch by decide), dif_pos (show (0 : Fin S1024x128.rank) ∈ DH.rhsNonContracting by decide)]
  rfl
theorem rhsH_1 (i : S1024x1024.Idx) (k : DH.contr.Idx) : (DH.rhsIdx i k 1).val = (k ⟨0, by decide⟩).val :=
  DH.rhsIdx_val_of_single rfl i k

/-- Entry (p, q) of the product of the 128-column blocks. -/
theorem dotH_sum (a b : FVec Ideal S1024x128 .f32) (p q : Fin 1024) :
    ∑ k : DH.contr.Idx, a (DH.lhsIdx (ix2 p q) k) * b (DH.rhsIdx (ix2 p q) k) = ∑ k : Fin 128, a (ix2 p k) * b (ix2 q k) := by
  rw [← Equiv.sum_comp (contrEquiv1 DH 128 rfl rfl).symm]
  refine Finset.sum_congr rfl fun k _ => ?_
  have hk := contrEquiv1_symm_val DH 128 rfl rfl k
  have el : DH.lhsIdx (ix2 p q) ((contrEquiv1 DH 128 rfl rfl).symm k) = ix2 p k := funext fun c => Fin.ext (by
    match c with
    | ⟨0, _⟩ => exact lhsH_0 _ _
    | ⟨1, _⟩ => exact (lhsH_1 _ _).trans hk)
  have er : DH.rhsIdx (ix2 p q) ((contrEquiv1 DH 128 rfl rfl).symm k) = ix2 q k := funext fun c => Fin.ext (by
    match c with
    | ⟨0, _⟩ => exact rhsH_0 _ _
    | ⟨1, _⟩ => exact (rhsH_1 _ _).trans hk)
  rw [el, er]

/-- The moment features' dot products: entry (p, q) is row p of the first block against row q of the second. -/
theorem pay2_apply (x0 x1 : Vec Ideal S1024x384 .f32) (h0 : ∀ j, Cert.Lib.IsReal (x0 j)) (h1 : ∀ j, Cert.Lib.IsReal (x1 j))
    (p q : Fin 1024) : k0_pay2 x0 x1 (ix2 p q) = ∑ k : Fin 384, x0 (ix2 p k) * x1 (ix2 q k) := by
  unfold k0_pay2
  simp only [shapeCast_self]
  exact (split_product_apply DX x0 x1 h0 h1 bitsLt_bf16_f32 (ix2 p q)).trans (dotX_sum x0 x1 p q)

/-- The embedding's dot products likewise, over its 128 columns. -/
theorem pay3_apply (x2 x3 : Vec Ideal S1024x128 .f32) (h2 : ∀ j, Cert.Lib.IsReal (x2 j)) (h3 : ∀ j, Cert.Lib.IsReal (x3 j))
    (p q : Fin 1024) : k0_pay3 x2 x3 (ix2 p q) = ∑ k : Fin 128, x2 (ix2 p k) * x3 (ix2 q k) := by
  unfold k0_pay3
  simp only [shapeCast_self]
  exact (split_product_apply DH x2 x3 h2 h3 bitsLt_bf16_f32 (ix2 p q)).trans (dotH_sum x2 x3 p q)

/-! ## The norms spread over the pairs -/

/-- The first block's norms, a column, spread over the columns: entry (p, q) is the norm of row p. -/
theorem pay4_apply (x4 : Vec Ideal S1024x1 .f32) (p q : Fin 1024) : k0_pay4 x4 (ix2 p q) = x4 (ix2 p 0) := by
  unfold k0_pay4
  simp only [shapeCast_self]
  exact Cert.Lib.Column.broadcastTo_a1_ab_apply x4 broadcasts_S1024x1_S1024x1024 p q

/-- The second block's norms, a row, spread over the rows: entry (p, q) is the norm of row q. -/
theorem pay5_apply (x5 : Vec Ideal S1x1024 .f32) (p q : Fin 1024) : k0_pay5 x5 (ix2 p q) = x5 (ix2 0 q) := by
  unfold k0_pay5
  simp only [shapeCast_self]
  exact broadcastTo_1b_ab_apply x5 broadcasts_S1x1024_S1024x1024 p q

/-! ## The sum over all pairs -/

/-- A matrix viewed with a leading unit axis, summed over every index, is the double sum over rows and columns. -/
theorem sum_cast_1ab {a b : ℕ} (v : (⟨2, ![a, b]⟩ : Shape).Idx → EReal) (h : (⟨2, ![a, b]⟩ : Shape).ShapeCasts ⟨3, ![1, a, b]⟩) :
    ∑ i : (⟨3, ![1, a, b]⟩ : Shape).Idx, shapeCast ⟨3, ![1, a, b]⟩ v h i = ∑ p : Fin a, ∑ q : Fin b, v (ix2 p q) := by
  unfold shapeCast
  rw [Equiv.sum_comp (Shape.reshapeEquiv h) v, sum_idx2]

/-- The total the kernel extracts: the reduction of the [1, 1024, 1024] view over its two long axes, from the zero word,
    read at its one entry, is the double sum over rows and columns. -/
theorem total_apply (v55 : FVec Ideal S1024x1024 .f32) :
    extractAt ![0, 0, 0] (shapeCast S1x1x1 (multiReduction .add [1, 2] S1 (shapeCast S1x1024x1024 v55 shapeCasts_S1024x1024_S1x1024x1024) 0x00000000#32 reduces_S1x1024x1024_S1 (.inl rfl) rfl) shapeCasts_S1_S1x1x1) inpos_S1x1x1_p0_0_0
      = ∑ a : Fin 1024, ∑ b : Fin 1024, v55 (ix2 a b) :=
  (Ideal.multiReduction_add_total (shapeCast S1x1024x1024 v55 shapeCasts_S1024x1024_S1x1024x1024) 0x00000000#32
    reduces_S1x1024x1024_S1 (fun b => by match b with | ⟨0, _⟩ => rfl) (.inl rfl) rfl _).trans
    (sum_cast_1ab v55 shapeCasts_S1024x1024_S1x1024x1024)

/-! ## The corner mask -/

/-- The word comparing a small natural with zero. -/
theorem cmpi_eq_zero (n : ℕ) (hn : n < 4294967296) :
    IntOp.cmpi .eq (BitVec.ofNat 32 n) 0#32 = if n = 0 then 1#1 else 0#1 := by
  unfold IntOp.cmpi
  by_cases h : n = 0
  · subst h; rfl
  · rw [if_neg h]
    have hne : BitVec.ofNat 32 n ≠ 0#32 := fun e => h (by
      have := congrArg BitVec.toNat e
      simp only [BitVec.toNat_ofNat] at this
      omega)
    rw [show (BitVec.ofNat 32 n == 0#32) = false from beq_eq_false_iff_ne.mpr hne]
    rfl

/-- The select on "row 0 and column 0" of an 8 × 128 tile, on the two coordinates' words. -/
theorem mask_select {α : Type} (r : Fin 8) (q : Fin 128) (A B : α) :
    Scalar.select (IntOp.andi (IntOp.cmpi .eq (BitVec.ofNat 32 r.val) 0#32) (IntOp.cmpi .eq (BitVec.ofNat 32 q.val) 0#32)) A B
      = if r.val = 0 ∧ q.val = 0 then A else B := by
  rw [cmpi_eq_zero _ (by omega), cmpi_eq_zero _ (by omega)]
  by_cases hr : r.val = 0 <;> by_cases hq : q.val = 0 <;> simp [hr, hq, Scalar.select, IntOp.andi]

/-- The tile that holds `A` at entry (0, 0) and `B` elsewhere: the row number and the column number each compared with
    zero, the two bits and-ed, the select between the two splats. -/
theorem corner_select {α : Type} (A B : α) (r : Fin 8) (q : Fin 128) :
    select (andi (cmpi .eq (iota .tc S8x128 32 [0] iota_S8x128_d0_w32) (broadcast S8x128 0#32))
                 (cmpi .eq (iota .tc S8x128 32 [1] iota_S8x128_d1_w32) (broadcast S8x128 0#32)))
        (broadcast S8x128 A) (broadcast S8x128 B) (ix2 r q)
      = if r.val = 0 ∧ q.val = 0 then A else B := by
  show Scalar.select (IntOp.andi (IntOp.cmpi .eq (iota .tc S8x128 32 [0] iota_S8x128_d0_w32 (ix2 r q)) 0#32)
      (IntOp.cmpi .eq (iota .tc S8x128 32 [1] iota_S8x128_d1_w32 (ix2 r q)) 0#32)) A B = _
  rw [iota_single_apply, iota_single_apply]
  exact mask_select r q A B

/-! ## The stored tile -/

/-- The stored tile over its six operands: the squared difference of the two quotients, summed over all pairs, at
    entry (0, 0); zero elsewhere. -/
theorem pay1_apply (v20 v33 v38 v39 : FVec Ideal S1024x1024 .f32) (v43 : Vec Ideal S1024x1 .f32) (v45 : Vec Ideal S1x1024 .f32)
    (r : Fin 8) (q : Fin 128) :
    k0_pay1 v20 v33 v38 v39 v43 v45 (ix2 r q)
      = if r.val = 0 ∧ q.val = 0 then
          ∑ a : Fin 1024, ∑ b : Fin 1024,
            (Ideal.div (v33 (ix2 a b)) (v43 (ix2 a 0) * v45 (ix2 0 b) + Ideal.ofBits .f32 0x322BCC77#32)
                - Ideal.div (v20 (ix2 a b)) (v38 (ix2 a b) * v39 (ix2 a b) + Ideal.ofBits .f32 0x322BCC77#32))
              * (Ideal.div (v33 (ix2 a b)) (v43 (ix2 a 0) * v45 (ix2 0 b) + Ideal.ofBits .f32 0x322BCC77#32)
                - Ideal.div (v20 (ix2 a b)) (v38 (ix2 a b) * v39 (ix2 a b) + Ideal.ofBits .f32 0x322BCC77#32))
        else 0 := by
  unfold k0_pay1
  simp only [shapeCast_self]
  refine (corner_select _ _ r q).trans ?_
  rw [total_apply]
  simp only [mulf_apply, subf_apply, divf_apply, addf_apply, broadcast_apply,
    Cert.Lib.Column.broadcastTo_a1_ab_apply, broadcastTo_1b_ab_apply]
  rw [show (Scalar.ofBits .f32 0x00000000#32 : Ideal .f32) = 0 from Ideal.ofBits_zero_f32]
  rfl

/-- The tile a grid point stores, from the blocks it loads: the total of the squared cosine differences at entry (0, 0),
    zero elsewhere. -/
theorem tile_apply (x0 x1 : Vec Ideal S1024x384 .f32) (x2 x3 : Vec Ideal S1024x128 .f32) (x4 : Vec Ideal S1024x1 .f32) (x5 : Vec Ideal S1x1024 .f32) (x6 : Vec Ideal S1024x1 .f32) (x7 : Vec Ideal S1x1024 .f32)
    (h0 : ∀ j, Cert.Lib.IsReal (x0 j)) (h1 : ∀ j, Cert.Lib.IsReal (x1 j)) (h2 : ∀ j, Cert.Lib.IsReal (x2 j)) (h3 : ∀ j, Cert.Lib.IsReal (x3 j)) (r : Fin 8) (q : Fin 128) :
    k0_pay1 (k0_pay2 x0 x1) (k0_pay3 x2 x3) (k0_pay4 x4) (k0_pay5 x5) x6 x7 (ix2 r q)
      = if r.val = 0 ∧ q.val = 0 then
          Cert.SimSpec.total (n := 1024) (KX := 384) (KH := 128) (fun p k => x0 (ix2 p k)) (fun p k => x1 (ix2 p k)) (fun p => x4 (ix2 p 0)) (fun p => x5 (ix2 0 p))
            (fun p k => x2 (ix2 p k)) (fun p k => x3 (ix2 p k)) (fun p => x6 (ix2 p 0)) (fun p => x7 (ix2 0 p))
        else 0 := by
  rw [pay1_apply]
  simp only [pay2_apply x0 x1 h0 h1, pay3_apply x2 x3 h2 h3, pay4_apply, pay5_apply]
  rfl

end Cert.KernelIdeal.KBody

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.BlockTotal.lean ====
/-
  The sum of the squared cosine differences over all 8192 × 8192 pairs is the sum, over the 8 × 8 tiles of
  1024 × 1024 pairs, of each tile's sum. Only terms are moved and bracketed: no finiteness is needed.
-/
import proofs.«101945_j60000693125366_2_alg».proof.Proof.Spec
import proofs.«101945_j60000693125366_2_alg».proof.Proof.LibBlockSum

noncomputable section

namespace Cert.SimSpec

open scoped BigOperators

/-- Row `p` of block `i` among the 8192 = 8 · 1024 batch rows. -/
def rowOf (i : Fin 8) (p : Fin 1024) : Fin 8192 := ⟨i.val * 1024 + p.val, by omega⟩

theorem rowOf_val (i : Fin 8) (p : Fin 1024) : (rowOf i p).val = i.val * 1024 + p.val := rfl

/-- The total over all pairs, tile by tile: tile (i, j) pairs the source rows of block `i` with the target rows
    of block `j`. -/
theorem total_blocks {KX KH : ℕ} (AX BX : Fin 8192 → Fin KX → EReal) (nAX nBX : Fin 8192 → EReal)
    (AH BH : Fin 8192 → Fin KH → EReal) (nAH nBH : Fin 8192 → EReal) :
    total AX BX nAX nBX AH BH nAH nBH =
      ∑ i : Fin 8, ∑ j : Fin 8, total (n := 1024)
        (fun p k => AX (rowOf i p) k) (fun p k => BX (rowOf j p) k) (fun p => nAX (rowOf i p)) (fun p => nBX (rowOf j p))
        (fun p k => AH (rowOf i p) k) (fun p k => BH (rowOf j p) k) (fun p => nAH (rowOf i p)) (fun p => nBH (rowOf j p)) := by
  unfold total
  rw [Cert.Lib.sum_blocks 8 1024 rfl]
  refine Finset.sum_congr rfl fun i _ => ?_
  have h : ∀ p : Fin 1024, (∑ b : Fin 8192, sqd AX BX nAX nBX AH BH nAH nBH ⟨i.val * 1024 + p.val, lt_of_lt_of_eq (Cert.Lib.blk_lt i p) rfl⟩ b)
      = ∑ j : Fin 8, ∑ q : Fin 1024, sqd AX BX nAX nBX AH BH nAH nBH (rowOf i p) (rowOf j q) := fun p =>
    Cert.Lib.sum_blocks 8 1024 rfl _
  simp only [h]
  rw [Finset.sum_comm]
  rfl

end Cert.SimSpec

end
-- ==== Proof.KValue.lean ====
/-
  From the launch to the program's result, over the extended reals.

  Grid point t = 8 i + j of the 8 × 8 launch loads block i of the source-side arrays and block j of the target-side
  arrays and stores an 8 × 128 tile whose entry (0, 0) is the sum, over the 1024 × 1024 pairs of the two blocks' rows,
  of the squared cosine differences, and whose other entries are zero. The 64 tiles fill the 64 × 1024 output array, so
  that array holds the tile sums at the corners (8 i, 128 j) and zero elsewhere; the host then sums the whole array from
  zero, divides by 2²⁶ and takes the root. Hence the result is the root of the mean of the 64 tile sums. The program's
  eight arguments are written by no operation and end as launched.
-/
import proofs.«101945_j60000693125366_2_alg».proof.Proof.KIFrame
import proofs.«101945_j60000693125366_2_alg».proof.Proof.KBody
import proofs.«101945_j60000693125366_2_alg».proof.Proof.BlockTotal
import proofs.«101945_j60000693125366_2_alg».proof.Proof.LibReal
import Idealize.ShloMosaic.Lib.Pipeline.Value
import Idealize.ShloMosaic.Lib.IdealHost
import Idealize.ShloMosaic.Lib.Tactic

noncomputable section

namespace Cert.KernelIdeal.KValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.SimSpec (rowOf)
open scoped BigOperators

/-- A sum over a 64 × 1024 array that vanishes off the corners (8i, 128j) of its 8 × 128 tiles is the sum of the
    64 corner entries. -/
theorem sum_corners {M : Type*} [AddCommMonoid M] (g : Fin 64 → Fin 1024 → M) (T : Fin 8 → Fin 8 → M)
    (h0 : ∀ r q, ¬(r.val % 8 = 0 ∧ q.val % 128 = 0) → g r q = 0)
    (h1 : ∀ i j : Fin 8, g ⟨i.val * 8, by omega⟩ ⟨j.val * 128, by omega⟩ = T i j) :
    ∑ r, ∑ q, g r q = ∑ i, ∑ j, T i j := by
  rw [Cert.Lib.sum_blocks 8 8 rfl]
  refine Finset.sum_congr rfl fun i _ => ?_
  rw [Finset.sum_eq_single (0 : Fin 8)]
  · rw [Cert.Lib.sum_blocks 8 128 rfl]
    refine Finset.sum_congr rfl fun j _ => ?_
    rw [Finset.sum_eq_single (0 : Fin 128)]
    · exact (congrArg₂ g (Fin.ext (by simp)) (Fin.ext (by simp))).trans (h1 i j)
    · intro l _ hl
      refine h0 _ _ fun h => hl (Fin.ext ?_)
      have h2 : (j.val * 128 + l.val) % 128 = 0 := h.2
      show l.val = 0
      omega
    · intro h; exact absurd (Finset.mem_univ _) h
  · intro k _ hk
    refine Finset.sum_eq_zero fun q _ => h0 _ _ fun h => hk (Fin.ext ?_)
    have h2 : (i.val * 8 + k.val) % 8 = 0 := h.1
    show k.val = 0
    omega
  · intro h; exact absurd (Finset.mem_univ _) h

/-- The host tail at the extended reals: the root of the quotient by 2²⁶ of the sum of all entries from zero. -/
theorem tail_eq (A : FVec Ideal S64x1024 .f32) (h : S64x1024.ReducesTo [0, 1] S_) (hu : 0 < S_.numel) :
    Host.sqrt (Host.divf (Host.reduceAdd A (constant (F := Ideal) S_ .f32 0x00000000#32) h hu) (constant (F := Ideal) S_ .f32 0x4C800000#32))
      = fun _ => Cert.SimSpec.lossOf (∑ r : Fin 64, ∑ q : Fin 1024, A (ix2 r q)) := by
  funext j
  show Ideal.sqrt (Ideal.div (Ideal.hostReduceAdd h A (Ideal.ofBits .f32 0x00000000#32) j) (Ideal.ofBits .f32 0x4C800000#32)) = _
  rw [Ideal.hostReduceAdd_total h (fun b => b.elim0), Ideal.ofBits_zero_f32, zero_add, sum_idx2]
  rfl

/-! ## The tile of one grid point, and the whole output array -/

/-- The sum of squared cosine differences over the 1024 × 1024 pairs of source block `i` and target block `j`. -/
def tileOf (W0 W1 : S8192x384.Idx → EReal) (W2 W3 : S8192x128.Idx → EReal) (W4 : S8192x1.Idx → EReal) (W5 : S1x8192.Idx → EReal)
    (W6 : S8192x1.Idx → EReal) (W7 : S1x8192.Idx → EReal) (i j : Fin 8) : EReal :=
  Cert.SimSpec.total (n := 1024) (KX := 384) (KH := 128) (fun p k => W0 (ix2 (rowOf i p) k)) (fun p k => W1 (ix2 (rowOf j p) k)) (fun p => W4 (ix2 (rowOf i p) 0)) (fun p => W5 (ix2 0 (rowOf j p)))
    (fun p k => W2 (ix2 (rowOf i p) k)) (fun p k => W3 (ix2 (rowOf j p) k)) (fun p => W6 (ix2 (rowOf i p) 0)) (fun p => W7 (ix2 0 (rowOf j p)))

/-- The 64 × 1024 array holding `T i j` at the corner (8i, 128j) of tile (i, j) and zero elsewhere. -/
def arrOf (T : Fin 8 → Fin 8 → EReal) : S64x1024.Idx → EReal := fun x =>
  if (x 0).val % 8 = 0 ∧ (x 1).val % 128 = 0 then
    T ⟨(x 0).val / 8, by have := idx2_lt0 x; omega⟩ ⟨(x 1).val / 128, by have := idx2_lt1 x; omega⟩
  else 0

/-- The array at entry (r, q) of tile (I, J). -/
theorem arrOf_apply (T : Fin 8 → Fin 8 → EReal) (x : S64x1024.Idx) (I J : Fin 8) (r : Fin 8) (q : Fin 128)
    (e0 : (x 0).val = I.val * 8 + r.val) (e1 : (x 1).val = J.val * 128 + q.val) :
    arrOf T x = if r.val = 0 ∧ q.val = 0 then T I J else 0 := by
  unfold arrOf
  by_cases h : r.val = 0 ∧ q.val = 0
  · rw [if_pos h, if_pos (by omega)]
    exact congrArg₂ T (Fin.ext (by show (x 0).val / 8 = I.val; omega)) (Fin.ext (by show (x 1).val / 128 = J.val; omega))
  · rw [if_neg h, if_neg (by omega)]

/-- The sum of all its entries is the sum of the 64 tiles' values. -/
theorem sum_arrOf (T : Fin 8 → Fin 8 → EReal) : ∑ r : Fin 64, ∑ q : Fin 1024, arrOf T (ix2 r q) = ∑ i, ∑ j, T i j :=
  sum_corners (fun r q => arrOf T (ix2 r q)) T
    (fun r q h => if_neg h)
    (fun i j => (arrOf_apply T _ i j 0 0 (by show i.val * 8 = i.val * 8 + 0; omega) (by show j.val * 128 = j.val * 128 + 0; omega)).trans (if_pos ⟨rfl, rfl⟩))

/-! ## The windows' index maps, decided once over the grid -/

theorem hz : (![0, 0] : Fin 2 → Nat) = fun _ => 0 := funext fun a => by fin_cases a <;> rfl

/-- Point `t = 8 i + j`: the source-side windows (0, 2, 4, 6) take block `i`, the target-side windows (1, 3, 5, 7) block `j`,
    the output block (i, j). -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = t.val / 8 ∧ win0_6.index t (1 : Fin 2) = 0
    ∧ win0_7.index t (0 : Fin 2) = 0 ∧ win0_7.index t (1 : Fin 2) = t.val % 8
    ∧ win0_8.index t (0 : Fin 2) = t.val / 8 ∧ win0_8.index t (1 : Fin 2) = t.val % 8 :=
  (by decide +kernel : ∀ t : Fin grid0.N, _)

variable (m : (ℓ : Loc nD τ sig) → Buf (Elt Ideal) ℓ) (ρ : Dev nD → PrngReg)

/-! ## Each input block read where its window's index map says -/

/-- Window 0's block at point `t` is the rows `1024 I … 1024 I + 1023` of its array, `I` the point's first grid coordinate. -/
theorem blk0 (c : Dev nD) (t : Fin cfg0.N) (I : Fin 8) (hI : I.val = t.val / 8) (p : Fin 1024) (k : Fin 384) :
    (iblk m c 0 t : Vec Ideal S1024x384 .f32) (ix2 p k) = V m c main_v134 (ix2 (rowOf I p) k) := by
  obtain ⟨e0, e1, -, -, -, -, -, -, -, -, -, -, -, -, -, -, -, -⟩ := idx_facts t
  unfold iblk
  rw [View.read_apply]
  show V m c main_v134 _ = V m c main_v134 _
  refine congrArg (V m c main_v134) (funext fun a => Fin.ext ?_)
  match a with
  | ⟨0, _⟩ => show win0_0.index t (0 : Fin 2) * 1024 + 1 * p.val = I.val * 1024 + p.val; rw [e0, hI]; omega
  | ⟨1, _⟩ => show win0_0.index t (1 : Fin 2) * 384 + 1 * k.val = k.val; rw [e1]; omega

/-- Window 1's block at point `t` is the rows `1024 I … 1024 I + 1023` of its array, `I` the point's second grid coordinate. -/
theorem blk1 (c : Dev nD) (t : Fin cfg0.N) (I : Fin 8) (hI : I.val = t.val % 8) (p : Fin 1024) (k : Fin 384) :
    (iblk m c 1 t : Vec Ideal S1024x384 .f32) (ix2 p k) = V m c main_v141 (ix2 (rowOf I p) k) := by
  obtain ⟨-, -, e0, e1, -, -, -, -, -, -, -, -, -, -, -, -, -, -⟩ := idx_facts t
  unfold iblk
  rw [View.read_apply]
  show V m c main_v141 _ = V m c main_v141 _
  refine congrArg (V m c main_v141) (funext fun a => Fin.ext ?_)
  match a with
  | ⟨0, _⟩ => show win0_1.index t (0 : Fin 2) * 1024 + 1 * p.val = I.val * 1024 + p.val; rw [e0, hI]; omega
  | ⟨1, _⟩ => show win0_1.index t (1 : Fin 2) * 384 + 1 * k.val = k.val; rw [e1]; omega

/-- Window 2's block at point `t` is the rows `1024 I … 1024 I + 1023` of its array, `I` the point's first grid coordinate. -/
theorem blk2 (c : Dev nD) (t : Fin cfg0.N) (I : Fin 8) (hI : I.val = t.val / 8) (p : Fin 1024) (k : Fin 128) :
    (iblk m c 2 t : Vec Ideal S1024x128 .f32) (ix2 p k) = V m c main_v160 (ix2 (rowOf I p) k) := by
  obtain ⟨-, -, -, -, e0, e1, -, -, -, -, -, -, -, -, -, -, -, -⟩ := idx_facts t
  unfold iblk
  rw [View.read_apply]
  show V m c main_v160 _ = V m c main_v160 _
  refine congrArg (V m c main_v160) (funext fun a => Fin.ext ?_)
  match a with
  | ⟨0, _⟩ => show win0_2.index t (0 : Fin 2) * 1024 + 1 * p.val = I.val * 1024 + p.val; rw [e0, hI]; omega
  | ⟨1, _⟩ => show win0_2.index t (1 : Fin 2) * 128 + 1 * k.val = k.val; rw [e1]; omega

/-- Window 3's block at point `t` is the rows `1024 I … 1024 I + 1023` of its array, `I` the point's second grid coordinate. -/
theorem blk3 (c : Dev nD) (t : Fin cfg0.N) (I : Fin 8) (hI : I.val = t.val % 8) (p : Fin 1024) (k : Fin 128) :
    (iblk m c 3 t : Vec Ideal S1024x128 .f32) (ix2 p k) = V m c main_v167 (ix2 (rowOf I p) k) := by
  obtain ⟨-, -, -, -, -, -, e0, e1, -, -, -, -, -, -, -, -, -, -⟩ := idx_facts t
  unfold iblk
  rw [View.read_apply]
  show V m c main_v167 _ = V m c main_v167 _
  refine congrArg (V m c main_v167) (funext fun a => Fin.ext ?_)
  match a with
  | ⟨0, _⟩ => show win0_3.index t (0 : Fin 2) * 1024 + 1 * p.val = I.val * 1024 + p.val; rw [e0, hI]; omega
  | ⟨1, _⟩ => show win0_3.index t (1 : Fin 2) * 128 + 1 * k.val = k.val; rw [e1]; omega

/-- Window 4's block at point `t` is the rows `1024 I … 1024 I + 1023` of its array, `I` the point's first grid coordinate. -/
theorem blk4 (c : Dev nD) (t : Fin cfg0.N) (I : Fin 8) (hI : I.val = t.val / 8) (p : Fin 1024) (k : Fin 1) :
    (iblk m c 4 t : Vec Ideal S1024x1 .f32) (ix2 p k) = V m c main_v174 (ix2 (rowOf I p) k) := by
  obtain ⟨-, -, -, -, -, -, -, -, e0, e1, -, -, -, -, -, -, -, -⟩ := idx_facts t
  unfold iblk
  rw [View.read_apply]
  show V m c main_v174 _ = V m c main_v174 _
  refine congrArg (V m c main_v174) (funext fun a => Fin.ext ?_)
  match a with
  | ⟨0, _⟩ => show win0_4.index t (0 : Fin 2) * 1024 + 1 * p.val = I.val * 1024 + p.val; rw [e0, hI]; omega
  | ⟨1, _⟩ => show win0_4.index t (1 : Fin 2) * 1 + 1 * k.val = k.val; rw [e1]; omega

/-- Window 5's block at point `t` is the columns `1024 I … 1024 I + 1023` of its array, `I` the point's second grid coordinate. -/
theorem blk5 (c : Dev nD) (t : Fin cfg0.N) (I : Fin 8) (hI : I.val = t.val % 8) (p : Fin 1024) (k : Fin 1) :
    (iblk m c 5 t : Vec Ideal S1x1024 .f32) (ix2 k p) = V m c main_v175 (ix2 k (rowOf I p)) := by
  obtain ⟨-, -, -, -, -, -, -, -, -, -, e0, e1, -, -, -, -, -, -⟩ := idx_facts t
  unfold iblk
  rw [View.read_apply]
  show V m c main_v175 _ = V m c main_v175 _
  refine congrArg (V m c main_v175) (funext fun a => Fin.ext ?_)
  match a with
  | ⟨0, _⟩ => show win0_5.index t (0 : Fin 2) * 1 + 1 * k.val = k.val; rw [e0]; omega
  | ⟨1, _⟩ => show win0_5.index t (1 : Fin 2) * 1024 + 1 * p.val = I.val * 1024 + p.val; rw [e1, hI]; omega

/-- Window 6's block at point `t` is the rows `1024 I … 1024 I + 1023` of its array, `I` the point's first grid coordinate. -/
theorem blk6 (c : Dev nD) (t : Fin cfg0.N) (I : Fin 8) (hI : I.val = t.val / 8) (p : Fin 1024) (k : Fin 1) :
    (iblk m c 6 t : Vec Ideal S1024x1 .f32) (ix2 p k) = V m c main_v176 (ix2 (rowOf I p) k) := by
  obtain ⟨-, -, -, -, -, -, -, -, -, -, -, -, e0, e1, -, -, -, -⟩ := idx_facts t
  unfold iblk
  rw [View.read_apply]
  show V m c main_v176 _ = V m c main_v176 _
  refine congrArg (V m c main_v176) (funext fun a => Fin.ext ?_)
  match a with
  | ⟨0, _⟩ => show win0_6.index t (0 : Fin 2) * 1024 + 1 * p.val = I.val * 1024 + p.val; rw [e0, hI]; omega
  | ⟨1, _⟩ => show win0_6.index t (1 : Fin 2) * 1 + 1 * k.val = k.val; rw [e1]; omega

/-- Window 7's block at point `t` is the columns `1024 I … 1024 I + 1023` of its array, `I` the point's second grid coordinate. -/
theorem blk7 (c : Dev nD) (t : Fin cfg0.N) (I : Fin 8) (hI : I.val = t.val % 8) (p : Fin 1024) (k : Fin 1) :
    (iblk m c 7 t : Vec Ideal S1x1024 .f32) (ix2 k p) = V m c main_v177 (ix2 k (rowOf I p)) := by
  obtain ⟨-, -, -, -, -, -, -, -, -, -, -, -, -, -, e0, e1, -, -⟩ := idx_facts t
  unfold iblk
  rw [View.read_apply]
  show V m c main_v177 _ = V m c main_v177 _
  refine congrArg (V m c main_v177) (funext fun a => Fin.ext ?_)
  match a with
  | ⟨0, _⟩ => show win0_7.index t (0 : Fin 2) * 1 + 1 * k.val = k.val; rw [e0]; omega
  | ⟨1, _⟩ => show win0_7.index t (1 : Fin 2) * 1024 + 1 * p.val = I.val * 1024 + p.val; rw [e1, hI]; omega

/-! ## What a grid point writes back, the cover, the output array -/

/-- The 64 tiles' values over the arrays the launch finds. -/
abbrev tiles (c : Dev nD) : Fin 8 → Fin 8 → EReal :=
  tileOf (V m c main_v134) (V m c main_v141) (V m c main_v160) (V m c main_v167) (V m c main_v174) (V m c main_v175) (V m c main_v176) (V m c main_v177)

/-- The output window is never clipped: the part of the staging buffer a write-back moves is all of it. -/
theorem cut8 (t : Fin cfg0.N) (X : Vec Ideal S8x128 .f32) (r : Fin 8) (q : Fin 128) :
    (cfg0.win 8).cut (grid0.coords t) X (ix2 r q) = X (ix2 r q) := rfl

set_option maxHeartbeats 200000 in
theorem real0 (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) (c : Dev nD) (t : Fin cfg0.N) (j : S1024x384.Idx) : Cert.Lib.IsReal ((iblk m c 0 t : Vec Ideal S1024x384 .f32) j) := by
  unfold iblk; rw [View.read_apply]; show Cert.Lib.IsReal (V m c main_v134 _); exact (hreal c).1 _
set_option maxHeartbeats 200000 in
theorem real1 (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) (c : Dev nD) (t : Fin cfg0.N) (j : S1024x384.Idx) : Cert.Lib.IsReal ((iblk m c 1 t : Vec Ideal S1024x384 .f32) j) := by
  unfold iblk; rw [View.read_apply]; show Cert.Lib.IsReal (V m c main_v141 _); exact (hreal c).2.1 _
set_option maxHeartbeats 200000 in
theorem real2 (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) (c : Dev nD) (t : Fin cfg0.N) (j : S1024x128.Idx) : Cert.Lib.IsReal ((iblk m c 2 t : Vec Ideal S1024x128 .f32) j) := by
  unfold iblk; rw [View.read_apply]; show Cert.Lib.IsReal (V m c main_v160 _); exact (hreal c).2.2.1 _
set_option maxHeartbeats 200000 in
theorem real3 (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) (c : Dev nD) (t : Fin cfg0.N) (j : S1024x128.Idx) : Cert.Lib.IsReal ((iblk m c 3 t : Vec Ideal S1024x128 .f32) j) := by
  unfold iblk; rw [View.read_apply]; show Cert.Lib.IsReal (V m c main_v167 _); exact (hreal c).2.2.2 _

set_option maxHeartbeats 200000 in
/-- What point `t = 8 i + j` writes back is block (i, j) of the array of the tiles' values. -/
theorem flushed_eq (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) (c : Dev nD) (t : Fin cfg0.N) :
    (dats m 0 c).flushed 8 t = ((cfg0.win 8).blk t).view.read (Elt Ideal) (arrOf (tiles m c)) := by
  have ht : t.val < 64 := lt_of_lt_of_eq t.isLt N_0
  obtain ⟨-, -, -, -, -, -, -, -, -, -, -, -, -, -, -, -, e80, e81⟩ := idx_facts t
  show (cfg0.win 8).cut (grid0.coords t) ((dats m 0 c).after 8 t) = _
  rw [after0_8]
  unfold out0_8
  rw [View.canon_unit_zero hz]
  simp only [View.ld_unit_zero (S := S1024x384) hz, View.ld_unit_zero (S := S1024x128) hz, View.ld_unit_zero (S := S1024x1) hz, View.ld_unit_zero (S := S1x1024) hz]
  funext j
  obtain ⟨r, q, rfl⟩ : ∃ (r : Fin 8) (q : Fin 128), j = ix2 r q := ⟨j 0, j 1, eq_ix2 j⟩
  have e0 : (((cfg0.win 8).blk t).view.emb (ix2 r q) (0 : Fin 2)).val = (⟨t.val / 8, by omega⟩ : Fin 8).val * 8 + r.val := by
    show win0_8.index t (0 : Fin 2) * 8 + 1 * r.val = t.val / 8 * 8 + r.val
    rw [e80]; omega
  have e1 : (((cfg0.win 8).blk t).view.emb (ix2 r q) (1 : Fin 2)).val = (⟨t.val % 8, by omega⟩ : Fin 8).val * 128 + q.val := by
    show win0_8.index t (1 : Fin 2) * 128 + 1 * q.val = t.val % 8 * 128 + q.val
    rw [e81]; omega
  refine (cut8 t _ r q).trans ?_
  refine (KBody.tile_apply (iblk m c 0 t) (iblk m c 1 t) (iblk m c 2 t) (iblk m c 3 t) (iblk m c 4 t) (iblk m c 5 t) (iblk m c 6 t) (iblk m c 7 t)
    (real0 m hreal c t) (real1 m hreal c t) (real2 m hreal c t) (real3 m hreal c t) r q).trans ?_
  rw [View.read_apply]
  refine Eq.trans ?_ (arrOf_apply (tiles m c) (((cfg0.win 8).blk t).view.emb (ix2 r q)) ⟨t.val / 8, by omega⟩ ⟨t.val % 8, by omega⟩ r q e0 e1).symm
  refine congrArg (fun T => if r.val = 0 ∧ q.val = 0 then T else 0) ?_
  unfold tiles tileOf
  simp only [blk0 m c t ⟨t.val / 8, by omega⟩ rfl, blk1 m c t ⟨t.val % 8, by omega⟩ rfl, blk2 m c t ⟨t.val / 8, by omega⟩ rfl, blk3 m c t ⟨t.val % 8, by omega⟩ rfl,
    blk4 m c t ⟨t.val / 8, by omega⟩ rfl, blk5 m c t ⟨t.val % 8, by omega⟩ rfl, blk6 m c t ⟨t.val / 8, by omega⟩ rfl, blk7 m c t ⟨t.val % 8, by omega⟩ rfl]

/-- Every index of the 64 × 1024 array lies in the block of the point `(r / 8) · 8 + q / 128`. -/
theorem cover (i : S64x1024.Idx) : ∃ t : Fin cfg0.N, (cfg0.win 8).flush t = true ∧ i ∈ ((cfg0.win 8).blk t).view.set := by
  have h0 := idx2_lt0 i
  have h1 := idx2_lt1 i
  obtain ⟨t, htv⟩ : ∃ t : Fin cfg0.N, t.val = (i 0).val / 8 * 8 + (i 1).val / 128 :=
    ⟨⟨(i 0).val / 8 * 8 + (i 1).val / 128, by rw [show cfg0.N = 64 from N_0]; omega⟩, rfl⟩
  obtain ⟨-, -, -, -, -, -, -, -, -, -, -, -, -, -, -, -, e80, e81⟩ := idx_facts t
  refine ⟨t, flush0_8 t, ?_⟩
  show i ∈ ((View.whole main_v178).slice (win0_8.rect t)).set
  rw [View.set_slice_whole, Rect.mem_set_unit]
  intro a
  match a with
  | ⟨0, _⟩ => show win0_8.index t (0 : Fin 2) * 8 ≤ (i 0).val ∧ (i 0).val < win0_8.index t (0 : Fin 2) * 8 + 8; rw [e80, htv]; omega
  | ⟨1, _⟩ => show win0_8.index t (1 : Fin 2) * 128 ≤ (i 1).val ∧ (i 1).val < win0_8.index t (1 : Fin 2) * 128 + 128; rw [e81, htv]; omega

set_option maxHeartbeats 200000 in
/-- The output array after the launch: the tiles' values at the tiles' corners, zero elsewhere. -/
theorem final (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) (c : Dev nD) : (dats m 0 c).arrAt 8 cfg0.N = arrOf (tiles m c) :=
  (dats m 0 c).arrAt_eq_of_cover 8 (arrOf (tiles m c)) (fun t _ => flushed_eq m hreal c t) cover

/-! ## The host tail and the run -/

set_option maxHeartbeats 400000 in
/-- The program's result: the root of the mean of the 64 tiles' values. -/
theorem res_eq (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) (c : Dev nD) :
    Pipeline.afterTail₀ cfgs (dats m) 0 (V0 m) [hostOps1] c main_v181
      = fun _ => Cert.SimSpec.lossOf (∑ i : Fin 8, ∑ j : Fin 8, tiles m c i j) := by
  have hA : Pipeline.withArrays (cfgs 0).spec c (V0 m c) (fun w => (dats m 0 c).arrAt w (cfgs 0).N) (Proc.devRef .tc main_v178) = arrOf (tiles m c) :=
    (Pipeline.withArrays_arr spec0 launch0.win.arr_inj c _ _ 8).trans (final m hreal c)
  unfold Pipeline.afterTail₀
  show StableHlo.after hostOps1 _ (Proc.devRef .tc main_v181) = _
  after_results
  rw [hA]
  exact (tail_eq _ _ _).trans (congrArg (fun s => fun _ => Cert.SimSpec.lossOf s) (sum_arrOf _))

set_option maxHeartbeats 400000 in
/-- The idealized kernel program runs to the end, its result the root of the mean of the 64 tiles' sums of squared cosine
    differences, its arguments unchanged. -/
theorem run (hreal : ∀ c, (∀ i, Cert.Lib.IsReal (V m c main_v134 i)) ∧ (∀ i, Cert.Lib.IsReal (V m c main_v141 i)) ∧ (∀ i, Cert.Lib.IsReal (V m c main_v160 i)) ∧ (∀ i, Cert.Lib.IsReal (V m c main_v167 i))) :
    θ_run (defs (F := Ideal)) (onTc (τ := τ) (main (F := Ideal))) ⟨m, fun _ => 0, ρ⟩ (fun r => ∀ c : Dev nD,
      r.2.mem ((c.tc : Thread nD τ).loc main_v181) = (fun _ => Cert.SimSpec.lossOf (∑ i : Fin 8, ∑ j : Fin 8, tileOf (V m c main_v134) (V m c main_v141) (V m c main_v160) (V m c main_v167) (V m c main_v174) (V m c main_v175) (V m c main_v176) (V m c main_v177) i j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v181 (Pipeline.mem_restRefs_of main_v181 (by decide) (by decide))).trans (res_eq m hreal c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.KHostPre.lean ====
/-
  The first 162 host operations — the two moment blocks and the two encoders — read as equations between the
  arrays the launch finds, and composed into the two arrays the rest of the host prefix starts from (the
  moments array of the node features and the second encoder's output) as terms of the program's arguments.
  Every array is written by exactly one operation, after its operands, so what the launch finds in it is that
  operation applied to what the launch finds in the operands; each equation is proved by computing both sides
  from the launch memory.
-/
import proofs.«101945_j60000693125366_2_alg».proof.Proof.KIBase

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]

variable (m : (ℓ : Loc nD τ sig) → Buf (Elt F) ℓ)

/-! ## The two moment blocks and the two encoders, operation by operation

The first 162 operations compute, from the node features `x`, the edge list and the encoder weights, the
moments array (mean | centred deviation | signed cube root of the third moment of the neighbours' features,
[50000, 384]) and the second encoder's output ([50000, 64]). The functions below name the pieces the program
repeats: the edge list's two rows, the index columns of its gathers and scatters, the inverse degrees, a
neighbourhood mean of gathered edge values, the guard against a zero moment, the signed cube root. -/

/-- The edge list's first row (the node each edge adds into). -/
def eRow (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
/-- The edge list's second row (the node each edge reads). -/
def eCol (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000
/-- The scatter index column: the first row as it is. -/
def rowIdx (row : (⟨S800000, .i32⟩ : BufTy).Contents (Elt F)) : (⟨S800000x1, .i32⟩ : BufTy).Contents (Elt F) :=
  broadcastInDim S800000x1 ![0] bcast_S800000_S800000x1_0 row
/-- The gather index column: the second row, a negative number counted from the end. -/
def colIdx (col : (⟨S800000, .i32⟩ : BufTy).Contents (Elt F)) : (⟨S800000x1, .i32⟩ : BufTy).Contents (Elt F) :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)
/-- The inverse in-degrees: 1 / max(deg, 1) where the degree is positive, else 0. -/
def invDeg (ri : (⟨S800000x1, .i32⟩ : BufTy).Contents (Elt F)) : (⟨S50000, .f32⟩ : BufTy).Contents (Elt F) :=
  select (cmpf .ogt (Host.scatterAdd scatter_S50000_S800000x1_S800000_n_0_0_1 (broadcastInDim S50000 ![] bcast_S_S50000 (constant (F := F) S_ .f32 0x00000000#32)) ri
        (broadcastInDim S800000 ![] bcast_S_S800000 (constant (F := F) S_ .f32 0x3F800000#32))) (broadcastInDim S50000 ![] bcast_S_S50000 (constant (F := F) S_ .f32 0x00000000#32)))
    (Host.divf (broadcastInDim S50000 ![] bcast_S_S50000 (constant (F := F) S_ .f32 0x3F800000#32))
      (maximumf (Host.scatterAdd scatter_S50000_S800000x1_S800000_n_0_0_1 (broadcastInDim S50000 ![] bcast_S_S50000 (constant (F := F) S_ .f32 0x00000000#32)) ri
        (broadcastInDim S800000 ![] bcast_S_S800000 (constant (F := F) S_ .f32 0x3F800000#32))) (broadcastInDim S50000 ![] bcast_S_S50000 (constant (F := F) S_ .f32 0x3F800000#32))))
    (broadcastInDim S50000 ![] bcast_S_S50000 (id (constant (F := F) S_ .f32 0x00000000#32)))

/-- Neighbourhood mean of per-edge rows (128 columns): scatter-add into the edge's first node, times the inverse degree. -/
def agg128 (ri : (⟨S800000x1, .i32⟩ : BufTy).Contents (Elt F)) (inv : (⟨S50000, .f32⟩ : BufTy).Contents (Elt F)) (u : (⟨S800000x128, .f32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant (F := F) S_ .f32 0x00000000#32)) ri u)
    (broadcastInDim S50000x128 ![0, 1] bcast_S50000x1_S50000x128_0_1 (broadcastInDim S50000x1 ![0] bcast_S50000_S50000x1_0 inv))
/-- A moment that is exactly zero is replaced by 1e-16 (128 columns). -/
def nz128 (w : (⟨S50000x128, .f32⟩ : BufTy).Contents (Elt F)) : (⟨S50000x128, .f32⟩ : BufTy).Contents (Elt F) :=
  select (cmpf .oeq w (broadcastInDim S50000x128 ![] bcast_S_S50000x128 (constant (F := F) S_ .f32 0x00000000#32))) (broadcastInDim S50000x128 ![] bcast_S_S50000x128 (id (constant (F := F) S_ .f32 0x24E69595#32))) w
/-- The signed cube root (128 columns): sign(w) · |w|^(1/3). -/
def cbrt128 (w : (⟨S50000x128, .f32⟩ : BufTy).Contents (Elt F)) : (⟨S50000x128, .f32⟩ : BufTy).Contents (Elt F) :=
  mulf (Host.sign w) (Host.powf (Host.absf w) (broadcastInDim S50000x128 ![] bcast_S_S50000x128 (constant (F := F) S_ .f32 0x3EAAAAAB#32)))

/-- The same three at 64 columns. -/
def agg64 (ri : (⟨S800000x1, .i32⟩ : BufTy).Contents (Elt F)) (inv : (⟨S50000, .f32⟩ : BufTy).Contents (Elt F)) (u : (⟨S800000x64, .f32⟩ : BufTy).Contents (Elt F)) : (⟨S50000x64, .f32⟩ : BufTy).Contents (Elt F) :=
  mulf (Host.scatterAdd scatter_S50000x64_S800000x1_S800000x64_1_0_0_1 (broadcastInDim S50000x64 ![] bcast_S_S50000x64 (constant (F := F) S_ .f32 0x00000000#32)) ri u)
    (broadcastInDim S50000x64 ![0, 1] bcast_S50000x1_S50000x64_0_1 (broadcastInDim S50000x1 ![0] bcast_S50000_S50000x1_0 inv))
def nz64 (w : (⟨S50000x64, .f32⟩ : BufTy).Contents (Elt F)) : (⟨S50000x64, .f32⟩ : BufTy).Contents (Elt F) :=
  select (cmpf .oeq w (broadcastInDim S50000x64 ![] bcast_S_S50000x64 (constant (F := F) S_ .f32 0x00000000#32))) (broadcastInDim S50000x64 ![] bcast_S_S50000x64 (id (constant (F := F) S_ .f32 0x24E69595#32))) w
def cbrt64 (w : (⟨S50000x64, .f32⟩ : BufTy).Contents (Elt F)) : (⟨S50000x64, .f32⟩ : BufTy).Contents (Elt F) :=
  mulf (Host.sign w) (Host.powf (Host.absf w) (broadcastInDim S50000x64 ![] bcast_S_S50000x64 (constant (F := F) S_ .f32 0x3EAAAAAB#32)))

/-- Both sides of an equation between arrays the launch finds, computed from the launch memory. -/
macro "khost_all" : tactic =>
  `(tactic| (dsimp only [Frame.V, Frame.V0]
             simp only [hostOps0, hostOps0_1, hostOps0_2, hostOps0_3, hostOps0_4, hostOps0_5, hostOps0_6, hostOps0_7, hostOps0_8, hostOps0_9,
               hostOps0_10, hostOps0_11, hostOps0_12, List.flatten_cons, List.flatten_nil, List.append_nil, List.cons_append, List.nil_append]
             after_results_simp
             try rfl))

/-! ### The edge list and the inverse degrees -/
set_option maxHeartbeats 4000000 in
/-- The edges' first row. -/
theorem v1_eq (c : Dev nD) :
    Frame.V m c main_v1 = eRow (F := F) (Frame.V m c main_arg1) := by
  unfold eRow; khost_all
set_option maxHeartbeats 4000000 in
/-- The edges' second row. -/
theorem v3_eq (c : Dev nD) :
    Frame.V m c main_v3 = eCol (F := F) (Frame.V m c main_arg1) := by
  unfold eCol; khost_all
set_option maxHeartbeats 4000000 in
/-- A scatter index column. -/
theorem v6_eq (c : Dev nD) :
    Frame.V m c main_v6 = rowIdx (F := F) (Frame.V m c main_v1) := by
  unfold rowIdx; khost_all
set_option maxHeartbeats 4000000 in
/-- A scatter index column. -/
theorem v23_eq (c : Dev nD) :
    Frame.V m c main_v23 = rowIdx (F := F) (Frame.V m c main_v1) := by
  unfold rowIdx; khost_all
set_option maxHeartbeats 4000000 in
/-- A scatter index column. -/
theorem v38_eq (c : Dev nD) :
    Frame.V m c main_v38 = rowIdx (F := F) (Frame.V m c main_v1) := by
  unfold rowIdx; khost_all
set_option maxHeartbeats 4000000 in
/-- A scatter index column. -/
theorem v50_eq (c : Dev nD) :
    Frame.V m c main_v50 = rowIdx (F := F) (Frame.V m c main_v1) := by
  unfold rowIdx; khost_all
set_option maxHeartbeats 4000000 in
/-- A scatter index column. -/
theorem v76_eq (c : Dev nD) :
    Frame.V m c main_v76 = rowIdx (F := F) (Frame.V m c main_v1) := by
  unfold rowIdx; khost_all
set_option maxHeartbeats 4000000 in
/-- A scatter index column. -/
theorem v91_eq (c : Dev nD) :
    Frame.V m c main_v91 = rowIdx (F := F) (Frame.V m c main_v1) := by
  unfold rowIdx; khost_all
set_option maxHeartbeats 4000000 in
/-- A scatter index column. -/
theorem v103_eq (c : Dev nD) :
    Frame.V m c main_v103 = rowIdx (F := F) (Frame.V m c main_v1) := by
  unfold rowIdx; khost_all
set_option maxHeartbeats 4000000 in
/-- A gather index column. -/
theorem v20_eq (c : Dev nD) :
    Frame.V m c main_v20 = colIdx (F := F) (Frame.V m c main_v3) := by
  unfold colIdx; khost_all
set_option maxHeartbeats 4000000 in
/-- A gather index column. -/
theorem v34_eq (c : Dev nD) :
    Frame.V m c main_v34 = colIdx (F := F) (Frame.V m c main_v3) := by
  unfold colIdx; khost_all
set_option maxHeartbeats 4000000 in
/-- A gather index column. -/
theorem v73_eq (c : Dev nD) :
    Frame.V m c main_v73 = colIdx (F := F) (Frame.V m c main_v3) := by
  unfold colIdx; khost_all
set_option maxHeartbeats 4000000 in
/-- A gather index column. -/
theorem v87_eq (c : Dev nD) :
    Frame.V m c main_v87 = colIdx (F := F) (Frame.V m c main_v3) := by
  unfold colIdx; khost_all
set_option maxHeartbeats 4000000 in
/-- The inverse degrees. -/
theorem v14_eq (c : Dev nD) :
    Frame.V m c main_v14 = invDeg (F := F) (Frame.V m c main_v6) := by
  unfold invDeg; khost_all

/-! ### The moments of the node features (128 columns each) -/
set_option maxHeartbeats 4000000 in
/-- The features of each edge's second node. -/
theorem v21_eq (c : Dev nD) :
    Frame.V m c main_v21 = Host.gather gather_S50000x128_S800000x1_S800000x128_1_0_n_n_0_1_1128 (Frame.V m c main_arg0) (Frame.V m c main_v20) := by
  khost_all
set_option maxHeartbeats 4000000 in
/-- The neighbourhood means. -/
theorem v27_eq (c : Dev nD) :
    Frame.V m c main_v27 = agg128 (Frame.V m c main_v23) (Frame.V m c main_v14) (Frame.V m c main_v21) := by
  unfold agg128; khost_all
set_option maxHeartbeats 4000000 in
/-- The residuals. -/
theorem v28_eq (c : Dev nD) :
    Frame.V m c main_v28 = subf (Frame.V m c main_arg0) (Frame.V m c main_v27) := by
  khost_all
set_option maxHeartbeats 4000000 in
/-- The residuals of each edge's second node. -/
theorem v35_eq (c : Dev nD) :
    Frame.V m c main_v35 = Host.gather gather_S50000x128_S800000x1_S800000x128_1_0_n_n_0_1_1128 (Frame.V m c main_v28) (Frame.V m c main_v34) := by
  khost_all
set_option maxHeartbeats 4000000 in
/-- The neighbourhood means of the squared residuals. -/
theorem v42_eq (c : Dev nD) :
    Frame.V m c main_v42 = agg128 (Frame.V m c main_v38) (Frame.V m c main_v14) (mulf (Frame.V m c main_v35) (Frame.V m c main_v35)) := by
  unfold agg128; khost_all
set_option maxHeartbeats 4000000 in
/-- The deviations. -/
theorem v46_eq (c : Dev nD) :
    Frame.V m c main_v46 = Host.sqrt (nz128 (Frame.V m c main_v42)) := by
  unfold nz128; khost_all
set_option maxHeartbeats 4000000 in
/-- The neighbourhood means of the cubes. -/
theorem v54_eq (c : Dev nD) :
    Frame.V m c main_v54 = agg128 (Frame.V m c main_v50) (Frame.V m c main_v14) (mulf (mulf (Frame.V m c main_v21) (Frame.V m c main_v21)) (Frame.V m c main_v21)) := by
  unfold agg128; khost_all
set_option maxHeartbeats 4000000 in
/-- The signed cube roots of the third moments. -/
theorem v62_eq (c : Dev nD) :
    Frame.V m c main_v62 = cbrt128 (nz128 (Frame.V m c main_v54)) := by
  unfold cbrt128 nz128; khost_all
set_option maxHeartbeats 4000000 in
/-- The moments array: the three blocks side by side. -/
theorem v63_step (c : Dev nD) :
    Frame.V m c main_v63 = concatenate S50000x384 1 [⟨S50000x128, Frame.V m c main_v27⟩, ⟨S50000x128, Frame.V m c main_v46⟩, ⟨S50000x128, Frame.V m c main_v62⟩]
      concatenates_S50000x128_S50000x128_S50000x128_S50000x384_d1 := by
  khost_all

/-! ### The first encoder and the moments of its output (64 columns each) -/
set_option maxHeartbeats 4000000 in
/-- The first encoder's output. -/
theorem v67_eq (c : Dev nD) :
    Frame.V m c main_v67 = addf (Host.dotGeneral dot_S50000x128_S128x64_S50000x64_1_0_0_1_n_n none (Frame.V m c main_arg0) (Frame.V m c main_arg4))
      (broadcastInDim S50000x64 ![0, 1] bcast_S1x64_S50000x64_0_1 (broadcastInDim S1x64 ![1] bcast_S64_S1x64_1 (Frame.V m c main_arg5))) := by
  khost_all
set_option maxHeartbeats 4000000 in
/-- The embeddings of each edge's second node. -/
theorem v74_eq (c : Dev nD) :
    Frame.V m c main_v74 = Host.gather gather_S50000x64_S800000x1_S800000x64_1_0_n_n_0_1_164 (Frame.V m c main_v67) (Frame.V m c main_v73) := by
  khost_all
set_option maxHeartbeats 4000000 in
/-- The neighbourhood means. -/
theorem v80_eq (c : Dev nD) :
    Frame.V m c main_v80 = agg64 (Frame.V m c main_v76) (Frame.V m c main_v14) (Frame.V m c main_v74) := by
  unfold agg64; khost_all
set_option maxHeartbeats 4000000 in
/-- The residuals. -/
theorem v81_eq (c : Dev nD) :
    Frame.V m c main_v81 = subf (Frame.V m c main_v67) (Frame.V m c main_v80) := by
  khost_all
set_option maxHeartbeats 4000000 in
/-- The residuals of each edge's second node. -/
theorem v88_eq (c : Dev nD) :
    Frame.V m c main_v88 = Host.gather gather_S50000x64_S800000x1_S800000x64_1_0_n_n_0_1_164 (Frame.V m c main_v81) (Frame.V m c main_v87) := by
  khost_all
set_option maxHeartbeats 4000000 in
/-- The neighbourhood means of the squared residuals. -/
theorem v95_eq (c : Dev nD) :
    Frame.V m c main_v95 = agg64 (Frame.V m c main_v91) (Frame.V m c main_v14) (mulf (Frame.V m c main_v88) (Frame.V m c main_v88)) := by
  unfold agg64; khost_all
set_option maxHeartbeats 4000000 in
/-- The deviations. -/
theorem v99_eq (c : Dev nD) :
    Frame.V m c main_v99 = Host.sqrt (nz64 (Frame.V m c main_v95)) := by
  unfold nz64; khost_all
set_option maxHeartbeats 4000000 in
/-- The neighbourhood means of the cubes. -/
theorem v107_eq (c : Dev nD) :
    Frame.V m c main_v107 = agg64 (Frame.V m c main_v103) (Frame.V m c main_v14) (mulf (mulf (Frame.V m c main_v74) (Frame.V m c main_v74)) (Frame.V m c main_v74)) := by
  unfold agg64; khost_all
set_option maxHeartbeats 4000000 in
/-- The signed cube roots of the third moments. -/
theorem v115_eq (c : Dev nD) :
    Frame.V m c main_v115 = cbrt64 (nz64 (Frame.V m c main_v107)) := by
  unfold cbrt64 nz64; khost_all
set_option maxHeartbeats 4000000 in
/-- The embedding moments: the three blocks side by side. -/
theorem v116_step (c : Dev nD) :
    Frame.V m c main_v116 = concatenate S50000x192 1 [⟨S50000x64, Frame.V m c main_v80⟩, ⟨S50000x64, Frame.V m c main_v99⟩, ⟨S50000x64, Frame.V m c main_v115⟩]
      concatenates_S50000x64_S50000x64_S50000x64_S50000x192_d1 := by
  khost_all
set_option maxHeartbeats 4000000 in
/-- The second encoder's output. -/
theorem v120_step (c : Dev nD) :
    Frame.V m c main_v120 = addf (Host.dotGeneral dot_S50000x192_S192x64_S50000x64_1_0_0_1_n_n none (Frame.V m c main_v116) (Frame.V m c main_arg6))
      (broadcastInDim S50000x64 ![0, 1] bcast_S1x64_S50000x64_0_1 (broadcastInDim S1x64 ![1] bcast_S64_S1x64_1 (Frame.V m c main_arg7))) := by
  khost_all

end Cert.KernelIdeal.KHost

end
-- ==== Proof.KHostRef.lean ====
/-
  The two arrays the kernel program's host tail starts from — the moments array of the node features and the
  second encoder's output — are the reference program's, stage by stage. The two programs apply the same
  operations to the same arguments except in two places: the kernel program squares (cubes) the gathered rows
  where the reference gathers the squared (cubed) rows; a gather moves no value, so the two agree entry by entry.
  Each stage's equation rewrites the kernel program's operation to the earlier stages' and compares the two terms.
-/
import proofs.«101945_j60000693125366_2_alg».proof.Proof.KHostPre
import proofs.«101945_j60000693125366_2_alg».proof.Proof.KIFrame
import proofs.«101945_j60000693125366_2_alg».proof.Proof.RefStages

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]

variable (m : (ℓ : Loc nD τ sig) → Buf (Elt F) ℓ)

/-! ## The edge list, the index columns, the inverse degrees -/
set_option maxHeartbeats 1000000 in
/-- The edges' first row is the reference's. -/
theorem r_v1 (c : Dev nD) :
    Frame.V m c main_v1 = Cert.ReferenceIdeal.ReadP.val_main_v1 (F := F) (Frame.V m c main_arg1) := by
  rw [v1_eq]; rfl
set_option maxHeartbeats 1000000 in
/-- The edges' second row is the reference's. -/
theorem r_v3 (c : Dev nD) :
    Frame.V m c main_v3 = Cert.ReferenceIdeal.ReadP.val_main_v3 (F := F) (Frame.V m c main_arg1) := by
  rw [v3_eq]; rfl
set_option maxHeartbeats 1000000 in
/-- A scatter index column is the reference's. -/
theorem r_v6 (c : Dev nD) :
    Frame.V m c main_v6 = Cert.ReferenceIdeal.ReadP.val_main_v6 (F := F) (Frame.V m c main_arg1) := by
  rw [v6_eq, r_v1]; rfl
set_option maxHeartbeats 1000000 in
/-- A scatter index column is the reference's. -/
theorem r_v23 (c : Dev nD) :
    Frame.V m c main_v23 = Cert.ReferenceIdeal.ReadP.val_main_v6 (F := F) (Frame.V m c main_arg1) := by
  rw [v23_eq, r_v1]; rfl
set_option maxHeartbeats 1000000 in
/-- A scatter index column is the reference's. -/
theorem r_v38 (c : Dev nD) :
    Frame.V m c main_v38 = Cert.ReferenceIdeal.ReadP.val_main_v6 (F := F) (Frame.V m c main_arg1) := by
  rw [v38_eq, r_v1]; rfl
set_option maxHeartbeats 1000000 in
/-- A scatter index column is the reference's. -/
theorem r_v50 (c : Dev nD) :
    Frame.V m c main_v50 = Cert.ReferenceIdeal.ReadP.val_main_v6 (F := F) (Frame.V m c main_arg1) := by
  rw [v50_eq, r_v1]; rfl
set_option maxHeartbeats 1000000 in
/-- A scatter index column is the reference's. -/
theorem r_v76 (c : Dev nD) :
    Frame.V m c main_v76 = Cert.ReferenceIdeal.ReadP.val_main_v6 (F := F) (Frame.V m c main_arg1) := by
  rw [v76_eq, r_v1]; rfl
set_option maxHeartbeats 1000000 in
/-- A scatter index column is the reference's. -/
theorem r_v91 (c : Dev nD) :
    Frame.V m c main_v91 = Cert.ReferenceIdeal.ReadP.val_main_v6 (F := F) (Frame.V m c main_arg1) := by
  rw [v91_eq, r_v1]; rfl
set_option maxHeartbeats 1000000 in
/-- A scatter index column is the reference's. -/
theorem r_v103 (c : Dev nD) :
    Frame.V m c main_v103 = Cert.ReferenceIdeal.ReadP.val_main_v6 (F := F) (Frame.V m c main_arg1) := by
  rw [v103_eq, r_v1]; rfl
set_option maxHeartbeats 1000000 in
/-- A gather index column is the reference's. -/
theorem r_v20 (c : Dev nD) :
    Frame.V m c main_v20 = Cert.ReferenceIdeal.ReadP.val_main_v20 (F := F) (Frame.V m c main_arg1) := by
  rw [v20_eq, r_v3]; rfl
set_option maxHeartbeats 1000000 in
/-- A gather index column is the reference's. -/
theorem r_v34 (c : Dev nD) :
    Frame.V m c main_v34 = Cert.ReferenceIdeal.ReadP.val_main_v20 (F := F) (Frame.V m c main_arg1) := by
  rw [v34_eq, r_v3]; rfl
set_option maxHeartbeats 1000000 in
/-- A gather index column is the reference's. -/
theorem r_v73 (c : Dev nD) :
    Frame.V m c main_v73 = Cert.ReferenceIdeal.ReadP.val_main_v20 (F := F) (Frame.V m c main_arg1) := by
  rw [v73_eq, r_v3]; rfl
set_option maxHeartbeats 1000000 in
/-- A gather index column is the reference's. -/
theorem r_v87 (c : Dev nD) :
    Frame.V m c main_v87 = Cert.ReferenceIdeal.ReadP.val_main_v20 (F := F) (Frame.V m c main_arg1) := by
  rw [v87_eq, r_v3]; rfl
set_option maxHeartbeats 1000000 in
/-- The inverse degrees are the reference's. -/
theorem r_v14 (c : Dev nD) :
    Frame.V m c main_v14 = Cert.ReferenceIdeal.ReadP.val_main_v14 (F := F) (Frame.V m c main_arg1) := by
  rw [v14_eq, r_v6]; rfl

/-! ## The moments of the node features -/
set_option maxHeartbeats 1000000 in
/-- The gathered node features. -/
theorem r_v21 (c : Dev nD) :
    Frame.V m c main_v21 = Cert.ReferenceIdeal.ReadP.val_main_v21 (F := F) (Frame.V m c main_arg0) (Frame.V m c main_arg1) := by
  rw [v21_eq, r_v20]; rfl
set_option maxHeartbeats 1000000 in
/-- The neighbourhood means. -/
theorem r_v27 (c : Dev nD) :
    Frame.V m c main_v27 = Cert.ReferenceIdeal.ReadP.val_main_v27 (F := F) (Frame.V m c main_arg0) (Frame.V m c main_arg1) := by
  rw [v27_eq, r_v23, r_v14, r_v21]; rfl
set_option maxHeartbeats 1000000 in
/-- The residuals. -/
theorem r_v28 (c : Dev nD) :
    Frame.V m c main_v28 = Cert.ReferenceIdeal.ReadP.val_main_v28 (F := F) (Frame.V m c main_arg0) (Frame.V m c main_arg1) := by
  rw [v28_eq, r_v27]; rfl
set_option maxHeartbeats 1000000 in
/-- The second moments: squaring the gathered residuals is gathering the squared residuals. -/
theorem r_v42 (c : Dev nD) :
    Frame.V m c main_v42 = Cert.ReferenceIdeal.ReadP.val_main_v42 (F := F) (Frame.V m c main_arg0) (Frame.V m c main_arg1) := by
  rw [v42_eq, v35_eq, r_v38, r_v14, r_v28, r_v34]; rfl
set_option maxHeartbeats 1000000 in
/-- The deviations. -/
theorem r_v46 (c : Dev nD) :
    Frame.V m c main_v46 = Cert.ReferenceIdeal.ReadP.val_main_v46 (F := F) (Frame.V m c main_arg0) (Frame.V m c main_arg1) := by
  rw [v46_eq, r_v42]; rfl
set_option maxHeartbeats 1000000 in
/-- The third moments: cubing the gathered features is gathering the cubed features. -/
theorem r_v54 (c : Dev nD) :
    Frame.V m c main_v54 = Cert.ReferenceIdeal.ReadP.val_main_v61 (F := F) (Frame.V m c main_arg0) (Frame.V m c main_arg1) := by
  rw [v54_eq, r_v50, r_v14, r_v21]; rfl
set_option maxHeartbeats 1000000 in
/-- The signed cube roots. -/
theorem r_v62 (c : Dev nD) :
    Frame.V m c main_v62 = Cert.ReferenceIdeal.ReadP.val_main_v69 (F := F) (Frame.V m c main_arg0) (Frame.V m c main_arg1) := by
  rw [v62_eq, r_v54]; rfl
set_option maxHeartbeats 1000000 in
/-- The moments array of the node features is the reference's. -/
theorem r_v63 (c : Dev nD) :
    Frame.V m c main_v63 = Cert.ReferenceIdeal.ReadP.val_main_v70 (F := F) (Frame.V m c main_arg0) (Frame.V m c main_arg1) := by
  rw [v63_step, r_v27, r_v46, r_v62]; rfl

/-! ## The first encoder, the moments of its output, the second encoder -/
set_option maxHeartbeats 1000000 in
/-- The first encoder's output. -/
theorem r_v67 (c : Dev nD) :
    Frame.V m c main_v67 = Cert.ReferenceIdeal.ReadP.val_main_v119 (F := F) (Frame.V m c main_arg0) (Frame.V m c main_arg4) (Frame.V m c main_arg5) := by
  rw [v67_eq]; rfl
set_option maxHeartbeats 1000000 in
/-- The gathered embeddings. -/
theorem r_v74 (c : Dev nD) :
    Frame.V m c main_v74 = Cert.ReferenceIdeal.ReadP.val_main_v126 (F := F) (Frame.V m c main_arg0) (Frame.V m c main_arg1) (Frame.V m c main_arg4) (Frame.V m c main_arg5) := by
  rw [v74_eq, r_v67, r_v73]; rfl
set_option maxHeartbeats 1000000 in
/-- The neighbourhood means. -/
theorem r_v80 (c : Dev nD) :
    Frame.V m c main_v80 = Cert.ReferenceIdeal.ReadP.val_main_v132 (F := F) (Frame.V m c main_arg0) (Frame.V m c main_arg1) (Frame.V m c main_arg4) (Frame.V m c main_arg5) := by
  rw [v80_eq, r_v76, r_v14, r_v74]; rfl
set_option maxHeartbeats 1000000 in
/-- The residuals. -/
theorem r_v81 (c : Dev nD) :
    Frame.V m c main_v81 = Cert.ReferenceIdeal.ReadP.val_main_v133 (F := F) (Frame.V m c main_arg0) (Frame.V m c main_arg1) (Frame.V m c main_arg4) (Frame.V m c main_arg5) := by
  rw [v81_eq, r_v67, r_v80]; rfl
set_option maxHeartbeats 1000000 in
/-- The second moments. -/
theorem r_v95 (c : Dev nD) :
    Frame.V m c main_v95 = Cert.ReferenceIdeal.ReadP.val_main_v147 (F := F) (Frame.V m c main_arg0) (Frame.V m c main_arg1) (Frame.V m c main_arg4) (Frame.V m c main_arg5) := by
  rw [v95_eq, v88_eq, r_v91, r_v14, r_v81, r_v87]; rfl
set_option maxHeartbeats 1000000 in
/-- The deviations. -/
theorem r_v99 (c : Dev nD) :
    Frame.V m c main_v99 = Cert.ReferenceIdeal.ReadP.val_main_v151 (F := F) (Frame.V m c main_arg0) (Frame.V m c main_arg1) (Frame.V m c main_arg4) (Frame.V m c main_arg5) := by
  rw [v99_eq, r_v95]; rfl
set_option maxHeartbeats 1000000 in
/-- The third moments. -/
theorem r_v107 (c : Dev nD) :
    Frame.V m c main_v107 = Cert.ReferenceIdeal.ReadP.val_main_v166 (F := F) (Frame.V m c main_arg0) (Frame.V m c main_arg1) (Frame.V m c main_arg4) (Frame.V m c main_arg5) := by
  rw [v107_eq, r_v103, r_v14, r_v74]; rfl
set_option maxHeartbeats 1000000 in
/-- The signed cube roots. -/
theorem r_v115 (c : Dev nD) :
    Frame.V m c main_v115 = Cert.ReferenceIdeal.ReadP.val_main_v174 (F := F) (Frame.V m c main_arg0) (Frame.V m c main_arg1) (Frame.V m c main_arg4) (Frame.V m c main_arg5) := by
  rw [v115_eq, r_v107]; rfl
set_option maxHeartbeats 1000000 in
/-- The embedding moments. -/
theorem r_v116 (c : Dev nD) :
    Frame.V m c main_v116 = Cert.ReferenceIdeal.ReadP.val_main_v175 (F := F) (Frame.V m c main_arg0) (Frame.V m c main_arg1) (Frame.V m c main_arg4) (Frame.V m c main_arg5) := by
  rw [v116_step, r_v80, r_v99, r_v115]; rfl
set_option maxHeartbeats 1000000 in
/-- The second encoder's output is the reference's. -/
theorem r_v120 (c : Dev nD) :
    Frame.V m c main_v120 = Cert.ReferenceIdeal.ReadP.val_main_v179 (F := F) (Frame.V m c main_arg0) (Frame.V m c main_arg1) (Frame.V m c main_arg4) (Frame.V m c main_arg5) (Frame.V m c main_arg6) (Frame.V m c main_arg7) := by
  rw [v120_step, r_v116]; rfl

/-! ## The two arrays over the launch memory -/

/-- The moments array the launch's 384-column side starts from is the reference's, of the node features and the edge
    list the launch memory holds. -/
theorem xd_eq (c : Dev nD) :
    Frame.V m c main_v63 = Cert.ReferenceIdeal.ReadP.val_main_v70 (F := F) (m ((c : Thread nD τ).loc main_arg0)) (m ((c : Thread nD τ).loc main_arg1)) :=
  (r_v63 m c).trans (by rw [Frame.V_main_arg0, Frame.V_main_arg1])

/-- The second encoder's output is the reference's, of the node features, the edge list and the two encoders' weights
    the launch memory holds. -/
theorem h_eq (c : Dev nD) :
    Frame.V m c main_v120 = Cert.ReferenceIdeal.ReadP.val_main_v179 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (r_v120 m c).trans (by rw [Frame.V_main_arg0, Frame.V_main_arg1, Frame.V_main_arg4, Frame.V_main_arg5, Frame.V_main_arg6, Frame.V_main_arg7])

end Cert.KernelIdeal.KHost

end
-- ==== Proof.RefOps.lean ====
/-
  The reference program's @main as the list of its 304 host operations, in program order — a called function's
  operations stand in its call's place, each spelt over the buffers it reads and writes —, with the facts a run
  of a straight-line @main asks for: @main is the sequence of the list; the program has no scoped buffer and no
  scoped semaphore; every operation touches TensorCore references only. The two three-operand joins are also
  read with each operand's contents at its own reference, and the fold of a stretch of operations read at one
  buffer is one simplification pass.
-/
import proofs.«101945_j60000693125366_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 304 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v12 (broadcastInDim S50000 ![] bcast_S_S50000 : (⟨S_, .f32⟩ : BufTy).Contents (Elt F) → (⟨S50000, .f32⟩ : BufTy).Contents (Elt F)),
    binary main_v12 main_v11 main_v13 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    unary main_cst_4 main_call0_v0 (id : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    ternary main_v9 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_v3 main_v15 main_v16 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v17 (broadcastInDim S800000 ![] bcast_S_S800000 : (⟨S_, .i32⟩ : BufTy).Contents (Elt F) → (⟨S800000, .i32⟩ : BufTy).Contents (Elt F)),
    binary main_v3 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_arg0 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v22 (broadcastInDim S50000x128 ![] bcast_S_S50000x128 : (⟨S_, .f32⟩ : BufTy).Contents (Elt F) → (⟨S50000x128, .f32⟩ : BufTy).Contents (Elt F)),
    unary main_v1 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x128 ![0, 1] bcast_S50000x1_S50000x128_0_1 : (⟨S50000x1, .f32⟩ : BufTy).Contents (Elt F) → (⟨S50000x128, .f32⟩ : BufTy).Contents (Elt F)),
    binary main_v24 main_v26 main_v27 (mulf : (⟨S50000x128, .f32⟩ : BufTy).Contents (Elt F) → (⟨S50000x128, .f32⟩ : BufTy).Contents (Elt F) → (⟨S50000x128, .f32⟩ : BufTy).Contents (Elt F)),
    binary main_arg0 main_v27 main_v28 (subf : (⟨S50000x128, .f32⟩ : BufTy).Contents (Elt F) → (⟨S50000x128, .f32⟩ : BufTy).Contents (Elt F) → (⟨S50000x128, .f32⟩ : BufTy).Contents (Elt F)),
    binary main_v28 main_v28 main_v29 (mulf : (⟨S50000x128, .f32⟩ : BufTy).Contents (Elt F) → (⟨S50000x128, .f32⟩ : BufTy).Contents (Elt F) → (⟨S50000x128, .f32⟩ : BufTy).Contents (Elt F)),
    nullary main_c_7 (constantI S_ 32 0#32),
    unary main_c_7 main_v30 (broadcastInDim S800000 ![] bcast_S_S800000 : (⟨S_, .i32⟩ : BufTy).Contents (Elt F) → (⟨S800000, .i32⟩ : BufTy).Contents (Elt F)),
    binary main_v3 main_v30 main_v31 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v32 (broadcastInDim S800000 ![] bcast_S_S800000 : (⟨S_, .i32⟩ : BufTy).Contents (Elt F) → (⟨S800000, .i32⟩ : BufTy).Contents (Elt F)),
    binary main_v3 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v37 (broadcastInDim S50000x128 ![] bcast_S_S50000x128 : (⟨S_, .f32⟩ : BufTy).Contents (Elt F) → (⟨S50000x128, .f32⟩ : BufTy).Contents (Elt F)),
    unary main_v1 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v40 (broadcastInDim S50000x1 ![0] bcast_S50000_S50000x1_0 : (⟨S50000, .f32⟩ : BufTy).Contents (Elt F) → (⟨S50000x1, .f32⟩ : BufTy).Contents (Elt F)),
    unary main_v40 main_v41 (broadcastInDim S50000x128 ![0, 1] bcast_S50000x1_S50000x128_0_1 : (⟨S50000x1, .f32⟩ : BufTy).Contents (Elt F) → (⟨S50000x128, .f32⟩ : BufTy).Contents (Elt F)),
    binary main_v39 main_v41 main_v42 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    unary main_cst_10 main_v43 (broadcastInDim S50000x128 ![] bcast_S_S50000x128 : (⟨S_, .f32⟩ : BufTy).Contents (Elt F) → (⟨S50000x128, .f32⟩ : BufTy).Contents (Elt F)),
    binary main_v42 main_v43 main_v44 (cmpf .oeq : (⟨S50000x128, .f32⟩ : BufTy).Contents (Elt F) → (⟨S50000x128, .f32⟩ : BufTy).Contents (Elt F) → (⟨S50000x128, .i1⟩ : BufTy).Contents (Elt F)),
    nullary main_cst_11 (constant S_ .f32 0x24E69595#32),
    unary main_cst_11 main_call1_v0 (id : (⟨S_, .f32⟩ : BufTy).Contents (Elt F) → (⟨S_, .f32⟩ : BufTy).Contents (Elt F)),
    unary main_call1_v0 main_call1_v1 ((broadcastInDim S50000x128 ![] bcast_S_S50000x128) : (⟨S_, .f32⟩ : BufTy).Contents (Elt F) → (⟨S50000x128, .f32⟩ : BufTy).Contents (Elt F)),
    ternary main_v44 main_call1_v1 main_v42 main_v45 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    unary main_v45 main_v46 (Host.sqrt : (⟨S50000x128, .f32⟩ : BufTy).Contents (Elt F) → (⟨S50000x128, .f32⟩ : BufTy).Contents (Elt F)),
    binary main_arg0 main_arg0 main_v47 (mulf : (⟨S50000x128, .f32⟩ : BufTy).Contents (Elt F) → (⟨S50000x128, .f32⟩ : BufTy).Contents (Elt F) → (⟨S50000x128, .f32⟩ : BufTy).Contents (Elt F)),
    binary main_v47 main_arg0 main_v48 (mulf : (⟨S50000x128, .f32⟩ : BufTy).Contents (Elt F) → (⟨S50000x128, .f32⟩ : BufTy).Contents (Elt F) → (⟨S50000x128, .f32⟩ : BufTy).Contents (Elt F)),
    nullary main_c_12 (constantI S_ 32 0#32),
    unary main_c_12 main_v49 (broadcastInDim S800000 ![] bcast_S_S800000 : (⟨S_, .i32⟩ : BufTy).Contents (Elt F) → (⟨S800000, .i32⟩ : BufTy).Contents (Elt F)),
    binary main_v3 main_v49 main_v50 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v51 (broadcastInDim S800000 ![] bcast_S_S800000 : (⟨S_, .i32⟩ : BufTy).Contents (Elt F) → (⟨S800000, .i32⟩ : BufTy).Contents (Elt F)),
    binary main_v3 main_v51 main_v52 (addi : (⟨S800000, .i32⟩ : BufTy).Contents (Elt F) → (⟨S800000, .i32⟩ : BufTy).Contents (Elt F) → (⟨S800000, .i32⟩ : BufTy).Contents (Elt F)),
    ternary main_v50 main_v52 main_v3 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v53 main_v54 (broadcastInDim S800000x1 ![0] bcast_S800000_S800000x1_0 : (⟨S800000, .i32⟩ : BufTy).Contents (Elt F) → (⟨S800000x1, .i32⟩ : BufTy).Contents (Elt F)),
    binary main_v48 main_v54 main_v55 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_14 (constant S_ .f32 0x00000000#32),
    unary main_cst_14 main_v56 (broadcastInDim S50000x128 ![] bcast_S_S50000x128 : (⟨S_, .f32⟩ : BufTy).Contents (Elt F) → (⟨S50000x128, .f32⟩ : BufTy).Contents (Elt F)),
    unary main_v1 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v59 (broadcastInDim S50000x1 ![0] bcast_S50000_S50000x1_0 : (⟨S50000, .f32⟩ : BufTy).Contents (Elt F) → (⟨S50000x1, .f32⟩ : BufTy).Contents (Elt F)),
    unary main_v59 main_v60 (broadcastInDim S50000x128 ![0, 1] bcast_S50000x1_S50000x128_0_1 : (⟨S50000x1, .f32⟩ : BufTy).Contents (Elt F) → (⟨S50000x128, .f32⟩ : BufTy).Contents (Elt F)),
    binary main_v58 main_v60 main_v61 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    unary main_cst_15 main_v62 (broadcastInDim S50000x128 ![] bcast_S_S50000x128 : (⟨S_, .f32⟩ : BufTy).Contents (Elt F) → (⟨S50000x128, .f32⟩ : BufTy).Contents (Elt F)),
    binary main_v61 main_v62 main_v63 (cmpf .oeq : (⟨S50000x128, .f32⟩ : BufTy).Contents (Elt F) → (⟨S50000x128, .f32⟩ : BufTy).Contents (Elt F) → (⟨S50000x128, .i1⟩ : BufTy).Contents (Elt F)),
    nullary main_cst_16 (constant S_ .f32 0x24E69595#32),
    unary main_cst_16 main_call2_v0 (id : (⟨S_, .f32⟩ : BufTy).Contents (Elt F) → (⟨S_, .f32⟩ : BufTy).Contents (Elt F)),
    unary main_call2_v0 main_call2_v1 ((broadcastInDim S50000x128 ![] bcast_S_S50000x128) : (⟨S_, .f32⟩ : BufTy).Contents (Elt F) → (⟨S50000x128, .f32⟩ : BufTy).Contents (Elt F)),
    ternary main_v63 main_call2_v1 main_v61 main_v64 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    unary main_v64 main_v65 (Host.sign : (⟨S50000x128, .f32⟩ : BufTy).Contents (Elt F) → (⟨S50000x128, .f32⟩ : BufTy).Contents (Elt F)),
    unary main_v64 main_v66 (Host.absf : (⟨S50000x128, .f32⟩ : BufTy).Contents (Elt F) → (⟨S50000x128, .f32⟩ : BufTy).Contents (Elt F)),
    nullary main_cst_17 (constant S_ .f32 0x3EAAAAAB#32),
    unary main_cst_17 main_v67 (broadcastInDim S50000x128 ![] bcast_S_S50000x128 : (⟨S_, .f32⟩ : BufTy).Contents (Elt F) → (⟨S50000x128, .f32⟩ : BufTy).Contents (Elt F)),
    binary main_v66 main_v67 main_v68 (Host.powf : (⟨S50000x128, .f32⟩ : BufTy).Contents (Elt F) → (⟨S50000x128, .f32⟩ : BufTy).Contents (Elt F) → (⟨S50000x128, .f32⟩ : BufTy).Contents (Elt F)),
    binary main_v65 main_v68 main_v69 (mulf : (⟨S50000x128, .f32⟩ : BufTy).Contents (Elt F) → (⟨S50000x128, .f32⟩ : BufTy).Contents (Elt F) → (⟨S50000x128, .f32⟩ : BufTy).Contents (Elt F)),
    nary ![main_v27, main_v46, main_v69] main_v70 (fun u => concatenate S50000x384 1 [⟨S50000x128, u 0⟩, ⟨S50000x128, u 1⟩, ⟨S50000x128, u 2⟩] concatenates_S50000x128_S50000x128_S50000x128_S50000x384_d1),
    nullary main_cst_18 (constant S_ .f32 0x00000000#32),
    binary main_v70 main_cst_18 main_v71 ((fun x v => Host.reduceAdd x v reducesTo_S50000x384_S384_d0 h_S_) : (⟨S50000x384, .f32⟩ : BufTy).Contents (Elt F) → (⟨S_, .f32⟩ : BufTy).Contents (Elt F) → (⟨S384, .f32⟩ : BufTy).Contents (Elt F)),
    unary main_v71 main_v72 (broadcastInDim S1x384 ![1] bcast_S384_S1x384_1 : (⟨S384, .f32⟩ : BufTy).Contents (Elt F) → (⟨S1x384, .f32⟩ : BufTy).Contents (Elt F)),
    nullary main_cst_19 (constant S_ .f32 0x47435000#32),
    unary main_cst_19 main_v73 (broadcastInDim S1x384 ![] bcast_S_S1x384 : (⟨S_, .f32⟩ : BufTy).Contents (Elt F) → (⟨S1x384, .f32⟩ : BufTy).Contents (Elt F)),
    binary main_v72 main_v73 main_v74 (Host.divf : (⟨S1x384, .f32⟩ : BufTy).Contents (Elt F) → (⟨S1x384, .f32⟩ : BufTy).Contents (Elt F) → (⟨S1x384, .f32⟩ : BufTy).Contents (Elt F)),
    unary main_v74 main_v75 (broadcastInDim S50000x384 ![0, 1] bcast_S1x384_S50000x384_0_1 : (⟨S1x384, .f32⟩ : BufTy).Contents (Elt F) → (⟨S50000x384, .f32⟩ : BufTy).Contents (Elt F)),
    binary main_v70 main_v75 main_v76 (subf : (⟨S50000x384, .f32⟩ : BufTy).Contents (Elt F) → (⟨S50000x384, .f32⟩ : BufTy).Contents (Elt F) → (⟨S50000x384, .f32⟩ : BufTy).Contents (Elt F)),
    binary main_v76 main_v76 main_call3_v0 (mulf : (⟨S50000x384, .f32⟩ : BufTy).Contents (Elt F) → (⟨S50000x384, .f32⟩ : BufTy).Contents (Elt F) → (⟨S50000x384, .f32⟩ : BufTy).Contents (Elt F)),
    nullary main_call3_cst ((constant S_ .f32 0x00000000#32) : (⟨S_, .f32⟩ : BufTy).Contents (Elt F)),
    binary main_call3_v0 main_call3_cst main_call3_v1 ((fun x v => Host.reduceAdd x v reducesTo_S50000x384_S50000_d1 h_S_) : (⟨S50000x384, .f32⟩ : BufTy).Contents (Elt F) → (⟨S_, .f32⟩ : BufTy).Contents (Elt F) → (⟨S50000, .f32⟩ : BufTy).Contents (Elt F)),
    unary main_call3_v1 main_v77 (Host.sqrt : (⟨S50000, .f32⟩ : BufTy).Contents (Elt F) → (⟨S50000, .f32⟩ : BufTy).Contents (Elt F)),
    nullary main_c_20 (constantI S_ 32 0#32),
    unary main_c_20 main_v78 (broadcastInDim S8192 ![] bcast_S_S8192 : (⟨S_, .i32⟩ : BufTy).Contents (Elt F) → (⟨S8192, .i32⟩ : BufTy).Contents (Elt F)),
    binary main_arg2 main_v78 main_v79 (cmpi .slt : (⟨S8192, .i32⟩ : BufTy).Contents (Elt F) → (⟨S8192, .i32⟩ : BufTy).Contents (Elt F) → (⟨S8192, .i1⟩ : BufTy).Contents (Elt F)),
    nullary main_c_21 (constantI S_ 32 50000#32),
    unary main_c_21 main_v80 (broadcastInDim S8192 ![] bcast_S_S8192 : (⟨S_, .i32⟩ : BufTy).Contents (Elt F) → (⟨S8192, .i32⟩ : BufTy).Contents (Elt F)),
    binary main_arg2 main_v80 main_v81 (addi : (⟨S8192, .i32⟩ : BufTy).Contents (Elt F) → (⟨S8192, .i32⟩ : BufTy).Contents (Elt F) → (⟨S8192, .i32⟩ : BufTy).Contents (Elt F)),
    ternary main_v79 main_v81 main_arg2 main_v82 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v82 main_v83 (broadcastInDim S8192x1 ![0] bcast_S8192_S8192x1_0 : (⟨S8192, .i32⟩ : BufTy).Contents (Elt F) → (⟨S8192x1, .i32⟩ : BufTy).Contents (Elt F)),
    binary main_v76 main_v83 main_v84 ((fun x i => Host.gather gather_S50000x384_S8192x1_S8192x384_1_0_n_n_0_1_1384 x i) : (⟨S50000x384, .f32⟩ : BufTy).Contents (Elt F) → (⟨S8192x1, .i32⟩ : BufTy).Contents (Elt F) → (⟨S8192x384, .f32⟩ : BufTy).Contents (Elt F)),
    nullary main_c_22 (constantI S_ 32 0#32),
    unary main_c_22 main_v85 (broadcastInDim S8192 ![] bcast_S_S8192 : (⟨S_, .i32⟩ : BufTy).Contents (Elt F) → (⟨S8192, .i32⟩ : BufTy).Contents (Elt F)),
    binary main_arg3 main_v85 main_v86 (cmpi .slt : (⟨S8192, .i32⟩ : BufTy).Contents (Elt F) → (⟨S8192, .i32⟩ : BufTy).Contents (Elt F) → (⟨S8192, .i1⟩ : BufTy).Contents (Elt F)),
    nullary main_c_23 (constantI S_ 32 50000#32),
    unary main_c_23 main_v87 (broadcastInDim S8192 ![] bcast_S_S8192 : (⟨S_, .i32⟩ : BufTy).Contents (Elt F) → (⟨S8192, .i32⟩ : BufTy).Contents (Elt F)),
    binary main_arg3 main_v87 main_v88 (addi : (⟨S8192, .i32⟩ : BufTy).Contents (Elt F) → (⟨S8192, .i32⟩ : BufTy).Contents (Elt F) → (⟨S8192, .i32⟩ : BufTy).Contents (Elt F)),
    ternary main_v86 main_v88 main_arg3 main_v89 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v89 main_v90 (broadcastInDim S8192x1 ![0] bcast_S8192_S8192x1_0 : (⟨S8192, .i32⟩ : BufTy).Contents (Elt F) → (⟨S8192x1, .i32⟩ : BufTy).Contents (Elt F)),
    binary main_v76 main_v90 main_v91 ((fun x i => Host.gather gather_S50000x384_S8192x1_S8192x384_1_0_n_n_0_1_1384 x i) : (⟨S50000x384, .f32⟩ : BufTy).Contents (Elt F) → (⟨S8192x1, .i32⟩ : BufTy).Contents (Elt F) → (⟨S8192x384, .f32⟩ : BufTy).Contents (Elt F)),
    unary main_v91 main_v92 ((transpose S384x8192 [1, 0] · transposes_S8192x384_S384x8192_1_0) : (⟨S8192x384, .f32⟩ : BufTy).Contents (Elt F) → (⟨S384x8192, .f32⟩ : BufTy).Contents (Elt F)),
    binary main_v84 main_v92 main_v93 ((fun l r => Host.dotGeneral dot_S8192x384_S384x8192_S8192x8192_1_0_0_1_n_n none l r) : (⟨S8192x384, .f32⟩ : BufTy).Contents (Elt F) → (⟨S384x8192, .f32⟩ : BufTy).Contents (Elt F) → (⟨S8192x8192, .f32⟩ : BufTy).Contents (Elt F)),
    nullary main_c_24 (constantI S_ 32 0#32),
    unary main_c_24 main_v94 (broadcastInDim S8192 ![] bcast_S_S8192 : (⟨S_, .i32⟩ : BufTy).Contents (Elt F) → (⟨S8192, .i32⟩ : BufTy).Contents (Elt F)),
    binary main_arg2 main_v94 main_v95 (cmpi .slt : (⟨S8192, .i32⟩ : BufTy).Contents (Elt F) → (⟨S8192, .i32⟩ : BufTy).Contents (Elt F) → (⟨S8192, .i1⟩ : BufTy).Contents (Elt F)),
    nullary main_c_25 (constantI S_ 32 50000#32),
    unary main_c_25 main_v96 (broadcastInDim S8192 ![] bcast_S_S8192 : (⟨S_, .i32⟩ : BufTy).Contents (Elt F) → (⟨S8192, .i32⟩ : BufTy).Contents (Elt F)),
    binary main_arg2 main_v96 main_v97 (addi : (⟨S8192, .i32⟩ : BufTy).Contents (Elt F) → (⟨S8192, .i32⟩ : BufTy).Contents (Elt F) → (⟨S8192, .i32⟩ : BufTy).Contents (Elt F)),
    ternary main_v95 main_v97 main_arg2 main_v98 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v98 main_v99 (broadcastInDim S8192x1 ![0] bcast_S8192_S8192x1_0 : (⟨S8192, .i32⟩ : BufTy).Contents (Elt F) → (⟨S8192x1, .i32⟩ : BufTy).Contents (Elt F)),
    binary main_v77 main_v99 main_v100 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v100 main_v101 (broadcastInDim S8192x1 ![0] bcast_S8192_S8192x1_0 : (⟨S8192, .f32⟩ : BufTy).Contents (Elt F) → (⟨S8192x1, .f32⟩ : BufTy).Contents (Elt F)),
    nullary main_c_26 (constantI S_ 32 0#32),
    unary main_c_26 main_v102 (broadcastInDim S8192 ![] bcast_S_S8192 : (⟨S_, .i32⟩ : BufTy).Contents (Elt F) → (⟨S8192, .i32⟩ : BufTy).Contents (Elt F)),
    binary main_arg3 main_v102 main_v103 (cmpi .slt : (⟨S8192, .i32⟩ : BufTy).Contents (Elt F) → (⟨S8192, .i32⟩ : BufTy).Contents (Elt F) → (⟨S8192, .i1⟩ : BufTy).Contents (Elt F)),
    nullary main_c_27 (constantI S_ 32 50000#32),
    unary main_c_27 main_v104 (broadcastInDim S8192 ![] bcast_S_S8192 : (⟨S_, .i32⟩ : BufTy).Contents (Elt F) → (⟨S8192, .i32⟩ : BufTy).Contents (Elt F)),
    binary main_arg3 main_v104 main_v105 (addi : (⟨S8192, .i32⟩ : BufTy).Contents (Elt F) → (⟨S8192, .i32⟩ : BufTy).Contents (Elt F) → (⟨S8192, .i32⟩ : BufTy).Contents (Elt F)),
    ternary main_v103 main_v105 main_arg3 main_v106 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v106 main_v107 (broadcastInDim S8192x1 ![0] bcast_S8192_S8192x1_0 : (⟨S8192, .i32⟩ : BufTy).Contents (Elt F) → (⟨S8192x1, .i32⟩ : BufTy).Contents (Elt F)),
    binary main_v77 main_v107 main_v108 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v108 main_v109 (broadcastInDim S1x8192 ![1] bcast_S8192_S1x8192_1 : (⟨S8192, .f32⟩ : BufTy).Contents (Elt F) → (⟨S1x8192, .f32⟩ : BufTy).Contents (Elt F)),
    unary main_v101 main_v110 (broadcastInDim S8192x8192 ![0, 1] bcast_S8192x1_S8192x8192_0_1 : (⟨S8192x1, .f32⟩ : BufTy).Contents (Elt F) → (⟨S8192x8192, .f32⟩ : BufTy).Contents (Elt F)),
    unary main_v109 main_v111 (broadcastInDim S8192x8192 ![0, 1] bcast_S1x8192_S8192x8192_0_1 : (⟨S1x8192, .f32⟩ : BufTy).Contents (Elt F) → (⟨S8192x8192, .f32⟩ : BufTy).Contents (Elt F)),
    binary main_v110 main_v111 main_v112 (mulf : (⟨S8192x8192, .f32⟩ : BufTy).Contents (Elt F) → (⟨S8192x8192, .f32⟩ : BufTy).Contents (Elt F) → (⟨S8192x8192, .f32⟩ : BufTy).Contents (Elt F)),
    nullary main_cst_28 (constant S_ .f32 0x322BCC77#32),
    unary main_cst_28 main_v113 (broadcastInDim S8192x8192 ![] bcast_S_S8192x8192 : (⟨S_, .f32⟩ : BufTy).Contents (Elt F) → (⟨S8192x8192, .f32⟩ : BufTy).Contents (Elt F)),
    binary main_v112 main_v113 main_v114 (addf : (⟨S8192x8192, .f32⟩ : BufTy).Contents (Elt F) → (⟨S8192x8192, .f32⟩ : BufTy).Contents (Elt F) → (⟨S8192x8192, .f32⟩ : BufTy).Contents (Elt F)),
    binary main_v93 main_v114 main_v115 (Host.divf : (⟨S8192x8192, .f32⟩ : BufTy).Contents (Elt F) → (⟨S8192x8192, .f32⟩ : BufTy).Contents (Elt F) → (⟨S8192x8192, .f32⟩ : BufTy).Contents (Elt F)),
    binary main_arg0 main_arg4 main_v116 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg5 main_v117 (broadcastInDim S1x64 ![1] bcast_S64_S1x64_1 : (⟨S64, .f32⟩ : BufTy).Contents (Elt F) → (⟨S1x64, .f32⟩ : BufTy).Contents (Elt F)),
    unary main_v117 main_v118 (broadcastInDim S50000x64 ![0, 1] bcast_S1x64_S50000x64_0_1 : (⟨S1x64, .f32⟩ : BufTy).Contents (Elt F) → (⟨S50000x64, .f32⟩ : BufTy).Contents (Elt F)),
    binary main_v116 main_v118 main_v119 (addf : (⟨S50000x64, .f32⟩ : BufTy).Contents (Elt F) → (⟨S50000x64, .f32⟩ : BufTy).Contents (Elt F) → (⟨S50000x64, .f32⟩ : BufTy).Contents (Elt F)),
    nullary main_c_29 (constantI S_ 32 0#32),
    unary main_c_29 main_v120 (broadcastInDim S800000 ![] bcast_S_S800000 : (⟨S_, .i32⟩ : BufTy).Contents (Elt F) → (⟨S800000, .i32⟩ : BufTy).Contents (Elt F)),
    binary main_v3 main_v120 main_v121 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v122 (broadcastInDim S800000 ![] bcast_S_S800000 : (⟨S_, .i32⟩ : BufTy).Contents (Elt F) → (⟨S800000, .i32⟩ : BufTy).Contents (Elt F)),
    binary main_v3 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v3 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_31 (constant S_ .f32 0x00000000#32),
    unary main_cst_31 main_v127 (broadcastInDim S50000x64 ![] bcast_S_S50000x64 : (⟨S_, .f32⟩ : BufTy).Contents (Elt F) → (⟨S50000x64, .f32⟩ : BufTy).Contents (Elt F)),
    unary main_v1 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v130 (broadcastInDim S50000x1 ![0] bcast_S50000_S50000x1_0 : (⟨S50000, .f32⟩ : BufTy).Contents (Elt F) → (⟨S50000x1, .f32⟩ : BufTy).Contents (Elt F)),
    unary main_v130 main_v131 (broadcastInDim S50000x64 ![0, 1] bcast_S50000x1_S50000x64_0_1 : (⟨S50000x1, .f32⟩ : BufTy).Contents (Elt F) → (⟨S50000x64, .f32⟩ : BufTy).Contents (Elt F)),
    binary main_v129 main_v131 main_v132 (mulf : (⟨S50000x64, .f32⟩ : BufTy).Contents (Elt F) → (⟨S50000x64, .f32⟩ : BufTy).Contents (Elt F) → (⟨S50000x64, .f32⟩ : BufTy).Contents (Elt F)),
    binary main_v119 main_v132 main_v133 (subf : (⟨S50000x64, .f32⟩ : BufTy).Contents (Elt F) → (⟨S50000x64, .f32⟩ : BufTy).Contents (Elt F) → (⟨S50000x64, .f32⟩ : BufTy).Contents (Elt F)),
    binary main_v133 main_v133 main_v134 (mulf : (⟨S50000x64, .f32⟩ : BufTy).Contents (Elt F) → (⟨S50000x64, .f32⟩ : BufTy).Contents (Elt F) → (⟨S50000x64, .f32⟩ : BufTy).Contents (Elt F)),
    nullary main_c_32 (constantI S_ 32 0#32),
    unary main_c_32 main_v135 (broadcastInDim S800000 ![] bcast_S_S800000 : (⟨S_, .i32⟩ : BufTy).Contents (Elt F) → (⟨S800000, .i32⟩ : BufTy).Contents (Elt F)),
    binary main_v3 main_v135 main_v136 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v137 (broadcastInDim S800000 ![] bcast_S_S800000 : (⟨S_, .i32⟩ : BufTy).Contents (Elt F) → (⟨S800000, .i32⟩ : BufTy).Contents (Elt F)),
    binary main_v3 main_v137 main_v138 (addi : (⟨S800000, .i32⟩ : BufTy).Contents (Elt F) → (⟨S800000, .i32⟩ : BufTy).Contents (Elt F) → (⟨S800000, .i32⟩ : BufTy).Contents (Elt F)),
    ternary main_v136 main_v138 main_v3 main_v139 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v139 main_v140 (broadcastInDim S800000x1 ![0] bcast_S800000_S800000x1_0 : (⟨S800000, .i32⟩ : BufTy).Contents (Elt F) → (⟨S800000x1, .i32⟩ : BufTy).Contents (Elt F)),
    binary main_v134 main_v140 main_v141 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_34 (constant S_ .f32 0x00000000#32),
    unary main_cst_34 main_v142 (broadcastInDim S50000x64 ![] bcast_S_S50000x64 : (⟨S_, .f32⟩ : BufTy).Contents (Elt F) → (⟨S50000x64, .f32⟩ : BufTy).Contents (Elt F)),
    unary main_v1 main_v143 (broadcastInDim S800000x1 ![0] bcast_S800000_S800000x1_0 : (⟨S800000, .i32⟩ : BufTy).Contents (Elt F) → (⟨S800000x1, .i32⟩ : BufTy).Contents (Elt F)),
    ternary main_v142 main_v143 main_v141 main_v144 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v145 (broadcastInDim S50000x1 ![0] bcast_S50000_S50000x1_0 : (⟨S50000, .f32⟩ : BufTy).Contents (Elt F) → (⟨S50000x1, .f32⟩ : BufTy).Contents (Elt F)),
    unary main_v145 main_v146 (broadcastInDim S50000x64 ![0, 1] bcast_S50000x1_S50000x64_0_1 : (⟨S50000x1, .f32⟩ : BufTy).Contents (Elt F) → (⟨S50000x64, .f32⟩ : BufTy).Contents (Elt F)),
    binary main_v144 main_v146 main_v147 (mulf : (⟨S50000x64, .f32⟩ : BufTy).Contents (Elt F) → (⟨S50000x64, .f32⟩ : BufTy).Contents (Elt F) → (⟨S50000x64, .f32⟩ : BufTy).Contents (Elt F)),
    nullary main_cst_35 (constant S_ .f32 0x00000000#32),
    unary main_cst_35 main_v148 (broadcastInDim S50000x64 ![] bcast_S_S50000x64 : (⟨S_, .f32⟩ : BufTy).Contents (Elt F) → (⟨S50000x64, .f32⟩ : BufTy).Contents (Elt F)),
    binary main_v147 main_v148 main_v149 (cmpf .oeq : (⟨S50000x64, .f32⟩ : BufTy).Contents (Elt F) → (⟨S50000x64, .f32⟩ : BufTy).Contents (Elt F) → (⟨S50000x64, .i1⟩ : BufTy).Contents (Elt F)),
    nullary main_cst_36 (constant S_ .f32 0x24E69595#32),
    unary main_cst_36 main_call4_v0 (id : (⟨S_, .f32⟩ : BufTy).Contents (Elt F) → (⟨S_, .f32⟩ : BufTy).Contents (Elt F)),
    unary main_call4_v0 main_call4_v1 ((broadcastInDim S50000x64 ![] bcast_S_S50000x64) : (⟨S_, .f32⟩ : BufTy).Contents (Elt F) → (⟨S50000x64, .f32⟩ : BufTy).Contents (Elt F)),
    ternary main_v149 main_call4_v1 main_v147 main_v150 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    unary main_v150 main_v151 (Host.sqrt : (⟨S50000x64, .f32⟩ : BufTy).Contents (Elt F) → (⟨S50000x64, .f32⟩ : BufTy).Contents (Elt F)),
    binary main_v119 main_v119 main_v152 (mulf : (⟨S50000x64, .f32⟩ : BufTy).Contents (Elt F) → (⟨S50000x64, .f32⟩ : BufTy).Contents (Elt F) → (⟨S50000x64, .f32⟩ : BufTy).Contents (Elt F)),
    binary main_v152 main_v119 main_v153 (mulf : (⟨S50000x64, .f32⟩ : BufTy).Contents (Elt F) → (⟨S50000x64, .f32⟩ : BufTy).Contents (Elt F) → (⟨S50000x64, .f32⟩ : BufTy).Contents (Elt F)),
    nullary main_c_37 (constantI S_ 32 0#32),
    unary main_c_37 main_v154 (broadcastInDim S800000 ![] bcast_S_S800000 : (⟨S_, .i32⟩ : BufTy).Contents (Elt F) → (⟨S800000, .i32⟩ : BufTy).Contents (Elt F)),
    binary main_v3 main_v154 main_v155 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v156 (broadcastInDim S800000 ![] bcast_S_S800000 : (⟨S_, .i32⟩ : BufTy).Contents (Elt F) → (⟨S800000, .i32⟩ : BufTy).Contents (Elt F)),
    binary main_v3 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v3 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_39 (constant S_ .f32 0x00000000#32),
    unary main_cst_39 main_v161 (broadcastInDim S50000x64 ![] bcast_S_S50000x64 : (⟨S_, .f32⟩ : BufTy).Contents (Elt F) → (⟨S50000x64, .f32⟩ : BufTy).Contents (Elt F)),
    unary main_v1 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v164 (broadcastInDim S50000x1 ![0] bcast_S50000_S50000x1_0 : (⟨S50000, .f32⟩ : BufTy).Contents (Elt F) → (⟨S50000x1, .f32⟩ : BufTy).Contents (Elt F)),
    unary main_v164 main_v165 (broadcastInDim S50000x64 ![0, 1] bcast_S50000x1_S50000x64_0_1 : (⟨S50000x1, .f32⟩ : BufTy).Contents (Elt F) → (⟨S50000x64, .f32⟩ : BufTy).Contents (Elt F)),
    binary main_v163 main_v165 main_v166 (mulf : (⟨S50000x64, .f32⟩ : BufTy).Contents (Elt F) → (⟨S50000x64, .f32⟩ : BufTy).Contents (Elt F) → (⟨S50000x64, .f32⟩ : BufTy).Contents (Elt F)),
    nullary main_cst_40 (constant S_ .f32 0x00000000#32),
    unary main_cst_40 main_v167 (broadcastInDim S50000x64 ![] bcast_S_S50000x64 : (⟨S_, .f32⟩ : BufTy).Contents (Elt F) → (⟨S50000x64, .f32⟩ : BufTy).Contents (Elt F)),
    binary main_v166 main_v167 main_v168 (cmpf .oeq : (⟨S50000x64, .f32⟩ : BufTy).Contents (Elt F) → (⟨S50000x64, .f32⟩ : BufTy).Contents (Elt F) → (⟨S50000x64, .i1⟩ : BufTy).Contents (Elt F)),
    nullary main_cst_41 (constant S_ .f32 0x24E69595#32),
    unary main_cst_41 main_call5_v0 (id : (⟨S_, .f32⟩ : BufTy).Contents (Elt F) → (⟨S_, .f32⟩ : BufTy).Contents (Elt F)),
    unary main_call5_v0 main_call5_v1 ((broadcastInDim S50000x64 ![] bcast_S_S50000x64) : (⟨S_, .f32⟩ : BufTy).Contents (Elt F) → (⟨S50000x64, .f32⟩ : BufTy).Contents (Elt F)),
    ternary main_v168 main_call5_v1 main_v166 main_v169 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    unary main_v169 main_v170 (Host.sign : (⟨S50000x64, .f32⟩ : BufTy).Contents (Elt F) → (⟨S50000x64, .f32⟩ : BufTy).Contents (Elt F)),
    unary main_v169 main_v171 (Host.absf : (⟨S50000x64, .f32⟩ : BufTy).Contents (Elt F) → (⟨S50000x64, .f32⟩ : BufTy).Contents (Elt F)),
    nullary main_cst_42 (constant S_ .f32 0x3EAAAAAB#32),
    unary main_cst_42 main_v172 (broadcastInDim S50000x64 ![] bcast_S_S50000x64 : (⟨S_, .f32⟩ : BufTy).Contents (Elt F) → (⟨S50000x64, .f32⟩ : BufTy).Contents (Elt F)),
    binary main_v171 main_v172 main_v173 (Host.powf : (⟨S50000x64, .f32⟩ : BufTy).Contents (Elt F) → (⟨S50000x64, .f32⟩ : BufTy).Contents (Elt F) → (⟨S50000x64, .f32⟩ : BufTy).Contents (Elt F)),
    binary main_v170 main_v173 main_v174 (mulf : (⟨S50000x64, .f32⟩ : BufTy).Contents (Elt F) → (⟨S50000x64, .f32⟩ : BufTy).Contents (Elt F) → (⟨S50000x64, .f32⟩ : BufTy).Contents (Elt F)),
    nary ![main_v132, main_v151, main_v174] main_v175 (fun u => concatenate S50000x192 1 [⟨S50000x64, u 0⟩, ⟨S50000x64, u 1⟩, ⟨S50000x64, u 2⟩] concatenates_S50000x64_S50000x64_S50000x64_S50000x192_d1),
    binary main_v175 main_arg6 main_v176 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg7 main_v177 (broadcastInDim S1x64 ![1] bcast_S64_S1x64_1 : (⟨S64, .f32⟩ : BufTy).Contents (Elt F) → (⟨S1x64, .f32⟩ : BufTy).Contents (Elt F)),
    unary main_v177 main_v178 (broadcastInDim S50000x64 ![0, 1] bcast_S1x64_S50000x64_0_1 : (⟨S1x64, .f32⟩ : BufTy).Contents (Elt F) → (⟨S50000x64, .f32⟩ : BufTy).Contents (Elt F)),
    binary main_v176 main_v178 main_v179 (addf : (⟨S50000x64, .f32⟩ : BufTy).Contents (Elt F) → (⟨S50000x64, .f32⟩ : BufTy).Contents (Elt F) → (⟨S50000x64, .f32⟩ : BufTy).Contents (Elt F)),
    nullary main_cst_43 (constant S_ .f32 0x00000000#32),
    binary main_v179 main_cst_43 main_v180 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_v180 main_v181 (broadcastInDim S1x64 ![1] bcast_S64_S1x64_1 : (⟨S64, .f32⟩ : BufTy).Contents (Elt F) → (⟨S1x64, .f32⟩ : BufTy).Contents (Elt F)),
    nullary main_cst_44 (constant S_ .f32 0x47435000#32),
    unary main_cst_44 main_v182 (broadcastInDim S1x64 ![] bcast_S_S1x64 : (⟨S_, .f32⟩ : BufTy).Contents (Elt F) → (⟨S1x64, .f32⟩ : BufTy).Contents (Elt F)),
    binary main_v181 main_v182 main_v183 (Host.divf : (⟨S1x64, .f32⟩ : BufTy).Contents (Elt F) → (⟨S1x64, .f32⟩ : BufTy).Contents (Elt F) → (⟨S1x64, .f32⟩ : BufTy).Contents (Elt F)),
    unary main_v183 main_v184 (broadcastInDim S50000x64 ![0, 1] bcast_S1x64_S50000x64_0_1 : (⟨S1x64, .f32⟩ : BufTy).Contents (Elt F) → (⟨S50000x64, .f32⟩ : BufTy).Contents (Elt F)),
    binary main_v179 main_v184 main_v185 (subf : (⟨S50000x64, .f32⟩ : BufTy).Contents (Elt F) → (⟨S50000x64, .f32⟩ : BufTy).Contents (Elt F) → (⟨S50000x64, .f32⟩ : BufTy).Contents (Elt F)),
    binary main_v185 main_v185 main_call6_v0 (mulf : (⟨S50000x64, .f32⟩ : BufTy).Contents (Elt F) → (⟨S50000x64, .f32⟩ : BufTy).Contents (Elt F) → (⟨S50000x64, .f32⟩ : BufTy).Contents (Elt F)),
    nullary main_call6_cst ((constant S_ .f32 0x00000000#32) : (⟨S_, .f32⟩ : BufTy).Contents (Elt F)),
    binary main_call6_v0 main_call6_cst main_call6_v1 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_call6_v1 main_v186 (Host.sqrt : (⟨S50000, .f32⟩ : BufTy).Contents (Elt F) → (⟨S50000, .f32⟩ : BufTy).Contents (Elt F)),
    nullary main_c_45 (constantI S_ 32 0#32),
    unary main_c_45 main_v187 (broadcastInDim S8192 ![] bcast_S_S8192 : (⟨S_, .i32⟩ : BufTy).Contents (Elt F) → (⟨S8192, .i32⟩ : BufTy).Contents (Elt F)),
    binary main_arg2 main_v187 main_v188 (cmpi .slt : (⟨S8192, .i32⟩ : BufTy).Contents (Elt F) → (⟨S8192, .i32⟩ : BufTy).Contents (Elt F) → (⟨S8192, .i1⟩ : BufTy).Contents (Elt F)),
    nullary main_c_46 (constantI S_ 32 50000#32),
    unary main_c_46 main_v189 (broadcastInDim S8192 ![] bcast_S_S8192 : (⟨S_, .i32⟩ : BufTy).Contents (Elt F) → (⟨S8192, .i32⟩ : BufTy).Contents (Elt F)),
    binary main_arg2 main_v189 main_v190 (addi : (⟨S8192, .i32⟩ : BufTy).Contents (Elt F) → (⟨S8192, .i32⟩ : BufTy).Contents (Elt F) → (⟨S8192, .i32⟩ : BufTy).Contents (Elt F)),
    ternary main_v188 main_v190 main_arg2 main_v191 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v191 main_v192 (broadcastInDim S8192x1 ![0] bcast_S8192_S8192x1_0 : (⟨S8192, .i32⟩ : BufTy).Contents (Elt F) → (⟨S8192x1, .i32⟩ : BufTy).Contents (Elt F)),
    binary main_v185 main_v192 main_v193 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    nullary main_c_47 (constantI S_ 32 0#32),
    unary main_c_47 main_v194 (broadcastInDim S8192 ![] bcast_S_S8192 : (⟨S_, .i32⟩ : BufTy).Contents (Elt F) → (⟨S8192, .i32⟩ : BufTy).Contents (Elt F)),
    binary main_arg3 main_v194 main_v195 (cmpi .slt : (⟨S8192, .i32⟩ : BufTy).Contents (Elt F) → (⟨S8192, .i32⟩ : BufTy).Contents (Elt F) → (⟨S8192, .i1⟩ : BufTy).Contents (Elt F)),
    nullary main_c_48 (constantI S_ 32 50000#32),
    unary main_c_48 main_v196 (broadcastInDim S8192 ![] bcast_S_S8192 : (⟨S_, .i32⟩ : BufTy).Contents (Elt F) → (⟨S8192, .i32⟩ : BufTy).Contents (Elt F)),
    binary main_arg3 main_v196 main_v197 (addi : (⟨S8192, .i32⟩ : BufTy).Contents (Elt F) → (⟨S8192, .i32⟩ : BufTy).Contents (Elt F) → (⟨S8192, .i32⟩ : BufTy).Contents (Elt F)),
    ternary main_v195 main_v197 main_arg3 main_v198 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v198 main_v199 (broadcastInDim S8192x1 ![0] bcast_S8192_S8192x1_0 : (⟨S8192, .i32⟩ : BufTy).Contents (Elt F) → (⟨S8192x1, .i32⟩ : BufTy).Contents (Elt F)),
    binary main_v185 main_v199 main_v200 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    unary main_v200 main_v201 ((transpose S64x8192 [1, 0] · transposes_S8192x64_S64x8192_1_0) : (⟨S8192x64, .f32⟩ : BufTy).Contents (Elt F) → (⟨S64x8192, .f32⟩ : BufTy).Contents (Elt F)),
    binary main_v193 main_v201 main_v202 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_c_49 (constantI S_ 32 0#32),
    unary main_c_49 main_v203 (broadcastInDim S8192 ![] bcast_S_S8192 : (⟨S_, .i32⟩ : BufTy).Contents (Elt F) → (⟨S8192, .i32⟩ : BufTy).Contents (Elt F)),
    binary main_arg2 main_v203 main_v204 (cmpi .slt : (⟨S8192, .i32⟩ : BufTy).Contents (Elt F) → (⟨S8192, .i32⟩ : BufTy).Contents (Elt F) → (⟨S8192, .i1⟩ : BufTy).Contents (Elt F)),
    nullary main_c_50 (constantI S_ 32 50000#32),
    unary main_c_50 main_v205 (broadcastInDim S8192 ![] bcast_S_S8192 : (⟨S_, .i32⟩ : BufTy).Contents (Elt F) → (⟨S8192, .i32⟩ : BufTy).Contents (Elt F)),
    binary main_arg2 main_v205 main_v206 (addi : (⟨S8192, .i32⟩ : BufTy).Contents (Elt F) → (⟨S8192, .i32⟩ : BufTy).Contents (Elt F) → (⟨S8192, .i32⟩ : BufTy).Contents (Elt F)),
    ternary main_v204 main_v206 main_arg2 main_v207 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v207 main_v208 (broadcastInDim S8192x1 ![0] bcast_S8192_S8192x1_0 : (⟨S8192, .i32⟩ : BufTy).Contents (Elt F) → (⟨S8192x1, .i32⟩ : BufTy).Contents (Elt F)),
    binary main_v186 main_v208 main_v209 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v209 main_v210 (broadcastInDim S8192x1 ![0] bcast_S8192_S8192x1_0 : (⟨S8192, .f32⟩ : BufTy).Contents (Elt F) → (⟨S8192x1, .f32⟩ : BufTy).Contents (Elt F)),
    nullary main_c_51 (constantI S_ 32 0#32),
    unary main_c_51 main_v211 (broadcastInDim S8192 ![] bcast_S_S8192 : (⟨S_, .i32⟩ : BufTy).Contents (Elt F) → (⟨S8192, .i32⟩ : BufTy).Contents (Elt F)),
    binary main_arg3 main_v211 main_v212 (cmpi .slt : (⟨S8192, .i32⟩ : BufTy).Contents (Elt F) → (⟨S8192, .i32⟩ : BufTy).Contents (Elt F) → (⟨S8192, .i1⟩ : BufTy).Contents (Elt F)),
    nullary main_c_52 (constantI S_ 32 50000#32),
    unary main_c_52 main_v213 (broadcastInDim S8192 ![] bcast_S_S8192 : (⟨S_, .i32⟩ : BufTy).Contents (Elt F) → (⟨S8192, .i32⟩ : BufTy).Contents (Elt F)),
    binary main_arg3 main_v213 main_v214 (addi : (⟨S8192, .i32⟩ : BufTy).Contents (Elt F) → (⟨S8192, .i32⟩ : BufTy).Contents (Elt F) → (⟨S8192, .i32⟩ : BufTy).Contents (Elt F)),
    ternary main_v212 main_v214 main_arg3 main_v215 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v215 main_v216 (broadcastInDim S8192x1 ![0] bcast_S8192_S8192x1_0 : (⟨S8192, .i32⟩ : BufTy).Contents (Elt F) → (⟨S8192x1, .i32⟩ : BufTy).Contents (Elt F)),
    binary main_v186 main_v216 main_v217 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v217 main_v218 (broadcastInDim S1x8192 ![1] bcast_S8192_S1x8192_1 : (⟨S8192, .f32⟩ : BufTy).Contents (Elt F) → (⟨S1x8192, .f32⟩ : BufTy).Contents (Elt F)),
    unary main_v210 main_v219 (broadcastInDim S8192x8192 ![0, 1] bcast_S8192x1_S8192x8192_0_1 : (⟨S8192x1, .f32⟩ : BufTy).Contents (Elt F) → (⟨S8192x8192, .f32⟩ : BufTy).Contents (Elt F)),
    unary main_v218 main_v220 (broadcastInDim S8192x8192 ![0, 1] bcast_S1x8192_S8192x8192_0_1 : (⟨S1x8192, .f32⟩ : BufTy).Contents (Elt F) → (⟨S8192x8192, .f32⟩ : BufTy).Contents (Elt F)),
    binary main_v219 main_v220 main_v221 (mulf : (⟨S8192x8192, .f32⟩ : BufTy).Contents (Elt F) → (⟨S8192x8192, .f32⟩ : BufTy).Contents (Elt F) → (⟨S8192x8192, .f32⟩ : BufTy).Contents (Elt F)),
    nullary main_cst_53 (constant S_ .f32 0x322BCC77#32),
    unary main_cst_53 main_v222 (broadcastInDim S8192x8192 ![] bcast_S_S8192x8192 : (⟨S_, .f32⟩ : BufTy).Contents (Elt F) → (⟨S8192x8192, .f32⟩ : BufTy).Contents (Elt F)),
    binary main_v221 main_v222 main_v223 (addf : (⟨S8192x8192, .f32⟩ : BufTy).Contents (Elt F) → (⟨S8192x8192, .f32⟩ : BufTy).Contents (Elt F) → (⟨S8192x8192, .f32⟩ : BufTy).Contents (Elt F)),
    binary main_v202 main_v223 main_v224 (Host.divf : (⟨S8192x8192, .f32⟩ : BufTy).Contents (Elt F) → (⟨S8192x8192, .f32⟩ : BufTy).Contents (Elt F) → (⟨S8192x8192, .f32⟩ : BufTy).Contents (Elt F)),
    binary main_v224 main_v115 main_v225 (subf : (⟨S8192x8192, .f32⟩ : BufTy).Contents (Elt F) → (⟨S8192x8192, .f32⟩ : BufTy).Contents (Elt F) → (⟨S8192x8192, .f32⟩ : BufTy).Contents (Elt F)),
    binary main_v225 main_v225 main_v226 (mulf : (⟨S8192x8192, .f32⟩ : BufTy).Contents (Elt F) → (⟨S8192x8192, .f32⟩ : BufTy).Contents (Elt F) → (⟨S8192x8192, .f32⟩ : BufTy).Contents (Elt F)),
    nullary main_cst_54 (constant S_ .f32 0x00000000#32),
    binary main_v226 main_cst_54 main_v227 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_55 (constant S_ .f32 0x4C800000#32),
    binary main_v227 main_cst_55 main_v228 (Host.divf : (⟨S_, .f32⟩ : BufTy).Contents (Elt F) → (⟨S_, .f32⟩ : BufTy).Contents (Elt F) → (⟨S_, .f32⟩ : BufTy).Contents (Elt F)),
    unary main_v228 main_v229 (Host.sqrt : (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., nullary_bufs_sub .., unary_bufs_sub .., binary_bufs_sub .., binary_bufs_sub .., nary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., nullary_bufs_sub .., unary_bufs_sub .., binary_bufs_sub .., binary_bufs_sub .., nary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., nullary_bufs_sub .., binary_bufs_sub .., unary_bufs_sub ..⟩

/-! ## The two three-operand joins, with each operand's contents at its own reference -/

theorem nary_v70 (hxs hy) (G : Valuation τ sig (Elt F)) :
    (nary (τ := τ) ![main_v27, main_v46, main_v69] main_v70 (fun u => concatenate S50000x384 1 [⟨S50000x128, u 0⟩, ⟨S50000x128, u 1⟩, ⟨S50000x128, u 2⟩] concatenates_S50000x128_S50000x128_S50000x128_S50000x384_d1) hxs hy).result G (no_index (Proc.devRef .tc main_v70))
      = concatenate S50000x384 1 [⟨S50000x128, G (Proc.devRef .tc main_v27)⟩, ⟨S50000x128, G (Proc.devRef .tc main_v46)⟩, ⟨S50000x128, G (Proc.devRef .tc main_v69)⟩] concatenates_S50000x128_S50000x128_S50000x128_S50000x384_d1 :=
  nary_result _ _ _ hxs hy G

theorem nary_v175 (hxs hy) (G : Valuation τ sig (Elt F)) :
    (nary (τ := τ) ![main_v132, main_v151, main_v174] main_v175 (fun u => concatenate S50000x192 1 [⟨S50000x64, u 0⟩, ⟨S50000x64, u 1⟩, ⟨S50000x64, u 2⟩] concatenates_S50000x64_S50000x64_S50000x64_S50000x192_d1) hxs hy).result G (no_index (Proc.devRef .tc main_v175))
      = concatenate S50000x192 1 [⟨S50000x64, G (Proc.devRef .tc main_v132)⟩, ⟨S50000x64, G (Proc.devRef .tc main_v151)⟩, ⟨S50000x64, G (Proc.devRef .tc main_v174)⟩] concatenates_S50000x64_S50000x64_S50000x64_S50000x192_d1 :=
  nary_result _ _ _ hxs hy G

/-- The fold of the operations read at a buffer, as one simplification pass. -/
macro "ref_pass" : tactic =>
  `(tactic| (simp (disch := decide) only [after_cons, after_nil,
      nullary_result', unary_result', binary_result', ternary_result', reshape_result', nary_v70, nary_v175,
      nullary_result_ne', unary_result_ne', binary_result_ne', ternary_result_ne', reshape_result_ne', nary_result_ne']))

end Cert.ReferenceIdeal.RefOps

end
-- ==== Proof.RefRunS.lean ====
/-
  The reference program's run, read stage by stage. The 304 host operations are cut into 14 consecutive stretches;
  the contents after a stretch are the fold of its operations over the contents before it. Every buffer is written
  by exactly one operation, after its operands, so a buffer that later operations still read holds, after each
  stretch, the one-step stage value of the arguments: for a buffer the stretch writes, by folding the stretch's
  operations over the stage values of the buffers it reads from before the stretch; for a buffer written earlier,
  because the stretch does not write it. The last stretch ends at the result; a run of a straight-line @main ends
  with each buffer at the fold of all operations over the launch contents, the arguments untouched.
-/
import proofs.«101945_j60000693125366_2_alg».proof.Proof.RefOps
import proofs.«101945_j60000693125366_2_alg».proof.Proof.RefStages

noncomputable section

namespace Cert.ReferenceIdeal.RefRunS

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The stretches -/

/-- Operations 1 … 23. -/
abbrev C1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v12 (broadcastInDim S50000 ![] bcast_S_S50000 : (⟨S_, .f32⟩ : BufTy).Contents (Elt F) → (⟨S50000, .f32⟩ : BufTy).Contents (Elt F)),
    binary main_v12 main_v11 main_v13 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    unary main_cst_4 main_call0_v0 (id : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    ternary main_v9 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- Operations 24 … 39. -/
abbrev C2 : List (HloOp τ sig (Elt F)) :=
  [ nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_v3 main_v15 main_v16 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v17 (broadcastInDim S800000 ![] bcast_S_S800000 : (⟨S_, .i32⟩ : BufTy).Contents (Elt F) → (⟨S800000, .i32⟩ : BufTy).Contents (Elt F)),
    binary main_v3 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_arg0 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v22 (broadcastInDim S50000x128 ![] bcast_S_S50000x128 : (⟨S_, .f32⟩ : BufTy).Contents (Elt F) → (⟨S50000x128, .f32⟩ : BufTy).Contents (Elt F)),
    unary main_v1 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x128 ![0, 1] bcast_S50000x1_S50000x128_0_1 : (⟨S50000x1, .f32⟩ : BufTy).Contents (Elt F) → (⟨S50000x128, .f32⟩ : BufTy).Contents (Elt F)),
    binary main_v24 main_v26 main_v27 (mulf : (⟨S50000x128, .f32⟩ : BufTy).Contents (Elt F) → (⟨S50000x128, .f32⟩ : BufTy).Contents (Elt F) → (⟨S50000x128, .f32⟩ : BufTy).Contents (Elt F)) ]

/-- Operations 40 … 65. -/
abbrev C3 : List (HloOp τ sig (Elt F)) :=
  [ binary main_arg0 main_v27 main_v28 (subf : (⟨S50000x128, .f32⟩ : BufTy).Contents (Elt F) → (⟨S50000x128, .f32⟩ : BufTy).Contents (Elt F) → (⟨S50000x128, .f32⟩ : BufTy).Contents (Elt F)),
    binary main_v28 main_v28 main_v29 (mulf : (⟨S50000x128, .f32⟩ : BufTy).Contents (Elt F) → (⟨S50000x128, .f32⟩ : BufTy).Contents (Elt F) → (⟨S50000x128, .f32⟩ : BufTy).Contents (Elt F)),
    nullary main_c_7 (constantI S_ 32 0#32),
    unary main_c_7 main_v30 (broadcastInDim S800000 ![] bcast_S_S800000 : (⟨S_, .i32⟩ : BufTy).Contents (Elt F) → (⟨S800000, .i32⟩ : BufTy).Contents (Elt F)),
    binary main_v3 main_v30 main_v31 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v32 (broadcastInDim S800000 ![] bcast_S_S800000 : (⟨S_, .i32⟩ : BufTy).Contents (Elt F) → (⟨S800000, .i32⟩ : BufTy).Contents (Elt F)),
    binary main_v3 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v37 (broadcastInDim S50000x128 ![] bcast_S_S50000x128 : (⟨S_, .f32⟩ : BufTy).Contents (Elt F) → (⟨S50000x128, .f32⟩ : BufTy).Contents (Elt F)),
    unary main_v1 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v40 (broadcastInDim S50000x1 ![0] bcast_S50000_S50000x1_0 : (⟨S50000, .f32⟩ : BufTy).Contents (Elt F) → (⟨S50000x1, .f32⟩ : BufTy).Contents (Elt F)),
    unary main_v40 main_v41 (broadcastInDim S50000x128 ![0, 1] bcast_S50000x1_S50000x128_0_1 : (⟨S50000x1, .f32⟩ : BufTy).Contents (Elt F) → (⟨S50000x128, .f32⟩ : BufTy).Contents (Elt F)),
    binary main_v39 main_v41 main_v42 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    unary main_cst_10 main_v43 (broadcastInDim S50000x128 ![] bcast_S_S50000x128 : (⟨S_, .f32⟩ : BufTy).Contents (Elt F) → (⟨S50000x128, .f32⟩ : BufTy).Contents (Elt F)),
    binary main_v42 main_v43 main_v44 (cmpf .oeq : (⟨S50000x128, .f32⟩ : BufTy).Contents (Elt F) → (⟨S50000x128, .f32⟩ : BufTy).Contents (Elt F) → (⟨S50000x128, .i1⟩ : BufTy).Contents (Elt F)),
    nullary main_cst_11 (constant S_ .f32 0x24E69595#32),
    unary main_cst_11 main_call1_v0 (id : (⟨S_, .f32⟩ : BufTy).Contents (Elt F) → (⟨S_, .f32⟩ : BufTy).Contents (Elt F)),
    unary main_call1_v0 main_call1_v1 ((broadcastInDim S50000x128 ![] bcast_S_S50000x128) : (⟨S_, .f32⟩ : BufTy).Contents (Elt F) → (⟨S50000x128, .f32⟩ : BufTy).Contents (Elt F)),
    ternary main_v44 main_call1_v1 main_v42 main_v45 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    unary main_v45 main_v46 (Host.sqrt : (⟨S50000x128, .f32⟩ : BufTy).Contents (Elt F) → (⟨S50000x128, .f32⟩ : BufTy).Contents (Elt F)) ]

/-- Operations 66 … 90. -/
abbrev C4 : List (HloOp τ sig (Elt F)) :=
  [ binary main_arg0 main_arg0 main_v47 (mulf : (⟨S50000x128, .f32⟩ : BufTy).Contents (Elt F) → (⟨S50000x128, .f32⟩ : BufTy).Contents (Elt F) → (⟨S50000x128, .f32⟩ : BufTy).Contents (Elt F)),
    binary main_v47 main_arg0 main_v48 (mulf : (⟨S50000x128, .f32⟩ : BufTy).Contents (Elt F) → (⟨S50000x128, .f32⟩ : BufTy).Contents (Elt F) → (⟨S50000x128, .f32⟩ : BufTy).Contents (Elt F)),
    nullary main_c_12 (constantI S_ 32 0#32),
    unary main_c_12 main_v49 (broadcastInDim S800000 ![] bcast_S_S800000 : (⟨S_, .i32⟩ : BufTy).Contents (Elt F) → (⟨S800000, .i32⟩ : BufTy).Contents (Elt F)),
    binary main_v3 main_v49 main_v50 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v51 (broadcastInDim S800000 ![] bcast_S_S800000 : (⟨S_, .i32⟩ : BufTy).Contents (Elt F) → (⟨S800000, .i32⟩ : BufTy).Contents (Elt F)),
    binary main_v3 main_v51 main_v52 (addi : (⟨S800000, .i32⟩ : BufTy).Contents (Elt F) → (⟨S800000, .i32⟩ : BufTy).Contents (Elt F) → (⟨S800000, .i32⟩ : BufTy).Contents (Elt F)),
    ternary main_v50 main_v52 main_v3 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v53 main_v54 (broadcastInDim S800000x1 ![0] bcast_S800000_S800000x1_0 : (⟨S800000, .i32⟩ : BufTy).Contents (Elt F) → (⟨S800000x1, .i32⟩ : BufTy).Contents (Elt F)),
    binary main_v48 main_v54 main_v55 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_14 (constant S_ .f32 0x00000000#32),
    unary main_cst_14 main_v56 (broadcastInDim S50000x128 ![] bcast_S_S50000x128 : (⟨S_, .f32⟩ : BufTy).Contents (Elt F) → (⟨S50000x128, .f32⟩ : BufTy).Contents (Elt F)),
    unary main_v1 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v59 (broadcastInDim S50000x1 ![0] bcast_S50000_S50000x1_0 : (⟨S50000, .f32⟩ : BufTy).Contents (Elt F) → (⟨S50000x1, .f32⟩ : BufTy).Contents (Elt F)),
    unary main_v59 main_v60 (broadcastInDim S50000x128 ![0, 1] bcast_S50000x1_S50000x128_0_1 : (⟨S50000x1, .f32⟩ : BufTy).Contents (Elt F) → (⟨S50000x128, .f32⟩ : BufTy).Contents (Elt F)),
    binary main_v58 main_v60 main_v61 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    unary main_cst_15 main_v62 (broadcastInDim S50000x128 ![] bcast_S_S50000x128 : (⟨S_, .f32⟩ : BufTy).Contents (Elt F) → (⟨S50000x128, .f32⟩ : BufTy).Contents (Elt F)),
    binary main_v61 main_v62 main_v63 (cmpf .oeq : (⟨S50000x128, .f32⟩ : BufTy).Contents (Elt F) → (⟨S50000x128, .f32⟩ : BufTy).Contents (Elt F) → (⟨S50000x128, .i1⟩ : BufTy).Contents (Elt F)),
    nullary main_cst_16 (constant S_ .f32 0x24E69595#32),
    unary main_cst_16 main_call2_v0 (id : (⟨S_, .f32⟩ : BufTy).Contents (Elt F) → (⟨S_, .f32⟩ : BufTy).Contents (Elt F)),
    unary main_call2_v0 main_call2_v1 ((broadcastInDim S50000x128 ![] bcast_S_S50000x128) : (⟨S_, .f32⟩ : BufTy).Contents (Elt F) → (⟨S50000x128, .f32⟩ : BufTy).Contents (Elt F)),
    ternary main_v63 main_call2_v1 main_v61 main_v64 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

/-- Operations 91 … 105. -/
abbrev C5 : List (HloOp τ sig (Elt F)) :=
  [ unary main_v64 main_v65 (Host.sign : (⟨S50000x128, .f32⟩ : BufTy).Contents (Elt F) → (⟨S50000x128, .f32⟩ : BufTy).Contents (Elt F)),
    unary main_v64 main_v66 (Host.absf : (⟨S50000x128, .f32⟩ : BufTy).Contents (Elt F) → (⟨S50000x128, .f32⟩ : BufTy).Contents (Elt F)),
    nullary main_cst_17 (constant S_ .f32 0x3EAAAAAB#32),
    unary main_cst_17 main_v67 (broadcastInDim S50000x128 ![] bcast_S_S50000x128 : (⟨S_, .f32⟩ : BufTy).Contents (Elt F) → (⟨S50000x128, .f32⟩ : BufTy).Contents (Elt F)),
    binary main_v66 main_v67 main_v68 (Host.powf : (⟨S50000x128, .f32⟩ : BufTy).Contents (Elt F) → (⟨S50000x128, .f32⟩ : BufTy).Contents (Elt F) → (⟨S50000x128, .f32⟩ : BufTy).Contents (Elt F)),
    binary main_v65 main_v68 main_v69 (mulf : (⟨S50000x128, .f32⟩ : BufTy).Contents (Elt F) → (⟨S50000x128, .f32⟩ : BufTy).Contents (Elt F) → (⟨S50000x128, .f32⟩ : BufTy).Contents (Elt F)),
    nary ![main_v27, main_v46, main_v69] main_v70 (fun u => concatenate S50000x384 1 [⟨S50000x128, u 0⟩, ⟨S50000x128, u 1⟩, ⟨S50000x128, u 2⟩] concatenates_S50000x128_S50000x128_S50000x128_S50000x384_d1),
    nullary main_cst_18 (constant S_ .f32 0x00000000#32),
    binary main_v70 main_cst_18 main_v71 ((fun x v => Host.reduceAdd x v reducesTo_S50000x384_S384_d0 h_S_) : (⟨S50000x384, .f32⟩ : BufTy).Contents (Elt F) → (⟨S_, .f32⟩ : BufTy).Contents (Elt F) → (⟨S384, .f32⟩ : BufTy).Contents (Elt F)),
    unary main_v71 main_v72 (broadcastInDim S1x384 ![1] bcast_S384_S1x384_1 : (⟨S384, .f32⟩ : BufTy).Contents (Elt F) → (⟨S1x384, .f32⟩ : BufTy).Contents (Elt F)),
    nullary main_cst_19 (constant S_ .f32 0x47435000#32),
    unary main_cst_19 main_v73 (broadcastInDim S1x384 ![] bcast_S_S1x384 : (⟨S_, .f32⟩ : BufTy).Contents (Elt F) → (⟨S1x384, .f32⟩ : BufTy).Contents (Elt F)),
    binary main_v72 main_v73 main_v74 (Host.divf : (⟨S1x384, .f32⟩ : BufTy).Contents (Elt F) → (⟨S1x384, .f32⟩ : BufTy).Contents (Elt F) → (⟨S1x384, .f32⟩ : BufTy).Contents (Elt F)),
    unary main_v74 main_v75 (broadcastInDim S50000x384 ![0, 1] bcast_S1x384_S50000x384_0_1 : (⟨S1x384, .f32⟩ : BufTy).Contents (Elt F) → (⟨S50000x384, .f32⟩ : BufTy).Contents (Elt F)),
    binary main_v70 main_v75 main_v76 (subf : (⟨S50000x384, .f32⟩ : BufTy).Contents (Elt F) → (⟨S50000x384, .f32⟩ : BufTy).Contents (Elt F) → (⟨S50000x384, .f32⟩ : BufTy).Contents (Elt F)) ]

/-- Operations 106 … 129. -/
abbrev C6 : List (HloOp τ sig (Elt F)) :=
  [ binary main_v76 main_v76 main_call3_v0 (mulf : (⟨S50000x384, .f32⟩ : BufTy).Contents (Elt F) → (⟨S50000x384, .f32⟩ : BufTy).Contents (Elt F) → (⟨S50000x384, .f32⟩ : BufTy).Contents (Elt F)),
    nullary main_call3_cst ((constant S_ .f32 0x00000000#32) : (⟨S_, .f32⟩ : BufTy).Contents (Elt F)),
    binary main_call3_v0 main_call3_cst main_call3_v1 ((fun x v => Host.reduceAdd x v reducesTo_S50000x384_S50000_d1 h_S_) : (⟨S50000x384, .f32⟩ : BufTy).Contents (Elt F) → (⟨S_, .f32⟩ : BufTy).Contents (Elt F) → (⟨S50000, .f32⟩ : BufTy).Contents (Elt F)),
    unary main_call3_v1 main_v77 (Host.sqrt : (⟨S50000, .f32⟩ : BufTy).Contents (Elt F) → (⟨S50000, .f32⟩ : BufTy).Contents (Elt F)),
    nullary main_c_20 (constantI S_ 32 0#32),
    unary main_c_20 main_v78 (broadcastInDim S8192 ![] bcast_S_S8192 : (⟨S_, .i32⟩ : BufTy).Contents (Elt F) → (⟨S8192, .i32⟩ : BufTy).Contents (Elt F)),
    binary main_arg2 main_v78 main_v79 (cmpi .slt : (⟨S8192, .i32⟩ : BufTy).Contents (Elt F) → (⟨S8192, .i32⟩ : BufTy).Contents (Elt F) → (⟨S8192, .i1⟩ : BufTy).Contents (Elt F)),
    nullary main_c_21 (constantI S_ 32 50000#32),
    unary main_c_21 main_v80 (broadcastInDim S8192 ![] bcast_S_S8192 : (⟨S_, .i32⟩ : BufTy).Contents (Elt F) → (⟨S8192, .i32⟩ : BufTy).Contents (Elt F)),
    binary main_arg2 main_v80 main_v81 (addi : (⟨S8192, .i32⟩ : BufTy).Contents (Elt F) → (⟨S8192, .i32⟩ : BufTy).Contents (Elt F) → (⟨S8192, .i32⟩ : BufTy).Contents (Elt F)),
    ternary main_v79 main_v81 main_arg2 main_v82 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v82 main_v83 (broadcastInDim S8192x1 ![0] bcast_S8192_S8192x1_0 : (⟨S8192, .i32⟩ : BufTy).Contents (Elt F) → (⟨S8192x1, .i32⟩ : BufTy).Contents (Elt F)),
    binary main_v76 main_v83 main_v84 ((fun x i => Host.gather gather_S50000x384_S8192x1_S8192x384_1_0_n_n_0_1_1384 x i) : (⟨S50000x384, .f32⟩ : BufTy).Contents (Elt F) → (⟨S8192x1, .i32⟩ : BufTy).Contents (Elt F) → (⟨S8192x384, .f32⟩ : BufTy).Contents (Elt F)),
    nullary main_c_22 (constantI S_ 32 0#32),
    unary main_c_22 main_v85 (broadcastInDim S8192 ![] bcast_S_S8192 : (⟨S_, .i32⟩ : BufTy).Contents (Elt F) → (⟨S8192, .i32⟩ : BufTy).Contents (Elt F)),
    binary main_arg3 main_v85 main_v86 (cmpi .slt : (⟨S8192, .i32⟩ : BufTy).Contents (Elt F) → (⟨S8192, .i32⟩ : BufTy).Contents (Elt F) → (⟨S8192, .i1⟩ : BufTy).Contents (Elt F)),
    nullary main_c_23 (constantI S_ 32 50000#32),
    unary main_c_23 main_v87 (broadcastInDim S8192 ![] bcast_S_S8192 : (⟨S_, .i32⟩ : BufTy).Contents (Elt F) → (⟨S8192, .i32⟩ : BufTy).Contents (Elt F)),
    binary main_arg3 main_v87 main_v88 (addi : (⟨S8192, .i32⟩ : BufTy).Contents (Elt F) → (⟨S8192, .i32⟩ : BufTy).Contents (Elt F) → (⟨S8192, .i32⟩ : BufTy).Contents (Elt F)),
    ternary main_v86 main_v88 main_arg3 main_v89 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v89 main_v90 (broadcastInDim S8192x1 ![0] bcast_S8192_S8192x1_0 : (⟨S8192, .i32⟩ : BufTy).Contents (Elt F) → (⟨S8192x1, .i32⟩ : BufTy).Contents (Elt F)),
    binary main_v76 main_v90 main_v91 ((fun x i => Host.gather gather_S50000x384_S8192x1_S8192x384_1_0_n_n_0_1_1384 x i) : (⟨S50000x384, .f32⟩ : BufTy).Contents (Elt F) → (⟨S8192x1, .i32⟩ : BufTy).Contents (Elt F) → (⟨S8192x384, .f32⟩ : BufTy).Contents (Elt F)),
    unary main_v91 main_v92 ((transpose S384x8192 [1, 0] · transposes_S8192x384_S384x8192_1_0) : (⟨S8192x384, .f32⟩ : BufTy).Contents (Elt F) → (⟨S384x8192, .f32⟩ : BufTy).Contents (Elt F)),
    binary main_v84 main_v92 main_v93 ((fun l r => Host.dotGeneral dot_S8192x384_S384x8192_S8192x8192_1_0_0_1_n_n none l r) : (⟨S8192x384, .f32⟩ : BufTy).Contents (Elt F) → (⟨S384x8192, .f32⟩ : BufTy).Contents (Elt F) → (⟨S8192x8192, .f32⟩ : BufTy).Contents (Elt F)) ]

/-- Operations 130 … 157. -/
abbrev C7 : List (HloOp τ sig (Elt F)) :=
  [ nullary main_c_24 (constantI S_ 32 0#32),
    unary main_c_24 main_v94 (broadcastInDim S8192 ![] bcast_S_S8192 : (⟨S_, .i32⟩ : BufTy).Contents (Elt F) → (⟨S8192, .i32⟩ : BufTy).Contents (Elt F)),
    binary main_arg2 main_v94 main_v95 (cmpi .slt : (⟨S8192, .i32⟩ : BufTy).Contents (Elt F) → (⟨S8192, .i32⟩ : BufTy).Contents (Elt F) → (⟨S8192, .i1⟩ : BufTy).Contents (Elt F)),
    nullary main_c_25 (constantI S_ 32 50000#32),
    unary main_c_25 main_v96 (broadcastInDim S8192 ![] bcast_S_S8192 : (⟨S_, .i32⟩ : BufTy).Contents (Elt F) → (⟨S8192, .i32⟩ : BufTy).Contents (Elt F)),
    binary main_arg2 main_v96 main_v97 (addi : (⟨S8192, .i32⟩ : BufTy).Contents (Elt F) → (⟨S8192, .i32⟩ : BufTy).Contents (Elt F) → (⟨S8192, .i32⟩ : BufTy).Contents (Elt F)),
    ternary main_v95 main_v97 main_arg2 main_v98 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v98 main_v99 (broadcastInDim S8192x1 ![0] bcast_S8192_S8192x1_0 : (⟨S8192, .i32⟩ : BufTy).Contents (Elt F) → (⟨S8192x1, .i32⟩ : BufTy).Contents (Elt F)),
    binary main_v77 main_v99 main_v100 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v100 main_v101 (broadcastInDim S8192x1 ![0] bcast_S8192_S8192x1_0 : (⟨S8192, .f32⟩ : BufTy).Contents (Elt F) → (⟨S8192x1, .f32⟩ : BufTy).Contents (Elt F)),
    nullary main_c_26 (constantI S_ 32 0#32),
    unary main_c_26 main_v102 (broadcastInDim S8192 ![] bcast_S_S8192 : (⟨S_, .i32⟩ : BufTy).Contents (Elt F) → (⟨S8192, .i32⟩ : BufTy).Contents (Elt F)),
    binary main_arg3 main_v102 main_v103 (cmpi .slt : (⟨S8192, .i32⟩ : BufTy).Contents (Elt F) → (⟨S8192, .i32⟩ : BufTy).Contents (Elt F) → (⟨S8192, .i1⟩ : BufTy).Contents (Elt F)),
    nullary main_c_27 (constantI S_ 32 50000#32),
    unary main_c_27 main_v104 (broadcastInDim S8192 ![] bcast_S_S8192 : (⟨S_, .i32⟩ : BufTy).Contents (Elt F) → (⟨S8192, .i32⟩ : BufTy).Contents (Elt F)),
    binary main_arg3 main_v104 main_v105 (addi : (⟨S8192, .i32⟩ : BufTy).Contents (Elt F) → (⟨S8192, .i32⟩ : BufTy).Contents (Elt F) → (⟨S8192, .i32⟩ : BufTy).Contents (Elt F)),
    ternary main_v103 main_v105 main_arg3 main_v106 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v106 main_v107 (broadcastInDim S8192x1 ![0] bcast_S8192_S8192x1_0 : (⟨S8192, .i32⟩ : BufTy).Contents (Elt F) → (⟨S8192x1, .i32⟩ : BufTy).Contents (Elt F)),
    binary main_v77 main_v107 main_v108 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v108 main_v109 (broadcastInDim S1x8192 ![1] bcast_S8192_S1x8192_1 : (⟨S8192, .f32⟩ : BufTy).Contents (Elt F) → (⟨S1x8192, .f32⟩ : BufTy).Contents (Elt F)),
    unary main_v101 main_v110 (broadcastInDim S8192x8192 ![0, 1] bcast_S8192x1_S8192x8192_0_1 : (⟨S8192x1, .f32⟩ : BufTy).Contents (Elt F) → (⟨S8192x8192, .f32⟩ : BufTy).Contents (Elt F)),
    unary main_v109 main_v111 (broadcastInDim S8192x8192 ![0, 1] bcast_S1x8192_S8192x8192_0_1 : (⟨S1x8192, .f32⟩ : BufTy).Contents (Elt F) → (⟨S8192x8192, .f32⟩ : BufTy).Contents (Elt F)),
    binary main_v110 main_v111 main_v112 (mulf : (⟨S8192x8192, .f32⟩ : BufTy).Contents (Elt F) → (⟨S8192x8192, .f32⟩ : BufTy).Contents (Elt F) → (⟨S8192x8192, .f32⟩ : BufTy).Contents (Elt F)),
    nullary main_cst_28 (constant S_ .f32 0x322BCC77#32),
    unary main_cst_28 main_v113 (broadcastInDim S8192x8192 ![] bcast_S_S8192x8192 : (⟨S_, .f32⟩ : BufTy).Contents (Elt F) → (⟨S8192x8192, .f32⟩ : BufTy).Contents (Elt F)),
    binary main_v112 main_v113 main_v114 (addf : (⟨S8192x8192, .f32⟩ : BufTy).Contents (Elt F) → (⟨S8192x8192, .f32⟩ : BufTy).Contents (Elt F) → (⟨S8192x8192, .f32⟩ : BufTy).Contents (Elt F)),
    binary main_v93 main_v114 main_v115 (Host.divf : (⟨S8192x8192, .f32⟩ : BufTy).Contents (Elt F) → (⟨S8192x8192, .f32⟩ : BufTy).Contents (Elt F) → (⟨S8192x8192, .f32⟩ : BufTy).Contents (Elt F)),
    binary main_arg0 main_arg4 main_v116 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Operations 158 … 176. -/
abbrev C8 : List (HloOp τ sig (Elt F)) :=
  [ unary main_arg5 main_v117 (broadcastInDim S1x64 ![1] bcast_S64_S1x64_1 : (⟨S64, .f32⟩ : BufTy).Contents (Elt F) → (⟨S1x64, .f32⟩ : BufTy).Contents (Elt F)),
    unary main_v117 main_v118 (broadcastInDim S50000x64 ![0, 1] bcast_S1x64_S50000x64_0_1 : (⟨S1x64, .f32⟩ : BufTy).Contents (Elt F) → (⟨S50000x64, .f32⟩ : BufTy).Contents (Elt F)),
    binary main_v116 main_v118 main_v119 (addf : (⟨S50000x64, .f32⟩ : BufTy).Contents (Elt F) → (⟨S50000x64, .f32⟩ : BufTy).Contents (Elt F) → (⟨S50000x64, .f32⟩ : BufTy).Contents (Elt F)),
    nullary main_c_29 (constantI S_ 32 0#32),
    unary main_c_29 main_v120 (broadcastInDim S800000 ![] bcast_S_S800000 : (⟨S_, .i32⟩ : BufTy).Contents (Elt F) → (⟨S800000, .i32⟩ : BufTy).Contents (Elt F)),
    binary main_v3 main_v120 main_v121 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v122 (broadcastInDim S800000 ![] bcast_S_S800000 : (⟨S_, .i32⟩ : BufTy).Contents (Elt F) → (⟨S800000, .i32⟩ : BufTy).Contents (Elt F)),
    binary main_v3 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v3 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_31 (constant S_ .f32 0x00000000#32),
    unary main_cst_31 main_v127 (broadcastInDim S50000x64 ![] bcast_S_S50000x64 : (⟨S_, .f32⟩ : BufTy).Contents (Elt F) → (⟨S50000x64, .f32⟩ : BufTy).Contents (Elt F)),
    unary main_v1 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v130 (broadcastInDim S50000x1 ![0] bcast_S50000_S50000x1_0 : (⟨S50000, .f32⟩ : BufTy).Contents (Elt F) → (⟨S50000x1, .f32⟩ : BufTy).Contents (Elt F)),
    unary main_v130 main_v131 (broadcastInDim S50000x64 ![0, 1] bcast_S50000x1_S50000x64_0_1 : (⟨S50000x1, .f32⟩ : BufTy).Contents (Elt F) → (⟨S50000x64, .f32⟩ : BufTy).Contents (Elt F)),
    binary main_v129 main_v131 main_v132 (mulf : (⟨S50000x64, .f32⟩ : BufTy).Contents (Elt F) → (⟨S50000x64, .f32⟩ : BufTy).Contents (Elt F) → (⟨S50000x64, .f32⟩ : BufTy).Contents (Elt F)) ]

/-- Operations 177 … 204. -/
abbrev C9 : List (HloOp τ sig (Elt F)) :=
  [ binary main_v119 main_v132 main_v133 (subf : (⟨S50000x64, .f32⟩ : BufTy).Contents (Elt F) → (⟨S50000x64, .f32⟩ : BufTy).Contents (Elt F) → (⟨S50000x64, .f32⟩ : BufTy).Contents (Elt F)),
    binary main_v133 main_v133 main_v134 (mulf : (⟨S50000x64, .f32⟩ : BufTy).Contents (Elt F) → (⟨S50000x64, .f32⟩ : BufTy).Contents (Elt F) → (⟨S50000x64, .f32⟩ : BufTy).Contents (Elt F)),
    nullary main_c_32 (constantI S_ 32 0#32),
    unary main_c_32 main_v135 (broadcastInDim S800000 ![] bcast_S_S800000 : (⟨S_, .i32⟩ : BufTy).Contents (Elt F) → (⟨S800000, .i32⟩ : BufTy).Contents (Elt F)),
    binary main_v3 main_v135 main_v136 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v137 (broadcastInDim S800000 ![] bcast_S_S800000 : (⟨S_, .i32⟩ : BufTy).Contents (Elt F) → (⟨S800000, .i32⟩ : BufTy).Contents (Elt F)),
    binary main_v3 main_v137 main_v138 (addi : (⟨S800000, .i32⟩ : BufTy).Contents (Elt F) → (⟨S800000, .i32⟩ : BufTy).Contents (Elt F) → (⟨S800000, .i32⟩ : BufTy).Contents (Elt F)),
    ternary main_v136 main_v138 main_v3 main_v139 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v139 main_v140 (broadcastInDim S800000x1 ![0] bcast_S800000_S800000x1_0 : (⟨S800000, .i32⟩ : BufTy).Contents (Elt F) → (⟨S800000x1, .i32⟩ : BufTy).Contents (Elt F)),
    binary main_v134 main_v140 main_v141 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_34 (constant S_ .f32 0x00000000#32),
    unary main_cst_34 main_v142 (broadcastInDim S50000x64 ![] bcast_S_S50000x64 : (⟨S_, .f32⟩ : BufTy).Contents (Elt F) → (⟨S50000x64, .f32⟩ : BufTy).Contents (Elt F)),
    unary main_v1 main_v143 (broadcastInDim S800000x1 ![0] bcast_S800000_S800000x1_0 : (⟨S800000, .i32⟩ : BufTy).Contents (Elt F) → (⟨S800000x1, .i32⟩ : BufTy).Contents (Elt F)),
    ternary main_v142 main_v143 main_v141 main_v144 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v145 (broadcastInDim S50000x1 ![0] bcast_S50000_S50000x1_0 : (⟨S50000, .f32⟩ : BufTy).Contents (Elt F) → (⟨S50000x1, .f32⟩ : BufTy).Contents (Elt F)),
    unary main_v145 main_v146 (broadcastInDim S50000x64 ![0, 1] bcast_S50000x1_S50000x64_0_1 : (⟨S50000x1, .f32⟩ : BufTy).Contents (Elt F) → (⟨S50000x64, .f32⟩ : BufTy).Contents (Elt F)),
    binary main_v144 main_v146 main_v147 (mulf : (⟨S50000x64, .f32⟩ : BufTy).Contents (Elt F) → (⟨S50000x64, .f32⟩ : BufTy).Contents (Elt F) → (⟨S50000x64, .f32⟩ : BufTy).Contents (Elt F)),
    nullary main_cst_35 (constant S_ .f32 0x00000000#32),
    unary main_cst_35 main_v148 (broadcastInDim S50000x64 ![] bcast_S_S50000x64 : (⟨S_, .f32⟩ : BufTy).Contents (Elt F) → (⟨S50000x64, .f32⟩ : BufTy).Contents (Elt F)),
    binary main_v147 main_v148 main_v149 (cmpf .oeq : (⟨S50000x64, .f32⟩ : BufTy).Contents (Elt F) → (⟨S50000x64, .f32⟩ : BufTy).Contents (Elt F) → (⟨S50000x64, .i1⟩ : BufTy).Contents (Elt F)),
    nullary main_cst_36 (constant S_ .f32 0x24E69595#32),
    unary main_cst_36 main_call4_v0 (id : (⟨S_, .f32⟩ : BufTy).Contents (Elt F) → (⟨S_, .f32⟩ : BufTy).Contents (Elt F)),
    unary main_call4_v0 main_call4_v1 ((broadcastInDim S50000x64 ![] bcast_S_S50000x64) : (⟨S_, .f32⟩ : BufTy).Contents (Elt F) → (⟨S50000x64, .f32⟩ : BufTy).Contents (Elt F)),
    ternary main_v149 main_call4_v1 main_v147 main_v150 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    unary main_v150 main_v151 (Host.sqrt : (⟨S50000x64, .f32⟩ : BufTy).Contents (Elt F) → (⟨S50000x64, .f32⟩ : BufTy).Contents (Elt F)),
    binary main_v119 main_v119 main_v152 (mulf : (⟨S50000x64, .f32⟩ : BufTy).Contents (Elt F) → (⟨S50000x64, .f32⟩ : BufTy).Contents (Elt F) → (⟨S50000x64, .f32⟩ : BufTy).Contents (Elt F)),
    binary main_v152 main_v119 main_v153 (mulf : (⟨S50000x64, .f32⟩ : BufTy).Contents (Elt F) → (⟨S50000x64, .f32⟩ : BufTy).Contents (Elt F) → (⟨S50000x64, .f32⟩ : BufTy).Contents (Elt F)) ]

/-- Operations 205 … 227. -/
abbrev C10 : List (HloOp τ sig (Elt F)) :=
  [ nullary main_c_37 (constantI S_ 32 0#32),
    unary main_c_37 main_v154 (broadcastInDim S800000 ![] bcast_S_S800000 : (⟨S_, .i32⟩ : BufTy).Contents (Elt F) → (⟨S800000, .i32⟩ : BufTy).Contents (Elt F)),
    binary main_v3 main_v154 main_v155 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v156 (broadcastInDim S800000 ![] bcast_S_S800000 : (⟨S_, .i32⟩ : BufTy).Contents (Elt F) → (⟨S800000, .i32⟩ : BufTy).Contents (Elt F)),
    binary main_v3 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v3 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_39 (constant S_ .f32 0x00000000#32),
    unary main_cst_39 main_v161 (broadcastInDim S50000x64 ![] bcast_S_S50000x64 : (⟨S_, .f32⟩ : BufTy).Contents (Elt F) → (⟨S50000x64, .f32⟩ : BufTy).Contents (Elt F)),
    unary main_v1 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v164 (broadcastInDim S50000x1 ![0] bcast_S50000_S50000x1_0 : (⟨S50000, .f32⟩ : BufTy).Contents (Elt F) → (⟨S50000x1, .f32⟩ : BufTy).Contents (Elt F)),
    unary main_v164 main_v165 (broadcastInDim S50000x64 ![0, 1] bcast_S50000x1_S50000x64_0_1 : (⟨S50000x1, .f32⟩ : BufTy).Contents (Elt F) → (⟨S50000x64, .f32⟩ : BufTy).Contents (Elt F)),
    binary main_v163 main_v165 main_v166 (mulf : (⟨S50000x64, .f32⟩ : BufTy).Contents (Elt F) → (⟨S50000x64, .f32⟩ : BufTy).Contents (Elt F) → (⟨S50000x64, .f32⟩ : BufTy).Contents (Elt F)),
    nullary main_cst_40 (constant S_ .f32 0x00000000#32),
    unary main_cst_40 main_v167 (broadcastInDim S50000x64 ![] bcast_S_S50000x64 : (⟨S_, .f32⟩ : BufTy).Contents (Elt F) → (⟨S50000x64, .f32⟩ : BufTy).Contents (Elt F)),
    binary main_v166 main_v167 main_v168 (cmpf .oeq : (⟨S50000x64, .f32⟩ : BufTy).Contents (Elt F) → (⟨S50000x64, .f32⟩ : BufTy).Contents (Elt F) → (⟨S50000x64, .i1⟩ : BufTy).Contents (Elt F)),
    nullary main_cst_41 (constant S_ .f32 0x24E69595#32),
    unary main_cst_41 main_call5_v0 (id : (⟨S_, .f32⟩ : BufTy).Contents (Elt F) → (⟨S_, .f32⟩ : BufTy).Contents (Elt F)),
    unary main_call5_v0 main_call5_v1 ((broadcastInDim S50000x64 ![] bcast_S_S50000x64) : (⟨S_, .f32⟩ : BufTy).Contents (Elt F) → (⟨S50000x64, .f32⟩ : BufTy).Contents (Elt F)),
    ternary main_v168 main_call5_v1 main_v166 main_v169 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

/-- Operations 228 … 246. -/
abbrev C11 : List (HloOp τ sig (Elt F)) :=
  [ unary main_v169 main_v170 (Host.sign : (⟨S50000x64, .f32⟩ : BufTy).Contents (Elt F) → (⟨S50000x64, .f32⟩ : BufTy).Contents (Elt F)),
    unary main_v169 main_v171 (Host.absf : (⟨S50000x64, .f32⟩ : BufTy).Contents (Elt F) → (⟨S50000x64, .f32⟩ : BufTy).Contents (Elt F)),
    nullary main_cst_42 (constant S_ .f32 0x3EAAAAAB#32),
    unary main_cst_42 main_v172 (broadcastInDim S50000x64 ![] bcast_S_S50000x64 : (⟨S_, .f32⟩ : BufTy).Contents (Elt F) → (⟨S50000x64, .f32⟩ : BufTy).Contents (Elt F)),
    binary main_v171 main_v172 main_v173 (Host.powf : (⟨S50000x64, .f32⟩ : BufTy).Contents (Elt F) → (⟨S50000x64, .f32⟩ : BufTy).Contents (Elt F) → (⟨S50000x64, .f32⟩ : BufTy).Contents (Elt F)),
    binary main_v170 main_v173 main_v174 (mulf : (⟨S50000x64, .f32⟩ : BufTy).Contents (Elt F) → (⟨S50000x64, .f32⟩ : BufTy).Contents (Elt F) → (⟨S50000x64, .f32⟩ : BufTy).Contents (Elt F)),
    nary ![main_v132, main_v151, main_v174] main_v175 (fun u => concatenate S50000x192 1 [⟨S50000x64, u 0⟩, ⟨S50000x64, u 1⟩, ⟨S50000x64, u 2⟩] concatenates_S50000x64_S50000x64_S50000x64_S50000x192_d1),
    binary main_v175 main_arg6 main_v176 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg7 main_v177 (broadcastInDim S1x64 ![1] bcast_S64_S1x64_1 : (⟨S64, .f32⟩ : BufTy).Contents (Elt F) → (⟨S1x64, .f32⟩ : BufTy).Contents (Elt F)),
    unary main_v177 main_v178 (broadcastInDim S50000x64 ![0, 1] bcast_S1x64_S50000x64_0_1 : (⟨S1x64, .f32⟩ : BufTy).Contents (Elt F) → (⟨S50000x64, .f32⟩ : BufTy).Contents (Elt F)),
    binary main_v176 main_v178 main_v179 (addf : (⟨S50000x64, .f32⟩ : BufTy).Contents (Elt F) → (⟨S50000x64, .f32⟩ : BufTy).Contents (Elt F) → (⟨S50000x64, .f32⟩ : BufTy).Contents (Elt F)),
    nullary main_cst_43 (constant S_ .f32 0x00000000#32),
    binary main_v179 main_cst_43 main_v180 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_v180 main_v181 (broadcastInDim S1x64 ![1] bcast_S64_S1x64_1 : (⟨S64, .f32⟩ : BufTy).Contents (Elt F) → (⟨S1x64, .f32⟩ : BufTy).Contents (Elt F)),
    nullary main_cst_44 (constant S_ .f32 0x47435000#32),
    unary main_cst_44 main_v182 (broadcastInDim S1x64 ![] bcast_S_S1x64 : (⟨S_, .f32⟩ : BufTy).Contents (Elt F) → (⟨S1x64, .f32⟩ : BufTy).Contents (Elt F)),
    binary main_v181 main_v182 main_v183 (Host.divf : (⟨S1x64, .f32⟩ : BufTy).Contents (Elt F) → (⟨S1x64, .f32⟩ : BufTy).Contents (Elt F) → (⟨S1x64, .f32⟩ : BufTy).Contents (Elt F)),
    unary main_v183 main_v184 (broadcastInDim S50000x64 ![0, 1] bcast_S1x64_S50000x64_0_1 : (⟨S1x64, .f32⟩ : BufTy).Contents (Elt F) → (⟨S50000x64, .f32⟩ : BufTy).Contents (Elt F)),
    binary main_v179 main_v184 main_v185 (subf : (⟨S50000x64, .f32⟩ : BufTy).Contents (Elt F) → (⟨S50000x64, .f32⟩ : BufTy).Contents (Elt F) → (⟨S50000x64, .f32⟩ : BufTy).Contents (Elt F)) ]

/-- Operations 247 … 270. -/
abbrev C12 : List (HloOp τ sig (Elt F)) :=
  [ binary main_v185 main_v185 main_call6_v0 (mulf : (⟨S50000x64, .f32⟩ : BufTy).Contents (Elt F) → (⟨S50000x64, .f32⟩ : BufTy).Contents (Elt F) → (⟨S50000x64, .f32⟩ : BufTy).Contents (Elt F)),
    nullary main_call6_cst ((constant S_ .f32 0x00000000#32) : (⟨S_, .f32⟩ : BufTy).Contents (Elt F)),
    binary main_call6_v0 main_call6_cst main_call6_v1 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_call6_v1 main_v186 (Host.sqrt : (⟨S50000, .f32⟩ : BufTy).Contents (Elt F) → (⟨S50000, .f32⟩ : BufTy).Contents (Elt F)),
    nullary main_c_45 (constantI S_ 32 0#32),
    unary main_c_45 main_v187 (broadcastInDim S8192 ![] bcast_S_S8192 : (⟨S_, .i32⟩ : BufTy).Contents (Elt F) → (⟨S8192, .i32⟩ : BufTy).Contents (Elt F)),
    binary main_arg2 main_v187 main_v188 (cmpi .slt : (⟨S8192, .i32⟩ : BufTy).Contents (Elt F) → (⟨S8192, .i32⟩ : BufTy).Contents (Elt F) → (⟨S8192, .i1⟩ : BufTy).Contents (Elt F)),
    nullary main_c_46 (constantI S_ 32 50000#32),
    unary main_c_46 main_v189 (broadcastInDim S8192 ![] bcast_S_S8192 : (⟨S_, .i32⟩ : BufTy).Contents (Elt F) → (⟨S8192, .i32⟩ : BufTy).Contents (Elt F)),
    binary main_arg2 main_v189 main_v190 (addi : (⟨S8192, .i32⟩ : BufTy).Contents (Elt F) → (⟨S8192, .i32⟩ : BufTy).Contents (Elt F) → (⟨S8192, .i32⟩ : BufTy).Contents (Elt F)),
    ternary main_v188 main_v190 main_arg2 main_v191 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v191 main_v192 (broadcastInDim S8192x1 ![0] bcast_S8192_S8192x1_0 : (⟨S8192, .i32⟩ : BufTy).Contents (Elt F) → (⟨S8192x1, .i32⟩ : BufTy).Contents (Elt F)),
    binary main_v185 main_v192 main_v193 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    nullary main_c_47 (constantI S_ 32 0#32),
    unary main_c_47 main_v194 (broadcastInDim S8192 ![] bcast_S_S8192 : (⟨S_, .i32⟩ : BufTy).Contents (Elt F) → (⟨S8192, .i32⟩ : BufTy).Contents (Elt F)),
    binary main_arg3 main_v194 main_v195 (cmpi .slt : (⟨S8192, .i32⟩ : BufTy).Contents (Elt F) → (⟨S8192, .i32⟩ : BufTy).Contents (Elt F) → (⟨S8192, .i1⟩ : BufTy).Contents (Elt F)),
    nullary main_c_48 (constantI S_ 32 50000#32),
    unary main_c_48 main_v196 (broadcastInDim S8192 ![] bcast_S_S8192 : (⟨S_, .i32⟩ : BufTy).Contents (Elt F) → (⟨S8192, .i32⟩ : BufTy).Contents (Elt F)),
    binary main_arg3 main_v196 main_v197 (addi : (⟨S8192, .i32⟩ : BufTy).Contents (Elt F) → (⟨S8192, .i32⟩ : BufTy).Contents (Elt F) → (⟨S8192, .i32⟩ : BufTy).Contents (Elt F)),
    ternary main_v195 main_v197 main_arg3 main_v198 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v198 main_v199 (broadcastInDim S8192x1 ![0] bcast_S8192_S8192x1_0 : (⟨S8192, .i32⟩ : BufTy).Contents (Elt F) → (⟨S8192x1, .i32⟩ : BufTy).Contents (Elt F)),
    binary main_v185 main_v199 main_v200 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    unary main_v200 main_v201 ((transpose S64x8192 [1, 0] · transposes_S8192x64_S64x8192_1_0) : (⟨S8192x64, .f32⟩ : BufTy).Contents (Elt F) → (⟨S64x8192, .f32⟩ : BufTy).Contents (Elt F)),
    binary main_v193 main_v201 main_v202 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)) ]

/-- Operations 271 … 293. -/
abbrev C13 : List (HloOp τ sig (Elt F)) :=
  [ nullary main_c_49 (constantI S_ 32 0#32),
    unary main_c_49 main_v203 (broadcastInDim S8192 ![] bcast_S_S8192 : (⟨S_, .i32⟩ : BufTy).Contents (Elt F) → (⟨S8192, .i32⟩ : BufTy).Contents (Elt F)),
    binary main_arg2 main_v203 main_v204 (cmpi .slt : (⟨S8192, .i32⟩ : BufTy).Contents (Elt F) → (⟨S8192, .i32⟩ : BufTy).Contents (Elt F) → (⟨S8192, .i1⟩ : BufTy).Contents (Elt F)),
    nullary main_c_50 (constantI S_ 32 50000#32),
    unary main_c_50 main_v205 (broadcastInDim S8192 ![] bcast_S_S8192 : (⟨S_, .i32⟩ : BufTy).Contents (Elt F) → (⟨S8192, .i32⟩ : BufTy).Contents (Elt F)),
    binary main_arg2 main_v205 main_v206 (addi : (⟨S8192, .i32⟩ : BufTy).Contents (Elt F) → (⟨S8192, .i32⟩ : BufTy).Contents (Elt F) → (⟨S8192, .i32⟩ : BufTy).Contents (Elt F)),
    ternary main_v204 main_v206 main_arg2 main_v207 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v207 main_v208 (broadcastInDim S8192x1 ![0] bcast_S8192_S8192x1_0 : (⟨S8192, .i32⟩ : BufTy).Contents (Elt F) → (⟨S8192x1, .i32⟩ : BufTy).Contents (Elt F)),
    binary main_v186 main_v208 main_v209 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v209 main_v210 (broadcastInDim S8192x1 ![0] bcast_S8192_S8192x1_0 : (⟨S8192, .f32⟩ : BufTy).Contents (Elt F) → (⟨S8192x1, .f32⟩ : BufTy).Contents (Elt F)),
    nullary main_c_51 (constantI S_ 32 0#32),
    unary main_c_51 main_v211 (broadcastInDim S8192 ![] bcast_S_S8192 : (⟨S_, .i32⟩ : BufTy).Contents (Elt F) → (⟨S8192, .i32⟩ : BufTy).Contents (Elt F)),
    binary main_arg3 main_v211 main_v212 (cmpi .slt : (⟨S8192, .i32⟩ : BufTy).Contents (Elt F) → (⟨S8192, .i32⟩ : BufTy).Contents (Elt F) → (⟨S8192, .i1⟩ : BufTy).Contents (Elt F)),
    nullary main_c_52 (constantI S_ 32 50000#32),
    unary main_c_52 main_v213 (broadcastInDim S8192 ![] bcast_S_S8192 : (⟨S_, .i32⟩ : BufTy).Contents (Elt F) → (⟨S8192, .i32⟩ : BufTy).Contents (Elt F)),
    binary main_arg3 main_v213 main_v214 (addi : (⟨S8192, .i32⟩ : BufTy).Contents (Elt F) → (⟨S8192, .i32⟩ : BufTy).Contents (Elt F) → (⟨S8192, .i32⟩ : BufTy).Contents (Elt F)),
    ternary main_v212 main_v214 main_arg3 main_v215 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v215 main_v216 (broadcastInDim S8192x1 ![0] bcast_S8192_S8192x1_0 : (⟨S8192, .i32⟩ : BufTy).Contents (Elt F) → (⟨S8192x1, .i32⟩ : BufTy).Contents (Elt F)),
    binary main_v186 main_v216 main_v217 ((fun x i => Host.gather gather_S50000_S8192x1_S8192_n_0_n_n_0_1_1 x i) : (⟨S50000, .f32⟩ : BufTy).Contents (Elt F) → (⟨S8192x1, .i32⟩ : BufTy).Contents (Elt F) → (⟨S8192, .f32⟩ : BufTy).Contents (Elt F)),
    unary main_v217 main_v218 (broadcastInDim S1x8192 ![1] bcast_S8192_S1x8192_1 : (⟨S8192, .f32⟩ : BufTy).Contents (Elt F) → (⟨S1x8192, .f32⟩ : BufTy).Contents (Elt F)),
    unary main_v210 main_v219 (broadcastInDim S8192x8192 ![0, 1] bcast_S8192x1_S8192x8192_0_1 : (⟨S8192x1, .f32⟩ : BufTy).Contents (Elt F) → (⟨S8192x8192, .f32⟩ : BufTy).Contents (Elt F)),
    unary main_v218 main_v220 (broadcastInDim S8192x8192 ![0, 1] bcast_S1x8192_S8192x8192_0_1 : (⟨S1x8192, .f32⟩ : BufTy).Contents (Elt F) → (⟨S8192x8192, .f32⟩ : BufTy).Contents (Elt F)),
    binary main_v219 main_v220 main_v221 (mulf : (⟨S8192x8192, .f32⟩ : BufTy).Contents (Elt F) → (⟨S8192x8192, .f32⟩ : BufTy).Contents (Elt F) → (⟨S8192x8192, .f32⟩ : BufTy).Contents (Elt F)) ]

/-- Operations 294 … 304. -/
abbrev C14 : List (HloOp τ sig (Elt F)) :=
  [ nullary main_cst_53 (constant S_ .f32 0x322BCC77#32),
    unary main_cst_53 main_v222 (broadcastInDim S8192x8192 ![] bcast_S_S8192x8192 : (⟨S_, .f32⟩ : BufTy).Contents (Elt F) → (⟨S8192x8192, .f32⟩ : BufTy).Contents (Elt F)),
    binary main_v221 main_v222 main_v223 (addf : (⟨S8192x8192, .f32⟩ : BufTy).Contents (Elt F) → (⟨S8192x8192, .f32⟩ : BufTy).Contents (Elt F) → (⟨S8192x8192, .f32⟩ : BufTy).Contents (Elt F)),
    binary main_v202 main_v223 main_v224 (Host.divf : (⟨S8192x8192, .f32⟩ : BufTy).Contents (Elt F) → (⟨S8192x8192, .f32⟩ : BufTy).Contents (Elt F) → (⟨S8192x8192, .f32⟩ : BufTy).Contents (Elt F)),
    binary main_v224 main_v115 main_v225 (subf : (⟨S8192x8192, .f32⟩ : BufTy).Contents (Elt F) → (⟨S8192x8192, .f32⟩ : BufTy).Contents (Elt F) → (⟨S8192x8192, .f32⟩ : BufTy).Contents (Elt F)),
    binary main_v225 main_v225 main_v226 (mulf : (⟨S8192x8192, .f32⟩ : BufTy).Contents (Elt F) → (⟨S8192x8192, .f32⟩ : BufTy).Contents (Elt F) → (⟨S8192x8192, .f32⟩ : BufTy).Contents (Elt F)),
    nullary main_cst_54 (constant S_ .f32 0x00000000#32),
    binary main_v226 main_cst_54 main_v227 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_55 (constant S_ .f32 0x4C800000#32),
    binary main_v227 main_cst_55 main_v228 (Host.divf : (⟨S_, .f32⟩ : BufTy).Contents (Elt F) → (⟨S_, .f32⟩ : BufTy).Contents (Elt F) → (⟨S_, .f32⟩ : BufTy).Contents (Elt F)),
    unary main_v228 main_v229 (Host.sqrt : (⟨S_, .f32⟩ : BufTy).Contents (Elt F) → (⟨S_, .f32⟩ : BufTy).Contents (Elt F)) ]

set_option maxRecDepth 16384 in
set_option maxHeartbeats 4000000 in
/-- The list is its stretches in order. -/
theorem ops_split : (ops : List (HloOp τ sig (Elt F))) = C1 ++ (C2 ++ (C3 ++ (C4 ++ (C5 ++ (C6 ++ (C7 ++ (C8 ++ (C9 ++ (C10 ++ (C11 ++ (C12 ++ (C13 ++ (C14))))))))))))) := rfl

/-- The fold over two stretches in a row is the fold over the second of the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The two three-operand joins through plain functions

A join's operands are then ordinary arguments, which a simplification pass rewrites; inside the list of
shape-tagged blocks it does not. -/

/-- Three 128-column blocks side by side. -/
def cat384 (a b c : (⟨S50000x128, .f32⟩ : BufTy).Contents (Elt F)) : (⟨S50000x384, .f32⟩ : BufTy).Contents (Elt F) :=
  concatenate S50000x384 1 [⟨S50000x128, a⟩, ⟨S50000x128, b⟩, ⟨S50000x128, c⟩] concatenates_S50000x128_S50000x128_S50000x128_S50000x384_d1
/-- Three 64-column blocks side by side. -/
def cat192 (a b c : (⟨S50000x64, .f32⟩ : BufTy).Contents (Elt F)) : (⟨S50000x192, .f32⟩ : BufTy).Contents (Elt F) :=
  concatenate S50000x192 1 [⟨S50000x64, a⟩, ⟨S50000x64, b⟩, ⟨S50000x64, c⟩] concatenates_S50000x64_S50000x64_S50000x64_S50000x192_d1

theorem join_v70 (hxs hy) (G : Valuation τ sig (Elt F)) :
    (nary (τ := τ) ![main_v27, main_v46, main_v69] main_v70 (fun u => concatenate S50000x384 1 [⟨S50000x128, u 0⟩, ⟨S50000x128, u 1⟩, ⟨S50000x128, u 2⟩] concatenates_S50000x128_S50000x128_S50000x128_S50000x384_d1) hxs hy).result G (no_index (Proc.devRef .tc main_v70))
      = cat384 (G (Proc.devRef .tc main_v27)) (G (Proc.devRef .tc main_v46)) (G (Proc.devRef .tc main_v69)) :=
  nary_result _ _ _ hxs hy G

theorem join_v175 (hxs hy) (G : Valuation τ sig (Elt F)) :
    (nary (τ := τ) ![main_v132, main_v151, main_v174] main_v175 (fun u => concatenate S50000x192 1 [⟨S50000x64, u 0⟩, ⟨S50000x64, u 1⟩, ⟨S50000x64, u 2⟩] concatenates_S50000x64_S50000x64_S50000x64_S50000x192_d1) hxs hy).result G (no_index (Proc.devRef .tc main_v175))
      = cat192 (G (Proc.devRef .tc main_v132)) (G (Proc.devRef .tc main_v151)) (G (Proc.devRef .tc main_v174)) :=
  nary_result _ _ _ hxs hy G

/-- The fold of a stretch of operations read at one buffer, as one simplification pass. -/
macro "stage_pass" : tactic =>
  `(tactic| (simp (disch := decide) only [after_cons, after_nil,
      nullary_result', unary_result', binary_result', ternary_result', reshape_result', join_v70, join_v175,
      nullary_result_ne', unary_result_ne', binary_result_ne', ternary_result_ne', reshape_result_ne', nary_result_ne']))

variable (m : (ℓ : Loc nD τ sig) → Buf (Elt F) ℓ)

/-! ## The contents after each stretch -/

/-- Core `c`'s buffer contents after the first stretch, from the launch contents. -/
@[irreducible] def V1 (c : Dev nD) : Valuation τ sig (Elt F) := after C1 (launchContents m c)
/-- After stretch 2. -/
@[irreducible] def V2 (c : Dev nD) : Valuation τ sig (Elt F) := after C2 (V1 m c)
/-- After stretch 3. -/
@[irreducible] def V3 (c : Dev nD) : Valuation τ sig (Elt F) := after C3 (V2 m c)
/-- After stretch 4. -/
@[irreducible] def V4 (c : Dev nD) : Valuation τ sig (Elt F) := after C4 (V3 m c)
/-- After stretch 5. -/
@[irreducible] def V5 (c : Dev nD) : Valuation τ sig (Elt F) := after C5 (V4 m c)
/-- After stretch 6. -/
@[irreducible] def V6 (c : Dev nD) : Valuation τ sig (Elt F) := after C6 (V5 m c)
/-- After stretch 7. -/
@[irreducible] def V7 (c : Dev nD) : Valuation τ sig (Elt F) := after C7 (V6 m c)
/-- After stretch 8. -/
@[irreducible] def V8 (c : Dev nD) : Valuation τ sig (Elt F) := after C8 (V7 m c)
/-- After stretch 9. -/
@[irreducible] def V9 (c : Dev nD) : Valuation τ sig (Elt F) := after C9 (V8 m c)
/-- After stretch 10. -/
@[irreducible] def V10 (c : Dev nD) : Valuation τ sig (Elt F) := after C10 (V9 m c)
/-- After stretch 11. -/
@[irreducible] def V11 (c : Dev nD) : Valuation τ sig (Elt F) := after C11 (V10 m c)
/-- After stretch 12. -/
@[irreducible] def V12 (c : Dev nD) : Valuation τ sig (Elt F) := after C12 (V11 m c)
/-- After stretch 13. -/
@[irreducible] def V13 (c : Dev nD) : Valuation τ sig (Elt F) := after C13 (V12 m c)
/-- After stretch 14. -/
@[irreducible] def V14 (c : Dev nD) : Valuation τ sig (Elt F) := after C14 (V13 m c)

/-- The fold of all the operations is the contents after the last stretch. -/
theorem after_ops (c : Dev nD) : after (ops (F := F)) (launchContents m c) = V14 m c := by
  unfold V14 V13 V12 V11 V10 V9 V8 V7 V6 V5 V4 V3 V2 V1
  rw [ops_split]
  simp only [after_app]

/-! ## The arguments are written by no operation -/

set_option maxRecDepth 16384 in
set_option maxHeartbeats 8000000 in
theorem keep_arg0 (c : Dev nD) : after (ops (F := F)) (launchContents m c) (Proc.devRef .tc main_arg0) = m ((c.tc : Thread nD τ).loc main_arg0) := by
  stage_pass <;> rfl
set_option maxRecDepth 16384 in
set_option maxHeartbeats 8000000 in
theorem keep_arg1 (c : Dev nD) : after (ops (F := F)) (launchContents m c) (Proc.devRef .tc main_arg1) = m ((c.tc : Thread nD τ).loc main_arg1) := by
  stage_pass <;> rfl
set_option maxRecDepth 16384 in
set_option maxHeartbeats 8000000 in
theorem keep_arg2 (c : Dev nD) : after (ops (F := F)) (launchContents m c) (Proc.devRef .tc main_arg2) = m ((c.tc : Thread nD τ).loc main_arg2) := by
  stage_pass <;> rfl
set_option maxRecDepth 16384 in
set_option maxHeartbeats 8000000 in
theorem keep_arg3 (c : Dev nD) : after (ops (F := F)) (launchContents m c) (Proc.devRef .tc main_arg3) = m ((c.tc : Thread nD τ).loc main_arg3) := by
  stage_pass <;> rfl
set_option maxRecDepth 16384 in
set_option maxHeartbeats 8000000 in
theorem keep_arg4 (c : Dev nD) : after (ops (F := F)) (launchContents m c) (Proc.devRef .tc main_arg4) = m ((c.tc : Thread nD τ).loc main_arg4) := by
  stage_pass <;> rfl
set_option maxRecDepth 16384 in
set_option maxHeartbeats 8000000 in
theorem keep_arg5 (c : Dev nD) : after (ops (F := F)) (launchContents m c) (Proc.devRef .tc main_arg5) = m ((c.tc : Thread nD τ).loc main_arg5) := by
  stage_pass <;> rfl
set_option maxRecDepth 16384 in
set_option maxHeartbeats 8000000 in
theorem keep_arg6 (c : Dev nD) : after (ops (F := F)) (launchContents m c) (Proc.devRef .tc main_arg6) = m ((c.tc : Thread nD τ).loc main_arg6) := by
  stage_pass <;> rfl
set_option maxRecDepth 16384 in
set_option maxHeartbeats 8000000 in
theorem keep_arg7 (c : Dev nD) : after (ops (F := F)) (launchContents m c) (Proc.devRef .tc main_arg7) = m ((c.tc : Thread nD τ).loc main_arg7) := by
  stage_pass <;> rfl

/-! ## Stage by stage: what each buffer still read later holds after each stretch -/

/-! ### Stretch 1 -/

set_option maxRecDepth 16384 in
set_option maxHeartbeats 1000000 in
theorem s1_main_v1 (c : Dev nD) : V1 m c (Proc.devRef .tc main_v1) = ReadP.val_main_v1 (F := F) (m ((c.tc : Thread nD τ).loc main_arg1)) := by
  unfold V1
  stage_pass <;> rfl
set_option maxRecDepth 16384 in
set_option maxHeartbeats 1000000 in
theorem s1_main_v3 (c : Dev nD) : V1 m c (Proc.devRef .tc main_v3) = ReadP.val_main_v3 (F := F) (m ((c.tc : Thread nD τ).loc main_arg1)) := by
  unfold V1
  stage_pass <;> rfl
set_option maxRecDepth 16384 in
set_option maxHeartbeats 1000000 in
theorem s1_main_arg0 (c : Dev nD) : V1 m c (Proc.devRef .tc main_arg0) = m ((c.tc : Thread nD τ).loc main_arg0) := by
  unfold V1
  stage_pass <;> rfl
set_option maxRecDepth 16384 in
set_option maxHeartbeats 1000000 in
theorem s1_main_v14 (c : Dev nD) : V1 m c (Proc.devRef .tc main_v14) = ReadP.val_main_v14 (F := F) (m ((c.tc : Thread nD τ).loc main_arg1)) := by
  unfold V1
  stage_pass <;> rfl
set_option maxRecDepth 16384 in
set_option maxHeartbeats 1000000 in
theorem s1_main_arg2 (c : Dev nD) : V1 m c (Proc.devRef .tc main_arg2) = m ((c.tc : Thread nD τ).loc main_arg2) := by
  unfold V1
  stage_pass <;> rfl
set_option maxRecDepth 16384 in
set_option maxHeartbeats 1000000 in
theorem s1_main_arg3 (c : Dev nD) : V1 m c (Proc.devRef .tc main_arg3) = m ((c.tc : Thread nD τ).loc main_arg3) := by
  unfold V1
  stage_pass <;> rfl
set_option maxRecDepth 16384 in
set_option maxHeartbeats 1000000 in
theorem s1_main_arg4 (c : Dev nD) : V1 m c (Proc.devRef .tc main_arg4) = m ((c.tc : Thread nD τ).loc main_arg4) := by
  unfold V1
  stage_pass <;> rfl
set_option maxRecDepth 16384 in
set_option maxHeartbeats 1000000 in
theorem s1_main_arg5 (c : Dev nD) : V1 m c (Proc.devRef .tc main_arg5) = m ((c.tc : Thread nD τ).loc main_arg5) := by
  unfold V1
  stage_pass <;> rfl
set_option maxRecDepth 16384 in
set_option maxHeartbeats 1000000 in
theorem s1_main_arg6 (c : Dev nD) : V1 m c (Proc.devRef .tc main_arg6) = m ((c.tc : Thread nD τ).loc main_arg6) := by
  unfold V1
  stage_pass <;> rfl
set_option maxRecDepth 16384 in
set_option maxHeartbeats 1000000 in
theorem s1_main_arg7 (c : Dev nD) : V1 m c (Proc.devRef .tc main_arg7) = m ((c.tc : Thread nD τ).loc main_arg7) := by
  unfold V1
  stage_pass <;> rfl

/-! ### Stretch 2 -/

set_option maxRecDepth 16384 in
set_option maxHeartbeats 1000000 in
theorem s2_main_v1 (c : Dev nD) : V2 m c (Proc.devRef .tc main_v1) = ReadP.val_main_v1 (F := F) (m ((c.tc : Thread nD τ).loc main_arg1)) := by
  unfold V2
  stage_pass <;> exact s1_main_v1 m c
set_option maxRecDepth 16384 in
set_option maxHeartbeats 1000000 in
theorem s2_main_v3 (c : Dev nD) : V2 m c (Proc.devRef .tc main_v3) = ReadP.val_main_v3 (F := F) (m ((c.tc : Thread nD τ).loc main_arg1)) := by
  unfold V2
  stage_pass <;> exact s1_main_v3 m c
set_option maxRecDepth 16384 in
set_option maxHeartbeats 1000000 in
theorem s2_main_arg0 (c : Dev nD) : V2 m c (Proc.devRef .tc main_arg0) = m ((c.tc : Thread nD τ).loc main_arg0) := by
  unfold V2
  stage_pass <;> exact s1_main_arg0 m c
set_option maxRecDepth 16384 in
set_option maxHeartbeats 1000000 in
theorem s2_main_v14 (c : Dev nD) : V2 m c (Proc.devRef .tc main_v14) = ReadP.val_main_v14 (F := F) (m ((c.tc : Thread nD τ).loc main_arg1)) := by
  unfold V2
  stage_pass <;> exact s1_main_v14 m c
set_option maxRecDepth 16384 in
set_option maxHeartbeats 1000000 in
theorem s2_main_v27 (c : Dev nD) : V2 m c (Proc.devRef .tc main_v27) = ReadP.val_main_v27 (F := F) (m ((c.tc : Thread nD τ).loc main_arg0)) (m ((c.tc : Thread nD τ).loc main_arg1)) := by
  unfold V2
  stage_pass
  simp only [s1_main_v1 m c, s1_main_arg0 m c, s1_main_v3 m c, s1_main_v14 m c] <;> rfl
set_option maxRecDepth 16384 in
set_option maxHeartbeats 1000000 in
theorem s2_main_arg2 (c : Dev nD) : V2 m c (Proc.devRef .tc main_arg2) = m ((c.tc : Thread nD τ).loc main_arg2) := by
  unfold V2
  stage_pass <;> exact s1_main_arg2 m c
set_option maxRecDepth 16384 in
set_option maxHeartbeats 1000000 in
theorem s2_main_arg3 (c : Dev nD) : V2 m c (Proc.devRef .tc main_arg3) = m ((c.tc : Thread nD τ).loc main_arg3) := by
  unfold V2
  stage_pass <;> exact s1_main_arg3 m c
set_option maxRecDepth 16384 in
set_option maxHeartbeats 1000000 in
theorem s2_main_arg4 (c : Dev nD) : V2 m c (Proc.devRef .tc main_arg4) = m ((c.tc : Thread nD τ).loc main_arg4) := by
  unfold V2
  stage_pass <;> exact s1_main_arg4 m c
set_option maxRecDepth 16384 in
set_option maxHeartbeats 1000000 in
theorem s2_main_arg5 (c : Dev nD) : V2 m c (Proc.devRef .tc main_arg5) = m ((c.tc : Thread nD τ).loc main_arg5) := by
  unfold V2
  stage_pass <;> exact s1_main_arg5 m c
set_option maxRecDepth 16384 in
set_option maxHeartbeats 1000000 in
theorem s2_main_arg6 (c : Dev nD) : V2 m c (Proc.devRef .tc main_arg6) = m ((c.tc : Thread nD τ).loc main_arg6) := by
  unfold V2
  stage_pass <;> exact s1_main_arg6 m c
set_option maxRecDepth 16384 in
set_option maxHeartbeats 1000000 in
theorem s2_main_arg7 (c : Dev nD) : V2 m c (Proc.devRef .tc main_arg7) = m ((c.tc : Thread nD τ).loc main_arg7) := by
  unfold V2
  stage_pass <;> exact s1_main_arg7 m c

/-! ### Stretch 3 -/

set_option maxRecDepth 16384 in
set_option maxHeartbeats 1000000 in
theorem s3_main_v1 (c : Dev nD) : V3 m c (Proc.devRef .tc main_v1) = ReadP.val_main_v1 (F := F) (m ((c.tc : Thread nD τ).loc main_arg1)) := by
  unfold V3
  stage_pass <;> exact s2_main_v1 m c
set_option maxRecDepth 16384 in
set_option maxHeartbeats 1000000 in
theorem s3_main_v3 (c : Dev nD) : V3 m c (Proc.devRef .tc main_v3) = ReadP.val_main_v3 (F := F) (m ((c.tc : Thread nD τ).loc main_arg1)) := by
  unfold V3
  stage_pass <;> exact s2_main_v3 m c
set_option maxRecDepth 16384 in
set_option maxHeartbeats 1000000 in
theorem s3_main_arg0 (c : Dev nD) : V3 m c (Proc.devRef .tc main_arg0) = m ((c.tc : Thread nD τ).loc main_arg0) := by
  unfold V3
  stage_pass <;> exact s2_main_arg0 m c
set_option maxRecDepth 16384 in
set_option maxHeartbeats 1000000 in
theorem s3_main_v14 (c : Dev nD) : V3 m c (Proc.devRef .tc main_v14) = ReadP.val_main_v14 (F := F) (m ((c.tc : Thread nD τ).loc main_arg1)) := by
  unfold V3
  stage_pass <;> exact s2_main_v14 m c
set_option maxRecDepth 16384 in
set_option maxHeartbeats 1000000 in
theorem s3_main_v27 (c : Dev nD) : V3 m c (Proc.devRef .tc main_v27) = ReadP.val_main_v27 (F := F) (m ((c.tc : Thread nD τ).loc main_arg0)) (m ((c.tc : Thread nD τ).loc main_arg1)) := by
  unfold V3
  stage_pass <;> exact s2_main_v27 m c
set_option maxRecDepth 16384 in
set_option maxHeartbeats 1000000 in
theorem s3_main_v46 (c : Dev nD) : V3 m c (Proc.devRef .tc main_v46) = ReadP.val_main_v46 (F := F) (m ((c.tc : Thread nD τ).loc main_arg0)) (m ((c.tc : Thread nD τ).loc main_arg1)) := by
  unfold V3
  stage_pass
  simp only [s2_main_v1 m c, s2_main_arg0 m c, s2_main_v27 m c, s2_main_v3 m c, s2_main_v14 m c] <;> rfl
set_option maxRecDepth 16384 in
set_option maxHeartbeats 1000000 in
theorem s3_main_arg2 (c : Dev nD) : V3 m c (Proc.devRef .tc main_arg2) = m ((c.tc : Thread nD τ).loc main_arg2) := by
  unfold V3
  stage_pass <;> exact s2_main_arg2 m c
set_option maxRecDepth 16384 in
set_option maxHeartbeats 1000000 in
theorem s3_main_arg3 (c : Dev nD) : V3 m c (Proc.devRef .tc main_arg3) = m ((c.tc : Thread nD τ).loc main_arg3) := by
  unfold V3
  stage_pass <;> exact s2_main_arg3 m c
set_option maxRecDepth 16384 in
set_option maxHeartbeats 1000000 in
theorem s3_main_arg4 (c : Dev nD) : V3 m c (Proc.devRef .tc main_arg4) = m ((c.tc : Thread nD τ).loc main_arg4) := by
  unfold V3
  stage_pass <;> exact s2_main_arg4 m c
set_option maxRecDepth 16384 in
set_option maxHeartbeats 1000000 in
theorem s3_main_arg5 (c : Dev nD) : V3 m c (Proc.devRef .tc main_arg5) = m ((c.tc : Thread nD τ).loc main_arg5) := by
  unfold V3
  stage_pass <;> exact s2_main_arg5 m c
set_option maxRecDepth 16384 in
set_option maxHeartbeats 1000000 in
theorem s3_main_arg6 (c : Dev nD) : V3 m c (Proc.devRef .tc main_arg6) = m ((c.tc : Thread nD τ).loc main_arg6) := by
  unfold V3
  stage_pass <;> exact s2_main_arg6 m c
set_option maxRecDepth 16384 in
set_option maxHeartbeats 1000000 in
theorem s3_main_arg7 (c : Dev nD) : V3 m c (Proc.devRef .tc main_arg7) = m ((c.tc : Thread nD τ).loc main_arg7) := by
  unfold V3
  stage_pass <;> exact s2_main_arg7 m c

/-! ### Stretch 4 -/

set_option maxRecDepth 16384 in
set_option maxHeartbeats 1000000 in
theorem s4_main_v1 (c : Dev nD) : V4 m c (Proc.devRef .tc main_v1) = ReadP.val_main_v1 (F := F) (m ((c.tc : Thread nD τ).loc main_arg1)) := by
  unfold V4
  stage_pass <;> exact s3_main_v1 m c
set_option maxRecDepth 16384 in
set_option maxHeartbeats 1000000 in
theorem s4_main_v3 (c : Dev nD) : V4 m c (Proc.devRef .tc main_v3) = ReadP.val_main_v3 (F := F) (m ((c.tc : Thread nD τ).loc main_arg1)) := by
  unfold V4
  stage_pass <;> exact s3_main_v3 m c
set_option maxRecDepth 16384 in
set_option maxHeartbeats 1000000 in
theorem s4_main_arg0 (c : Dev nD) : V4 m c (Proc.devRef .tc main_arg0) = m ((c.tc : Thread nD τ).loc main_arg0) := by
  unfold V4
  stage_pass <;> exact s3_main_arg0 m c
set_option maxRecDepth 16384 in
set_option maxHeartbeats 1000000 in
theorem s4_main_v14 (c : Dev nD) : V4 m c (Proc.devRef .tc main_v14) = ReadP.val_main_v14 (F := F) (m ((c.tc : Thread nD τ).loc main_arg1)) := by
  unfold V4
  stage_pass <;> exact s3_main_v14 m c
set_option maxRecDepth 16384 in
set_option maxHeartbeats 1000000 in
theorem s4_main_v27 (c : Dev nD) : V4 m c (Proc.devRef .tc main_v27) = ReadP.val_main_v27 (F := F) (m ((c.tc : Thread nD τ).loc main_arg0)) (m ((c.tc : Thread nD τ).loc main_arg1)) := by
  unfold V4
  stage_pass <;> exact s3_main_v27 m c
set_option maxRecDepth 16384 in
set_option maxHeartbeats 1000000 in
theorem s4_main_v64 (c : Dev nD) : V4 m c (Proc.devRef .tc main_v64) = ReadP.val_main_v64 (F := F) (m ((c.tc : Thread nD τ).loc main_arg0)) (m ((c.tc : Thread nD τ).loc main_arg1)) := by
  unfold V4
  stage_pass
  simp only [s3_main_v1 m c, s3_main_arg0 m c, s3_main_v3 m c, s3_main_v14 m c] <;> rfl
set_option maxRecDepth 16384 in
set_option maxHeartbeats 1000000 in
theorem s4_main_v46 (c : Dev nD) : V4 m c (Proc.devRef .tc main_v46) = ReadP.val_main_v46 (F := F) (m ((c.tc : Thread nD τ).loc main_arg0)) (m ((c.tc : Thread nD τ).loc main_arg1)) := by
  unfold V4
  stage_pass <;> exact s3_main_v46 m c
set_option maxRecDepth 16384 in
set_option maxHeartbeats 1000000 in
theorem s4_main_arg2 (c : Dev nD) : V4 m c (Proc.devRef .tc main_arg2) = m ((c.tc : Thread nD τ).loc main_arg2) := by
  unfold V4
  stage_pass <;> exact s3_main_arg2 m c
set_option maxRecDepth 16384 in
set_option maxHeartbeats 1000000 in
theorem s4_main_arg3 (c : Dev nD) : V4 m c (Proc.devRef .tc main_arg3) = m ((c.tc : Thread nD τ).loc main_arg3) := by
  unfold V4
  stage_pass <;> exact s3_main_arg3 m c
set_option maxRecDepth 16384 in
set_option maxHeartbeats 1000000 in
theorem s4_main_arg4 (c : Dev nD) : V4 m c (Proc.devRef .tc main_arg4) = m ((c.tc : Thread nD τ).loc main_arg4) := by
  unfold V4
  stage_pass <;> exact s3_main_arg4 m c
set_option maxRecDepth 16384 in
set_option maxHeartbeats 1000000 in
theorem s4_main_arg5 (c : Dev nD) : V4 m c (Proc.devRef .tc main_arg5) = m ((c.tc : Thread nD τ).loc main_arg5) := by
  unfold V4
  stage_pass <;> exact s3_main_arg5 m c
set_option maxRecDepth 16384 in
set_option maxHeartbeats 1000000 in
theorem s4_main_arg6 (c : Dev nD) : V4 m c (Proc.devRef .tc main_arg6) = m ((c.tc : Thread nD τ).loc main_arg6) := by
  unfold V4
  stage_pass <;> exact s3_main_arg6 m c
set_option maxRecDepth 16384 in
set_option maxHeartbeats 1000000 in
theorem s4_main_arg7 (c : Dev nD) : V4 m c (Proc.devRef .tc main_arg7) = m ((c.tc : Thread nD τ).loc main_arg7) := by
  unfold V4
  stage_pass <;> exact s3_main_arg7 m c

/-! ### Stretch 5 -/

set_option maxRecDepth 16384 in
set_option maxHeartbeats 1000000 in
theorem s5_main_v1 (c : Dev nD) : V5 m c (Proc.devRef .tc main_v1) = ReadP.val_main_v1 (F := F) (m ((c.tc : Thread nD τ).loc main_arg1)) := by
  unfold V5
  stage_pass <;> exact s4_main_v1 m c
set_option maxRecDepth 16384 in
set_option maxHeartbeats 1000000 in
theorem s5_main_v3 (c : Dev nD) : V5 m c (Proc.devRef .tc main_v3) = ReadP.val_main_v3 (F := F) (m ((c.tc : Thread nD τ).loc main_arg1)) := by
  unfold V5
  stage_pass <;> exact s4_main_v3 m c
set_option maxRecDepth 16384 in
set_option maxHeartbeats 1000000 in
theorem s5_main_arg0 (c : Dev nD) : V5 m c (Proc.devRef .tc main_arg0) = m ((c.tc : Thread nD τ).loc main_arg0) := by
  unfold V5
  stage_pass <;> exact s4_main_arg0 m c
set_option maxRecDepth 16384 in
set_option maxHeartbeats 1000000 in
theorem s5_main_v14 (c : Dev nD) : V5 m c (Proc.devRef .tc main_v14) = ReadP.val_main_v14 (F := F) (m ((c.tc : Thread nD τ).loc main_arg1)) := by
  unfold V5
  stage_pass <;> exact s4_main_v14 m c
set_option maxRecDepth 16384 in
set_option maxHeartbeats 1000000 in
theorem s5_main_v76 (c : Dev nD) : V5 m c (Proc.devRef .tc main_v76) = ReadP.val_main_v76 (F := F) (m ((c.tc : Thread nD τ).loc main_arg0)) (m ((c.tc : Thread nD τ).loc main_arg1)) := by
  unfold V5
  stage_pass
  simp only [s4_main_v27 m c, s4_main_v46 m c, s4_main_v64 m c] <;> rfl
set_option maxRecDepth 16384 in
set_option maxHeartbeats 1000000 in
theorem s5_main_arg2 (c : Dev nD) : V5 m c (Proc.devRef .tc main_arg2) = m ((c.tc : Thread nD τ).loc main_arg2) := by
  unfold V5
  stage_pass <;> exact s4_main_arg2 m c
set_option maxRecDepth 16384 in
set_option maxHeartbeats 1000000 in
theorem s5_main_arg3 (c : Dev nD) : V5 m c (Proc.devRef .tc main_arg3) = m ((c.tc : Thread nD τ).loc main_arg3) := by
  unfold V5
  stage_pass <;> exact s4_main_arg3 m c
set_option maxRecDepth 16384 in
set_option maxHeartbeats 1000000 in
theorem s5_main_arg4 (c : Dev nD) : V5 m c (Proc.devRef .tc main_arg4) = m ((c.tc : Thread nD τ).loc main_arg4) := by
  unfold V5
  stage_pass <;> exact s4_main_arg4 m c
set_option maxRecDepth 16384 in
set_option maxHeartbeats 1000000 in
theorem s5_main_arg5 (c : Dev nD) : V5 m c (Proc.devRef .tc main_arg5) = m ((c.tc : Thread nD τ).loc main_arg5) := by
  unfold V5
  stage_pass <;> exact s4_main_arg5 m c
set_option maxRecDepth 16384 in
set_option maxHeartbeats 1000000 in
theorem s5_main_arg6 (c : Dev nD) : V5 m c (Proc.devRef .tc main_arg6) = m ((c.tc : Thread nD τ).loc main_arg6) := by
  unfold V5
  stage_pass <;> exact s4_main_arg6 m c
set_option maxRecDepth 16384 in
set_option maxHeartbeats 1000000 in
theorem s5_main_arg7 (c : Dev nD) : V5 m c (Proc.devRef .tc main_arg7) = m ((c.tc : Thread nD τ).loc main_arg7) := by
  unfold V5
  stage_pass <;> exact s4_main_arg7 m c

/-! ### Stretch 6 -/

set_option maxRecDepth 16384 in
set_option maxHeartbeats 1000000 in
theorem s6_main_v1 (c : Dev nD) : V6 m c (Proc.devRef .tc main_v1) = ReadP.val_main_v1 (F := F) (m ((c.tc : Thread nD τ).loc main_arg1)) := by
  unfold V6
  stage_pass <;> exact s5_main_v1 m c
set_option maxRecDepth 16384 in
set_option maxHeartbeats 1000000 in
theorem s6_main_v3 (c : Dev nD) : V6 m c (Proc.devRef .tc main_v3) = ReadP.val_main_v3 (F := F) (m ((c.tc : Thread nD τ).loc main_arg1)) := by
  unfold V6
  stage_pass <;> exact s5_main_v3 m c
set_option maxRecDepth 16384 in
set_option maxHeartbeats 1000000 in
theorem s6_main_arg0 (c : Dev nD) : V6 m c (Proc.devRef .tc main_arg0) = m ((c.tc : Thread nD τ).loc main_arg0) := by
  unfold V6
  stage_pass <;> exact s5_main_arg0 m c
set_option maxRecDepth 16384 in
set_option maxHeartbeats 1000000 in
theorem s6_main_v14 (c : Dev nD) : V6 m c (Proc.devRef .tc main_v14) = ReadP.val_main_v14 (F := F) (m ((c.tc : Thread nD τ).loc main_arg1)) := by
  unfold V6
  stage_pass <;> exact s5_main_v14 m c
set_option maxRecDepth 16384 in
set_option maxHeartbeats 1000000 in
theorem s6_main_arg2 (c : Dev nD) : V6 m c (Proc.devRef .tc main_arg2) = m ((c.tc : Thread nD τ).loc main_arg2) := by
  unfold V6
  stage_pass <;> exact s5_main_arg2 m c
set_option maxRecDepth 16384 in
set_option maxHeartbeats 1000000 in
theorem s6_main_arg3 (c : Dev nD) : V6 m c (Proc.devRef .tc main_arg3) = m ((c.tc : Thread nD τ).loc main_arg3) := by
  unfold V6
  stage_pass <;> exact s5_main_arg3 m c
set_option maxRecDepth 16384 in
set_option maxHeartbeats 1000000 in
theorem s6_main_v77 (c : Dev nD) : V6 m c (Proc.devRef .tc main_v77) = ReadP.val_main_v77 (F := F) (m ((c.tc : Thread nD τ).loc main_arg0)) (m ((c.tc : Thread nD τ).loc main_arg1)) := by
  unfold V6
  stage_pass
  simp only [s5_main_v76 m c] <;> rfl
set_option maxRecDepth 16384 in
set_option maxHeartbeats 1000000 in
theorem s6_main_v93 (c : Dev nD) : V6 m c (Proc.devRef .tc main_v93) = ReadP.val_main_v93 (F := F) (m ((c.tc : Thread nD τ).loc main_arg0)) (m ((c.tc : Thread nD τ).loc main_arg1)) (m ((c.tc : Thread nD τ).loc main_arg2)) (m ((c.tc : Thread nD τ).loc main_arg3)) := by
  unfold V6
  stage_pass
  simp only [s5_main_v76 m c, s5_main_arg2 m c, s5_main_arg3 m c] <;> rfl
set_option maxRecDepth 16384 in
set_option maxHeartbeats 1000000 in
theorem s6_main_arg4 (c : Dev nD) : V6 m c (Proc.devRef .tc main_arg4) = m ((c.tc : Thread nD τ).loc main_arg4) := by
  unfold V6
  stage_pass <;> exact s5_main_arg4 m c
set_option maxRecDepth 16384 in
set_option maxHeartbeats 1000000 in
theorem s6_main_arg5 (c : Dev nD) : V6 m c (Proc.devRef .tc main_arg5) = m ((c.tc : Thread nD τ).loc main_arg5) := by
  unfold V6
  stage_pass <;> exact s5_main_arg5 m c
set_option maxRecDepth 16384 in
set_option maxHeartbeats 1000000 in
theorem s6_main_arg6 (c : Dev nD) : V6 m c (Proc.devRef .tc main_arg6) = m ((c.tc : Thread nD τ).loc main_arg6) := by
  unfold V6
  stage_pass <;> exact s5_main_arg6 m c
set_option maxRecDepth 16384 in
set_option maxHeartbeats 1000000 in
theorem s6_main_arg7 (c : Dev nD) : V6 m c (Proc.devRef .tc main_arg7) = m ((c.tc : Thread nD τ).loc main_arg7) := by
  unfold V6
  stage_pass <;> exact s5_main_arg7 m c

/-! ### Stretch 7 -/

set_option maxRecDepth 16384 in
set_option maxHeartbeats 1000000 in
theorem s7_main_v1 (c : Dev nD) : V7 m c (Proc.devRef .tc main_v1) = ReadP.val_main_v1 (F := F) (m ((c.tc : Thread nD τ).loc main_arg1)) := by
  unfold V7
  stage_pass <;> exact s6_main_v1 m c
set_option maxRecDepth 16384 in
set_option maxHeartbeats 1000000 in
theorem s7_main_v3 (c : Dev nD) : V7 m c (Proc.devRef .tc main_v3) = ReadP.val_main_v3 (F := F) (m ((c.tc : Thread nD τ).loc main_arg1)) := by
  unfold V7
  stage_pass <;> exact s6_main_v3 m c
set_option maxRecDepth 16384 in
set_option maxHeartbeats 1000000 in
theorem s7_main_v14 (c : Dev nD) : V7 m c (Proc.devRef .tc main_v14) = ReadP.val_main_v14 (F := F) (m ((c.tc : Thread nD τ).loc main_arg1)) := by
  unfold V7
  stage_pass <;> exact s6_main_v14 m c
set_option maxRecDepth 16384 in
set_option maxHeartbeats 1000000 in
theorem s7_main_arg2 (c : Dev nD) : V7 m c (Proc.devRef .tc main_arg2) = m ((c.tc : Thread nD τ).loc main_arg2) := by
  unfold V7
  stage_pass <;> exact s6_main_arg2 m c
set_option maxRecDepth 16384 in
set_option maxHeartbeats 1000000 in
theorem s7_main_arg3 (c : Dev nD) : V7 m c (Proc.devRef .tc main_arg3) = m ((c.tc : Thread nD τ).loc main_arg3) := by
  unfold V7
  stage_pass <;> exact s6_main_arg3 m c
set_option maxRecDepth 16384 in
set_option maxHeartbeats 1000000 in
theorem s7_main_arg5 (c : Dev nD) : V7 m c (Proc.devRef .tc main_arg5) = m ((c.tc : Thread nD τ).loc main_arg5) := by
  unfold V7
  stage_pass <;> exact s6_main_arg5 m c
set_option maxRecDepth 16384 in
set_option maxHeartbeats 1000000 in
theorem s7_main_v116 (c : Dev nD) : V7 m c (Proc.devRef .tc main_v116) = ReadP.val_main_v116 (F := F) (m ((c.tc : Thread nD τ).loc main_arg0)) (m ((c.tc : Thread nD τ).loc main_arg4)) := by
  unfold V7
  stage_pass
  simp only [s6_main_arg0 m c, s6_main_arg4 m c] <;> rfl
set_option maxRecDepth 16384 in
set_option maxHeartbeats 1000000 in
theorem s7_main_arg6 (c : Dev nD) : V7 m c (Proc.devRef .tc main_arg6) = m ((c.tc : Thread nD τ).loc main_arg6) := by
  unfold V7
  stage_pass <;> exact s6_main_arg6 m c
set_option maxRecDepth 16384 in
set_option maxHeartbeats 1000000 in
theorem s7_main_arg7 (c : Dev nD) : V7 m c (Proc.devRef .tc main_arg7) = m ((c.tc : Thread nD τ).loc main_arg7) := by
  unfold V7
  stage_pass <;> exact s6_main_arg7 m c
set_option maxRecDepth 16384 in
set_option maxHeartbeats 1000000 in
theorem s7_main_v115 (c : Dev nD) : V7 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) := by
  unfold V7
  stage_pass
  simp only [s6_main_v93 m c, s6_main_v77 m c, s6_main_arg2 m c, s6_main_arg3 m c] <;> rfl

/-! ### Stretch 8 -/

set_option maxRecDepth 16384 in
set_option maxHeartbeats 1000000 in
theorem s8_main_v1 (c : Dev nD) : V8 m c (Proc.devRef .tc main_v1) = ReadP.val_main_v1 (F := F) (m ((c.tc : Thread nD τ).loc main_arg1)) := by
  unfold V8
  stage_pass <;> exact s7_main_v1 m c
set_option maxRecDepth 16384 in
set_option maxHeartbeats 1000000 in
theorem s8_main_v3 (c : Dev nD) : V8 m c (Proc.devRef .tc main_v3) = ReadP.val_main_v3 (F := F) (m ((c.tc : Thread nD τ).loc main_arg1)) := by
  unfold V8
  stage_pass <;> exact s7_main_v3 m c
set_option maxRecDepth 16384 in
set_option maxHeartbeats 1000000 in
theorem s8_main_v14 (c : Dev nD) : V8 m c (Proc.devRef .tc main_v14) = ReadP.val_main_v14 (F := F) (m ((c.tc : Thread nD τ).loc main_arg1)) := by
  unfold V8
  stage_pass <;> exact s7_main_v14 m c
set_option maxRecDepth 16384 in
set_option maxHeartbeats 1000000 in
theorem s8_main_arg2 (c : Dev nD) : V8 m c (Proc.devRef .tc main_arg2) = m ((c.tc : Thread nD τ).loc main_arg2) := by
  unfold V8
  stage_pass <;> exact s7_main_arg2 m c
set_option maxRecDepth 16384 in
set_option maxHeartbeats 1000000 in
theorem s8_main_arg3 (c : Dev nD) : V8 m c (Proc.devRef .tc main_arg3) = m ((c.tc : Thread nD τ).loc main_arg3) := by
  unfold V8
  stage_pass <;> exact s7_main_arg3 m c
set_option maxRecDepth 16384 in
set_option maxHeartbeats 1000000 in
theorem s8_main_v119 (c : Dev nD) : V8 m c (Proc.devRef .tc main_v119) = ReadP.val_main_v119 (F := F) (m ((c.tc : Thread nD τ).loc main_arg0)) (m ((c.tc : Thread nD τ).loc main_arg4)) (m ((c.tc : Thread nD τ).loc main_arg5)) := by
  unfold V8
  stage_pass
  simp only [s7_main_v116 m c, s7_main_arg5 m c] <;> rfl
set_option maxRecDepth 16384 in
set_option maxHeartbeats 1000000 in
theorem s8_main_v132 (c : Dev nD) : V8 m c (Proc.devRef .tc main_v132) = ReadP.val_main_v132 (F := F) (m ((c.tc : Thread nD τ).loc main_arg0)) (m ((c.tc : Thread nD τ).loc main_arg1)) (m ((c.tc : Thread nD τ).loc main_arg4)) (m ((c.tc : Thread nD τ).loc main_arg5)) := by
  unfold V8
  stage_pass
  simp only [s7_main_v1 m c, s7_main_v116 m c, s7_main_arg5 m c, s7_main_v3 m c, s7_main_v14 m c] <;> rfl
set_option maxRecDepth 16384 in
set_option maxHeartbeats 1000000 in
theorem s8_main_arg6 (c : Dev nD) : V8 m c (Proc.devRef .tc main_arg6) = m ((c.tc : Thread nD τ).loc main_arg6) := by
  unfold V8
  stage_pass <;> exact s7_main_arg6 m c
set_option maxRecDepth 16384 in
set_option maxHeartbeats 1000000 in
theorem s8_main_arg7 (c : Dev nD) : V8 m c (Proc.devRef .tc main_arg7) = m ((c.tc : Thread nD τ).loc main_arg7) := by
  unfold V8
  stage_pass <;> exact s7_main_arg7 m c
set_option maxRecDepth 16384 in
set_option maxHeartbeats 1000000 in
theorem s8_main_v115 (c : Dev nD) : V8 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) := by
  unfold V8
  stage_pass <;> exact s7_main_v115 m c

/-! ### Stretch 9 -/

set_option maxRecDepth 16384 in
set_option maxHeartbeats 1000000 in
theorem s9_main_v1 (c : Dev nD) : V9 m c (Proc.devRef .tc main_v1) = ReadP.val_main_v1 (F := F) (m ((c.tc : Thread nD τ).loc main_arg1)) := by
  unfold V9
  stage_pass <;> exact s8_main_v1 m c
set_option maxRecDepth 16384 in
set_option maxHeartbeats 1000000 in
theorem s9_main_v3 (c : Dev nD) : V9 m c (Proc.devRef .tc main_v3) = ReadP.val_main_v3 (F := F) (m ((c.tc : Thread nD τ).loc main_arg1)) := by
  unfold V9
  stage_pass <;> exact s8_main_v3 m c
set_option maxRecDepth 16384 in
set_option maxHeartbeats 1000000 in
theorem s9_main_v14 (c : Dev nD) : V9 m c (Proc.devRef .tc main_v14) = ReadP.val_main_v14 (F := F) (m ((c.tc : Thread nD τ).loc main_arg1)) := by
  unfold V9
  stage_pass <;> exact s8_main_v14 m c
set_option maxRecDepth 16384 in
set_option maxHeartbeats 1000000 in
theorem s9_main_arg2 (c : Dev nD) : V9 m c (Proc.devRef .tc main_arg2) = m ((c.tc : Thread nD τ).loc main_arg2) := by
  unfold V9
  stage_pass <;> exact s8_main_arg2 m c
set_option maxRecDepth 16384 in
set_option maxHeartbeats 1000000 in
theorem s9_main_arg3 (c : Dev nD) : V9 m c (Proc.devRef .tc main_arg3) = m ((c.tc : Thread nD τ).loc main_arg3) := by
  unfold V9
  stage_pass <;> exact s8_main_arg3 m c
set_option maxRecDepth 16384 in
set_option maxHeartbeats 1000000 in
theorem s9_main_v132 (c : Dev nD) : V9 m c (Proc.devRef .tc main_v132) = ReadP.val_main_v132 (F := F) (m ((c.tc : Thread nD τ).loc main_arg0)) (m ((c.tc : Thread nD τ).loc main_arg1)) (m ((c.tc : Thread nD τ).loc main_arg4)) (m ((c.tc : Thread nD τ).loc main_arg5)) := by
  unfold V9
  stage_pass <;> exact s8_main_v132 m c
set_option maxRecDepth 16384 in
set_option maxHeartbeats 1000000 in
theorem s9_main_v153 (c : Dev nD) : V9 m c (Proc.devRef .tc main_v153) = ReadP.val_main_v153 (F := F) (m ((c.tc : Thread nD τ).loc main_arg0)) (m ((c.tc : Thread nD τ).loc main_arg4)) (m ((c.tc : Thread nD τ).loc main_arg5)) := by
  unfold V9
  stage_pass
  simp only [s8_main_v119 m c] <;> rfl
set_option maxRecDepth 16384 in
set_option maxHeartbeats 1000000 in
theorem s9_main_v151 (c : Dev nD) : V9 m c (Proc.devRef .tc main_v151) = ReadP.val_main_v151 (F := F) (m ((c.tc : Thread nD τ).loc main_arg0)) (m ((c.tc : Thread nD τ).loc main_arg1)) (m ((c.tc : Thread nD τ).loc main_arg4)) (m ((c.tc : Thread nD τ).loc main_arg5)) := by
  unfold V9
  stage_pass
  simp only [s8_main_v1 m c, s8_main_v119 m c, s8_main_v132 m c, s8_main_v3 m c, s8_main_v14 m c] <;> rfl
set_option maxRecDepth 16384 in
set_option maxHeartbeats 1000000 in
theorem s9_main_arg6 (c : Dev nD) : V9 m c (Proc.devRef .tc main_arg6) = m ((c.tc : Thread nD τ).loc main_arg6) := by
  unfold V9
  stage_pass <;> exact s8_main_arg6 m c
set_option maxRecDepth 16384 in
set_option maxHeartbeats 1000000 in
theorem s9_main_arg7 (c : Dev nD) : V9 m c (Proc.devRef .tc main_arg7) = m ((c.tc : Thread nD τ).loc main_arg7) := by
  unfold V9
  stage_pass <;> exact s8_main_arg7 m c
set_option maxRecDepth 16384 in
set_option maxHeartbeats 1000000 in
theorem s9_main_v115 (c : Dev nD) : V9 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) := by
  unfold V9
  stage_pass <;> exact s8_main_v115 m c

/-! ### Stretch 10 -/

set_option maxRecDepth 16384 in
set_option maxHeartbeats 1000000 in
theorem s10_main_arg2 (c : Dev nD) : V10 m c (Proc.devRef .tc main_arg2) = m ((c.tc : Thread nD τ).loc main_arg2) := by
  unfold V10
  stage_pass <;> exact s9_main_arg2 m c
set_option maxRecDepth 16384 in
set_option maxHeartbeats 1000000 in
theorem s10_main_arg3 (c : Dev nD) : V10 m c (Proc.devRef .tc main_arg3) = m ((c.tc : Thread nD τ).loc main_arg3) := by
  unfold V10
  stage_pass <;> exact s9_main_arg3 m c
set_option maxRecDepth 16384 in
set_option maxHeartbeats 1000000 in
theorem s10_main_v132 (c : Dev nD) : V10 m c (Proc.devRef .tc main_v132) = ReadP.val_main_v132 (F := F) (m ((c.tc : Thread nD τ).loc main_arg0)) (m ((c.tc : Thread nD τ).loc main_arg1)) (m ((c.tc : Thread nD τ).loc main_arg4)) (m ((c.tc : Thread nD τ).loc main_arg5)) := by
  unfold V10
  stage_pass <;> exact s9_main_v132 m c
set_option maxRecDepth 16384 in
set_option maxHeartbeats 1000000 in
theorem s10_main_v169 (c : Dev nD) : V10 m c (Proc.devRef .tc main_v169) = ReadP.val_main_v169 (F := F) (m ((c.tc : Thread nD τ).loc main_arg0)) (m ((c.tc : Thread nD τ).loc main_arg1)) (m ((c.tc : Thread nD τ).loc main_arg4)) (m ((c.tc : Thread nD τ).loc main_arg5)) := by
  unfold V10
  stage_pass
  simp only [s9_main_v1 m c, s9_main_v153 m c, s9_main_v3 m c, s9_main_v14 m c] <;> rfl
set_option maxRecDepth 16384 in
set_option maxHeartbeats 1000000 in
theorem s10_main_v151 (c : Dev nD) : V10 m c (Proc.devRef .tc main_v151) = ReadP.val_main_v151 (F := F) (m ((c.tc : Thread nD τ).loc main_arg0)) (m ((c.tc : Thread nD τ).loc main_arg1)) (m ((c.tc : Thread nD τ).loc main_arg4)) (m ((c.tc : Thread nD τ).loc main_arg5)) := by
  unfold V10
  stage_pass <;> exact s9_main_v151 m c
set_option maxRecDepth 16384 in
set_option maxHeartbeats 1000000 in
theorem s10_main_arg6 (c : Dev nD) : V10 m c (Proc.devRef .tc main_arg6) = m ((c.tc : Thread nD τ).loc main_arg6) := by
  unfold V10
  stage_pass <;> exact s9_main_arg6 m c
set_option maxRecDepth 16384 in
set_option maxHeartbeats 1000000 in
theorem s10_main_arg7 (c : Dev nD) : V10 m c (Proc.devRef .tc main_arg7) = m ((c.tc : Thread nD τ).loc main_arg7) := by
  unfold V10
  stage_pass <;> exact s9_main_arg7 m c
set_option maxRecDepth 16384 in
set_option maxHeartbeats 1000000 in
theorem s10_main_v115 (c : Dev nD) : V10 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) := by
  unfold V10
  stage_pass <;> exact s9_main_v115 m c

/-! ### Stretch 11 -/

set_option maxRecDepth 16384 in
set_option maxHeartbeats 1000000 in
theorem s11_main_arg2 (c : Dev nD) : V11 m c (Proc.devRef .tc main_arg2) = m ((c.tc : Thread nD τ).loc main_arg2) := by
  unfold V11
  stage_pass <;> exact s10_main_arg2 m c
set_option maxRecDepth 16384 in
set_option maxHeartbeats 1000000 in
theorem s11_main_arg3 (c : Dev nD) : V11 m c (Proc.devRef .tc main_arg3) = m ((c.tc : Thread nD τ).loc main_arg3) := by
  unfold V11
  stage_pass <;> exact s10_main_arg3 m c
set_option maxRecDepth 16384 in
set_option maxHeartbeats 1000000 in
theorem s11_main_v185 (c : Dev nD) : V11 m c (Proc.devRef .tc main_v185) = ReadP.val_main_v185 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  unfold V11
  stage_pass
  simp only [s10_main_v132 m c, s10_main_v151 m c, s10_main_v169 m c, s10_main_arg6 m c, s10_main_arg7 m c] <;> rfl
set_option maxRecDepth 16384 in
set_option maxHeartbeats 1000000 in
theorem s11_main_v115 (c : Dev nD) : V11 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) := by
  unfold V11
  stage_pass <;> exact s10_main_v115 m c

/-! ### Stretch 12 -/

set_option maxRecDepth 16384 in
set_option maxHeartbeats 1000000 in
theorem s12_main_arg2 (c : Dev nD) : V12 m c (Proc.devRef .tc main_arg2) = m ((c.tc : Thread nD τ).loc main_arg2) := by
  unfold V12
  stage_pass <;> exact s11_main_arg2 m c
set_option maxRecDepth 16384 in
set_option maxHeartbeats 1000000 in
theorem s12_main_arg3 (c : Dev nD) : V12 m c (Proc.devRef .tc main_arg3) = m ((c.tc : Thread nD τ).loc main_arg3) := by
  unfold V12
  stage_pass <;> exact s11_main_arg3 m c
set_option maxRecDepth 16384 in
set_option maxHeartbeats 1000000 in
theorem s12_main_v186 (c : Dev nD) : V12 m c (Proc.devRef .tc main_v186) = ReadP.val_main_v186 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  unfold V12
  stage_pass
  simp only [s11_main_v185 m c] <;> rfl
set_option maxRecDepth 16384 in
set_option maxHeartbeats 1000000 in
theorem s12_main_v202 (c : Dev nD) : V12 m c (Proc.devRef .tc main_v202) = ReadP.val_main_v202 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold V12
  stage_pass
  simp only [s11_main_v185 m c, s11_main_arg2 m c, s11_main_arg3 m c] <;> rfl
set_option maxRecDepth 16384 in
set_option maxHeartbeats 1000000 in
theorem s12_main_v115 (c : Dev nD) : V12 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) := by
  unfold V12
  stage_pass <;> exact s11_main_v115 m c

/-! ### Stretch 13 -/

set_option maxRecDepth 16384 in
set_option maxHeartbeats 1000000 in
theorem s13_main_v221 (c : Dev nD) : V13 m c (Proc.devRef .tc main_v221) = ReadP.val_main_v221 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold V13
  stage_pass
  simp only [s12_main_v186 m c, s12_main_arg2 m c, s12_main_arg3 m c] <;> rfl
set_option maxRecDepth 16384 in
set_option maxHeartbeats 1000000 in
theorem s13_main_v202 (c : Dev nD) : V13 m c (Proc.devRef .tc main_v202) = ReadP.val_main_v202 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold V13
  stage_pass <;> exact s12_main_v202 m c
set_option maxRecDepth 16384 in
set_option maxHeartbeats 1000000 in
theorem s13_main_v115 (c : Dev nD) : V13 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) := by
  unfold V13
  stage_pass <;> exact s12_main_v115 m c

/-! ### Stretch 14 -/

set_option maxRecDepth 16384 in
set_option maxHeartbeats 1000000 in
theorem s14_main_v229 (c : Dev nD) : V14 m c (Proc.devRef .tc main_v229) = ReadP.val_main_v229 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold V14
  stage_pass
  simp only [s13_main_v202 m c, s13_main_v221 m c, s13_main_v115 m c] <;> rfl

/-! ## The run -/

/-- The result buffer after all the operations holds its stage value of the arguments. -/
theorem res_v229 (c : Dev nD) : after (ops (F := F)) (launchContents m c) (Proc.devRef .tc main_v229) = ReadP.val_main_v229 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]; exact s14_main_v229 m c

set_option maxRecDepth 16384 in
set_option maxHeartbeats 8000000 in
/-- On every device, for any float values, from any memory with zero counters: every weakly fair execution of @main
    terminates with the result at its stage value of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v229) = ReadP.val_main_v229 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v229).trans (res_v229 m c),
      (h c main_arg0).trans (keep_arg0 m c),
      (h c main_arg1).trans (keep_arg1 m c),
      (h c main_arg2).trans (keep_arg2 m c),
      (h c main_arg3).trans (keep_arg3 m c),
      (h c main_arg4).trans (keep_arg4 m c),
      (h c main_arg5).trans (keep_arg5 m c),
      (h c main_arg6).trans (keep_arg6 m c),
      (h c main_arg7).trans (keep_arg7 m c)⟩)
    (run_seq scopedRefs_eq scopedSems_eq defs main (fun _ => ops) main_eq (fun _ => ops_sub) m ρ)

end Cert.ReferenceIdeal.RefRunS

end
-- ==== Proof.LibRowGather.lean ====
/-
  A gather of ROWS, and of entries of a vector, read at an index.

  `x[idx]` for an [N, C] array `x` and E integer indices prints as a gather whose start indices are an [E, 1]
  column: result row `e` is operand row `idx[e, 0]`, the index word read signed and clamped to [0, N - 1]. The
  same indices applied to an [N] vector read entry `idx[e, 0]`, clamped the same way. So the row a batch element
  reads does not depend on which of the two arrays is gathered: a row statistic commutes with the gather.
  Any extents, any element type.
-/
import Idealize.ShloMosaic.PureOps.ShapeOps
import Idealize.ShloMosaic.Lib.ValueIdx

noncomputable section

namespace Idealize.ShloMosaic.RowGather

open Idealize.ShloMosaic Idealize.ShloMosaic.ValueIdx

/-- The row an index word names among `N` rows: read signed, clamped to [0, N - 1]. -/
def rowAt (N : Nat) {w : Nat} (v : BitVec w) : Nat := min v.toInt.toNat (N - 1)

theorem rowAt_lt {N w : Nat} (hN : 0 < N) (v : BitVec w) : rowAt N v < N := by
  unfold rowAt; omega

/-- The dimension numbers of a row gather: the result's axis 1 is the offset axis, the operand's axis 0 is collapsed
    and is the one the (length-one) index vector addresses, the index vector along the indices' axis 1; a slice is
    one whole row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of a vector by an [E, 1] column of indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section row
variable {N E C w : Nat} (wf : GatherDims.WF ⟨2, ![N, C]⟩ ⟨2, ![E, 1]⟩ ⟨2, ![E, C]⟩ [1] [0] [] [0] [] 1 ![1, C])

/-- On the row axis the slice starts at the clamped index word of the result's row. -/
theorem row_start_zero (j : (⟨2, ![E, C]⟩ : Shape).Idx) (idx : IVec ⟨2, ![E, 1]⟩ w) :
    (rowGatherDims N E C wf).start j idx 0 = rowAt N (idx (ix2 (j 0) (0 : Fin 1))) := by
  unfold GatherDims.start
  rw [dif_pos (show (0 : Fin 2) ∈ (rowGatherDims N E C wf).startIndexMap from List.mem_singleton.mpr rfl)]
  have hsi : (rowGatherDims N E C wf).siIdx j ⟨List.idxOf (0 : Fin 2) (rowGatherDims N E C wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem row_start_one (j : (⟨2, ![E, C]⟩ : Shape).Idx) (idx : IVec ⟨2, ![E, 1]⟩ w) :
    (rowGatherDims N E C wf).start j idx 1 = 0 := by
  unfold GatherDims.start
  rw [dif_neg (show ¬ (1 : Fin 2) ∈ ([0] : List (Fin 2)) by decide)]

theorem row_off_zero (j : (⟨2, ![E, C]⟩ : Shape).Idx) : (rowGatherDims N E C wf).offCoord j 0 = 0 := by
  unfold GatherDims.offCoord
  rw [dif_neg (show ¬ (0 : Fin 2) ∈ (rowGatherDims N E C wf).sKept by simp [GatherDims.sKept, Shape.kept])]

theorem row_off_one (j : (⟨2, ![E, C]⟩ : Shape).Idx) : (rowGatherDims N E C wf).offCoord j 1 = (j 1).val := by
  unfold GatherDims.offCoord
  rw [dif_pos (show (1 : Fin 2) ∈ (rowGatherDims N E C wf).sKept by simp [GatherDims.sKept, Shape.kept])]
  rfl

/-- THE ROW GATHER READ AT (e, q): the operand's entry in the row the edge's index word names, column `q`. -/
theorem rowGather_apply {α : Type} (hN : 0 < N) (x : (⟨2, ![N, C]⟩ : Shape).Idx → α) (idx : IVec ⟨2, ![E, 1]⟩ w)
    (e : Fin E) (q : Fin C) :
    Host.gather (rowGatherDims N E C wf) x idx (ix2 e q)
      = x (ix2 ⟨rowAt N (idx (ix2 e (0 : Fin 1))), rowAt_lt hN _⟩ q) := by
  unfold Host.gather
  refine congrArg x (funext fun a => Fin.ext ?_)
  match a with
  | ⟨0, _⟩ =>
    show (rowGatherDims N E C wf).start (ix2 e q) idx 0 + (rowGatherDims N E C wf).batchCoord (ix2 e q) 0
      + (rowGatherDims N E C wf).offCoord (ix2 e q) 0 = rowAt N (idx (ix2 e (0 : Fin 1)))
    rw [row_start_zero, (rowGatherDims N E C wf).batchCoord_eq_zero _ _ (by simp), row_off_zero]
    rfl
  | ⟨1, _⟩ =>
    show (rowGatherDims N E C wf).start (ix2 e q) idx 1 + (rowGatherDims N E C wf).batchCoord (ix2 e q) 1
      + (rowGatherDims N E C wf).offCoord (ix2 e q) 1 = q.val
    rw [row_start_one, (rowGatherDims N E C wf).batchCoord_eq_zero _ _ (by simp), row_off_one]
    simp only [Nat.zero_add]
    rfl

end row

section vec
variable {N E w : Nat} (wf : GatherDims.WF ⟨1, ![N]⟩ ⟨2, ![E, 1]⟩ ⟨1, ![E]⟩ [] [0] [] [0] [] 1 ![1])

theorem vec_start_zero (j : (⟨1, ![E]⟩ : Shape).Idx) (idx : IVec ⟨2, ![E, 1]⟩ w) :
    (vecGatherDims N E wf).start j idx 0 = rowAt N (idx (ix2 (j 0) (0 : Fin 1))) := by
  unfold GatherDims.start
  rw [dif_pos (show (0 : Fin 1) ∈ (vecGatherDims N E wf).startIndexMap from List.mem_singleton.mpr rfl)]
  have hsi : (vecGatherDims N E wf).siIdx j ⟨List.idxOf (0 : Fin 1) (vecGatherDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vec_off_zero (j : (⟨1, ![E]⟩ : Shape).Idx) : (vecGatherDims N E wf).offCoord j 0 = 0 := by
  unfold GatherDims.offCoord
  rw [dif_neg (show ¬ (0 : Fin 1) ∈ (vecGatherDims N E wf).sKept by simp [GatherDims.sKept, Shape.kept])]

/-- THE VECTOR GATHER READ AT e: the operand's entry the edge's index word names. -/
theorem vecGather_apply {α : Type} (hN : 0 < N) (y : (⟨1, ![N]⟩ : Shape).Idx → α) (idx : IVec ⟨2, ![E, 1]⟩ w) (e : Fin E) :
    Host.gather (vecGatherDims N E wf) y idx (ix1 e)
      = y (ix1 ⟨rowAt N (idx (ix2 e (0 : Fin 1))), rowAt_lt hN _⟩) := by
  unfold Host.gather
  refine congrArg y (funext fun a => Fin.ext ?_)
  match a with
  | ⟨0, _⟩ =>
    show (vecGatherDims N E wf).start (ix1 e) idx 0 + (vecGatherDims N E wf).batchCoord (ix1 e) 0
      + (vecGatherDims N E wf).offCoord (ix1 e) 0 = rowAt N (idx (ix2 e (0 : Fin 1)))
    rw [vec_start_zero, (vecGatherDims N E wf).batchCoord_eq_zero _ _ (by simp), vec_off_zero]
    rfl

end vec

/-- A gather moves no value: it commutes with any entrywise function of the gathered array. -/
theorem gather_comp {s si t : Shape} {w : Nat} {α β : Type} (d : GatherDims s si t) (f : α → β) (x : s.Idx → α) (idx : IVec si w) :
    Host.gather d (fun i => f (x i)) idx = fun j => f (Host.gather d x idx j) := rfl

end Idealize.ShloMosaic.RowGather

end
-- ==== Proof.RefTailDefs.lean ====
/-
  The eight arrays the reference gathers at the batch's source and target nodes (the centred feature rows, the centred
  embedding rows, and the rows' norms), as functions of the program's arguments read at an index; and the node a batch
  element names (its index word wrapped once by the node count when negative, read signed, clamped into the nodes).
-/
import proofs.«101945_j60000693125366_2_alg».proof.Proof.RefStages
import proofs.«101945_j60000693125366_2_alg».proof.Proof.Spec
import proofs.«101945_j60000693125366_2_alg».proof.Proof.LibRowGather
import Idealize.ShloMosaic.Lib.ValueIdx

noncomputable section

namespace Cert.ReferenceIdeal.RefTail

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.ReadP
open scoped BigOperators

/-! ## The eight gathered arrays as functions of the program's arguments -/

section Stages

variable (x0 : (⟨S50000x128, .f32⟩ : BufTy).Contents (Elt Ideal)) (x1 : (⟨S2x800000, .i32⟩ : BufTy).Contents (Elt Ideal))
  (x2 x3 : (⟨S8192, .i32⟩ : BufTy).Contents (Elt Ideal)) (x4 : (⟨S128x64, .f32⟩ : BufTy).Contents (Elt Ideal))
  (x5 : (⟨S64, .f32⟩ : BufTy).Contents (Elt Ideal)) (x6 : (⟨S192x64, .f32⟩ : BufTy).Contents (Elt Ideal))
  (x7 : (⟨S64, .f32⟩ : BufTy).Contents (Elt Ideal))

/-- The centred feature rows at the source nodes. -/
def ax (a : Fin 8192) (k : Fin 384) : EReal := val_main_v84 (F := Ideal) x0 x1 x2 (ix2 a k)
/-- The centred feature rows at the target nodes. -/
def bx (a : Fin 8192) (k : Fin 384) : EReal := val_main_v91 (F := Ideal) x0 x1 x3 (ix2 a k)
/-- The feature rows' norms at the source nodes. -/
def nax (a : Fin 8192) : EReal := val_main_v100 (F := Ideal) x0 x1 x2 (ix1 a)
/-- The feature rows' norms at the target nodes. -/
def nbx (a : Fin 8192) : EReal := val_main_v108 (F := Ideal) x0 x1 x3 (ix1 a)
/-- The centred embedding rows at the source nodes. -/
def ah (a : Fin 8192) (k : Fin 64) : EReal := val_main_v193 (F := Ideal) x0 x1 x2 x4 x5 x6 x7 (ix2 a k)
/-- The centred embedding rows at the target nodes. -/
def bh (a : Fin 8192) (k : Fin 64) : EReal := val_main_v200 (F := Ideal) x0 x1 x3 x4 x5 x6 x7 (ix2 a k)
/-- The embedding rows' norms at the source nodes. -/
def nah (a : Fin 8192) : EReal := val_main_v209 (F := Ideal) x0 x1 x2 x4 x5 x6 x7 (ix1 a)
/-- The embedding rows' norms at the target nodes. -/
def nbh (a : Fin 8192) : EReal := val_main_v217 (F := Ideal) x0 x1 x3 x4 x5 x6 x7 (ix1 a)

end Stages

/-- A batch element's index word as the gathers read it: a negative word wrapped once by the node count. -/
def wrapIdx (v : BitVec 32) : BitVec 32 := Scalar.select (IntOp.cmpi .slt v 0#32) (IntOp.addi v 50000#32) v

/-- The node a batch element names: its wrapped index word read signed and clamped into the 50000 nodes. -/
def nodeOf (x : (⟨S8192, .i32⟩ : BufTy).Contents (Elt Ideal)) (a : Fin 8192) : Fin 50000 :=
  ⟨RowGather.rowAt 50000 (wrapIdx (x (ix1 a))), RowGather.rowAt_lt (by decide) _⟩

end Cert.ReferenceIdeal.RefTail

end
-- ==== Proof.RefTail.lean ====
/-
  The reference's last stages read at an index.

  The reference gathers the centred feature rows and the centred embedding rows at the batch's source and target
  nodes, gathers the rows' norms, forms the two 8192 × 8192 cosine matrices (dot product of a source row and a target
  row over the product of their norms plus a guard), and returns the root of the mean of the squared difference of
  the two matrices. Read entry by entry from the eight gathered arrays, that is the loss of the specification's total.
-/
import proofs.«101945_j60000693125366_2_alg».proof.Proof.RefTailDefs

noncomputable section

namespace Cert.ReferenceIdeal.RefTail

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.ReadP
open scoped BigOperators

section Stages

variable (x0 : (⟨S50000x128, .f32⟩ : BufTy).Contents (Elt Ideal)) (x1 : (⟨S2x800000, .i32⟩ : BufTy).Contents (Elt Ideal))
  (x2 x3 : (⟨S8192, .i32⟩ : BufTy).Contents (Elt Ideal)) (x4 : (⟨S128x64, .f32⟩ : BufTy).Contents (Elt Ideal))
  (x5 : (⟨S64, .f32⟩ : BufTy).Contents (Elt Ideal)) (x6 : (⟨S192x64, .f32⟩ : BufTy).Contents (Elt Ideal))
  (x7 : (⟨S64, .f32⟩ : BufTy).Contents (Elt Ideal))

/-! ## The cosine matrices, their squared difference, and the loss -/

/-- The features' cosine matrix at (a, b). -/
theorem xsim_apply (a b : Fin 8192) :
    val_main_v115 (F := Ideal) x0 x1 x2 x3 (ix2 a b)
      = Cert.SimSpec.cosv (ax x0 x1 x2) (bx x0 x1 x3) (nax x0 x1 x2) (nbx x0 x1 x3) a b := by
  have e1 : ∀ k : Fin 384, lidx_main_v93 (ix2 a b) k = ix2 a k := fun k =>
    funext fun d => Fin.ext (by match d with | ⟨0, _⟩ => rfl | ⟨1, _⟩ => rfl)
  have e2 : ∀ k : Fin 384, idx_main_v92 (ridx_main_v93 (ix2 a b) k) = ix2 b k := fun k =>
    funext fun d => Fin.ext (by match d with | ⟨0, _⟩ => rfl | ⟨1, _⟩ => rfl)
  have e3 : idx_main_v101 (idx_main_v110 (ix2 a b)) = ix1 a :=
    funext fun d => Fin.ext (by match d with | ⟨0, _⟩ => rfl)
  have e4 : idx_main_v109 (idx_main_v111 (ix2 a b)) = ix1 b :=
    funext fun d => Fin.ext (by match d with | ⟨0, _⟩ => rfl)
  rw [val_main_v115_apply, val_main_v93_apply, val_main_v114_apply, val_main_v112_apply, val_main_v110_apply,
    val_main_v101_apply, val_main_v111_apply, val_main_v109_apply, val_main_v113_apply, val_main_cst_28_apply]
  simp only [val_main_v92_apply, e1, e2, e3, e4, Ideal.hostDivf_def, Ideal.mulf_def, Ideal.addf_def, Ideal.ofBits_def]
  unfold Cert.SimSpec.cosv Cert.SimSpec.eps ax bx nax nbx
  with_reducible rfl

/-- The embedding's cosine matrix at (a, b). -/
theorem hsim_apply (a b : Fin 8192) :
    val_main_v224 (F := Ideal) x0 x1 x2 x3 x4 x5 x6 x7 (ix2 a b)
      = Cert.SimSpec.cosv (ah x0 x1 x2 x4 x5 x6 x7) (bh x0 x1 x3 x4 x5 x6 x7) (nah x0 x1 x2 x4 x5 x6 x7)
          (nbh x0 x1 x3 x4 x5 x6 x7) a b := by
  have e1 : ∀ k : Fin 64, lidx_main_v202 (ix2 a b) k = ix2 a k := fun k =>
    funext fun d => Fin.ext (by match d with | ⟨0, _⟩ => rfl | ⟨1, _⟩ => rfl)
  have e2 : ∀ k : Fin 64, idx_main_v201 (ridx_main_v202 (ix2 a b) k) = ix2 b k := fun k =>
    funext fun d => Fin.ext (by match d with | ⟨0, _⟩ => rfl | ⟨1, _⟩ => rfl)
  have e3 : idx_main_v210 (idx_main_v219 (ix2 a b)) = ix1 a :=
    funext fun d => Fin.ext (by match d with | ⟨0, _⟩ => rfl)
  have e4 : idx_main_v218 (idx_main_v220 (ix2 a b)) = ix1 b :=
    funext fun d => Fin.ext (by match d with | ⟨0, _⟩ => rfl)
  rw [val_main_v224_apply, val_main_v202_apply, val_main_v223_apply, val_main_v221_apply, val_main_v219_apply,
    val_main_v210_apply, val_main_v220_apply, val_main_v218_apply, val_main_v222_apply, val_main_cst_53_apply]
  simp only [val_main_v201_apply, e1, e2, e3, e4, Ideal.hostDivf_def, Ideal.mulf_def, Ideal.addf_def, Ideal.ofBits_def]
  unfold Cert.SimSpec.cosv Cert.SimSpec.eps ah bh nah nbh
  with_reducible rfl

/-- The squared difference of the two cosine matrices at (a, b). -/
theorem sq_apply (a b : Fin 8192) :
    val_main_v226 (F := Ideal) x0 x1 x2 x3 x4 x5 x6 x7 (ix2 a b)
      = Cert.SimSpec.sqd (ax x0 x1 x2) (bx x0 x1 x3) (nax x0 x1 x2) (nbx x0 x1 x3) (ah x0 x1 x2 x4 x5 x6 x7)
          (bh x0 x1 x3 x4 x5 x6 x7) (nah x0 x1 x2 x4 x5 x6 x7) (nbh x0 x1 x3 x4 x5 x6 x7) a b := by
  rw [val_main_v226_apply, val_main_v225_apply, hsim_apply, xsim_apply]
  simp only [Ideal.mulf_def, Ideal.subf_def]
  unfold Cert.SimSpec.sqd
  with_reducible rfl

/-- The reference's result: the loss of the total of the squared differences over all pairs. -/
theorem res_val :
    val_main_v229 (F := Ideal) x0 x1 x2 x3 x4 x5 x6 x7
      = fun _ => Cert.SimSpec.lossOf (Cert.SimSpec.total (n := 8192) (KX := 384) (KH := 64) (ax x0 x1 x2) (bx x0 x1 x3)
          (nax x0 x1 x2) (nbx x0 x1 x3) (ah x0 x1 x2 x4 x5 x6 x7) (bh x0 x1 x3 x4 x5 x6 x7)
          (nah x0 x1 x2 x4 x5 x6 x7) (nbh x0 x1 x3 x4 x5 x6 x7)) := by
  funext i
  rw [val_main_v229_apply, val_main_v228_apply, val_main_v227_apply, val_main_cst_54_apply, val_main_cst_55_apply,
    sum_idx2 (n0 := 8192) (n1 := 8192)]
  simp only [sq_apply, Ideal.hostUnary_sqrt_def, Ideal.hostDivf_def, Ideal.ofBits_def, Ideal.ofBits_zero_f32, zero_add]
  unfold Cert.SimSpec.lossOf Cert.SimSpec.total Cert.SimSpec.cnt
  with_reducible rfl

end Stages

end Cert.ReferenceIdeal.RefTail

end
-- ==== Proof.LibRowStat.lean ====
/-
  Row and column sums of a matrix on the host, read at an index at the exact instance.
-/
import Idealize.ShloMosaic.PureOps.Ideal.Laws
import Idealize.ShloMosaic.Lib.ValueIdx
import Idealize.ShloMosaic.Lib.Pipeline.Value

noncomputable section

namespace Cert.Lib.RowStat

open Idealize.ShloMosaic Idealize.ShloMosaic.ValueIdx
open scoped BigOperators

/-- The host's sum along axis 1 of an [A, B] matrix at row `a`: the initial value plus the sum of the row. -/
theorem rowSum_apply {A B : ℕ} (h : (⟨2, ![A, B]⟩ : Shape).ReducesTo [1] ⟨1, ![A]⟩)
    (hr : (⟨2, ![A, B]⟩ : Shape).Reduces [1] ⟨1, ![A]⟩) {u : Shape} (hu : 0 < u.numel)
    (x : FVec Ideal ⟨2, ![A, B]⟩ .f32) (init : u.Idx → EReal) (a : Fin A) :
    Host.reduceAdd (F := Ideal) (φ := .f32) x init h hu (ix1 a) = init (Shape.Idx.first hu) + ∑ k : Fin B, x (ix2 a k) := by
  simp only [Host.reduceAdd, Ideal.hostReduceAdd_def]
  rw [Ideal.hostReduceAdd_single h hr]
  refine congrArg (_ + ·) (Finset.sum_congr rfl fun k _ => ?_)
  exact congrArg x (funext fun b => Fin.ext (by match b with | ⟨0, _⟩ => rfl | ⟨1, _⟩ => rfl))

/-- The host's sum along axis 0 of an [A, B] matrix at column `b`: the initial value plus the sum of the column. -/
theorem colSum_apply {A B : ℕ} (h : (⟨2, ![A, B]⟩ : Shape).ReducesTo [0] ⟨1, ![B]⟩)
    (hr : (⟨2, ![A, B]⟩ : Shape).Reduces [0] ⟨1, ![B]⟩) {u : Shape} (hu : 0 < u.numel)
    (x : FVec Ideal ⟨2, ![A, B]⟩ .f32) (init : u.Idx → EReal) (b : Fin B) :
    Host.reduceAdd (F := Ideal) (φ := .f32) x init h hu (ix1 b) = init (Shape.Idx.first hu) + ∑ k : Fin A, x (ix2 k b) := by
  simp only [Host.reduceAdd, Ideal.hostReduceAdd_def]
  rw [Ideal.hostReduceAdd_single h hr]
  refine congrArg (_ + ·) (Finset.sum_congr rfl fun k _ => ?_)
  exact congrArg x (funext fun c => Fin.ext (by match c with | ⟨0, _⟩ => rfl | ⟨1, _⟩ => rfl))

/-- Centring the columns of an [N, C] matrix over its rows, as the host spells `x - mean(x, axis=0, keepdims)`: the
    column sum, cast to [1, C], divided by the row count's word, broadcast back and subtracted. Entry (n, k) is the
    entry minus the column's sum over the count. -/
theorem center_apply {N C : ℕ} (hC : C ≠ 1)
    (hb01 : (⟨2, ![1, C]⟩ : Shape).BroadcastsInDim ⟨2, ![N, C]⟩ ![0, 1])
    (hb1 : (⟨1, ![C]⟩ : Shape).BroadcastsInDim ⟨2, ![1, C]⟩ ![1])
    (hb : (⟨0, ![]⟩ : Shape).BroadcastsInDim ⟨2, ![1, C]⟩ ![])
    (hred : (⟨2, ![N, C]⟩ : Shape).ReducesTo [0] ⟨1, ![C]⟩) (hr : (⟨2, ![N, C]⟩ : Shape).Reduces [0] ⟨1, ![C]⟩)
    (hu : 0 < (⟨0, ![]⟩ : Shape).numel)
    (X : FVec Ideal ⟨2, ![N, C]⟩ .f32) (w0 wN : BitVec 32) (n : Fin N) (k : Fin C) :
    subf X (broadcastInDim ⟨2, ![N, C]⟩ ![0, 1] hb01
        (Host.divf (broadcastInDim ⟨2, ![1, C]⟩ ![1] hb1 (Host.reduceAdd X (constant (F := Ideal) ⟨0, ![]⟩ .f32 w0) hred hu))
          (broadcastInDim ⟨2, ![1, C]⟩ ![] hb (constant (F := Ideal) ⟨0, ![]⟩ .f32 wN)))) (ix2 n k)
      = X (ix2 n k) - Ideal.div (Ideal.ofBits .f32 w0 + ∑ n' : Fin N, X (ix2 n' k)) (Ideal.ofBits .f32 wN) := by
  rw [subf_apply]
  refine congrArg (X (ix2 n k) - ·) ?_
  rw [broadcastInDim_apply ![0, 1] hb01 _ (ix2 n k) (ix2 (0 : Fin 1) k) (fun a => by
    match a with
    | ⟨0, _⟩ => show 0 = if (1 : Nat) = 1 then 0 else n.val; rw [if_pos rfl]
    | ⟨1, _⟩ => show k.val = if C = 1 then 0 else k.val; rw [if_neg hC])]
  show Ideal.div _ _ = _
  rw [broadcastInDim_apply ![1] hb1 _ (ix2 (0 : Fin 1) k) (ix1 k) (fun a => by
    match a with
    | ⟨0, _⟩ => show k.val = if C = 1 then 0 else k.val; rw [if_neg hC])]
  rw [colSum_apply hred hr hu X _ k]
  rw [broadcastInDim_apply ![] hb _ (ix2 (0 : Fin 1) k) ix0 (fun a => a.elim0)]
  rfl

end Cert.Lib.RowStat

end
-- ==== Proof.NormJoin.lean ====
/-
  The norm of a gathered row is the gathered norm of the row.

  One program gathers rows of a matrix by an index column and then takes each gathered row's Euclidean norm (the square
  root of the sum, from a zero start, of the squared entries); the other takes the norms of ALL rows and gathers, by the
  same index column, the norms. Both gathers read the row the index word names, read signed and clamped into range, so
  the two agree: each is the square root of the start value plus the sum of the squares of that one row's entries.
  Read at an index, a norm stored as an [E, 1] column or as a [1, E] row is the norm of row e.
-/
import proofs.«101945_j60000693125366_2_alg».proof.KernelIdeal
import proofs.«101945_j60000693125366_2_alg».proof.ReferenceIdeal
import proofs.«101945_j60000693125366_2_alg».proof.Proof.LibRowGather
import proofs.«101945_j60000693125366_2_alg».proof.Proof.LibRowStat

noncomputable section

open scoped BigOperators

namespace Cert.Lib.NormJoin

open Idealize.ShloMosaic Idealize.ShloMosaic.ValueIdx Idealize.ShloMosaic.RowGather

/-! ## Any extents -/

section General

variable {A B : ℕ}

/-- The vector of row norms at row `a`: the square root of the start value plus the sum of the row's squares. -/
theorem norms_apply (h : (⟨2, ![A, B]⟩ : Shape).ReducesTo [1] ⟨1, ![A]⟩)
    (hr : (⟨2, ![A, B]⟩ : Shape).Reduces [1] ⟨1, ![A]⟩) (hu : 0 < (⟨0, ![]⟩ : Shape).numel)
    (X : FVec Ideal ⟨2, ![A, B]⟩ .f32) (w0 : BitVec 32) (a : Fin A) :
    Host.sqrt (Host.reduceAdd (mulf X X) (constant (F := Ideal) ⟨0, ![]⟩ .f32 w0) h hu) (ix1 a)
      = Ideal.sqrt (Ideal.ofBits .f32 w0 + ∑ k : Fin B, X (ix2 a k) * X (ix2 a k)) := by
  show FloatOps.hostUnary .sqrt (Host.reduceAdd (mulf X X) (constant (F := Ideal) ⟨0, ![]⟩ .f32 w0) h hu (ix1 a)) = _
  rw [Ideal.hostUnary_sqrt_def, Cert.Lib.RowStat.rowSum_apply h hr hu]
  rfl

/-- The row norms stored as an [A, 1] column, read at (a, 0). -/
theorem colNorm_apply (h : (⟨2, ![A, B]⟩ : Shape).ReducesTo [1] ⟨1, ![A]⟩)
    (hr : (⟨2, ![A, B]⟩ : Shape).Reduces [1] ⟨1, ![A]⟩) (hu : 0 < (⟨0, ![]⟩ : Shape).numel)
    (hA : A ≠ 1) (hb : (⟨1, ![A]⟩ : Shape).BroadcastsInDim ⟨2, ![A, 1]⟩ ![0])
    (X : FVec Ideal ⟨2, ![A, B]⟩ .f32) (w0 : BitVec 32) (a : Fin A) :
    broadcastInDim ⟨2, ![A, 1]⟩ ![0] hb
        (Host.sqrt (Host.reduceAdd (mulf X X) (constant (F := Ideal) ⟨0, ![]⟩ .f32 w0) h hu)) (ix2 a (0 : Fin 1))
      = Ideal.sqrt (Ideal.ofBits .f32 w0 + ∑ k : Fin B, X (ix2 a k) * X (ix2 a k)) := by
  rw [broadcastInDim_apply ![0] hb _ (ix2 a (0 : Fin 1)) (ix1 a) (fun b => by
    match b with
    | ⟨0, _⟩ => show a.val = if A = 1 then 0 else a.val; rw [if_neg hA])]
  exact norms_apply h hr hu X w0 a

/-- The row norms stored as a [1, A] row, read at (0, a). -/
theorem rowNorm_apply (h : (⟨2, ![A, B]⟩ : Shape).ReducesTo [1] ⟨1, ![A]⟩)
    (hr : (⟨2, ![A, B]⟩ : Shape).Reduces [1] ⟨1, ![A]⟩) (hu : 0 < (⟨0, ![]⟩ : Shape).numel)
    (hA : A ≠ 1) (hb : (⟨1, ![A]⟩ : Shape).BroadcastsInDim ⟨2, ![1, A]⟩ ![1])
    (X : FVec Ideal ⟨2, ![A, B]⟩ .f32) (w0 : BitVec 32) (a : Fin A) :
    broadcastInDim ⟨2, ![1, A]⟩ ![1] hb
        (Host.sqrt (Host.reduceAdd (mulf X X) (constant (F := Ideal) ⟨0, ![]⟩ .f32 w0) h hu)) (ix2 (0 : Fin 1) a)
      = Ideal.sqrt (Ideal.ofBits .f32 w0 + ∑ k : Fin B, X (ix2 a k) * X (ix2 a k)) := by
  rw [broadcastInDim_apply ![1] hb _ (ix2 (0 : Fin 1) a) (ix1 a) (fun b => by
    match b with
    | ⟨0, _⟩ => show a.val = if A = 1 then 0 else a.val; rw [if_neg hA])]
  exact norms_apply h hr hu X w0 a

end General

section Gathered

variable {N E C w : ℕ} (hN : 0 < N)
  (wfv : GatherDims.WF ⟨1, ![N]⟩ ⟨2, ![E, 1]⟩ ⟨1, ![E]⟩ [] [0] [] [0] [] 1 ![1])
  (wfr : GatherDims.WF ⟨2, ![N, C]⟩ ⟨2, ![E, 1]⟩ ⟨2, ![E, C]⟩ [1] [0] [] [0] [] 1 ![1, C])
  (hu : 0 < (⟨0, ![]⟩ : Shape).numel)

/-- The norms of all rows, gathered by an index column, read at `e`: the norm of the row the index word names. -/
theorem gatherNorm_apply (h : (⟨2, ![N, C]⟩ : Shape).ReducesTo [1] ⟨1, ![N]⟩)
    (hr : (⟨2, ![N, C]⟩ : Shape).Reduces [1] ⟨1, ![N]⟩) (X : FVec Ideal ⟨2, ![N, C]⟩ .f32) (w0 : BitVec 32)
    (idx : IVec ⟨2, ![E, 1]⟩ w) (e : Fin E) :
    Host.gather (vecGatherDims N E wfv)
        (Host.sqrt (Host.reduceAdd (mulf X X) (constant (F := Ideal) ⟨0, ![]⟩ .f32 w0) h hu)) idx (ix1 e)
      = Ideal.sqrt (Ideal.ofBits .f32 w0 + ∑ k : Fin C,
          X (ix2 ⟨rowAt N (idx (ix2 e (0 : Fin 1))), rowAt_lt hN _⟩ k)
            * X (ix2 ⟨rowAt N (idx (ix2 e (0 : Fin 1))), rowAt_lt hN _⟩ k)) := by
  rw [vecGather_apply wfv hN]
  exact norms_apply h hr hu X w0 _

/-- The norm of a gathered row, stored as a column, read at (e, 0): the norm of the row the index word names. -/
theorem colNorm_gather_apply (hE : E ≠ 1) (hb : (⟨1, ![E]⟩ : Shape).BroadcastsInDim ⟨2, ![E, 1]⟩ ![0])
    (h : (⟨2, ![E, C]⟩ : Shape).ReducesTo [1] ⟨1, ![E]⟩) (hr : (⟨2, ![E, C]⟩ : Shape).Reduces [1] ⟨1, ![E]⟩)
    (X : FVec Ideal ⟨2, ![N, C]⟩ .f32) (w0 : BitVec 32) (idx : IVec ⟨2, ![E, 1]⟩ w) (e : Fin E) :
    broadcastInDim ⟨2, ![E, 1]⟩ ![0] hb
        (Host.sqrt (Host.reduceAdd
          (mulf (Host.gather (rowGatherDims N E C wfr) X idx) (Host.gather (rowGatherDims N E C wfr) X idx))
          (constant (F := Ideal) ⟨0, ![]⟩ .f32 w0) h hu)) (ix2 e (0 : Fin 1))
      = Ideal.sqrt (Ideal.ofBits .f32 w0 + ∑ k : Fin C,
          X (ix2 ⟨rowAt N (idx (ix2 e (0 : Fin 1))), rowAt_lt hN _⟩ k)
            * X (ix2 ⟨rowAt N (idx (ix2 e (0 : Fin 1))), rowAt_lt hN _⟩ k)) := by
  rw [colNorm_apply h hr hu hE hb]
  refine congrArg Ideal.sqrt (congrArg (_ + ·) (Finset.sum_congr rfl fun k _ => ?_))
  rw [rowGather_apply wfr hN]

/-- The norm of a gathered row, stored as a row, read at (0, e). -/
theorem rowNorm_gather_apply (hE : E ≠ 1) (hb : (⟨1, ![E]⟩ : Shape).BroadcastsInDim ⟨2, ![1, E]⟩ ![1])
    (h : (⟨2, ![E, C]⟩ : Shape).ReducesTo [1] ⟨1, ![E]⟩) (hr : (⟨2, ![E, C]⟩ : Shape).Reduces [1] ⟨1, ![E]⟩)
    (X : FVec Ideal ⟨2, ![N, C]⟩ .f32) (w0 : BitVec 32) (idx : IVec ⟨2, ![E, 1]⟩ w) (e : Fin E) :
    broadcastInDim ⟨2, ![1, E]⟩ ![1] hb
        (Host.sqrt (Host.reduceAdd
          (mulf (Host.gather (rowGatherDims N E C wfr) X idx) (Host.gather (rowGatherDims N E C wfr) X idx))
          (constant (F := Ideal) ⟨0, ![]⟩ .f32 w0) h hu)) (ix2 (0 : Fin 1) e)
      = Ideal.sqrt (Ideal.ofBits .f32 w0 + ∑ k : Fin C,
          X (ix2 ⟨rowAt N (idx (ix2 e (0 : Fin 1))), rowAt_lt hN _⟩ k)
            * X (ix2 ⟨rowAt N (idx (ix2 e (0 : Fin 1))), rowAt_lt hN _⟩ k)) := by
  rw [rowNorm_apply h hr hu hE hb]
  refine congrArg Ideal.sqrt (congrArg (_ + ·) (Finset.sum_congr rfl fun k _ => ?_))
  rw [rowGather_apply wfr hN]

end Gathered

/-! ## The two programs' shapes -/

section Programs

variable [Cert.KernelIdeal.Facts] [Cert.ReferenceIdeal.Facts]

/-- The moment side, column form: the kernel program's norm of the gathered centred rows, read at (a, 0), is the
    reference program's gathered norm at a. -/
theorem norm_col (XC : FVec Ideal ⟨2, ![50000, 384]⟩ .f32) (idx : IVec ⟨2, ![8192, 1]⟩ 32) (a : Fin 8192) :
    broadcastInDim Cert.KernelIdeal.S8192x1 ![0] Cert.KernelIdeal.Facts₀.bcast_S8192_S8192x1_0
        (Host.sqrt (Host.reduceAdd
          (mulf (Host.gather Cert.KernelIdeal.gather_S50000x384_S8192x1_S8192x384_1_0_n_n_0_1_1384 XC idx)
            (Host.gather Cert.KernelIdeal.gather_S50000x384_S8192x1_S8192x384_1_0_n_n_0_1_1384 XC idx))
          (constant (F := Ideal) Cert.KernelIdeal.S_ .f32 0x00000000#32)
          Cert.KernelIdeal.Facts₀.reducesTo_S8192x384_S8192_d1 Cert.KernelIdeal.Facts₀.h_S_)) (ix2 a (0 : Fin 1))
      = Host.gather Cert.ReferenceIdeal.gather_S50000_S8192x1_S8192_n_0_n_n_0_1_1
          (Host.sqrt (Host.reduceAdd (mulf XC XC) (constant (F := Ideal) Cert.ReferenceIdeal.S_ .f32 0x00000000#32)
            Cert.ReferenceIdeal.Facts₀.reducesTo_S50000x384_S50000_d1 Cert.ReferenceIdeal.Facts₀.h_S_)) idx (ix1 a) :=
  (colNorm_gather_apply (N := 50000) (E := 8192) (C := 384) (by decide)
      Cert.KernelIdeal.Facts₀.gather_S50000x384_S8192x1_S8192x384_1_0_n_n_0_1_1384_wf Cert.KernelIdeal.Facts₀.h_S_
      (by decide) Cert.KernelIdeal.Facts₀.bcast_S8192_S8192x1_0 Cert.KernelIdeal.Facts₀.reducesTo_S8192x384_S8192_d1
      (by decide) XC 0x00000000#32 idx a).trans
    (gatherNorm_apply (N := 50000) (E := 8192) (C := 384) (by decide)
      Cert.ReferenceIdeal.Facts₀.gather_S50000_S8192x1_S8192_n_0_n_n_0_1_1_wf Cert.ReferenceIdeal.Facts₀.h_S_
      Cert.ReferenceIdeal.Facts₀.reducesTo_S50000x384_S50000_d1 (by decide) XC 0x00000000#32 idx a).symm

/-- The moment side, row form: the same with the kernel program's norm stored as a [1, 8192] row, read at (0, a). -/
theorem norm_row (XC : FVec Ideal ⟨2, ![50000, 384]⟩ .f32) (idx : IVec ⟨2, ![8192, 1]⟩ 32) (a : Fin 8192) :
    broadcastInDim Cert.KernelIdeal.S1x8192 ![1] Cert.KernelIdeal.Facts₀.bcast_S8192_S1x8192_1
        (Host.sqrt (Host.reduceAdd
          (mulf (Host.gather Cert.KernelIdeal.gather_S50000x384_S8192x1_S8192x384_1_0_n_n_0_1_1384 XC idx)
            (Host.gather Cert.KernelIdeal.gather_S50000x384_S8192x1_S8192x384_1_0_n_n_0_1_1384 XC idx))
          (constant (F := Ideal) Cert.KernelIdeal.S_ .f32 0x00000000#32)
          Cert.KernelIdeal.Facts₀.reducesTo_S8192x384_S8192_d1 Cert.KernelIdeal.Facts₀.h_S_)) (ix2 (0 : Fin 1) a)
      = Host.gather Cert.ReferenceIdeal.gather_S50000_S8192x1_S8192_n_0_n_n_0_1_1
          (Host.sqrt (Host.reduceAdd (mulf XC XC) (constant (F := Ideal) Cert.ReferenceIdeal.S_ .f32 0x00000000#32)
            Cert.ReferenceIdeal.Facts₀.reducesTo_S50000x384_S50000_d1 Cert.ReferenceIdeal.Facts₀.h_S_)) idx (ix1 a) :=
  (rowNorm_gather_apply (N := 50000) (E := 8192) (C := 384) (by decide)
      Cert.KernelIdeal.Facts₀.gather_S50000x384_S8192x1_S8192x384_1_0_n_n_0_1_1384_wf Cert.KernelIdeal.Facts₀.h_S_
      (by decide) Cert.KernelIdeal.Facts₀.bcast_S8192_S1x8192_1 Cert.KernelIdeal.Facts₀.reducesTo_S8192x384_S8192_d1
      (by decide) XC 0x00000000#32 idx a).trans
    (gatherNorm_apply (N := 50000) (E := 8192) (C := 384) (by decide)
      Cert.ReferenceIdeal.Facts₀.gather_S50000_S8192x1_S8192_n_0_n_n_0_1_1_wf Cert.ReferenceIdeal.Facts₀.h_S_
      Cert.ReferenceIdeal.Facts₀.reducesTo_S50000x384_S50000_d1 (by decide) XC 0x00000000#32 idx a).symm

/-- The encoder side, the reference program's gathered norm read at a: the norm of the 64 entries of the row the index
    word names. -/
theorem ref_norm_h (XH : FVec Ideal ⟨2, ![50000, 64]⟩ .f32) (idx : IVec ⟨2, ![8192, 1]⟩ 32) (a : Fin 8192) :
    Host.gather Cert.ReferenceIdeal.gather_S50000_S8192x1_S8192_n_0_n_n_0_1_1
        (Host.sqrt (Host.reduceAdd (mulf XH XH) (constant (F := Ideal) Cert.ReferenceIdeal.S_ .f32 0x00000000#32)
          Cert.ReferenceIdeal.Facts₀.reducesTo_S50000x64_S50000_d1 Cert.ReferenceIdeal.Facts₀.h_S_)) idx (ix1 a)
      = Ideal.sqrt (Ideal.ofBits .f32 0x00000000#32 + ∑ k : Fin 64,
          XH (ix2 ⟨rowAt 50000 (idx (ix2 a (0 : Fin 1))), rowAt_lt (by decide) _⟩ k)
            * XH (ix2 ⟨rowAt 50000 (idx (ix2 a (0 : Fin 1))), rowAt_lt (by decide) _⟩ k)) :=
  gatherNorm_apply (N := 50000) (E := 8192) (C := 64) (by decide)
    Cert.ReferenceIdeal.Facts₀.gather_S50000_S8192x1_S8192_n_0_n_n_0_1_1_wf Cert.ReferenceIdeal.Facts₀.h_S_
    Cert.ReferenceIdeal.Facts₀.reducesTo_S50000x64_S50000_d1 (by decide) XH 0x00000000#32 idx a

/-- The encoder side, the kernel program's column form over any [8192, 128] array, read at (a, 0). -/
theorem ker_norm_col_h (G2 : FVec Ideal ⟨2, ![8192, 128]⟩ .f32) (a : Fin 8192) :
    broadcastInDim Cert.KernelIdeal.S8192x1 ![0] Cert.KernelIdeal.Facts₀.bcast_S8192_S8192x1_0
        (Host.sqrt (Host.reduceAdd (mulf G2 G2) (constant (F := Ideal) Cert.KernelIdeal.S_ .f32 0x00000000#32)
          Cert.KernelIdeal.Facts₀.reducesTo_S8192x128_S8192_d1 Cert.KernelIdeal.Facts₀.h_S_)) (ix2 a (0 : Fin 1))
      = Ideal.sqrt (Ideal.ofBits .f32 0x00000000#32 + ∑ k : Fin 128, G2 (ix2 a k) * G2 (ix2 a k)) :=
  colNorm_apply (A := 8192) (B := 128) Cert.KernelIdeal.Facts₀.reducesTo_S8192x128_S8192_d1 (by decide)
    Cert.KernelIdeal.Facts₀.h_S_ (by decide) Cert.KernelIdeal.Facts₀.bcast_S8192_S8192x1_0 G2 0x00000000#32 a

/-- The encoder side, the kernel program's row form over any [8192, 128] array, read at (0, a). -/
theorem ker_norm_row_h (G2 : FVec Ideal ⟨2, ![8192, 128]⟩ .f32) (a : Fin 8192) :
    broadcastInDim Cert.KernelIdeal.S1x8192 ![1] Cert.KernelIdeal.Facts₀.bcast_S8192_S1x8192_1
        (Host.sqrt (Host.reduceAdd (mulf G2 G2) (constant (F := Ideal) Cert.KernelIdeal.S_ .f32 0x00000000#32)
          Cert.KernelIdeal.Facts₀.reducesTo_S8192x128_S8192_d1 Cert.KernelIdeal.Facts₀.h_S_)) (ix2 (0 : Fin 1) a)
      = Ideal.sqrt (Ideal.ofBits .f32 0x00000000#32 + ∑ k : Fin 128, G2 (ix2 a k) * G2 (ix2 a k)) :=
  rowNorm_apply (A := 8192) (B := 128) Cert.KernelIdeal.Facts₀.reducesTo_S8192x128_S8192_d1 (by decide)
    Cert.KernelIdeal.Facts₀.h_S_ (by decide) Cert.KernelIdeal.Facts₀.bcast_S8192_S1x8192_1 G2 0x00000000#32 a

end Programs

end Cert.Lib.NormJoin

end
-- ==== Proof.XSide.lean ====
/-
  The moment side of the two programs: one cosine entry.

  Both programs centre the moment matrix over all nodes; call the centred matrix XC. One program gathers the batch's
  source and target rows of XC and takes the norms of the gathered rows (kept as a column for the sources and as a row
  for the targets); the other takes the norms of all rows of XC and gathers rows and norms by the same index columns.
  The two row gathers have the same dimension numbers, so they are the same array, and the norm of a gathered row is the
  gathered norm; hence every cosine entry (dot product of a source row and a target row over the product of their norms
  plus the guard) is the same in both. A gathered row of a real matrix is real.
-/
import proofs.«101945_j60000693125366_2_alg».proof.KernelIdeal
import proofs.«101945_j60000693125366_2_alg».proof.ReferenceIdeal
import proofs.«101945_j60000693125366_2_alg».proof.Proof.Spec
import proofs.«101945_j60000693125366_2_alg».proof.Proof.LibReal
import proofs.«101945_j60000693125366_2_alg».proof.Proof.NormJoin

noncomputable section

open scoped BigOperators

namespace Cert.Lib.XSide

open Idealize.ShloMosaic Idealize.ShloMosaic.ValueIdx

variable [Cert.KernelIdeal.Facts] [Cert.ReferenceIdeal.Facts]

/-- The first program's gathered source rows of the centred moment matrix. -/
def W0 (XC : FVec Ideal Cert.KernelIdeal.S50000x384 .f32) (idxs : IVec Cert.KernelIdeal.S8192x1 32) :
    FVec Ideal Cert.KernelIdeal.S8192x384 .f32 :=
  Host.gather Cert.KernelIdeal.gather_S50000x384_S8192x1_S8192x384_1_0_n_n_0_1_1384 XC idxs

/-- Its gathered target rows. -/
def W1 (XC : FVec Ideal Cert.KernelIdeal.S50000x384 .f32) (idxt : IVec Cert.KernelIdeal.S8192x1 32) :
    FVec Ideal Cert.KernelIdeal.S8192x384 .f32 :=
  Host.gather Cert.KernelIdeal.gather_S50000x384_S8192x1_S8192x384_1_0_n_n_0_1_1384 XC idxt

/-- The norms of its gathered source rows, as an [8192, 1] column. -/
def W4 (XC : FVec Ideal Cert.KernelIdeal.S50000x384 .f32) (idxs : IVec Cert.KernelIdeal.S8192x1 32) :
    FVec Ideal Cert.KernelIdeal.S8192x1 .f32 :=
  broadcastInDim Cert.KernelIdeal.S8192x1 ![0] Cert.KernelIdeal.Facts₀.bcast_S8192_S8192x1_0
    (Host.sqrt (Host.reduceAdd
      (mulf (Host.gather Cert.KernelIdeal.gather_S50000x384_S8192x1_S8192x384_1_0_n_n_0_1_1384 XC idxs)
        (Host.gather Cert.KernelIdeal.gather_S50000x384_S8192x1_S8192x384_1_0_n_n_0_1_1384 XC idxs))
      (constant (F := Ideal) Cert.KernelIdeal.S_ .f32 0x00000000#32)
      Cert.KernelIdeal.Facts₀.reducesTo_S8192x384_S8192_d1 Cert.KernelIdeal.Facts₀.h_S_))

/-- The norms of its gathered target rows, as a [1, 8192] row. -/
def W5 (XC : FVec Ideal Cert.KernelIdeal.S50000x384 .f32) (idxt : IVec Cert.KernelIdeal.S8192x1 32) :
    FVec Ideal Cert.KernelIdeal.S1x8192 .f32 :=
  broadcastInDim Cert.KernelIdeal.S1x8192 ![1] Cert.KernelIdeal.Facts₀.bcast_S8192_S1x8192_1
    (Host.sqrt (Host.reduceAdd
      (mulf (Host.gather Cert.KernelIdeal.gather_S50000x384_S8192x1_S8192x384_1_0_n_n_0_1_1384 XC idxt)
        (Host.gather Cert.KernelIdeal.gather_S50000x384_S8192x1_S8192x384_1_0_n_n_0_1_1384 XC idxt))
      (constant (F := Ideal) Cert.KernelIdeal.S_ .f32 0x00000000#32)
      Cert.KernelIdeal.Facts₀.reducesTo_S8192x384_S8192_d1 Cert.KernelIdeal.Facts₀.h_S_))

/-- The second program's gathered source rows. -/
def AX (XC : FVec Ideal Cert.ReferenceIdeal.S50000x384 .f32) (idxs : IVec Cert.ReferenceIdeal.S8192x1 32) :
    FVec Ideal Cert.ReferenceIdeal.S8192x384 .f32 :=
  Host.gather Cert.ReferenceIdeal.gather_S50000x384_S8192x1_S8192x384_1_0_n_n_0_1_1384 XC idxs

/-- Its gathered target rows. -/
def BX (XC : FVec Ideal Cert.ReferenceIdeal.S50000x384 .f32) (idxt : IVec Cert.ReferenceIdeal.S8192x1 32) :
    FVec Ideal Cert.ReferenceIdeal.S8192x384 .f32 :=
  Host.gather Cert.ReferenceIdeal.gather_S50000x384_S8192x1_S8192x384_1_0_n_n_0_1_1384 XC idxt

/-- Its norms of all rows, gathered at the sources. -/
def nAX (XC : FVec Ideal Cert.ReferenceIdeal.S50000x384 .f32) (idxs : IVec Cert.ReferenceIdeal.S8192x1 32) :
    FVec Ideal Cert.ReferenceIdeal.S8192 .f32 :=
  Host.gather Cert.ReferenceIdeal.gather_S50000_S8192x1_S8192_n_0_n_n_0_1_1
    (Host.sqrt (Host.reduceAdd (mulf XC XC) (constant (F := Ideal) Cert.ReferenceIdeal.S_ .f32 0x00000000#32)
      Cert.ReferenceIdeal.Facts₀.reducesTo_S50000x384_S50000_d1 Cert.ReferenceIdeal.Facts₀.h_S_)) idxs

/-- Its norms of all rows, gathered at the targets. -/
def nBX (XC : FVec Ideal Cert.ReferenceIdeal.S50000x384 .f32) (idxt : IVec Cert.ReferenceIdeal.S8192x1 32) :
    FVec Ideal Cert.ReferenceIdeal.S8192 .f32 :=
  Host.gather Cert.ReferenceIdeal.gather_S50000_S8192x1_S8192_n_0_n_n_0_1_1
    (Host.sqrt (Host.reduceAdd (mulf XC XC) (constant (F := Ideal) Cert.ReferenceIdeal.S_ .f32 0x00000000#32)
      Cert.ReferenceIdeal.Facts₀.reducesTo_S50000x384_S50000_d1 Cert.ReferenceIdeal.Facts₀.h_S_)) idxt

/-- The two programs' row gathers have the same dimension numbers: the gathered rows are one array. -/
theorem W0_eq_AX (XC : FVec Ideal Cert.KernelIdeal.S50000x384 .f32) (idxs : IVec Cert.KernelIdeal.S8192x1 32) :
    W0 XC idxs = AX XC idxs := rfl

theorem W1_eq_BX (XC : FVec Ideal Cert.KernelIdeal.S50000x384 .f32) (idxt : IVec Cert.KernelIdeal.S8192x1 32) :
    W1 XC idxt = BX XC idxt := rfl

/-- The norm of a gathered source row is the gathered norm. -/
theorem W4_eq_nAX (XC : FVec Ideal Cert.KernelIdeal.S50000x384 .f32) (idxs : IVec Cert.KernelIdeal.S8192x1 32)
    (a : Fin 8192) : W4 XC idxs (ix2 a (0 : Fin 1)) = nAX XC idxs (ix1 a) :=
  Cert.Lib.NormJoin.norm_col XC idxs a

/-- The norm of a gathered target row is the gathered norm. -/
theorem W5_eq_nBX (XC : FVec Ideal Cert.KernelIdeal.S50000x384 .f32) (idxt : IVec Cert.KernelIdeal.S8192x1 32)
    (b : Fin 8192) : W5 XC idxt (ix2 (0 : Fin 1) b) = nBX XC idxt (ix1 b) :=
  Cert.Lib.NormJoin.norm_row XC idxt b

/-- EVERY COSINE ENTRY OF THE MOMENT SIDE IS THE SAME IN THE TWO PROGRAMS. -/
theorem xside (XC : FVec Ideal Cert.KernelIdeal.S50000x384 .f32) (idxs idxt : IVec Cert.KernelIdeal.S8192x1 32)
    (a b : Fin 8192) :
    Cert.SimSpec.cosv (n := 8192) (K := 384) (fun p k => W0 XC idxs (ix2 p k)) (fun p k => W1 XC idxt (ix2 p k))
        (fun p => W4 XC idxs (ix2 p (0 : Fin 1))) (fun p => W5 XC idxt (ix2 (0 : Fin 1) p)) a b
      = Cert.SimSpec.cosv (n := 8192) (K := 384) (fun p k => AX XC idxs (ix2 p k)) (fun p k => BX XC idxt (ix2 p k))
        (fun p => nAX XC idxs (ix1 p)) (fun p => nBX XC idxt (ix1 p)) a b := by
  simp only [Cert.SimSpec.cosv]
  rw [W0_eq_AX, W1_eq_BX, W4_eq_nAX, W5_eq_nBX]

/-- The gathered rows of a real matrix are real. -/
theorem w01_real (XC : FVec Ideal Cert.KernelIdeal.S50000x384 .f32) (idxs idxt : IVec Cert.KernelIdeal.S8192x1 32)
    (h : ∀ i, Cert.Lib.IsReal (XC i)) :
    (∀ i, Cert.Lib.IsReal (W0 XC idxs i)) ∧ (∀ i, Cert.Lib.IsReal (W1 XC idxt i)) :=
  ⟨fun i => by unfold W0 Host.gather; exact h _, fun i => by unfold W1 Host.gather; exact h _⟩

end Cert.Lib.XSide

end
-- ==== Proof.PadJoin.lean ====
/-
  A matrix padded with zero columns on the right, and what centring and dot products make of the padding.

  Padding an [N, C] matrix to [N, D] columns keeps entry (n, k) for k < C and puts the padding value at every
  other column.  When the padding value is zero: a padded column's sum over the rows is the sum of zeros, so centring
  the padded matrix over its rows (entry less column sum over the row count) centres the first C columns as they
  would be centred alone and leaves the padded columns zero (0 - (0 + 0) / N = 0 for a nonzero real count N); and a dot
  product of two such padded rows over all D columns is the dot product of the unpadded rows over the first C, the
  remaining terms being 0 * 0.
-/
import proofs.«101945_j60000693125366_2_alg».proof.KernelIdeal
import proofs.«101945_j60000693125366_2_alg».proof.Proof.LibReal
import Idealize.ShloMosaic.Lib.KernelVsHost
import Idealize.ShloMosaic.Lib.ValueIdx
import Idealize.ShloMosaic.PureOps.Ideal.Laws
import Mathlib.Algebra.BigOperators.Fin

noncomputable section

namespace Cert.Lib.PadJoin

open Idealize.ShloMosaic Idealize.ShloMosaic.ValueIdx
open scoped BigOperators

/-! ## The pad read at an index -/

/-- An [N, C] matrix padded on the right of its column axis to [N, D] (no low padding, no interior padding) reads, at
    (n, k), the operand at (n, k) when k < C and the padding value otherwise. -/
theorem pad_cols_apply {α : Type} {N C D : ℕ} (hi : ℕ) (x : (⟨2, ![N, C]⟩ : Shape).Idx → α) {u : Shape} (v : u.Idx → α)
    (hp : (⟨2, ![N, C]⟩ : Shape).Pads (![0, 0] : Fin 2 → Nat) ![0, hi] ![0, 0] ⟨2, ![N, D]⟩) (hu : 0 < u.numel)
    (n : Fin N) (k : Fin D) :
    pad ⟨2, ![N, D]⟩ ![0, 0] ![0, hi] ![0, 0] x v hp hu (ix2 n k)
      = if h : k.val < C then x (ix2 n ⟨k.val, h⟩) else v (Shape.Idx.first hu) := by
  by_cases h : k.val < C
  · rw [dif_pos h]
    exact pad_apply_of_inside _ _ _ x v hp hu _ (ix2 n (⟨k.val, h⟩ : Fin C)) (by
      intro a
      match a with
      | ⟨0, _⟩ => show n.val = 0 + n.val * (0 + 1); omega
      | ⟨1, _⟩ => show k.val = 0 + k.val * (0 + 1); omega)
  · rw [dif_neg h]
    exact pad_apply_of_not_inside _ _ _ x v hp hu _ (1 : Fin 2) (by
      intro hin
      have e : (k.val - 0) / (0 + 1) < C := hin.2.2
      omega)

section Printed
open Cert.KernelIdeal Cert.KernelIdeal.Facts₀
variable [Cert.KernelIdeal.Facts]

/-- The program's pad of the [50000, 64] embedding to 128 columns, read at (n, k): the embedding's entry in the first 64
    columns, the padding scalar in the last 64. -/
theorem pad_read {α : Type} (x : S50000x64.Idx → α) (v : S_.Idx → α) (n : Fin 50000) (k : Fin 128) :
    pad S50000x128 ![0, 0] ![0, 64] ![0, 0] x v pads_S50000x64_S50000x128_000_0640 h_S_ (ix2 n k)
      = if h : k.val < 64 then x (ix2 n ⟨k.val, h⟩) else v ix0 := by
  have e : Shape.Idx.first (s := S_) h_S_ = ix0 := eq_ix0 _
  rw [← e]
  exact pad_cols_apply 64 x v pads_S50000x64_S50000x128_000_0640 h_S_ n k

end Printed

/-! ## Centring the padded matrix -/

/-- Centring the zero-padded matrix over its 50000 rows: the first 64 columns are centred as the unpadded matrix's are,
    the padded columns stay zero. -/
theorem centred_pad (H : (⟨2, ![50000, 64]⟩ : Shape).Idx → EReal) (P : (⟨2, ![50000, 128]⟩ : Shape).Idx → EReal)
    (hP : ∀ (n : Fin 50000) (k : Fin 128), P (ix2 n k) = if h : k.val < 64 then H (ix2 n ⟨k.val, h⟩) else 0)
    (n : Fin 50000) (k : Fin 128) :
    P (ix2 n k) - Ideal.div (Ideal.ofBits .f32 0x00000000#32 + ∑ n' : Fin 50000, P (ix2 n' k)) (Ideal.ofBits .f32 0x47435000#32)
      = if h : k.val < 64 then
          H (ix2 n ⟨k.val, h⟩)
            - Ideal.div (Ideal.ofBits .f32 0x00000000#32 + ∑ n' : Fin 50000, H (ix2 n' ⟨k.val, h⟩)) (Ideal.ofBits .f32 0x47435000#32)
        else 0 := by
  by_cases h : k.val < 64
  · have e : ∀ n' : Fin 50000, P (ix2 n' k) = H (ix2 n' ⟨k.val, h⟩) := fun n' => by rw [hP, dif_pos h]
    rw [dif_pos h]
    simp only [e]
  · have e : ∀ n' : Fin 50000, P (ix2 n' k) = 0 := fun n' => by rw [hP, dif_neg h]
    rw [dif_neg h]
    simp only [e]
    rw [Finset.sum_const_zero, Ideal.ofBits_zero_f32, add_zero, Cert.Lib.ofBits_50000,
      Ideal.div_coe (by norm_num : (50000 : ℝ) ≠ 0), zero_mul, sub_zero]

/-! ## Dot products of padded rows -/

/-- Two rows that vanish past their first C entries: their dot product over all C + E entries is the dot product of
    their first C entries. -/
theorem sum_pad_add {C E : ℕ} (f g : Fin (C + E) → EReal) (f' g' : Fin C → EReal)
    (hf : ∀ k : Fin (C + E), f k = if h : k.val < C then f' ⟨k.val, h⟩ else 0)
    (hg : ∀ k : Fin (C + E), g k = if h : k.val < C then g' ⟨k.val, h⟩ else 0) :
    ∑ k : Fin (C + E), f k * g k = ∑ k : Fin C, f' k * g' k := by
  rw [Fin.sum_univ_add]
  have e1 : ∀ i : Fin C, f (Fin.castAdd E i) * g (Fin.castAdd E i) = f' i * g' i := fun i => by
    have hi : (Fin.castAdd E i).val < C := i.isLt
    rw [hf, hg, dif_pos hi, dif_pos hi]
    rfl
  have e2 : ∀ i : Fin E, f (Fin.natAdd C i) * g (Fin.natAdd C i) = 0 := fun i => by
    have hi : ¬ (Fin.natAdd C i).val < C := by
      show ¬ C + i.val < C
      omega
    rw [hf, dif_neg hi, zero_mul]
  simp only [e1, e2, Finset.sum_const_zero, add_zero]

/-- The same at 128 = 64 + 64 columns. -/
theorem sum_pad (f g : Fin 128 → EReal) (f' g' : Fin 64 → EReal)
    (hf : ∀ k : Fin 128, f k = if h : k.val < 64 then f' ⟨k.val, h⟩ else 0)
    (hg : ∀ k : Fin 128, g k = if h : k.val < 64 then g' ⟨k.val, h⟩ else 0) :
    ∑ k : Fin 128, f k * g k = ∑ k : Fin 64, f' k * g' k :=
  sum_pad_add (C := 64) (E := 64) f g f' g' hf hg

end Cert.Lib.PadJoin

end
-- ==== Proof.HSide.lean ====
/-
  The embedding side of one cosine entry, in the two programs.

  One program zero-pads the [50000, 64] embedding to 128 columns, centres the padded matrix over its rows, gathers the
  batch's source and target rows, and takes the rows' norms and dot products over all 128 columns.  The other centres
  the 64-column embedding, takes the norm of every row, and gathers rows and norms.  A padded column's mean is zero, so
  the centred padded matrix is the centred embedding followed by 64 zero columns; a gathered row of it is the gathered
  row of the centred embedding followed by zeros; and sums of products over 128 columns are the sums over the first
  64, the other terms being 0 * 0.  A gathered row's norm is the norm, taken before the gather, of the row the index
  names.  Hence the two programs form the same cosine entry.
-/
import proofs.«101945_j60000693125366_2_alg».proof.KernelIdeal
import proofs.«101945_j60000693125366_2_alg».proof.ReferenceIdeal
import proofs.«101945_j60000693125366_2_alg».proof.Proof.Spec
import proofs.«101945_j60000693125366_2_alg».proof.Proof.LibReal
import proofs.«101945_j60000693125366_2_alg».proof.Proof.LibRowGather
import proofs.«101945_j60000693125366_2_alg».proof.Proof.LibRowStat
import proofs.«101945_j60000693125366_2_alg».proof.Proof.PadJoin

noncomputable section

namespace Cert.Lib.HSide

open Idealize.ShloMosaic Idealize.ShloMosaic.ValueIdx
open scoped BigOperators

/-! ## The two programs' operations on the embedding -/

section Kernel
open Cert.KernelIdeal Cert.KernelIdeal.Facts₀
variable [Cert.KernelIdeal.Facts]

/-- The embedding padded with 64 columns of the integer zero read as a float. -/
def PK (H : FVec Ideal S50000x64 .f32) : FVec Ideal S50000x128 .f32 :=
  pad S50000x128 ![0, 0] ![0, 64] ![0, 0] H (sitofp (F := Ideal) .f32 (constantI S_ 32 0#32)) pads_S50000x64_S50000x128_000_0640 h_S_

/-- A 128-column matrix centred over its 50000 rows: each entry less its column's sum over the row count. -/
def CK (P : FVec Ideal S50000x128 .f32) : FVec Ideal S50000x128 .f32 :=
  subf P (broadcastInDim S50000x128 ![0, 1] bcast_S1x128_S50000x128_0_1 (Host.divf (broadcastInDim S1x128 ![1] bcast_S128_S1x128_1 (Host.reduceAdd P (constant (F := Ideal) S_ .f32 0x00000000#32) reducesTo_S50000x128_S128_d0 h_S_)) (broadcastInDim S1x128 ![] bcast_S_S1x128 (constant (F := Ideal) S_ .f32 0x47435000#32))))

/-- The centred padded embedding's rows at the source indices. -/
def W2 (H : FVec Ideal S50000x64 .f32) (idxs : IVec S8192x1 32) : FVec Ideal S8192x128 .f32 :=
  Host.gather gather_S50000x128_S8192x1_S8192x128_1_0_n_n_0_1_1128 (CK (PK H)) idxs

/-- The centred padded embedding's rows at the target indices. -/
def W3 (H : FVec Ideal S50000x64 .f32) (idxt : IVec S8192x1 32) : FVec Ideal S8192x128 .f32 :=
  Host.gather gather_S50000x128_S8192x1_S8192x128_1_0_n_n_0_1_1128 (CK (PK H)) idxt

/-- The norms of the gathered source rows, as a column. -/
def W6 (H : FVec Ideal S50000x64 .f32) (idxs : IVec S8192x1 32) : FVec Ideal S8192x1 .f32 :=
  broadcastInDim S8192x1 ![0] bcast_S8192_S8192x1_0 (Host.sqrt (Host.reduceAdd (mulf (W2 H idxs) (W2 H idxs)) (constant (F := Ideal) S_ .f32 0x00000000#32) reducesTo_S8192x128_S8192_d1 h_S_))

/-- The norms of the gathered target rows, as a row. -/
def W7 (H : FVec Ideal S50000x64 .f32) (idxt : IVec S8192x1 32) : FVec Ideal S1x8192 .f32 :=
  broadcastInDim S1x8192 ![1] bcast_S8192_S1x8192_1 (Host.sqrt (Host.reduceAdd (mulf (W3 H idxt) (W3 H idxt)) (constant (F := Ideal) S_ .f32 0x00000000#32) reducesTo_S8192x128_S8192_d1 h_S_))

end Kernel

section Reference
open Cert.ReferenceIdeal Cert.ReferenceIdeal.Facts₀
variable [Cert.ReferenceIdeal.Facts]

/-- The embedding centred over its 50000 rows. -/
def CR (H : FVec Ideal S50000x64 .f32) : FVec Ideal S50000x64 .f32 :=
  subf H (broadcastInDim S50000x64 ![0, 1] bcast_S1x64_S50000x64_0_1 (Host.divf (broadcastInDim S1x64 ![1] bcast_S64_S1x64_1 (Host.reduceAdd H (constant (F := Ideal) S_ .f32 0x00000000#32) reducesTo_S50000x64_S64_d0 h_S_)) (broadcastInDim S1x64 ![] bcast_S_S1x64 (constant (F := Ideal) S_ .f32 0x47435000#32))))

/-- The norm of every row of the centred embedding. -/
def NR (H : FVec Ideal S50000x64 .f32) : FVec Ideal S50000 .f32 :=
  Host.sqrt (Host.reduceAdd (mulf (CR H) (CR H)) (constant (F := Ideal) S_ .f32 0x00000000#32) reducesTo_S50000x64_S50000_d1 h_S_)

/-- The centred embedding's rows at the source indices. -/
def AH (H : FVec Ideal S50000x64 .f32) (idxs : IVec S8192x1 32) : FVec Ideal S8192x64 .f32 :=
  Host.gather gather_S50000x64_S8192x1_S8192x64_1_0_n_n_0_1_164 (CR H) idxs

/-- The centred embedding's rows at the target indices. -/
def BH (H : FVec Ideal S50000x64 .f32) (idxt : IVec S8192x1 32) : FVec Ideal S8192x64 .f32 :=
  Host.gather gather_S50000x64_S8192x1_S8192x64_1_0_n_n_0_1_164 (CR H) idxt

/-- The rows' norms at the source indices. -/
def nAH (H : FVec Ideal S50000x64 .f32) (idxs : IVec S8192x1 32) : FVec Ideal S8192 .f32 :=
  Host.gather gather_S50000_S8192x1_S8192_n_0_n_n_0_1_1 (NR H) idxs

/-- The rows' norms at the target indices. -/
def nBH (H : FVec Ideal S50000x64 .f32) (idxt : IVec S8192x1 32) : FVec Ideal S8192 .f32 :=
  Host.gather gather_S50000_S8192x1_S8192_n_0_n_n_0_1_1 (NR H) idxt

end Reference

variable [Cert.KernelIdeal.Facts] [Cert.ReferenceIdeal.Facts]

/-- The row of the 50000 an index word names: read signed, clamped. -/
def row (idx : IVec ⟨2, ![8192, 1]⟩ 32) (a : Fin 8192) : Fin 50000 :=
  ⟨RowGather.rowAt 50000 (idx (ix2 a (0 : Fin 1))), RowGather.rowAt_lt (by decide) _⟩

/-! ## The padded, centred embedding -/

/-- The padded embedding: the embedding in the first 64 columns, zero in the last 64. -/
theorem pk_apply (H : FVec Ideal ⟨2, ![50000, 64]⟩ .f32) (n : Fin 50000) (k : Fin 128) :
    PK H (ix2 n k) = if h : k.val < 64 then H (ix2 n ⟨k.val, h⟩) else 0 := by
  unfold PK
  rw [Cert.Lib.PadJoin.pad_read]
  have hz : sitofp (F := Ideal) .f32 (constantI Cert.KernelIdeal.S_ 32 0#32) ix0 = (0 : EReal) := by
    show (((0#32 : BitVec 32).toInt : ℝ) : EReal) = 0
    simp
  rw [hz]

/-- Centring a 128-column matrix, at an entry. -/
theorem ck_apply (P : FVec Ideal ⟨2, ![50000, 128]⟩ .f32) (n : Fin 50000) (k : Fin 128) :
    CK P (ix2 n k) = P (ix2 n k)
      - Ideal.div (Ideal.ofBits .f32 0x00000000#32 + ∑ n' : Fin 50000, P (ix2 n' k)) (Ideal.ofBits .f32 0x47435000#32) := by
  unfold CK
  exact Cert.Lib.RowStat.center_apply (by decide) _ _ _ _ (by decide) _ P _ _ n k

/-- Centring the 64-column embedding, at an entry. -/
theorem cr_apply (H : FVec Ideal ⟨2, ![50000, 64]⟩ .f32) (n : Fin 50000) (k : Fin 64) :
    CR H (ix2 n k) = H (ix2 n k)
      - Ideal.div (Ideal.ofBits .f32 0x00000000#32 + ∑ n' : Fin 50000, H (ix2 n' k)) (Ideal.ofBits .f32 0x47435000#32) := by
  unfold CR
  exact Cert.Lib.RowStat.center_apply (by decide) _ _ _ _ (by decide) _ H _ _ n k

/-- The centred padded embedding is the centred embedding followed by zero columns. -/
theorem ckpk_apply (H : FVec Ideal ⟨2, ![50000, 64]⟩ .f32) (n : Fin 50000) (k : Fin 128) :
    CK (PK H) (ix2 n k) = if h : k.val < 64 then CR H (ix2 n ⟨k.val, h⟩) else 0 := by
  rw [ck_apply]
  refine (Cert.Lib.PadJoin.centred_pad H (PK H) (pk_apply H) n k).trans ?_
  by_cases h : k.val < 64
  · rw [dif_pos h, dif_pos h, cr_apply]
  · rw [dif_neg h, dif_neg h]

/-! ## The gathered rows -/

/-- A gathered row of the centred padded embedding: the named row of the centred embedding, then zeros. -/
theorem w2_cr_apply (H : FVec Ideal ⟨2, ![50000, 64]⟩ .f32) (idx : IVec ⟨2, ![8192, 1]⟩ 32) (a : Fin 8192) (k : Fin 128) :
    W2 H idx (ix2 a k) = if h : k.val < 64 then CR H (ix2 (row idx a) ⟨k.val, h⟩) else 0 := by
  have e : W2 H idx (ix2 a k) = CK (PK H) (ix2 (row idx a) k) :=
    RowGather.rowGather_apply (N := 50000) (E := 8192) (C := 128) _ (by decide) (CK (PK H)) idx a k
  rw [e, ckpk_apply]

/-- A gathered row of the centred embedding is the row the index names. -/
theorem ah_apply (H : FVec Ideal ⟨2, ![50000, 64]⟩ .f32) (idx : IVec ⟨2, ![8192, 1]⟩ 32) (a : Fin 8192) (k : Fin 64) :
    AH H idx (ix2 a k) = CR H (ix2 (row idx a) k) :=
  RowGather.rowGather_apply (N := 50000) (E := 8192) (C := 64) _ (by decide) (CR H) idx a k

/-- The one program's gathered rows are the other's followed by zeros. -/
theorem w2_apply (H : FVec Ideal ⟨2, ![50000, 64]⟩ .f32) (idx : IVec ⟨2, ![8192, 1]⟩ 32) (a : Fin 8192) (k : Fin 128) :
    W2 H idx (ix2 a k) = if h : k.val < 64 then AH H idx (ix2 a ⟨k.val, h⟩) else 0 := by
  rw [w2_cr_apply]
  by_cases h : k.val < 64
  · rw [dif_pos h, dif_pos h, ah_apply]
  · rw [dif_neg h, dif_neg h]

theorem w3_eq (H : FVec Ideal ⟨2, ![50000, 64]⟩ .f32) (idx : IVec ⟨2, ![8192, 1]⟩ 32) : W3 H idx = W2 H idx := rfl
theorem bh_eq (H : FVec Ideal ⟨2, ![50000, 64]⟩ .f32) (idx : IVec ⟨2, ![8192, 1]⟩ 32) : BH H idx = AH H idx := rfl
theorem nbh_eq (H : FVec Ideal ⟨2, ![50000, 64]⟩ .f32) (idx : IVec ⟨2, ![8192, 1]⟩ 32) : nBH H idx = nAH H idx := rfl

/-! ## The norms -/

/-- The norm of each row of an [A, B] matrix, at row a: the root of the initial word's value plus the sum of the row's
    squares. -/
theorem rowNorm_apply {A B : ℕ} (h : (⟨2, ![A, B]⟩ : Shape).ReducesTo [1] ⟨1, ![A]⟩)
    (hr : (⟨2, ![A, B]⟩ : Shape).Reduces [1] ⟨1, ![A]⟩) {u : Shape} (hu : 0 < u.numel)
    (x : FVec Ideal ⟨2, ![A, B]⟩ .f32) (w : BitVec 32) (a : Fin A) :
    Host.sqrt (Host.reduceAdd (F := Ideal) (φ := .f32) (mulf x x) (constant (F := Ideal) u .f32 w) h hu) (ix1 a)
      = Ideal.sqrt (Ideal.ofBits .f32 w + ∑ k : Fin B, x (ix2 a k) * x (ix2 a k)) := by
  show Ideal.sqrt (Host.reduceAdd (F := Ideal) (φ := .f32) (mulf x x) (constant (F := Ideal) u .f32 w) h hu (ix1 a)) = _
  rw [Cert.Lib.RowStat.rowSum_apply h hr hu (mulf x x) _ a]
  rfl

/-- The norm of a row of the centred embedding. -/
theorem nr_apply (H : FVec Ideal ⟨2, ![50000, 64]⟩ .f32) (n : Fin 50000) :
    NR H (ix1 n) = Ideal.sqrt (Ideal.ofBits .f32 0x00000000#32 + ∑ k : Fin 64, CR H (ix2 n k) * CR H (ix2 n k)) := by
  unfold NR
  exact rowNorm_apply _ (by decide) _ (CR H) _ n

/-- A gathered norm is the norm of the row the index names. -/
theorem nah_apply (H : FVec Ideal ⟨2, ![50000, 64]⟩ .f32) (idx : IVec ⟨2, ![8192, 1]⟩ 32) (a : Fin 8192) :
    nAH H idx (ix1 a) = NR H (ix1 (row idx a)) :=
  RowGather.vecGather_apply (N := 50000) (E := 8192) _ (by decide) (NR H) idx a

/-- The norm of a gathered padded row, over its 128 columns. -/
theorem w2_norm_apply (H : FVec Ideal ⟨2, ![50000, 64]⟩ .f32) (idx : IVec ⟨2, ![8192, 1]⟩ 32) (a : Fin 8192) :
    Host.sqrt (Host.reduceAdd (F := Ideal) (φ := .f32) (mulf (W2 H idx) (W2 H idx)) (constant (F := Ideal) Cert.KernelIdeal.S_ .f32 0x00000000#32)
        Cert.KernelIdeal.Facts₀.reducesTo_S8192x128_S8192_d1 Cert.KernelIdeal.Facts₀.h_S_) (ix1 a)
      = Ideal.sqrt (Ideal.ofBits .f32 0x00000000#32 + ∑ k : Fin 128, W2 H idx (ix2 a k) * W2 H idx (ix2 a k)) := by
  exact rowNorm_apply _ (by decide) _ (W2 H idx) _ a

/-- The padded row's norm is the norm of the named row of the centred embedding: the padded entries add 0 * 0. -/
theorem w2_norm_eq (H : FVec Ideal ⟨2, ![50000, 64]⟩ .f32) (idx : IVec ⟨2, ![8192, 1]⟩ 32) (a : Fin 8192) :
    Ideal.sqrt (Ideal.ofBits .f32 0x00000000#32 + ∑ k : Fin 128, W2 H idx (ix2 a k) * W2 H idx (ix2 a k)) = nAH H idx (ix1 a) := by
  rw [nah_apply, nr_apply]
  have hs : ∑ k : Fin 128, W2 H idx (ix2 a k) * W2 H idx (ix2 a k)
      = ∑ k : Fin 64, CR H (ix2 (row idx a) k) * CR H (ix2 (row idx a) k) :=
    Cert.Lib.PadJoin.sum_pad (fun k => W2 H idx (ix2 a k)) (fun k => W2 H idx (ix2 a k))
      (fun k => CR H (ix2 (row idx a) k)) (fun k => CR H (ix2 (row idx a) k)) (w2_cr_apply H idx a) (w2_cr_apply H idx a)
  rw [hs]

/-- The source rows' norm column at (a, 0). -/
theorem w6_eq (H : FVec Ideal ⟨2, ![50000, 64]⟩ .f32) (idx : IVec ⟨2, ![8192, 1]⟩ 32) (a : Fin 8192) :
    W6 H idx (ix2 a (0 : Fin 1)) = nAH H idx (ix1 a) := by
  unfold W6
  rw [broadcastInDim_apply ![0] _ _ (ix2 a (0 : Fin 1)) (ix1 a) (fun c => by
    match c with
    | ⟨0, _⟩ => show a.val = if (8192 : ℕ) = 1 then 0 else a.val; rw [if_neg (by decide)])]
  exact (w2_norm_apply H idx a).trans (w2_norm_eq H idx a)

/-- The target rows' norm row at (0, b). -/
theorem w7_eq (H : FVec Ideal ⟨2, ![50000, 64]⟩ .f32) (idx : IVec ⟨2, ![8192, 1]⟩ 32) (b : Fin 8192) :
    W7 H idx (ix2 (0 : Fin 1) b) = nBH H idx (ix1 b) := by
  unfold W7
  rw [broadcastInDim_apply ![1] _ _ (ix2 (0 : Fin 1) b) (ix1 b) (fun c => by
    match c with
    | ⟨0, _⟩ => show b.val = if (8192 : ℕ) = 1 then 0 else b.val; rw [if_neg (by decide)])]
  exact (w2_norm_apply H idx b).trans (w2_norm_eq H idx b)

/-! ## The cosine entry -/

/-- The embedding's cosine entry (a, b) is the same in the two programs. -/
theorem hside (H : FVec Ideal ⟨2, ![50000, 64]⟩ .f32) (idxs idxt : IVec ⟨2, ![8192, 1]⟩ 32) (a b : Fin 8192) :
    Cert.SimSpec.cosv (n := 8192) (K := 128) (fun p k => W2 H idxs (ix2 p k)) (fun p k => W3 H idxt (ix2 p k))
        (fun p => W6 H idxs (ix2 p (0 : Fin 1))) (fun p => W7 H idxt (ix2 (0 : Fin 1) p)) a b
      = Cert.SimSpec.cosv (n := 8192) (K := 64) (fun p k => AH H idxs (ix2 p k)) (fun p k => BH H idxt (ix2 p k))
        (fun p => nAH H idxs (ix1 p)) (fun p => nBH H idxt (ix1 p)) a b := by
  show Ideal.div (∑ k : Fin 128, W2 H idxs (ix2 a k) * W3 H idxt (ix2 b k))
        (W6 H idxs (ix2 a (0 : Fin 1)) * W7 H idxt (ix2 (0 : Fin 1) b) + Cert.SimSpec.eps)
      = Ideal.div (∑ k : Fin 64, AH H idxs (ix2 a k) * BH H idxt (ix2 b k))
        (nAH H idxs (ix1 a) * nBH H idxt (ix1 b) + Cert.SimSpec.eps)
  have hs : ∑ k : Fin 128, W2 H idxs (ix2 a k) * W3 H idxt (ix2 b k) = ∑ k : Fin 64, AH H idxs (ix2 a k) * BH H idxt (ix2 b k) :=
    Cert.Lib.PadJoin.sum_pad (fun k => W2 H idxs (ix2 a k)) (fun k => W3 H idxt (ix2 b k))
      (fun k => AH H idxs (ix2 a k)) (fun k => BH H idxt (ix2 b k)) (w2_apply H idxs a) (w2_apply H idxt b)
  rw [hs, w6_eq, w7_eq]

/-- The gathered padded rows are real when the centred embedding is: each entry is one of its entries, or zero. -/
theorem w23_real (H : FVec Ideal ⟨2, ![50000, 64]⟩ .f32) (idxs idxt : IVec ⟨2, ![8192, 1]⟩ 32)
    (hH : ∀ i, Cert.Lib.IsReal (CR H i)) :
    (∀ i, Cert.Lib.IsReal (W2 H idxs i)) ∧ (∀ i, Cert.Lib.IsReal (W3 H idxt i)) := by
  have key : ∀ (idx : IVec ⟨2, ![8192, 1]⟩ 32) (i : (⟨2, ![8192, 128]⟩ : Shape).Idx), Cert.Lib.IsReal (W2 H idx i) := by
    intro idx i
    obtain ⟨a, k, rfl⟩ : ∃ (a : Fin 8192) (k : Fin 128), i = ix2 a k := ⟨i 0, i 1, eq_ix2 i⟩
    rw [w2_cr_apply]
    by_cases h : k.val < 64
    · rw [dif_pos h]; exact hH _
    · rw [dif_neg h]; exact Cert.Lib.isReal_zero
  exact ⟨key idxs, key idxt⟩

end Cert.Lib.HSide

end
-- ==== Proof.JoinCore.lean ====
/-
  The 64 tile sums of one program against the total of the other, over abstract gathered arrays.

  Tile (i, j) of the launch pairs the 1024 source rows of block i with the 1024 target rows of block j, so its entry
  (p, q) is entry (1024 i + p, 1024 j + q) of the 8192 × 8192 matrices; the total over all pairs is the sum of the 64
  tile sums (terms are only moved and bracketed).  On each pair, the moment family's cosine entry and the embedding's
  cosine entry are the same in the two programs, so the squared differences are the same term by term.
-/
import proofs.«101945_j60000693125366_2_alg».proof.Proof.XSide
import proofs.«101945_j60000693125366_2_alg».proof.Proof.HSide
import proofs.«101945_j60000693125366_2_alg».proof.Proof.BlockTotal

noncomputable section

namespace Cert.Join

open Idealize.ShloMosaic Idealize.ShloMosaic.ValueIdx
open Cert.SimSpec (rowOf)
open scoped BigOperators

variable [Cert.KernelIdeal.Facts] [Cert.ReferenceIdeal.Facts]

/-! ## One pair of rows -/

/-- The squared cosine difference at pair (p, q) of tile (i, j), formed from one program's gathered blocks, is the
    squared cosine difference at the pair (row p of block i, row q of block j) of all 8192 × 8192 pairs, formed from the
    other program's gathered rows and norms: a tile's entries are the whole matrices' entries, and the two programs'
    cosine entries agree on both feature families. -/
theorem sqd_block (XC : FVec Ideal ⟨2, ![50000, 384]⟩ .f32) (H : FVec Ideal ⟨2, ![50000, 64]⟩ .f32)
    (idxs idxt : IVec ⟨2, ![8192, 1]⟩ 32) (i j : Fin 8) (p q : Fin 1024) :
    Cert.SimSpec.sqd (n := 1024) (KX := 384) (KH := 128)
        (fun p k => Cert.Lib.XSide.W0 XC idxs (ix2 (rowOf i p) k)) (fun p k => Cert.Lib.XSide.W1 XC idxt (ix2 (rowOf j p) k))
        (fun p => Cert.Lib.XSide.W4 XC idxs (ix2 (rowOf i p) (0 : Fin 1))) (fun p => Cert.Lib.XSide.W5 XC idxt (ix2 (0 : Fin 1) (rowOf j p)))
        (fun p k => Cert.Lib.HSide.W2 H idxs (ix2 (rowOf i p) k)) (fun p k => Cert.Lib.HSide.W3 H idxt (ix2 (rowOf j p) k))
        (fun p => Cert.Lib.HSide.W6 H idxs (ix2 (rowOf i p) (0 : Fin 1))) (fun p => Cert.Lib.HSide.W7 H idxt (ix2 (0 : Fin 1) (rowOf j p))) p q
      = Cert.SimSpec.sqd (n := 8192) (KX := 384) (KH := 64)
        (fun p k => Cert.Lib.XSide.AX XC idxs (ix2 p k)) (fun p k => Cert.Lib.XSide.BX XC idxt (ix2 p k))
        (fun p => Cert.Lib.XSide.nAX XC idxs (ix1 p)) (fun p => Cert.Lib.XSide.nBX XC idxt (ix1 p))
        (fun p k => Cert.Lib.HSide.AH H idxs (ix2 p k)) (fun p k => Cert.Lib.HSide.BH H idxt (ix2 p k))
        (fun p => Cert.Lib.HSide.nAH H idxs (ix1 p)) (fun p => Cert.Lib.HSide.nBH H idxt (ix1 p)) (rowOf i p) (rowOf j q) := by
  have hx := Cert.Lib.XSide.xside XC idxs idxt (rowOf i p) (rowOf j q)
  have hh := Cert.Lib.HSide.hside H idxs idxt (rowOf i p) (rowOf j q)
  show (Cert.SimSpec.cosv (n := 8192) (K := 128) (fun p k => Cert.Lib.HSide.W2 H idxs (ix2 p k)) (fun p k => Cert.Lib.HSide.W3 H idxt (ix2 p k))
          (fun p => Cert.Lib.HSide.W6 H idxs (ix2 p (0 : Fin 1))) (fun p => Cert.Lib.HSide.W7 H idxt (ix2 (0 : Fin 1) p)) (rowOf i p) (rowOf j q)
        - Cert.SimSpec.cosv (n := 8192) (K := 384) (fun p k => Cert.Lib.XSide.W0 XC idxs (ix2 p k)) (fun p k => Cert.Lib.XSide.W1 XC idxt (ix2 p k))
          (fun p => Cert.Lib.XSide.W4 XC idxs (ix2 p (0 : Fin 1))) (fun p => Cert.Lib.XSide.W5 XC idxt (ix2 (0 : Fin 1) p)) (rowOf i p) (rowOf j q))
      * (Cert.SimSpec.cosv (n := 8192) (K := 128) (fun p k => Cert.Lib.HSide.W2 H idxs (ix2 p k)) (fun p k => Cert.Lib.HSide.W3 H idxt (ix2 p k))
          (fun p => Cert.Lib.HSide.W6 H idxs (ix2 p (0 : Fin 1))) (fun p => Cert.Lib.HSide.W7 H idxt (ix2 (0 : Fin 1) p)) (rowOf i p) (rowOf j q)
        - Cert.SimSpec.cosv (n := 8192) (K := 384) (fun p k => Cert.Lib.XSide.W0 XC idxs (ix2 p k)) (fun p k => Cert.Lib.XSide.W1 XC idxt (ix2 p k))
          (fun p => Cert.Lib.XSide.W4 XC idxs (ix2 p (0 : Fin 1))) (fun p => Cert.Lib.XSide.W5 XC idxt (ix2 (0 : Fin 1) p)) (rowOf i p) (rowOf j q)) = _
  rw [hx, hh]
  rfl

/-! ## The 64 tiles against the total -/

/-- The sum over the 8 × 8 tiles of each tile's sum of squared cosine differences, formed from one program's gathered
    arrays, is the other program's total over all 8192 × 8192 pairs. -/
theorem blocks_total (XC : FVec Ideal ⟨2, ![50000, 384]⟩ .f32) (H : FVec Ideal ⟨2, ![50000, 64]⟩ .f32)
    (idxs idxt : IVec ⟨2, ![8192, 1]⟩ 32) :
    (∑ i : Fin 8, ∑ j : Fin 8, Cert.SimSpec.total (n := 1024) (KX := 384) (KH := 128)
        (fun p k => Cert.Lib.XSide.W0 XC idxs (ix2 (rowOf i p) k)) (fun p k => Cert.Lib.XSide.W1 XC idxt (ix2 (rowOf j p) k))
        (fun p => Cert.Lib.XSide.W4 XC idxs (ix2 (rowOf i p) (0 : Fin 1))) (fun p => Cert.Lib.XSide.W5 XC idxt (ix2 (0 : Fin 1) (rowOf j p)))
        (fun p k => Cert.Lib.HSide.W2 H idxs (ix2 (rowOf i p) k)) (fun p k => Cert.Lib.HSide.W3 H idxt (ix2 (rowOf j p) k))
        (fun p => Cert.Lib.HSide.W6 H idxs (ix2 (rowOf i p) (0 : Fin 1))) (fun p => Cert.Lib.HSide.W7 H idxt (ix2 (0 : Fin 1) (rowOf j p))))
      = Cert.SimSpec.total (n := 8192) (KX := 384) (KH := 64)
        (fun p k => Cert.Lib.XSide.AX XC idxs (ix2 p k)) (fun p k => Cert.Lib.XSide.BX XC idxt (ix2 p k))
        (fun p => Cert.Lib.XSide.nAX XC idxs (ix1 p)) (fun p => Cert.Lib.XSide.nBX XC idxt (ix1 p))
        (fun p k => Cert.Lib.HSide.AH H idxs (ix2 p k)) (fun p k => Cert.Lib.HSide.BH H idxt (ix2 p k))
        (fun p => Cert.Lib.HSide.nAH H idxs (ix1 p)) (fun p => Cert.Lib.HSide.nBH H idxt (ix1 p)) := by
  rw [Cert.SimSpec.total_blocks]
  refine Finset.sum_congr rfl fun i _ => Finset.sum_congr rfl fun j _ => ?_
  unfold Cert.SimSpec.total
  refine Finset.sum_congr rfl fun p _ => Finset.sum_congr rfl fun q _ => ?_
  exact sqd_block XC H idxs idxt i j p q

/-- The same over eight arrays known to be the gathered arrays. -/
theorem blocks_total_of (XC : FVec Ideal ⟨2, ![50000, 384]⟩ .f32) (H : FVec Ideal ⟨2, ![50000, 64]⟩ .f32)
    (idxs idxt : IVec ⟨2, ![8192, 1]⟩ 32)
    (W0 W1 : (⟨2, ![8192, 384]⟩ : Shape).Idx → EReal) (W2 W3 : (⟨2, ![8192, 128]⟩ : Shape).Idx → EReal)
    (W4 : (⟨2, ![8192, 1]⟩ : Shape).Idx → EReal) (W5 : (⟨2, ![1, 8192]⟩ : Shape).Idx → EReal)
    (W6 : (⟨2, ![8192, 1]⟩ : Shape).Idx → EReal) (W7 : (⟨2, ![1, 8192]⟩ : Shape).Idx → EReal)
    (h0 : W0 = Cert.Lib.XSide.W0 XC idxs) (h1 : W1 = Cert.Lib.XSide.W1 XC idxt)
    (h2 : W2 = Cert.Lib.HSide.W2 H idxs) (h3 : W3 = Cert.Lib.HSide.W3 H idxt)
    (h4 : W4 = Cert.Lib.XSide.W4 XC idxs) (h5 : W5 = Cert.Lib.XSide.W5 XC idxt)
    (h6 : W6 = Cert.Lib.HSide.W6 H idxs) (h7 : W7 = Cert.Lib.HSide.W7 H idxt) :
    (∑ i : Fin 8, ∑ j : Fin 8, Cert.SimSpec.total (n := 1024) (KX := 384) (KH := 128)
        (fun p k => W0 (ix2 (rowOf i p) k)) (fun p k => W1 (ix2 (rowOf j p) k))
        (fun p => W4 (ix2 (rowOf i p) (0 : Fin 1))) (fun p => W5 (ix2 (0 : Fin 1) (rowOf j p)))
        (fun p k => W2 (ix2 (rowOf i p) k)) (fun p k => W3 (ix2 (rowOf j p) k))
        (fun p => W6 (ix2 (rowOf i p) (0 : Fin 1))) (fun p => W7 (ix2 (0 : Fin 1) (rowOf j p))))
      = Cert.SimSpec.total (n := 8192) (KX := 384) (KH := 64)
        (fun p k => Cert.Lib.XSide.AX XC idxs (ix2 p k)) (fun p k => Cert.Lib.XSide.BX XC idxt (ix2 p k))
        (fun p => Cert.Lib.XSide.nAX XC idxs (ix1 p)) (fun p => Cert.Lib.XSide.nBX XC idxt (ix1 p))
        (fun p k => Cert.Lib.HSide.AH H idxs (ix2 p k)) (fun p k => Cert.Lib.HSide.BH H idxt (ix2 p k))
        (fun p => Cert.Lib.HSide.nAH H idxs (ix1 p)) (fun p => Cert.Lib.HSide.nBH H idxt (ix1 p)) := by
  subst h0 h1 h2 h3 h4 h5 h6 h7
  exact blocks_total XC H idxs idxt

/-- The four gathered row arrays are real when the two centred matrices are. -/
theorem gathered_real (XC : FVec Ideal ⟨2, ![50000, 384]⟩ .f32) (H : FVec Ideal ⟨2, ![50000, 64]⟩ .f32)
    (idxs idxt : IVec ⟨2, ![8192, 1]⟩ 32) (hX : ∀ i, Cert.Lib.IsReal (XC i)) (hH : ∀ i, Cert.Lib.IsReal (Cert.Lib.HSide.CR H i)) :
    (∀ i, Cert.Lib.IsReal (Cert.Lib.XSide.W0 XC idxs i)) ∧ (∀ i, Cert.Lib.IsReal (Cert.Lib.XSide.W1 XC idxt i))
      ∧ (∀ i, Cert.Lib.IsReal (Cert.Lib.HSide.W2 H idxs i)) ∧ (∀ i, Cert.Lib.IsReal (Cert.Lib.HSide.W3 H idxt i)) :=
  ⟨(Cert.Lib.XSide.w01_real XC idxs idxt hX).1, (Cert.Lib.XSide.w01_real XC idxs idxt hX).2,
    (Cert.Lib.HSide.w23_real H idxs idxt hH).1, (Cert.Lib.HSide.w23_real H idxs idxt hH).2⟩

end Cert.Join

end
-- ==== Proof.KHost.lean ====
/-
  The host operations that run before the launch, read as equations between the arrays the launch finds.

  The program before its one launch is in single-assignment form: every array is written by exactly one
  operation, after its operands. So the contents the launch finds in an array are that operation applied to
  the contents the launch finds in its operands. This module states those equations for the tail of the host
  prefix — centring of the two feature arrays over their 50000 rows, the index vectors of the two batches,
  the gathers of the batch rows and the row norms of the gathered rows — each proved by computing both sides
  from the contents at the start of the last three stretches of operations.
-/
import proofs.«101945_j60000693125366_2_alg».proof.Proof.KIBase

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]

variable (m : (ℓ : Loc nD τ sig) → Buf (Elt F) ℓ)

/-! ## Cutting the fold -/

/-- The fold over stretches in a row is the fold over the later ones of the fold over the earlier ones. -/
theorem after_flatten_split (ls₁ ls₂ : List (List (HloOp τ sig (Elt F)))) (V : Valuation τ sig (Elt F)) :
    StableHlo.after (List.flatten (ls₁ ++ ls₂)) V = StableHlo.after (List.flatten ls₂) (StableHlo.after (List.flatten ls₁) V) := by
  rw [List.flatten_append, StableHlo.after_append]

/-- Core `c`'s buffer contents when the last three stretches begin (the two encoders' moments are done; the
    second encoder's output, its padding and everything about the batches are still to come). -/
def W10 (c : Dev nD) : Valuation τ sig (Elt F) :=
  StableHlo.after (List.flatten [hostOps0, hostOps0_1, hostOps0_2, hostOps0_3, hostOps0_4, hostOps0_5, hostOps0_6, hostOps0_7, hostOps0_8,
    hostOps0_9]) (fun b => m (c, b))

/-- What the launch finds is the last three stretches folded over `W10`. -/
theorem V0_cut10 (c : Dev nD) :
    Frame.V0 m c = StableHlo.after (List.flatten [hostOps0_10, hostOps0_11, hostOps0_12]) (W10 m c) :=
  after_flatten_split [hostOps0, hostOps0_1, hostOps0_2, hostOps0_3, hostOps0_4, hostOps0_5, hostOps0_6, hostOps0_7, hostOps0_8, hostOps0_9]
    [hostOps0_10, hostOps0_11, hostOps0_12] _

/-- Both sides of an equation between arrays the launch finds, computed from `W10`. -/
macro "khost_tail" : tactic =>
  `(tactic| (dsimp only [Frame.V]
             rw [V0_cut10]
             simp only [hostOps0_10, hostOps0_11, hostOps0_12, List.flatten_cons, List.flatten_nil, List.append_nil, List.cons_append,
               List.nil_append]
             after_results_simp))

/-! ## The batch index vectors -/

/-- The first batch's node numbers as the index column the gather of the 384-column array reads: a negative number
    counts from the end (50000 is added). -/
theorem v133_eq (c : Dev nD) :
    Frame.V m c main_v133 = broadcastInDim S8192x1 ![0] bcast_S8192_S8192x1_0
      (select (cmpi .slt (Frame.V m c main_arg2) (broadcastInDim S8192 ![] bcast_S_S8192 (constantI S_ 32 0#32)))
        (addi (Frame.V m c main_arg2) (broadcastInDim S8192 ![] bcast_S_S8192 (constantI S_ 32 50000#32))) (Frame.V m c main_arg2)) := by
  khost_tail
/-- The second batch's index column, as the gather of the 384-column array reads it. -/
theorem v140_eq (c : Dev nD) :
    Frame.V m c main_v140 = broadcastInDim S8192x1 ![0] bcast_S8192_S8192x1_0
      (select (cmpi .slt (Frame.V m c main_arg3) (broadcastInDim S8192 ![] bcast_S_S8192 (constantI S_ 32 0#32)))
        (addi (Frame.V m c main_arg3) (broadcastInDim S8192 ![] bcast_S_S8192 (constantI S_ 32 50000#32))) (Frame.V m c main_arg3)) := by
  khost_tail
/-- The first batch's index column, as the gather of the 128-column array reads it. -/
theorem v159_eq (c : Dev nD) :
    Frame.V m c main_v159 = broadcastInDim S8192x1 ![0] bcast_S8192_S8192x1_0
      (select (cmpi .slt (Frame.V m c main_arg2) (broadcastInDim S8192 ![] bcast_S_S8192 (constantI S_ 32 0#32)))
        (addi (Frame.V m c main_arg2) (broadcastInDim S8192 ![] bcast_S_S8192 (constantI S_ 32 50000#32))) (Frame.V m c main_arg2)) := by
  khost_tail
/-- The second batch's index column, as the gather of the 128-column array reads it. -/
theorem v166_eq (c : Dev nD) :
    Frame.V m c main_v166 = broadcastInDim S8192x1 ![0] bcast_S8192_S8192x1_0
      (select (cmpi .slt (Frame.V m c main_arg3) (broadcastInDim S8192 ![] bcast_S_S8192 (constantI S_ 32 0#32)))
        (addi (Frame.V m c main_arg3) (broadcastInDim S8192 ![] bcast_S_S8192 (constantI S_ 32 50000#32))) (Frame.V m c main_arg3)) := by
  khost_tail

/-! ## The 384-column side: centring, the two gathers, the row norms -/

/-- The moments array minus its column means (column sums over the 50000 rows, divided by 50000). -/
theorem v127_eq (c : Dev nD) :
    Frame.V m c main_v127 = subf (Frame.V m c main_v63) (broadcastInDim S50000x384 ![0, 1] bcast_S1x384_S50000x384_0_1
      (Host.divf (broadcastInDim S1x384 ![1] bcast_S384_S1x384_1 (Host.reduceAdd (Frame.V m c main_v63) (constant (F := F) S_ .f32 0x00000000#32) reducesTo_S50000x384_S384_d0 h_S_))
        (broadcastInDim S1x384 ![] bcast_S_S1x384 (constant (F := F) S_ .f32 0x47435000#32)))) := by
  khost_tail

/-- The centred rows of the first batch. -/
theorem v134_eq (c : Dev nD) :
    Frame.V m c main_v134 = Host.gather gather_S50000x384_S8192x1_S8192x384_1_0_n_n_0_1_1384 (Frame.V m c main_v127) (Frame.V m c main_v133) := by
  khost_tail
/-- The centred rows of the second batch. -/
theorem v141_eq (c : Dev nD) :
    Frame.V m c main_v141 = Host.gather gather_S50000x384_S8192x1_S8192x384_1_0_n_n_0_1_1384 (Frame.V m c main_v127) (Frame.V m c main_v140) := by
  khost_tail

/-- The row norms of the first batch's rows. -/
theorem v144_eq (c : Dev nD) :
    Frame.V m c main_v144 = Host.sqrt (Host.reduceAdd (mulf (Frame.V m c main_v134) (Frame.V m c main_v134)) (constant (F := F) S_ .f32 0x00000000#32) reducesTo_S8192x384_S8192_d1 h_S_) := by
  khost_tail
/-- The row norms of the second batch's rows. -/
theorem v147_eq (c : Dev nD) :
    Frame.V m c main_v147 = Host.sqrt (Host.reduceAdd (mulf (Frame.V m c main_v141) (Frame.V m c main_v141)) (constant (F := F) S_ .f32 0x00000000#32) reducesTo_S8192x384_S8192_d1 h_S_) := by
  khost_tail
/-- The first batch's row norms as a column. -/
theorem v174_eq (c : Dev nD) :
    Frame.V m c main_v174 = broadcastInDim S8192x1 ![0] bcast_S8192_S8192x1_0
      (Host.sqrt (Host.reduceAdd (mulf (Frame.V m c main_v134) (Frame.V m c main_v134)) (constant (F := F) S_ .f32 0x00000000#32) reducesTo_S8192x384_S8192_d1 h_S_)) := by
  khost_tail
/-- The second batch's row norms as a row. -/
theorem v175_eq (c : Dev nD) :
    Frame.V m c main_v175 = broadcastInDim S1x8192 ![1] bcast_S8192_S1x8192_1
      (Host.sqrt (Host.reduceAdd (mulf (Frame.V m c main_v141) (Frame.V m c main_v141)) (constant (F := F) S_ .f32 0x00000000#32) reducesTo_S8192x384_S8192_d1 h_S_)) := by
  khost_tail

/-! ## The 128-column side: padding, centring, the two gathers, the row norms -/

/-- The second encoder's output with 64 zero columns appended. -/
theorem v121_eq (c : Dev nD) :
    Frame.V m c main_v121 = pad S50000x128 ![0, 0] ![0, 64] ![0, 0] (Frame.V m c main_v120) (sitofp (F := F) .f32 (constantI S_ 32 0#32))
      pads_S50000x64_S50000x128_000_0640 h_S_ := by
  khost_tail
  try rfl

/-- The padded array minus its column means. -/
theorem v153_eq (c : Dev nD) :
    Frame.V m c main_v153 = subf (Frame.V m c main_v121) (broadcastInDim S50000x128 ![0, 1] bcast_S1x128_S50000x128_0_1
      (Host.divf (broadcastInDim S1x128 ![1] bcast_S128_S1x128_1 (Host.reduceAdd (Frame.V m c main_v121) (constant (F := F) S_ .f32 0x00000000#32) reducesTo_S50000x128_S128_d0 h_S_))
        (broadcastInDim S1x128 ![] bcast_S_S1x128 (constant (F := F) S_ .f32 0x47435000#32)))) := by
  khost_tail

/-- The centred padded rows of the first batch. -/
theorem v160_eq (c : Dev nD) :
    Frame.V m c main_v160 = Host.gather gather_S50000x128_S8192x1_S8192x128_1_0_n_n_0_1_1128 (Frame.V m c main_v153) (Frame.V m c main_v159) := by
  khost_tail
/-- The centred padded rows of the second batch. -/
theorem v167_eq (c : Dev nD) :
    Frame.V m c main_v167 = Host.gather gather_S50000x128_S8192x1_S8192x128_1_0_n_n_0_1_1128 (Frame.V m c main_v153) (Frame.V m c main_v166) := by
  khost_tail

/-- The row norms of the first batch's padded rows. -/
theorem v170_eq (c : Dev nD) :
    Frame.V m c main_v170 = Host.sqrt (Host.reduceAdd (mulf (Frame.V m c main_v160) (Frame.V m c main_v160)) (constant (F := F) S_ .f32 0x00000000#32) reducesTo_S8192x128_S8192_d1 h_S_) := by
  khost_tail
/-- The row norms of the second batch's padded rows. -/
theorem v173_eq (c : Dev nD) :
    Frame.V m c main_v173 = Host.sqrt (Host.reduceAdd (mulf (Frame.V m c main_v167) (Frame.V m c main_v167)) (constant (F := F) S_ .f32 0x00000000#32) reducesTo_S8192x128_S8192_d1 h_S_) := by
  khost_tail
/-- The first batch's padded-row norms as a column. -/
theorem v176_eq (c : Dev nD) :
    Frame.V m c main_v176 = broadcastInDim S8192x1 ![0] bcast_S8192_S8192x1_0
      (Host.sqrt (Host.reduceAdd (mulf (Frame.V m c main_v160) (Frame.V m c main_v160)) (constant (F := F) S_ .f32 0x00000000#32) reducesTo_S8192x128_S8192_d1 h_S_)) := by
  khost_tail
/-- The second batch's padded-row norms as a row. -/
theorem v177_eq (c : Dev nD) :
    Frame.V m c main_v177 = broadcastInDim S1x8192 ![1] bcast_S8192_S1x8192_1
      (Host.sqrt (Host.reduceAdd (mulf (Frame.V m c main_v167) (Frame.V m c main_v167)) (constant (F := F) S_ .f32 0x00000000#32) reducesTo_S8192x128_S8192_d1 h_S_)) := by
  khost_tail

end Cert.KernelIdeal.KHost

end
-- ==== Proof.FiniteOps.lean ====
/-
  Real-valuedness of array operations over the extended reals.

  A value is NONNEGATIVE-REAL when it is the image of a real number that is at least zero. Sums and products of such
  values are such values, the square of a real value is one, and the square root of one is real (of a negative real it
  would be the junk value, hence the sign information). The sign, the absolute value and a real power of real values are
  real; a selection between two real values is real. An accumulating scatter of real updates into a real operand is real
  at every entry (the operand entry plus a finite sum of update entries), and nonnegative-real when both are; every entry
  of a gather is an entry of its operand, and every entry of a concatenation is an entry of one of its pieces. The float
  words 1, 1e-16 and 1/3 denote reals (the first two positive).
-/
import proofs.«101945_j60000693125366_2_alg».proof.Proof.LibReal
import Idealize.ShloMosaic.Lib.ValueIdx

noncomputable section

open scoped BigOperators

namespace Cert.Lib

open Idealize.ShloMosaic

/-- An extended real that is the image of a nonnegative real number. -/
def IsNN (x : EReal) : Prop := ∃ v : ℝ, 0 ≤ v ∧ x = (v : EReal)

/-- A nonnegative-real value is real. -/
theorem IsNN.isReal {x : EReal} (h : IsNN x) : IsReal x := by
  obtain ⟨v, _, rfl⟩ := h; exact ⟨v, rfl⟩

theorem isNN_zero : IsNN (0 : EReal) := ⟨0, le_rfl, rfl⟩

theorem isNN_one : IsNN (1 : EReal) := ⟨1, zero_le_one, rfl⟩

/-- The sum of two nonnegative-real values is one. -/
theorem IsNN.add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩

/-- The product of two nonnegative-real values is one. -/
theorem IsNN.mul {x y : EReal} (hx : IsNN x) (hy : IsNN y) : IsNN (x * y) := by
  obtain ⟨a, ha, rfl⟩ := hx; obtain ⟨b, hb, rfl⟩ := hy
  exact ⟨a * b, mul_nonneg ha hb, (EReal.coe_mul a b).symm⟩

/-- The square of a real value is nonnegative-real. -/
theorem IsReal.mul_self_isNN {x : EReal} (hx : IsReal x) : IsNN (x * x) := by
  obtain ⟨a, rfl⟩ := hx; exact ⟨a * a, mul_self_nonneg a, (EReal.coe_mul a a).symm⟩

/-- A finite sum of nonnegative-real values is one. -/
theorem IsNN.sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- The square root of a nonnegative-real value is real. -/
theorem IsNN.sqrt {x : EReal} (hx : IsNN x) : IsReal (Ideal.sqrt x) := by
  obtain ⟨v, hv, rfl⟩ := hx
  rw [Ideal.sqrt_coe, if_neg (not_lt.mpr hv)]; exact ⟨_, rfl⟩

/-- The sign of a real value is real. -/
theorem IsReal.sign {x : EReal} (hx : IsReal x) : IsReal (Ideal.sign x) := by
  obtain ⟨a, rfl⟩ := hx; rw [Ideal.sign_coe]; exact ⟨_, rfl⟩

/-- The absolute value of a real value is real. -/
theorem isReal_abs {x : EReal} (hx : IsReal x) : IsReal (max x (-x)) := hx.max hx.neg

/-- A real value to a real power is real. -/
theorem IsReal.pow {x y : EReal} (hx : IsReal x) (hy : IsReal y) : IsReal (Ideal.pow x y) := by
  obtain ⟨a, rfl⟩ := hx; obtain ⟨b, rfl⟩ := hy; rw [Ideal.pow_coe_coe]; exact ⟨_, rfl⟩

/-- A selection between two real values is real. -/
theorem isReal_select (c : BitVec 1) {a b : EReal} (ha : IsReal a) (hb : IsReal b) : IsReal (Scalar.select c a b) := by
  unfold Scalar.select; split <;> assumption

/-- A selection between two nonnegative-real values is one. -/
theorem isNN_select (c : BitVec 1) {a b : EReal} (ha : IsNN a) (hb : IsNN b) : IsNN (Scalar.select c a b) := by
  unfold Scalar.select; split <;> assumption

/-- The reciprocal of the larger of a nonnegative-real value and one is nonnegative-real. -/
theorem IsNN.inv_max_one {d : EReal} (hd : IsNN d) : IsNN (Ideal.div 1 (max d 1)) := by
  obtain ⟨v, hv, rfl⟩ := hd
  have hmax : max ((v : ℝ) : EReal) 1 = ((max v 1 : ℝ) : EReal) := by
    rcases le_total v 1 with h | h
    · rw [max_eq_right h, max_eq_right (by exact_mod_cast h)]; rfl
    · rw [max_eq_left h, max_eq_left (by exact_mod_cast h)]
  have hpos : (0 : ℝ) < max v 1 := lt_of_lt_of_le zero_lt_one (le_max_right v 1)
  rw [hmax, ← EReal.coe_one, div_coe_coe 1 hpos.ne']
  exact ⟨_, by positivity, rfl⟩

/-- The word `0x3F800000` denotes one. -/
theorem ofBits_one : Ideal.ofBits .f32 0x3F800000#32 = 1 := by
  simp [Ideal.ofBits, Ideal.ieee, -EReal.coe_mul]; norm_num

/-- The word `0x24E69595` (about `1e-16`) denotes a positive real. -/
theorem ofBits_tiny_pos : ∃ e : ℝ, 0 < e ∧ Ideal.ofBits .f32 0x24E69595#32 = (e : EReal) := by
  refine ⟨15111573 * (2 : ℝ) ^ (-77 : ℤ), by positivity, ?_⟩
  simp [Ideal.ofBits, Ideal.ieee, -EReal.coe_mul]

/-- The word `0x24E69595` denotes a nonnegative real. -/
theorem isNN_ofBits_tiny : IsNN (Ideal.ofBits .f32 0x24E69595#32) := by
  obtain ⟨e, he, h⟩ := ofBits_tiny_pos; exact ⟨e, he.le, h⟩

/-- The word `0x3EAAAAAB` (about one third) denotes a real. -/
theorem isReal_ofBits_third : IsReal (Ideal.ofBits .f32 0x3EAAAAAB#32) := by
  refine ⟨11184811 * (2 : ℝ) ^ (-25 : ℤ), ?_⟩
  simp [Ideal.ofBits, Ideal.ieee, -EReal.coe_mul]

/-- The word `0x3F800000` denotes a nonnegative real. -/
theorem isNN_ofBits_one : IsNN (Ideal.ofBits .f32 0x3F800000#32) := by
  rw [ofBits_one]; exact isNN_one

/-- The word `0x00000000` denotes a nonnegative real. -/
theorem isNN_ofBits_zero : IsNN (Ideal.ofBits .f32 0x00000000#32) := by
  rw [Ideal.ofBits_zero_f32]; exact isNN_zero

/-- Every entry of an accumulating scatter of real updates into a real operand is real. -/
theorem scatterAdd_isReal {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- Every entry of an accumulating scatter of nonnegative-real updates into a nonnegative-real operand is one. -/
theorem scatterAdd_isNN {s si u : Shape} {w : Nat} {φ : FTy} (d : ScatterDims s si u) (x : FVec Ideal s φ)
    (idx : IVec si w) (upd : FVec Ideal u φ) (hx : ∀ i, IsNN (x i)) (hu : ∀ j, IsNN (upd j)) (i : s.Idx) :
    IsNN (Host.scatterAdd d x idx upd i) := by
  show IsNN (Ideal.hostScatterAdd d x idx upd i)
  unfold Ideal.hostScatterAdd
  exact (hx i).add (IsNN.sum _ _ fun j _ => hu j)

/-- Every entry of a gather is an entry of its operand. -/
theorem gather_forall {α : Type} (P : α → Prop) {s si t : Shape} {w : Nat} (d : GatherDims s si t) (x : s.Idx → α)
    (idx : IVec si w) (hx : ∀ i, P (x i)) (j : t.Idx) : P (Host.gather d x idx j) := hx _

/-- Every entry of a concatenation is an entry of one of its pieces. -/
theorem concatenate_forall {α : Type} (P : α → Prop) (t : Shape) (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

end Cert.Lib

end
-- ==== Proof.Finite.lean ====
/-
  Every entry of the moment matrix and of the encoder's output is a real.

  The reference program computes, from a feature matrix x and an edge list, the degree of every node (a scatter of ones),
  the inverse degree (zero where the degree is zero), and three neighbourhood moments of x: the mean mu (a scatter of the
  gathered rows, times the inverse degree), the spread sigma (the square root of the mean of the squared residuals, with
  a tiny positive stand-in where that mean is zero) and the signed cube root gamma of the mean cube (again with the
  stand-in at zero). The moment matrix xd is mu | sigma | gamma. The encoder applies an affine map to x, takes the same
  three moments of the result, and applies a second affine map: that is h.

  When every entry of x and of the two weight matrices and two bias vectors is a real, every entry of xd and of h is a
  real. The argument goes stage by stage. The one place where more than realness is needed is the square root: the
  degree is a sum of ones, so nonnegative; the inverse degree is 1 / max(degree, 1) or zero, so nonnegative; the mean of
  squared residuals is a sum of squares times the inverse degree, so nonnegative, and so is the stand-in; hence the
  square root is taken of a nonnegative real and is real. A sign, an absolute value and a real power of reals are real.
-/
import proofs.«101945_j60000693125366_2_alg».proof.Proof.FiniteOps
import proofs.«101945_j60000693125366_2_alg».proof.Proof.RefStages

noncomputable section

open scoped BigOperators

namespace Cert.ReferenceIdeal.Finite

open Cert.ReferenceIdeal Cert.ReferenceIdeal.Gen Cert.ReferenceIdeal.ReadP Idealize.ShloMosaic Cert.Lib

/-- The feature matrix, the edge list, and the encoder's two weight matrices and bias vectors, as arrays of extended
    reals (integers for the edge list). -/
abbrev XT := (⟨S50000x128, .f32⟩ : BufTy).Contents (Elt Ideal)
abbrev ET := (⟨S2x800000, .i32⟩ : BufTy).Contents (Elt Ideal)
abbrev W1T := (⟨S128x64, .f32⟩ : BufTy).Contents (Elt Ideal)
abbrev BT := (⟨S64, .f32⟩ : BufTy).Contents (Elt Ideal)
abbrev W2T := (⟨S192x64, .f32⟩ : BufTy).Contents (Elt Ideal)

/-! ## The degree and the inverse degree -/

/-- The scattered updates are ones. -/
theorem v4_nn (i : S800000.Idx) : IsNN (val_main_v4 (F := Ideal) i) := by
  rw [val_main_v4_apply, val_main_cst_apply]; exact isNN_ofBits_one

/-- The scatter starts from zeros. -/
theorem v5_nn (i : S50000.Idx) : IsNN (val_main_v5 (F := Ideal) i) := by
  rw [val_main_v5_apply, val_main_cst_0_apply]; exact isNN_ofBits_zero

/-- The degree, a sum of ones, is a nonnegative real. -/
theorem v7_nn (x1 : ET) (i : S50000.Idx) : IsNN (val_main_v7 (F := Ideal) x1 i) := by
  unfold val_main_v7; exact scatterAdd_isNN _ _ _ _ v5_nn v4_nn i

/-- The inverse degree, 1 / max(degree, 1) where the degree is positive and zero elsewhere, is a nonnegative real. -/
theorem v14_nn (x1 : ET) (i : S50000.Idx) : IsNN (val_main_v14 (F := Ideal) x1 i) := by
  rw [val_main_v14_apply, val_main_v13_apply, val_main_v12_apply, val_main_cst_3_apply, val_main_v11_apply,
    val_main_v10_apply, val_main_cst_2_apply, val_main_call0_v1_apply, val_main_call0_v0_apply, val_main_cst_4_apply]
  simp only [Ideal.ofBits_def, Ideal.hostDivf_def, Ideal.maximumf_def, ofBits_one, Ideal.ofBits_zero_f32]
  exact isNN_select _ (v7_nn x1 i).inv_max_one isNN_zero

/-! ## The three moments of x (128 columns) -/

/-- The inverse degree spread over the columns. -/
theorem v26_nn (x1 : ET) (i : S50000x128.Idx) : IsNN (val_main_v26 (F := Ideal) x1 i) := by
  rw [val_main_v26_apply, val_main_v25_apply]; exact v14_nn x1 _

theorem v41_nn (x1 : ET) (i : S50000x128.Idx) : IsNN (val_main_v41 (F := Ideal) x1 i) := by
  rw [val_main_v41_apply, val_main_v40_apply]; exact v14_nn x1 _

theorem v60_nn (x1 : ET) (i : S50000x128.Idx) : IsNN (val_main_v60 (F := Ideal) x1 i) := by
  rw [val_main_v60_apply, val_main_v59_apply]; exact v14_nn x1 _

/-- The three scatters start from zeros. -/
theorem v22_eq (i : S50000x128.Idx) : val_main_v22 (F := Ideal) i = 0 := by
  rw [val_main_v22_apply, val_main_cst_6_apply]; exact Ideal.ofBits_zero_f32

theorem v37_eq (i : S50000x128.Idx) : val_main_v37 (F := Ideal) i = 0 := by
  rw [val_main_v37_apply, val_main_cst_9_apply]; exact Ideal.ofBits_zero_f32

theorem v56_eq (i : S50000x128.Idx) : val_main_v56 (F := Ideal) i = 0 := by
  rw [val_main_v56_apply, val_main_cst_14_apply]; exact Ideal.ofBits_zero_f32

/-- The stand-in at zero is the word of 1e-16. -/
theorem call1_v1_eq (i : S50000x128.Idx) : val_main_call1_v1 (F := Ideal) i = Ideal.ofBits .f32 0x24E69595#32 := by
  rw [val_main_call1_v1_apply, val_main_call1_v0_apply, val_main_cst_11_apply]; rfl

theorem call2_v1_eq (i : S50000x128.Idx) : val_main_call2_v1 (F := Ideal) i = Ideal.ofBits .f32 0x24E69595#32 := by
  rw [val_main_call2_v1_apply, val_main_call2_v0_apply, val_main_cst_16_apply]; rfl

/-- The exponent is the word of one third. -/
theorem v67_eq (i : S50000x128.Idx) : val_main_v67 (F := Ideal) i = Ideal.ofBits .f32 0x3EAAAAAB#32 := by
  rw [val_main_v67_apply, val_main_cst_17_apply]; rfl

/-- The gathered rows of x. -/
theorem v21_real (x0 : XT) (x1 : ET) (h0 : ∀ i, IsReal (x0 i)) (j : S800000x128.Idx) :
    IsReal (val_main_v21 (F := Ideal) x0 x1 j) := by
  unfold val_main_v21; exact gather_forall IsReal _ _ _ h0 j

/-- Their scattered sums. -/
theorem v24_real (x0 : XT) (x1 : ET) (h0 : ∀ i, IsReal (x0 i)) (i : S50000x128.Idx) :
    IsReal (val_main_v24 (F := Ideal) x0 x1 i) := by
  unfold val_main_v24
  exact scatterAdd_isReal _ _ _ _ (fun i => by rw [v22_eq]; exact isReal_zero) (v21_real x0 x1 h0) i

/-- The mean mu. -/
theorem v27_real (x0 : XT) (x1 : ET) (h0 : ∀ i, IsReal (x0 i)) (i : S50000x128.Idx) :
    IsReal (val_main_v27 (F := Ideal) x0 x1 i) := by
  rw [val_main_v27_apply]; exact (v24_real x0 x1 h0 i).mul (v26_nn x1 i).isReal

/-- The residual x - mu. -/
theorem v28_real (x0 : XT) (x1 : ET) (h0 : ∀ i, IsReal (x0 i)) (i : S50000x128.Idx) :
    IsReal (val_main_v28 (F := Ideal) x0 x1 i) := by
  rw [val_main_v28_apply]; exact (h0 i).sub (v27_real x0 x1 h0 i)

/-- Its square, a nonnegative real. -/
theorem v29_nn (x0 : XT) (x1 : ET) (h0 : ∀ i, IsReal (x0 i)) (i : S50000x128.Idx) :
    IsNN (val_main_v29 (F := Ideal) x0 x1 i) := by
  rw [val_main_v29_apply]; exact (v28_real x0 x1 h0 i).mul_self_isNN

theorem v36_nn (x0 : XT) (x1 : ET) (h0 : ∀ i, IsReal (x0 i)) (j : S800000x128.Idx) :
    IsNN (val_main_v36 (F := Ideal) x0 x1 j) := by
  unfold val_main_v36; exact gather_forall IsNN _ _ _ (v29_nn x0 x1 h0) j

theorem v39_nn (x0 : XT) (x1 : ET) (h0 : ∀ i, IsReal (x0 i)) (i : S50000x128.Idx) :
    IsNN (val_main_v39 (F := Ideal) x0 x1 i) := by
  unfold val_main_v39
  exact scatterAdd_isNN _ _ _ _ (fun i => by rw [v37_eq]; exact isNN_zero) (v36_nn x0 x1 h0) i

/-- The mean of the squared residuals, a nonnegative real. -/
theorem v42_nn (x0 : XT) (x1 : ET) (h0 : ∀ i, IsReal (x0 i)) (i : S50000x128.Idx) :
    IsNN (val_main_v42 (F := Ideal) x0 x1 i) := by
  rw [val_main_v42_apply]; exact (v39_nn x0 x1 h0 i).mul (v41_nn x1 i)

/-- With the stand-in at zero it is still a nonnegative real. -/
theorem v45_nn (x0 : XT) (x1 : ET) (h0 : ∀ i, IsReal (x0 i)) (i : S50000x128.Idx) :
    IsNN (val_main_v45 (F := Ideal) x0 x1 i) := by
  rw [val_main_v45_apply, call1_v1_eq]; exact isNN_select _ isNN_ofBits_tiny (v42_nn x0 x1 h0 i)

/-- The spread sigma. -/
theorem v46_real (x0 : XT) (x1 : ET) (h0 : ∀ i, IsReal (x0 i)) (i : S50000x128.Idx) :
    IsReal (val_main_v46 (F := Ideal) x0 x1 i) := by
  rw [val_main_v46_apply, Ideal.hostUnary_sqrt_def]; exact (v45_nn x0 x1 h0 i).sqrt

/-- The cube of x. -/
theorem v48_real (x0 : XT) (h0 : ∀ i, IsReal (x0 i)) (i : S50000x128.Idx) : IsReal (val_main_v48 (F := Ideal) x0 i) := by
  rw [val_main_v48_apply, val_main_v47_apply]; exact ((h0 i).mul (h0 i)).mul (h0 i)

theorem v55_real (x0 : XT) (x1 : ET) (h0 : ∀ i, IsReal (x0 i)) (j : S800000x128.Idx) :
    IsReal (val_main_v55 (F := Ideal) x0 x1 j) := by
  unfold val_main_v55; exact gather_forall IsReal _ _ _ (v48_real x0 h0) j

theorem v58_real (x0 : XT) (x1 : ET) (h0 : ∀ i, IsReal (x0 i)) (i : S50000x128.Idx) :
    IsReal (val_main_v58 (F := Ideal) x0 x1 i) := by
  unfold val_main_v58
  exact scatterAdd_isReal _ _ _ _ (fun i => by rw [v56_eq]; exact isReal_zero) (v55_real x0 x1 h0) i

/-- The mean cube. -/
theorem v61_real (x0 : XT) (x1 : ET) (h0 : ∀ i, IsReal (x0 i)) (i : S50000x128.Idx) :
    IsReal (val_main_v61 (F := Ideal) x0 x1 i) := by
  rw [val_main_v61_apply]; exact (v58_real x0 x1 h0 i).mul (v60_nn x1 i).isReal

theorem v64_real (x0 : XT) (x1 : ET) (h0 : ∀ i, IsReal (x0 i)) (i : S50000x128.Idx) :
    IsReal (val_main_v64 (F := Ideal) x0 x1 i) := by
  rw [val_main_v64_apply, call2_v1_eq]; exact isReal_select _ isNN_ofBits_tiny.isReal (v61_real x0 x1 h0 i)

/-- The signed cube root gamma. -/
theorem v69_real (x0 : XT) (x1 : ET) (h0 : ∀ i, IsReal (x0 i)) (i : S50000x128.Idx) :
    IsReal (val_main_v69 (F := Ideal) x0 x1 i) := by
  rw [val_main_v69_apply, val_main_v65_apply, val_main_v68_apply, val_main_v66_apply, v67_eq, Ideal.mulf_def,
    Ideal.hostUnary_sign_def, Ideal.hostPowf_def, Ideal.hostAbsf_def, Ideal.absf_def]
  exact (v64_real x0 x1 h0 i).sign.mul ((isReal_abs (v64_real x0 x1 h0 i)).pow isReal_ofBits_third)

/-- EVERY ENTRY OF THE MOMENT MATRIX mu | sigma | gamma IS A REAL. -/
theorem xd_real (x0 : XT) (x1 : ET) (h0 : ∀ i, IsReal (x0 i)) (i : S50000x384.Idx) :
    IsReal (val_main_v70 (F := Ideal) x0 x1 i) := by
  unfold val_main_v70
  refine concatenate_forall IsReal _ _ _ _ ?_ i
  intro p hp j
  simp only [List.mem_cons, List.not_mem_nil, or_false] at hp
  rcases hp with rfl | rfl | rfl
  · exact v27_real x0 x1 h0 j
  · exact v46_real x0 x1 h0 j
  · exact v69_real x0 x1 h0 j

/-! ## The first affine map -/

theorem v119_real (x0 : XT) (x4 : W1T) (x5 : BT) (h0 : ∀ i, IsReal (x0 i)) (h4 : ∀ i, IsReal (x4 i))
    (h5 : ∀ i, IsReal (x5 i)) (i : S50000x64.Idx) : IsReal (val_main_v119 (F := Ideal) x0 x4 x5 i) := by
  rw [val_main_v119_apply, val_main_v116_apply, val_main_v118_apply, val_main_v117_apply]
  exact (IsReal.sum_univ _ fun k => (h0 _).mul (h4 _)).add (h5 _)

/-! ## The three moments of the first affine map's result (64 columns) -/

theorem v131_nn (x1 : ET) (i : S50000x64.Idx) : IsNN (val_main_v131 (F := Ideal) x1 i) := by
  rw [val_main_v131_apply, val_main_v130_apply]; exact v14_nn x1 _

theorem v146_nn (x1 : ET) (i : S50000x64.Idx) : IsNN (val_main_v146 (F := Ideal) x1 i) := by
  rw [val_main_v146_apply, val_main_v145_apply]; exact v14_nn x1 _

theorem v165_nn (x1 : ET) (i : S50000x64.Idx) : IsNN (val_main_v165 (F := Ideal) x1 i) := by
  rw [val_main_v165_apply, val_main_v164_apply]; exact v14_nn x1 _

theorem v127_eq (i : S50000x64.Idx) : val_main_v127 (F := Ideal) i = 0 := by
  rw [val_main_v127_apply, val_main_cst_31_apply]; exact Ideal.ofBits_zero_f32

theorem v142_eq (i : S50000x64.Idx) : val_main_v142 (F := Ideal) i = 0 := by
  rw [val_main_v142_apply, val_main_cst_34_apply]; exact Ideal.ofBits_zero_f32

theorem v161_eq (i : S50000x64.Idx) : val_main_v161 (F := Ideal) i = 0 := by
  rw [val_main_v161_apply, val_main_cst_39_apply]; exact Ideal.ofBits_zero_f32

theorem call4_v1_eq (i : S50000x64.Idx) : val_main_call4_v1 (F := Ideal) i = Ideal.ofBits .f32 0x24E69595#32 := by
  rw [val_main_call4_v1_apply, val_main_call4_v0_apply, val_main_cst_36_apply]; rfl

theorem call5_v1_eq (i : S50000x64.Idx) : val_main_call5_v1 (F := Ideal) i = Ideal.ofBits .f32 0x24E69595#32 := by
  rw [val_main_call5_v1_apply, val_main_call5_v0_apply, val_main_cst_41_apply]; rfl

theorem v172_eq (i : S50000x64.Idx) : val_main_v172 (F := Ideal) i = Ideal.ofBits .f32 0x3EAAAAAB#32 := by
  rw [val_main_v172_apply, val_main_cst_42_apply]; rfl

section Enc

variable (x0 : XT) (x1 : ET) (x4 : W1T) (x5 : BT) (h0 : ∀ i, IsReal (x0 i)) (h4 : ∀ i, IsReal (x4 i))
  (h5 : ∀ i, IsReal (x5 i))
include h0 h4 h5

theorem v126_real (j : S800000x64.Idx) : IsReal (val_main_v126 (F := Ideal) x0 x1 x4 x5 j) := by
  unfold val_main_v126; exact gather_forall IsReal _ _ _ (v119_real x0 x4 x5 h0 h4 h5) j

theorem v129_real (i : S50000x64.Idx) : IsReal (val_main_v129 (F := Ideal) x0 x1 x4 x5 i) := by
  unfold val_main_v129
  exact scatterAdd_isReal _ _ _ _ (fun i => by rw [v127_eq]; exact isReal_zero) (v126_real x0 x1 x4 x5 h0 h4 h5) i

/-- The mean. -/
theorem v132_real (i : S50000x64.Idx) : IsReal (val_main_v132 (F := Ideal) x0 x1 x4 x5 i) := by
  rw [val_main_v132_apply]; exact (v129_real x0 x1 x4 x5 h0 h4 h5 i).mul (v131_nn x1 i).isReal

theorem v133_real (i : S50000x64.Idx) : IsReal (val_main_v133 (F := Ideal) x0 x1 x4 x5 i) := by
  rw [val_main_v133_apply]; exact (v119_real x0 x4 x5 h0 h4 h5 i).sub (v132_real x0 x1 x4 x5 h0 h4 h5 i)

theorem v134_nn (i : S50000x64.Idx) : IsNN (val_main_v134 (F := Ideal) x0 x1 x4 x5 i) := by
  rw [val_main_v134_apply]; exact (v133_real x0 x1 x4 x5 h0 h4 h5 i).mul_self_isNN

theorem v141_nn (j : S800000x64.Idx) : IsNN (val_main_v141 (F := Ideal) x0 x1 x4 x5 j) := by
  unfold val_main_v141; exact gather_forall IsNN _ _ _ (v134_nn x0 x1 x4 x5 h0 h4 h5) j

theorem v144_nn (i : S50000x64.Idx) : IsNN (val_main_v144 (F := Ideal) x0 x1 x4 x5 i) := by
  unfold val_main_v144
  exact scatterAdd_isNN _ _ _ _ (fun i => by rw [v142_eq]; exact isNN_zero) (v141_nn x0 x1 x4 x5 h0 h4 h5) i

theorem v147_nn (i : S50000x64.Idx) : IsNN (val_main_v147 (F := Ideal) x0 x1 x4 x5 i) := by
  rw [val_main_v147_apply]; exact (v144_nn x0 x1 x4 x5 h0 h4 h5 i).mul (v146_nn x1 i)

theorem v150_nn (i : S50000x64.Idx) : IsNN (val_main_v150 (F := Ideal) x0 x1 x4 x5 i) := by
  rw [val_main_v150_apply, call4_v1_eq]; exact isNN_select _ isNN_ofBits_tiny (v147_nn x0 x1 x4 x5 h0 h4 h5 i)

/-- The spread. -/
theorem v151_real (i : S50000x64.Idx) : IsReal (val_main_v151 (F := Ideal) x0 x1 x4 x5 i) := by
  rw [val_main_v151_apply, Ideal.hostUnary_sqrt_def]; exact (v150_nn x0 x1 x4 x5 h0 h4 h5 i).sqrt

omit x1 in
theorem v153_real (i : S50000x64.Idx) : IsReal (val_main_v153 (F := Ideal) x0 x4 x5 i) := by
  rw [val_main_v153_apply, val_main_v152_apply]
  exact ((v119_real x0 x4 x5 h0 h4 h5 i).mul (v119_real x0 x4 x5 h0 h4 h5 i)).mul (v119_real x0 x4 x5 h0 h4 h5 i)

theorem v160_real (j : S800000x64.Idx) : IsReal (val_main_v160 (F := Ideal) x0 x1 x4 x5 j) := by
  unfold val_main_v160; exact gather_forall IsReal _ _ _ (v153_real x0 x4 x5 h0 h4 h5) j

theorem v163_real (i : S50000x64.Idx) : IsReal (val_main_v163 (F := Ideal) x0 x1 x4 x5 i) := by
  unfold val_main_v163
  exact scatterAdd_isReal _ _ _ _ (fun i => by rw [v161_eq]; exact isReal_zero) (v160_real x0 x1 x4 x5 h0 h4 h5) i

theorem v166_real (i : S50000x64.Idx) : IsReal (val_main_v166 (F := Ideal) x0 x1 x4 x5 i) := by
  rw [val_main_v166_apply]; exact (v163_real x0 x1 x4 x5 h0 h4 h5 i).mul (v165_nn x1 i).isReal

theorem v169_real (i : S50000x64.Idx) : IsReal (val_main_v169 (F := Ideal) x0 x1 x4 x5 i) := by
  rw [val_main_v169_apply, call5_v1_eq]
  exact isReal_select _ isNN_ofBits_tiny.isReal (v166_real x0 x1 x4 x5 h0 h4 h5 i)

/-- The signed cube root. -/
theorem v174_real (i : S50000x64.Idx) : IsReal (val_main_v174 (F := Ideal) x0 x1 x4 x5 i) := by
  rw [val_main_v174_apply, val_main_v170_apply, val_main_v173_apply, val_main_v171_apply, v172_eq, Ideal.mulf_def,
    Ideal.hostUnary_sign_def, Ideal.hostPowf_def, Ideal.hostAbsf_def, Ideal.absf_def]
  exact (v169_real x0 x1 x4 x5 h0 h4 h5 i).sign.mul
    ((isReal_abs (v169_real x0 x1 x4 x5 h0 h4 h5 i)).pow isReal_ofBits_third)

/-- The three moments side by side. -/
theorem v175_real (i : S50000x192.Idx) : IsReal (val_main_v175 (F := Ideal) x0 x1 x4 x5 i) := by
  unfold val_main_v175
  refine concatenate_forall IsReal _ _ _ _ ?_ i
  intro p hp j
  simp only [List.mem_cons, List.not_mem_nil, or_false] at hp
  rcases hp with rfl | rfl | rfl
  · exact v132_real x0 x1 x4 x5 h0 h4 h5 j
  · exact v151_real x0 x1 x4 x5 h0 h4 h5 j
  · exact v174_real x0 x1 x4 x5 h0 h4 h5 j

end Enc

/-- EVERY ENTRY OF THE ENCODER'S OUTPUT IS A REAL. -/
theorem h_real (x0 : XT) (x1 : ET) (x4 : W1T) (x5 : BT) (x6 : W2T) (x7 : BT) (h0 : ∀ i, IsReal (x0 i))
    (h4 : ∀ i, IsReal (x4 i)) (h5 : ∀ i, IsReal (x5 i)) (h6 : ∀ i, IsReal (x6 i)) (h7 : ∀ i, IsReal (x7 i))
    (i : S50000x64.Idx) : IsReal (val_main_v179 (F := Ideal) x0 x1 x4 x5 x6 x7 i) := by
  rw [val_main_v179_apply, val_main_v176_apply, val_main_v178_apply, val_main_v177_apply]
  exact (IsReal.sum_univ _ fun k => (v175_real x0 x1 x4 x5 h0 h4 h5 _).mul (h6 _)).add (h7 _)

end Cert.ReferenceIdeal.Finite

end
-- ==== Proof.FiniteCentred.lean ====
/-
  Every entry of the centred moment matrix and of the centred encoder output is a real.

  Centring subtracts from each column its mean over the 50000 rows: the column's sum (from a zero start) divided by the
  real 50000. A finite sum of reals is real, its quotient by a nonzero real is real, and the difference of two reals is
  real; so the centred matrices are real wherever the matrices are.
-/
import proofs.«101945_j60000693125366_2_alg».proof.Proof.Finite

noncomputable section

open scoped BigOperators

namespace Cert.ReferenceIdeal.FiniteCentred

open Cert.ReferenceIdeal Cert.ReferenceIdeal.Gen Cert.ReferenceIdeal.ReadP Idealize.ShloMosaic Cert.Lib
open Cert.ReferenceIdeal.Finite

/-- Every entry of the centred moment matrix is a real. -/
theorem xc_real (x0 : XT) (x1 : ET) (h0 : ∀ i, IsReal (x0 i)) (i : S50000x384.Idx) :
    IsReal (val_main_v76 (F := Ideal) x0 x1 i) := by
  rw [val_main_v76_apply, val_main_v75_apply, val_main_v74_apply, val_main_v73_apply, val_main_cst_19_apply,
    val_main_v72_apply, val_main_v71_apply, val_main_cst_18_apply]
  simp only [Ideal.subf_def, Ideal.hostDivf_def, Ideal.ofBits_def, ofBits_50000]
  exact (xd_real x0 x1 h0 i).sub
    ((isReal_ofBits_zero.add (IsReal.sum_univ _ fun k => xd_real x0 x1 h0 _)).div_coe (by norm_num))

/-- Every entry of the centred encoder output is a real. -/
theorem hc_real (x0 : XT) (x1 : ET) (x4 : W1T) (x5 : BT) (x6 : W2T) (x7 : BT) (h0 : ∀ i, IsReal (x0 i))
    (h4 : ∀ i, IsReal (x4 i)) (h5 : ∀ i, IsReal (x5 i)) (h6 : ∀ i, IsReal (x6 i)) (h7 : ∀ i, IsReal (x7 i))
    (i : S50000x64.Idx) : IsReal (val_main_v185 (F := Ideal) x0 x1 x4 x5 x6 x7 i) := by
  rw [val_main_v185_apply, val_main_v184_apply, val_main_v183_apply, val_main_v182_apply, val_main_cst_44_apply,
    val_main_v181_apply, val_main_v180_apply, val_main_cst_43_apply]
  simp only [Ideal.subf_def, Ideal.hostDivf_def, Ideal.ofBits_def, ofBits_50000]
  exact (h_real x0 x1 x4 x5 x6 x7 h0 h4 h5 h6 h7 i).sub
    ((isReal_ofBits_zero.add (IsReal.sum_univ _ fun k => h_real x0 x1 x4 x5 x6 x7 h0 h4 h5 h6 h7 _)).div_coe
      (by norm_num))

end Cert.ReferenceIdeal.FiniteCentred

end
-- ==== Proof.Join.lean ====
/-
  The two programs compute the same total.

  The launch's eight window arrays are, by the host operations that write them, the gathered centred moment rows, the
  gathered centred padded embedding rows and the gathered rows' norms; the other program's eight gathered arrays are the
  gathered rows of the same two centred matrices and the gathered norms of all rows, by the same wrapped index columns.
  So, tile by tile and pair by pair, the two squared cosine differences are the same term, and the sum of the 64 tile
  sums is the total over all 8192 × 8192 pairs.  The four gathered row arrays hold only entries of the centred
  matrices and zeros, so they are real when the inputs are.
-/
import proofs.«101945_j60000693125366_2_alg».proof.Proof.JoinCore
import proofs.«101945_j60000693125366_2_alg».proof.Proof.KHost
import proofs.«101945_j60000693125366_2_alg».proof.Proof.KValue
import proofs.«101945_j60000693125366_2_alg».proof.Proof.RefTailDefs
import proofs.«101945_j60000693125366_2_alg».proof.Proof.FiniteCentred

noncomputable section

namespace Cert.Join

open Idealize.ShloMosaic Idealize.ShloMosaic.ValueIdx
open Cert.ReferenceIdeal.ReadP
open scoped BigOperators

/-! ## One program's spellings of the centring and of the wrapped index column -/

section KernelSpelling
open Cert.KernelIdeal Cert.KernelIdeal.Facts₀

/-- A 384-column matrix centred over its 50000 rows. -/
def CXK (X : FVec Ideal S50000x384 .f32) : FVec Ideal S50000x384 .f32 :=
  subf X (broadcastInDim S50000x384 ![0, 1] bcast_S1x384_S50000x384_0_1
    (Host.divf (broadcastInDim S1x384 ![1] bcast_S384_S1x384_1 (Host.reduceAdd X (constant (F := Ideal) S_ .f32 0x00000000#32) reducesTo_S50000x384_S384_d0 h_S_))
      (broadcastInDim S1x384 ![] bcast_S_S1x384 (constant (F := Ideal) S_ .f32 0x47435000#32))))

/-- A batch's node numbers as an index column: a negative number counts from the end (50000 is added). -/
def colK (a : IVec S8192 32) : IVec S8192x1 32 :=
  broadcastInDim S8192x1 ![0] bcast_S8192_S8192x1_0
      (select (cmpi .slt a (broadcastInDim S8192 ![] bcast_S_S8192 (constantI S_ 32 0#32)))
        (addi a (broadcastInDim S8192 ![] bcast_S_S8192 (constantI S_ 32 50000#32))) a)

end KernelSpelling

/-! ## The other program's stages are the same terms -/

section Identify
variable (x : (⟨Cert.ReferenceIdeal.S50000x128, .f32⟩ : BufTy).Contents (Elt Ideal)) (ei : (⟨Cert.ReferenceIdeal.S2x800000, .i32⟩ : BufTy).Contents (Elt Ideal)) (src tar : (⟨Cert.ReferenceIdeal.S8192, .i32⟩ : BufTy).Contents (Elt Ideal))
    (w4 : (⟨Cert.ReferenceIdeal.S128x64, .f32⟩ : BufTy).Contents (Elt Ideal)) (w5 : (⟨Cert.ReferenceIdeal.S64, .f32⟩ : BufTy).Contents (Elt Ideal)) (w6 : (⟨Cert.ReferenceIdeal.S192x64, .f32⟩ : BufTy).Contents (Elt Ideal)) (w7 : (⟨Cert.ReferenceIdeal.S64, .f32⟩ : BufTy).Contents (Elt Ideal)) (s : (⟨Cert.ReferenceIdeal.S8192, .i32⟩ : BufTy).Contents (Elt Ideal))

theorem cxk_v70 : CXK (val_main_v70 (F := Ideal) x ei) = val_main_v76 (F := Ideal) x ei := rfl
theorem colK_v83 : colK s = val_main_v83 (F := Ideal) s := rfl
theorem colK_v90 : colK s = val_main_v90 (F := Ideal) s := rfl
theorem v99_v83 : val_main_v99 (F := Ideal) s = val_main_v83 (F := Ideal) s := rfl
theorem v107_v90 : val_main_v107 (F := Ideal) s = val_main_v90 (F := Ideal) s := rfl
theorem v192_v83 : val_main_v192 (F := Ideal) s = val_main_v83 (F := Ideal) s := rfl
theorem v199_v90 : val_main_v199 (F := Ideal) s = val_main_v90 (F := Ideal) s := rfl
theorem v208_v83 : val_main_v208 (F := Ideal) s = val_main_v83 (F := Ideal) s := rfl
theorem v216_v90 : val_main_v216 (F := Ideal) s = val_main_v90 (F := Ideal) s := rfl
theorem cr_v185 : Cert.Lib.HSide.CR (val_main_v179 (F := Ideal) x ei w4 w5 w6 w7) = val_main_v185 (F := Ideal) x ei w4 w5 w6 w7 := rfl
theorem nr_v186 : Cert.Lib.HSide.NR (val_main_v179 (F := Ideal) x ei w4 w5 w6 w7) = val_main_v186 (F := Ideal) x ei w4 w5 w6 w7 := rfl

theorem ax_eq : Cert.ReferenceIdeal.RefTail.ax x ei src = fun p k => Cert.Lib.XSide.AX (val_main_v76 (F := Ideal) x ei) (val_main_v83 (F := Ideal) src) (ix2 p k) := rfl
theorem bx_eq : Cert.ReferenceIdeal.RefTail.bx x ei tar = fun p k => Cert.Lib.XSide.BX (val_main_v76 (F := Ideal) x ei) (val_main_v90 (F := Ideal) tar) (ix2 p k) := rfl
theorem nax_eq : Cert.ReferenceIdeal.RefTail.nax x ei src = fun p => Cert.Lib.XSide.nAX (val_main_v76 (F := Ideal) x ei) (val_main_v83 (F := Ideal) src) (ix1 p) := by
  funext p
  show val_main_v100 (F := Ideal) x ei src (ix1 p) = Cert.Lib.XSide.nAX (val_main_v76 (F := Ideal) x ei) (val_main_v83 (F := Ideal) src) (ix1 p)
  unfold val_main_v100 Cert.Lib.XSide.nAX
  rw [v99_v83]
  rfl
theorem nbx_eq : Cert.ReferenceIdeal.RefTail.nbx x ei tar = fun p => Cert.Lib.XSide.nBX (val_main_v76 (F := Ideal) x ei) (val_main_v90 (F := Ideal) tar) (ix1 p) := by
  funext p
  show val_main_v108 (F := Ideal) x ei tar (ix1 p) = Cert.Lib.XSide.nBX (val_main_v76 (F := Ideal) x ei) (val_main_v90 (F := Ideal) tar) (ix1 p)
  unfold val_main_v108 Cert.Lib.XSide.nBX
  rw [v107_v90]
  rfl
theorem ah_eq : Cert.ReferenceIdeal.RefTail.ah x ei src w4 w5 w6 w7 = fun p k => Cert.Lib.HSide.AH (val_main_v179 (F := Ideal) x ei w4 w5 w6 w7) (val_main_v83 (F := Ideal) src) (ix2 p k) := by
  funext p k
  show val_main_v193 (F := Ideal) x ei src w4 w5 w6 w7 (ix2 p k) = Cert.Lib.HSide.AH (val_main_v179 (F := Ideal) x ei w4 w5 w6 w7) (val_main_v83 (F := Ideal) src) (ix2 p k)
  unfold val_main_v193 Cert.Lib.HSide.AH
  rw [v192_v83, cr_v185]
theorem bh_eq : Cert.ReferenceIdeal.RefTail.bh x ei tar w4 w5 w6 w7 = fun p k => Cert.Lib.HSide.BH (val_main_v179 (F := Ideal) x ei w4 w5 w6 w7) (val_main_v90 (F := Ideal) tar) (ix2 p k) := by
  funext p k
  show val_main_v200 (F := Ideal) x ei tar w4 w5 w6 w7 (ix2 p k) = Cert.Lib.HSide.BH (val_main_v179 (F := Ideal) x ei w4 w5 w6 w7) (val_main_v90 (F := Ideal) tar) (ix2 p k)
  unfold val_main_v200 Cert.Lib.HSide.BH
  rw [v199_v90, cr_v185]
theorem nah_eq : Cert.ReferenceIdeal.RefTail.nah x ei src w4 w5 w6 w7 = fun p => Cert.Lib.HSide.nAH (val_main_v179 (F := Ideal) x ei w4 w5 w6 w7) (val_main_v83 (F := Ideal) src) (ix1 p) := by
  funext p
  show val_main_v209 (F := Ideal) x ei src w4 w5 w6 w7 (ix1 p) = Cert.Lib.HSide.nAH (val_main_v179 (F := Ideal) x ei w4 w5 w6 w7) (val_main_v83 (F := Ideal) src) (ix1 p)
  unfold val_main_v209 Cert.Lib.HSide.nAH
  rw [v208_v83, nr_v186]
theorem nbh_eq : Cert.ReferenceIdeal.RefTail.nbh x ei tar w4 w5 w6 w7 = fun p => Cert.Lib.HSide.nBH (val_main_v179 (F := Ideal) x ei w4 w5 w6 w7) (val_main_v90 (F := Ideal) tar) (ix1 p) := by
  funext p
  show val_main_v217 (F := Ideal) x ei tar w4 w5 w6 w7 (ix1 p) = Cert.Lib.HSide.nBH (val_main_v179 (F := Ideal) x ei w4 w5 w6 w7) (val_main_v90 (F := Ideal) tar) (ix1 p)
  unfold val_main_v217 Cert.Lib.HSide.nBH
  rw [v216_v90, nr_v186]

end Identify

/-! ## Over abstract arrays related by the host operations -/

section Abstract
open Cert.KernelIdeal Cert.KernelIdeal.Facts₀

/-- The eight window arrays, as the host operations write them from the moment matrix, the embedding and the two
    batches' node numbers, are the gathered arrays of the two centred matrices. -/
theorem windows_of (x : (⟨Cert.ReferenceIdeal.S50000x128, .f32⟩ : BufTy).Contents (Elt Ideal)) (ei : (⟨Cert.ReferenceIdeal.S2x800000, .i32⟩ : BufTy).Contents (Elt Ideal)) (src tar : (⟨Cert.ReferenceIdeal.S8192, .i32⟩ : BufTy).Contents (Elt Ideal))
    (w4 : (⟨Cert.ReferenceIdeal.S128x64, .f32⟩ : BufTy).Contents (Elt Ideal)) (w5 : (⟨Cert.ReferenceIdeal.S64, .f32⟩ : BufTy).Contents (Elt Ideal)) (w6 : (⟨Cert.ReferenceIdeal.S192x64, .f32⟩ : BufTy).Contents (Elt Ideal)) (w7 : (⟨Cert.ReferenceIdeal.S64, .f32⟩ : BufTy).Contents (Elt Ideal))
    (xd xc : FVec Ideal S50000x384 .f32) (hh : FVec Ideal S50000x64 .f32) (pd cd : FVec Ideal S50000x128 .f32)
    (a2 a3 : IVec S8192 32) (i133 i140 i159 i166 : IVec S8192x1 32)
    (W0 W1 : FVec Ideal S8192x384 .f32) (W2 W3 : FVec Ideal S8192x128 .f32) (W4 : FVec Ideal S8192x1 .f32) (W5 : FVec Ideal S1x8192 .f32)
    (W6 : FVec Ideal S8192x1 .f32) (W7 : FVec Ideal S1x8192 .f32)
    (hxd : xd = val_main_v70 (F := Ideal) x ei) (hhh : hh = val_main_v179 (F := Ideal) x ei w4 w5 w6 w7)
    (harg2 : a2 = src) (harg3 : a3 = tar)
    (hv127 : xc = subf xd (broadcastInDim S50000x384 ![0, 1] bcast_S1x384_S50000x384_0_1
      (Host.divf (broadcastInDim S1x384 ![1] bcast_S384_S1x384_1 (Host.reduceAdd xd (constant (F := Ideal) S_ .f32 0x00000000#32) reducesTo_S50000x384_S384_d0 h_S_))
        (broadcastInDim S1x384 ![] bcast_S_S1x384 (constant (F := Ideal) S_ .f32 0x47435000#32)))))
    (hv133 : i133 = broadcastInDim S8192x1 ![0] bcast_S8192_S8192x1_0
      (select (cmpi .slt a2 (broadcastInDim S8192 ![] bcast_S_S8192 (constantI S_ 32 0#32)))
        (addi a2 (broadcastInDim S8192 ![] bcast_S_S8192 (constantI S_ 32 50000#32))) a2))
    (hv140 : i140 = broadcastInDim S8192x1 ![0] bcast_S8192_S8192x1_0
      (select (cmpi .slt a3 (broadcastInDim S8192 ![] bcast_S_S8192 (constantI S_ 32 0#32)))
        (addi a3 (broadcastInDim S8192 ![] bcast_S_S8192 (constantI S_ 32 50000#32))) a3))
    (hv159 : i159 = broadcastInDim S8192x1 ![0] bcast_S8192_S8192x1_0
      (select (cmpi .slt a2 (broadcastInDim S8192 ![] bcast_S_S8192 (constantI S_ 32 0#32)))
        (addi a2 (broadcastInDim S8192 ![] bcast_S_S8192 (constantI S_ 32 50000#32))) a2))
    (hv166 : i166 = broadcastInDim S8192x1 ![0] bcast_S8192_S8192x1_0
      (select (cmpi .slt a3 (broadcastInDim S8192 ![] bcast_S_S8192 (constantI S_ 32 0#32)))
        (addi a3 (broadcastInDim S8192 ![] bcast_S_S8192 (constantI S_ 32 50000#32))) a3))
    (hv134 : W0 = Host.gather gather_S50000x384_S8192x1_S8192x384_1_0_n_n_0_1_1384 xc i133)
    (hv141 : W1 = Host.gather gather_S50000x384_S8192x1_S8192x384_1_0_n_n_0_1_1384 xc i140)
    (hv174 : W4 = broadcastInDim S8192x1 ![0] bcast_S8192_S8192x1_0
      (Host.sqrt (Host.reduceAdd (mulf W0 W0) (constant (F := Ideal) S_ .f32 0x00000000#32) reducesTo_S8192x384_S8192_d1 h_S_)))
    (hv175 : W5 = broadcastInDim S1x8192 ![1] bcast_S8192_S1x8192_1
      (Host.sqrt (Host.reduceAdd (mulf W1 W1) (constant (F := Ideal) S_ .f32 0x00000000#32) reducesTo_S8192x384_S8192_d1 h_S_)))
    (hv121 : pd = pad S50000x128 ![0, 0] ![0, 64] ![0, 0] hh (sitofp (F := Ideal) .f32 (constantI S_ 32 0#32))
      pads_S50000x64_S50000x128_000_0640 h_S_)
    (hv153 : cd = subf pd (broadcastInDim S50000x128 ![0, 1] bcast_S1x128_S50000x128_0_1
      (Host.divf (broadcastInDim S1x128 ![1] bcast_S128_S1x128_1 (Host.reduceAdd pd (constant (F := Ideal) S_ .f32 0x00000000#32) reducesTo_S50000x128_S128_d0 h_S_))
        (broadcastInDim S1x128 ![] bcast_S_S1x128 (constant (F := Ideal) S_ .f32 0x47435000#32)))))
    (hv160 : W2 = Host.gather gather_S50000x128_S8192x1_S8192x128_1_0_n_n_0_1_1128 cd i159)
    (hv167 : W3 = Host.gather gather_S50000x128_S8192x1_S8192x128_1_0_n_n_0_1_1128 cd i166)
    (hv176 : W6 = broadcastInDim S8192x1 ![0] bcast_S8192_S8192x1_0
      (Host.sqrt (Host.reduceAdd (mulf W2 W2) (constant (F := Ideal) S_ .f32 0x00000000#32) reducesTo_S8192x128_S8192_d1 h_S_)))
    (hv177 : W7 = broadcastInDim S1x8192 ![1] bcast_S8192_S1x8192_1
      (Host.sqrt (Host.reduceAdd (mulf W3 W3) (constant (F := Ideal) S_ .f32 0x00000000#32) reducesTo_S8192x128_S8192_d1 h_S_))) :
    W0 = Cert.Lib.XSide.W0 (val_main_v76 (F := Ideal) x ei) (val_main_v83 (F := Ideal) src) ∧ W1 = Cert.Lib.XSide.W1 (val_main_v76 (F := Ideal) x ei) (val_main_v90 (F := Ideal) tar)
      ∧ W2 = Cert.Lib.HSide.W2 (val_main_v179 (F := Ideal) x ei w4 w5 w6 w7) (val_main_v83 (F := Ideal) src) ∧ W3 = Cert.Lib.HSide.W3 (val_main_v179 (F := Ideal) x ei w4 w5 w6 w7) (val_main_v90 (F := Ideal) tar)
      ∧ W4 = Cert.Lib.XSide.W4 (val_main_v76 (F := Ideal) x ei) (val_main_v83 (F := Ideal) src) ∧ W5 = Cert.Lib.XSide.W5 (val_main_v76 (F := Ideal) x ei) (val_main_v90 (F := Ideal) tar)
      ∧ W6 = Cert.Lib.HSide.W6 (val_main_v179 (F := Ideal) x ei w4 w5 w6 w7) (val_main_v83 (F := Ideal) src) ∧ W7 = Cert.Lib.HSide.W7 (val_main_v179 (F := Ideal) x ei w4 w5 w6 w7) (val_main_v90 (F := Ideal) tar) := by
  have hxc : xc = val_main_v76 (F := Ideal) x ei := by rw [hv127, hxd]; exact cxk_v70 x ei
  have hi133 : i133 = val_main_v83 (F := Ideal) src := by rw [hv133, harg2]; exact colK_v83 src
  have hi140 : i140 = val_main_v90 (F := Ideal) tar := by rw [hv140, harg3]; exact colK_v90 tar
  have hi159 : i159 = val_main_v83 (F := Ideal) src := by rw [hv159, harg2]; exact colK_v83 src
  have hi166 : i166 = val_main_v90 (F := Ideal) tar := by rw [hv166, harg3]; exact colK_v90 tar
  have h0 : W0 = Cert.Lib.XSide.W0 (val_main_v76 (F := Ideal) x ei) (val_main_v83 (F := Ideal) src) := by rw [hv134, hxc, hi133]; rfl
  have h1 : W1 = Cert.Lib.XSide.W1 (val_main_v76 (F := Ideal) x ei) (val_main_v90 (F := Ideal) tar) := by rw [hv141, hxc, hi140]; rfl
  have h4 : W4 = Cert.Lib.XSide.W4 (val_main_v76 (F := Ideal) x ei) (val_main_v83 (F := Ideal) src) := by rw [hv174, h0]; rfl
  have h5 : W5 = Cert.Lib.XSide.W5 (val_main_v76 (F := Ideal) x ei) (val_main_v90 (F := Ideal) tar) := by rw [hv175, h1]; rfl
  have hcd : cd = Cert.Lib.HSide.CK (Cert.Lib.HSide.PK (val_main_v179 (F := Ideal) x ei w4 w5 w6 w7)) := by rw [hv153, hv121, hhh]; rfl
  have h2 : W2 = Cert.Lib.HSide.W2 (val_main_v179 (F := Ideal) x ei w4 w5 w6 w7) (val_main_v83 (F := Ideal) src) := by rw [hv160, hcd, hi159]; rfl
  have h3 : W3 = Cert.Lib.HSide.W3 (val_main_v179 (F := Ideal) x ei w4 w5 w6 w7) (val_main_v90 (F := Ideal) tar) := by rw [hv167, hcd, hi166]; rfl
  have h6 : W6 = Cert.Lib.HSide.W6 (val_main_v179 (F := Ideal) x ei w4 w5 w6 w7) (val_main_v83 (F := Ideal) src) := by rw [hv176, h2]; rfl
  have h7 : W7 = Cert.Lib.HSide.W7 (val_main_v179 (F := Ideal) x ei w4 w5 w6 w7) (val_main_v90 (F := Ideal) tar) := by rw [hv177, h3]; rfl
  exact ⟨h0, h1, h2, h3, h4, h5, h6, h7⟩

/-- The sum of the 64 tile sums over such window arrays is the other program's total. -/
theorem tiles_eq_total_of (x : (⟨Cert.ReferenceIdeal.S50000x128, .f32⟩ : BufTy).Contents (Elt Ideal)) (ei : (⟨Cert.ReferenceIdeal.S2x800000, .i32⟩ : BufTy).Contents (Elt Ideal)) (src tar : (⟨Cert.ReferenceIdeal.S8192, .i32⟩ : BufTy).Contents (Elt Ideal))
    (w4 : (⟨Cert.ReferenceIdeal.S128x64, .f32⟩ : BufTy).Contents (Elt Ideal)) (w5 : (⟨Cert.ReferenceIdeal.S64, .f32⟩ : BufTy).Contents (Elt Ideal)) (w6 : (⟨Cert.ReferenceIdeal.S192x64, .f32⟩ : BufTy).Contents (Elt Ideal)) (w7 : (⟨Cert.ReferenceIdeal.S64, .f32⟩ : BufTy).Contents (Elt Ideal))
    (xd xc : FVec Ideal S50000x384 .f32) (hh : FVec Ideal S50000x64 .f32) (pd cd : FVec Ideal S50000x128 .f32)
    (a2 a3 : IVec S8192 32) (i133 i140 i159 i166 : IVec S8192x1 32)
    (W0 W1 : FVec Ideal S8192x384 .f32) (W2 W3 : FVec Ideal S8192x128 .f32) (W4 : FVec Ideal S8192x1 .f32) (W5 : FVec Ideal S1x8192 .f32)
    (W6 : FVec Ideal S8192x1 .f32) (W7 : FVec Ideal S1x8192 .f32)
    (hxd : xd = val_main_v70 (F := Ideal) x ei) (hhh : hh = val_main_v179 (F := Ideal) x ei w4 w5 w6 w7)
    (harg2 : a2 = src) (harg3 : a3 = tar)
    (hv127 : xc = subf xd (broadcastInDim S50000x384 ![0, 1] bcast_S1x384_S50000x384_0_1
      (Host.divf (broadcastInDim S1x384 ![1] bcast_S384_S1x384_1 (Host.reduceAdd xd (constant (F := Ideal) S_ .f32 0x00000000#32) reducesTo_S50000x384_S384_d0 h_S_))
        (broadcastInDim S1x384 ![] bcast_S_S1x384 (constant (F := Ideal) S_ .f32 0x47435000#32)))))
    (hv133 : i133 = broadcastInDim S8192x1 ![0] bcast_S8192_S8192x1_0
      (select (cmpi .slt a2 (broadcastInDim S8192 ![] bcast_S_S8192 (constantI S_ 32 0#32)))
        (addi a2 (broadcastInDim S8192 ![] bcast_S_S8192 (constantI S_ 32 50000#32))) a2))
    (hv140 : i140 = broadcastInDim S8192x1 ![0] bcast_S8192_S8192x1_0
      (select (cmpi .slt a3 (broadcastInDim S8192 ![] bcast_S_S8192 (constantI S_ 32 0#32)))
        (addi a3 (broadcastInDim S8192 ![] bcast_S_S8192 (constantI S_ 32 50000#32))) a3))
    (hv159 : i159 = broadcastInDim S8192x1 ![0] bcast_S8192_S8192x1_0
      (select (cmpi .slt a2 (broadcastInDim S8192 ![] bcast_S_S8192 (constantI S_ 32 0#32)))
        (addi a2 (broadcastInDim S8192 ![] bcast_S_S8192 (constantI S_ 32 50000#32))) a2))
    (hv166 : i166 = broadcastInDim S8192x1 ![0] bcast_S8192_S8192x1_0
      (select (cmpi .slt a3 (broadcastInDim S8192 ![] bcast_S_S8192 (constantI S_ 32 0#32)))
        (addi a3 (broadcastInDim S8192 ![] bcast_S_S8192 (constantI S_ 32 50000#32))) a3))
    (hv134 : W0 = Host.gather gather_S50000x384_S8192x1_S8192x384_1_0_n_n_0_1_1384 xc i133)
    (hv141 : W1 = Host.gather gather_S50000x384_S8192x1_S8192x384_1_0_n_n_0_1_1384 xc i140)
    (hv174 : W4 = broadcastInDim S8192x1 ![0] bcast_S8192_S8192x1_0
      (Host.sqrt (Host.reduceAdd (mulf W0 W0) (constant (F := Ideal) S_ .f32 0x00000000#32) reducesTo_S8192x384_S8192_d1 h_S_)))
    (hv175 : W5 = broadcastInDim S1x8192 ![1] bcast_S8192_S1x8192_1
      (Host.sqrt (Host.reduceAdd (mulf W1 W1) (constant (F := Ideal) S_ .f32 0x00000000#32) reducesTo_S8192x384_S8192_d1 h_S_)))
    (hv121 : pd = pad S50000x128 ![0, 0] ![0, 64] ![0, 0] hh (sitofp (F := Ideal) .f32 (constantI S_ 32 0#32))
      pads_S50000x64_S50000x128_000_0640 h_S_)
    (hv153 : cd = subf pd (broadcastInDim S50000x128 ![0, 1] bcast_S1x128_S50000x128_0_1
      (Host.divf (broadcastInDim S1x128 ![1] bcast_S128_S1x128_1 (Host.reduceAdd pd (constant (F := Ideal) S_ .f32 0x00000000#32) reducesTo_S50000x128_S128_d0 h_S_))
        (broadcastInDim S1x128 ![] bcast_S_S1x128 (constant (F := Ideal) S_ .f32 0x47435000#32)))))
    (hv160 : W2 = Host.gather gather_S50000x128_S8192x1_S8192x128_1_0_n_n_0_1_1128 cd i159)
    (hv167 : W3 = Host.gather gather_S50000x128_S8192x1_S8192x128_1_0_n_n_0_1_1128 cd i166)
    (hv176 : W6 = broadcastInDim S8192x1 ![0] bcast_S8192_S8192x1_0
      (Host.sqrt (Host.reduceAdd (mulf W2 W2) (constant (F := Ideal) S_ .f32 0x00000000#32) reducesTo_S8192x128_S8192_d1 h_S_)))
    (hv177 : W7 = broadcastInDim S1x8192 ![1] bcast_S8192_S1x8192_1
      (Host.sqrt (Host.reduceAdd (mulf W3 W3) (constant (F := Ideal) S_ .f32 0x00000000#32) reducesTo_S8192x128_S8192_d1 h_S_))) :
    (∑ i : Fin 8, ∑ j : Fin 8, Cert.KernelIdeal.KValue.tileOf W0 W1 W2 W3 W4 W5 W6 W7 i j)
      = Cert.SimSpec.total (n := 8192) (KX := 384) (KH := 64) (Cert.ReferenceIdeal.RefTail.ax x ei src) (Cert.ReferenceIdeal.RefTail.bx x ei tar) (Cert.ReferenceIdeal.RefTail.nax x ei src) (Cert.ReferenceIdeal.RefTail.nbx x ei tar)
          (Cert.ReferenceIdeal.RefTail.ah x ei src w4 w5 w6 w7) (Cert.ReferenceIdeal.RefTail.bh x ei tar w4 w5 w6 w7) (Cert.ReferenceIdeal.RefTail.nah x ei src w4 w5 w6 w7) (Cert.ReferenceIdeal.RefTail.nbh x ei tar w4 w5 w6 w7) := by
  obtain ⟨h0, h1, h2, h3, h4, h5, h6, h7⟩ := windows_of x ei src tar w4 w5 w6 w7 xd xc hh pd cd a2 a3 i133 i140 i159 i166 W0 W1 W2 W3 W4 W5 W6 W7 hxd hhh harg2 harg3 hv127 hv133 hv140 hv159 hv166 hv134 hv141 hv174 hv175 hv121 hv153 hv160 hv167 hv176 hv177
  rw [ax_eq, bx_eq, nax_eq, nbx_eq, ah_eq, bh_eq, nah_eq, nbh_eq]
  exact blocks_total_of (val_main_v76 (F := Ideal) x ei) (val_main_v179 (F := Ideal) x ei w4 w5 w6 w7) (val_main_v83 (F := Ideal) src) (val_main_v90 (F := Ideal) tar) W0 W1 W2 W3 W4 W5 W6 W7 h0 h1 h2 h3 h4 h5 h6 h7

/-- The four gathered row arrays are real when the moment inputs and the encoder's weights are. -/
theorem windows_real_of (x : (⟨Cert.ReferenceIdeal.S50000x128, .f32⟩ : BufTy).Contents (Elt Ideal)) (ei : (⟨Cert.ReferenceIdeal.S2x800000, .i32⟩ : BufTy).Contents (Elt Ideal)) (src tar : (⟨Cert.ReferenceIdeal.S8192, .i32⟩ : BufTy).Contents (Elt Ideal))
    (w4 : (⟨Cert.ReferenceIdeal.S128x64, .f32⟩ : BufTy).Contents (Elt Ideal)) (w5 : (⟨Cert.ReferenceIdeal.S64, .f32⟩ : BufTy).Contents (Elt Ideal)) (w6 : (⟨Cert.ReferenceIdeal.S192x64, .f32⟩ : BufTy).Contents (Elt Ideal)) (w7 : (⟨Cert.ReferenceIdeal.S64, .f32⟩ : BufTy).Contents (Elt Ideal))
    (xd xc : FVec Ideal S50000x384 .f32) (hh : FVec Ideal S50000x64 .f32) (pd cd : FVec Ideal S50000x128 .f32)
    (a2 a3 : IVec S8192 32) (i133 i140 i159 i166 : IVec S8192x1 32)
    (W0 W1 : FVec Ideal S8192x384 .f32) (W2 W3 : FVec Ideal S8192x128 .f32) (W4 : FVec Ideal S8192x1 .f32) (W5 : FVec Ideal S1x8192 .f32)
    (W6 : FVec Ideal S8192x1 .f32) (W7 : FVec Ideal S1x8192 .f32)
    (hxd : xd = val_main_v70 (F := Ideal) x ei) (hhh : hh = val_main_v179 (F := Ideal) x ei w4 w5 w6 w7)
    (harg2 : a2 = src) (harg3 : a3 = tar)
    (hv127 : xc = subf xd (broadcastInDim S50000x384 ![0, 1] bcast_S1x384_S50000x384_0_1
      (Host.divf (broadcastInDim S1x384 ![1] bcast_S384_S1x384_1 (Host.reduceAdd xd (constant (F := Ideal) S_ .f32 0x00000000#32) reducesTo_S50000x384_S384_d0 h_S_))
        (broadcastInDim S1x384 ![] bcast_S_S1x384 (constant (F := Ideal) S_ .f32 0x47435000#32)))))
    (hv133 : i133 = broadcastInDim S8192x1 ![0] bcast_S8192_S8192x1_0
      (select (cmpi .slt a2 (broadcastInDim S8192 ![] bcast_S_S8192 (constantI S_ 32 0#32)))
        (addi a2 (broadcastInDim S8192 ![] bcast_S_S8192 (constantI S_ 32 50000#32))) a2))
    (hv140 : i140 = broadcastInDim S8192x1 ![0] bcast_S8192_S8192x1_0
      (select (cmpi .slt a3 (broadcastInDim S8192 ![] bcast_S_S8192 (constantI S_ 32 0#32)))
        (addi a3 (broadcastInDim S8192 ![] bcast_S_S8192 (constantI S_ 32 50000#32))) a3))
    (hv159 : i159 = broadcastInDim S8192x1 ![0] bcast_S8192_S8192x1_0
      (select (cmpi .slt a2 (broadcastInDim S8192 ![] bcast_S_S8192 (constantI S_ 32 0#32)))
        (addi a2 (broadcastInDim S8192 ![] bcast_S_S8192 (constantI S_ 32 50000#32))) a2))
    (hv166 : i166 = broadcastInDim S8192x1 ![0] bcast_S8192_S8192x1_0
      (select (cmpi .slt a3 (broadcastInDim S8192 ![] bcast_S_S8192 (constantI S_ 32 0#32)))
        (addi a3 (broadcastInDim S8192 ![] bcast_S_S8192 (constantI S_ 32 50000#32))) a3))
    (hv134 : W0 = Host.gather gather_S50000x384_S8192x1_S8192x384_1_0_n_n_0_1_1384 xc i133)
    (hv141 : W1 = Host.gather gather_S50000x384_S8192x1_S8192x384_1_0_n_n_0_1_1384 xc i140)
    (hv174 : W4 = broadcastInDim S8192x1 ![0] bcast_S8192_S8192x1_0
      (Host.sqrt (Host.reduceAdd (mulf W0 W0) (constant (F := Ideal) S_ .f32 0x00000000#32) reducesTo_S8192x384_S8192_d1 h_S_)))
    (hv175 : W5 = broadcastInDim S1x8192 ![1] bcast_S8192_S1x8192_1
      (Host.sqrt (Host.reduceAdd (mulf W1 W1) (constant (F := Ideal) S_ .f32 0x00000000#32) reducesTo_S8192x384_S8192_d1 h_S_)))
    (hv121 : pd = pad S50000x128 ![0, 0] ![0, 64] ![0, 0] hh (sitofp (F := Ideal) .f32 (constantI S_ 32 0#32))
      pads_S50000x64_S50000x128_000_0640 h_S_)
    (hv153 : cd = subf pd (broadcastInDim S50000x128 ![0, 1] bcast_S1x128_S50000x128_0_1
      (Host.divf (broadcastInDim S1x128 ![1] bcast_S128_S1x128_1 (Host.reduceAdd pd (constant (F := Ideal) S_ .f32 0x00000000#32) reducesTo_S50000x128_S128_d0 h_S_))
        (broadcastInDim S1x128 ![] bcast_S_S1x128 (constant (F := Ideal) S_ .f32 0x47435000#32)))))
    (hv160 : W2 = Host.gather gather_S50000x128_S8192x1_S8192x128_1_0_n_n_0_1_1128 cd i159)
    (hv167 : W3 = Host.gather gather_S50000x128_S8192x1_S8192x128_1_0_n_n_0_1_1128 cd i166)
    (hv176 : W6 = broadcastInDim S8192x1 ![0] bcast_S8192_S8192x1_0
      (Host.sqrt (Host.reduceAdd (mulf W2 W2) (constant (F := Ideal) S_ .f32 0x00000000#32) reducesTo_S8192x128_S8192_d1 h_S_)))
    (hv177 : W7 = broadcastInDim S1x8192 ![1] bcast_S8192_S1x8192_1
      (Host.sqrt (Host.reduceAdd (mulf W3 W3) (constant (F := Ideal) S_ .f32 0x00000000#32) reducesTo_S8192x128_S8192_d1 h_S_)))
    (hx : ∀ i, Cert.Lib.IsReal (x i)) (h4r : ∀ i, Cert.Lib.IsReal (w4 i)) (h5r : ∀ i, Cert.Lib.IsReal (w5 i))
    (h6r : ∀ i, Cert.Lib.IsReal (w6 i)) (h7r : ∀ i, Cert.Lib.IsReal (w7 i)) :
    (∀ i, Cert.Lib.IsReal (W0 i)) ∧ (∀ i, Cert.Lib.IsReal (W1 i)) ∧ (∀ i, Cert.Lib.IsReal (W2 i)) ∧ (∀ i, Cert.Lib.IsReal (W3 i)) := by
  obtain ⟨h0, h1, h2, h3, _, _, _, _⟩ := windows_of x ei src tar w4 w5 w6 w7 xd xc hh pd cd a2 a3 i133 i140 i159 i166 W0 W1 W2 W3 W4 W5 W6 W7 hxd hhh harg2 harg3 hv127 hv133 hv140 hv159 hv166 hv134 hv141 hv174 hv175 hv121 hv153 hv160 hv167 hv176 hv177
  have hX : ∀ i, Cert.Lib.IsReal ((val_main_v76 (F := Ideal) x ei) i) := fun i => Cert.ReferenceIdeal.FiniteCentred.xc_real x ei hx i
  have hH : ∀ i, Cert.Lib.IsReal (Cert.Lib.HSide.CR (val_main_v179 (F := Ideal) x ei w4 w5 w6 w7) i) := fun i => by
    rw [cr_v185]; exact Cert.ReferenceIdeal.FiniteCentred.hc_real x ei w4 w5 w6 w7 hx h4r h5r h6r h7r i
  have hg := gathered_real (val_main_v76 (F := Ideal) x ei) (val_main_v179 (F := Ideal) x ei w4 w5 w6 w7) (val_main_v83 (F := Ideal) src) (val_main_v90 (F := Ideal) tar) hX hH
  rw [h0, h1, h2, h3]
  exact hg

end Abstract

/-! ## At the launch's memory -/

section AtMemory
open Cert.KernelIdeal Cert.KernelIdeal.Gen Cert.KernelIdeal.Frame
open Idealize.ShloMosaic.TcCoe Idealize.SL.Sem

variable (m : (ℓ : Loc nD τ sig) → Buf (Elt Ideal) ℓ) (c : Dev nD)

/-- The sum of the launch's 64 tile sums is the other program's total, given that the two programs' moment matrices and
    embeddings are the same arrays and the batches' node numbers are the arguments. -/
theorem tiles_eq_total (x : (⟨Cert.ReferenceIdeal.S50000x128, .f32⟩ : BufTy).Contents (Elt Ideal)) (ei : (⟨Cert.ReferenceIdeal.S2x800000, .i32⟩ : BufTy).Contents (Elt Ideal)) (src tar : (⟨Cert.ReferenceIdeal.S8192, .i32⟩ : BufTy).Contents (Elt Ideal))
    (w4 : (⟨Cert.ReferenceIdeal.S128x64, .f32⟩ : BufTy).Contents (Elt Ideal)) (w5 : (⟨Cert.ReferenceIdeal.S64, .f32⟩ : BufTy).Contents (Elt Ideal)) (w6 : (⟨Cert.ReferenceIdeal.S192x64, .f32⟩ : BufTy).Contents (Elt Ideal)) (w7 : (⟨Cert.ReferenceIdeal.S64, .f32⟩ : BufTy).Contents (Elt Ideal))
    (hxd : Frame.V m c main_v63 = val_main_v70 (F := Ideal) x ei)
    (hhh : Frame.V m c main_v120 = val_main_v179 (F := Ideal) x ei w4 w5 w6 w7)
    (harg2 : Frame.V m c main_arg2 = src) (harg3 : Frame.V m c main_arg3 = tar) :
    (∑ i : Fin 8, ∑ j : Fin 8, Cert.KernelIdeal.KValue.tileOf (Frame.V m c main_v134) (Frame.V m c main_v141) (Frame.V m c main_v160) (Frame.V m c main_v167)
        (Frame.V m c main_v174) (Frame.V m c main_v175) (Frame.V m c main_v176) (Frame.V m c main_v177) i j)
      = Cert.SimSpec.total (n := 8192) (KX := 384) (KH := 64) (Cert.ReferenceIdeal.RefTail.ax x ei src) (Cert.ReferenceIdeal.RefTail.bx x ei tar) (Cert.ReferenceIdeal.RefTail.nax x ei src) (Cert.ReferenceIdeal.RefTail.nbx x ei tar)
          (Cert.ReferenceIdeal.RefTail.ah x ei src w4 w5 w6 w7) (Cert.ReferenceIdeal.RefTail.bh x ei tar w4 w5 w6 w7) (Cert.ReferenceIdeal.RefTail.nah x ei src w4 w5 w6 w7) (Cert.ReferenceIdeal.RefTail.nbh x ei tar w4 w5 w6 w7) :=
  tiles_eq_total_of x ei src tar w4 w5 w6 w7 (Frame.V m c main_v63) (Frame.V m c main_v127) (Frame.V m c main_v120) (Frame.V m c main_v121) (Frame.V m c main_v153) (Frame.V m c main_arg2) (Frame.V m c main_arg3) (Frame.V m c main_v133) (Frame.V m c main_v140) (Frame.V m c main_v159) (Frame.V m c main_v166) (Frame.V m c main_v134) (Frame.V m c main_v141) (Frame.V m c main_v160) (Frame.V m c main_v167) (Frame.V m c main_v174) (Frame.V m c main_v175) (Frame.V m c main_v176) (Frame.V m c main_v177)
    hxd hhh harg2 harg3 (Cert.KernelIdeal.KHost.v127_eq m c) (Cert.KernelIdeal.KHost.v133_eq m c) (Cert.KernelIdeal.KHost.v140_eq m c) (Cert.KernelIdeal.KHost.v159_eq m c) (Cert.KernelIdeal.KHost.v166_eq m c) (Cert.KernelIdeal.KHost.v134_eq m c) (Cert.KernelIdeal.KHost.v141_eq m c) (Cert.KernelIdeal.KHost.v174_eq m c) (Cert.KernelIdeal.KHost.v175_eq m c) (Cert.KernelIdeal.KHost.v121_eq m c) (Cert.KernelIdeal.KHost.v153_eq m c) (Cert.KernelIdeal.KHost.v160_eq m c) (Cert.KernelIdeal.KHost.v167_eq m c) (Cert.KernelIdeal.KHost.v176_eq m c) (Cert.KernelIdeal.KHost.v177_eq m c)

/-- The launch's four gathered row arrays are real when the inputs are. -/
theorem windows_real (x : (⟨Cert.ReferenceIdeal.S50000x128, .f32⟩ : BufTy).Contents (Elt Ideal)) (ei : (⟨Cert.ReferenceIdeal.S2x800000, .i32⟩ : BufTy).Contents (Elt Ideal)) (src tar : (⟨Cert.ReferenceIdeal.S8192, .i32⟩ : BufTy).Contents (Elt Ideal))
    (w4 : (⟨Cert.ReferenceIdeal.S128x64, .f32⟩ : BufTy).Contents (Elt Ideal)) (w5 : (⟨Cert.ReferenceIdeal.S64, .f32⟩ : BufTy).Contents (Elt Ideal)) (w6 : (⟨Cert.ReferenceIdeal.S192x64, .f32⟩ : BufTy).Contents (Elt Ideal)) (w7 : (⟨Cert.ReferenceIdeal.S64, .f32⟩ : BufTy).Contents (Elt Ideal))
    (hxd : Frame.V m c main_v63 = val_main_v70 (F := Ideal) x ei)
    (hhh : Frame.V m c main_v120 = val_main_v179 (F := Ideal) x ei w4 w5 w6 w7)
    (harg2 : Frame.V m c main_arg2 = src) (harg3 : Frame.V m c main_arg3 = tar)
    (hx : ∀ i, Cert.Lib.IsReal (x i)) (h4r : ∀ i, Cert.Lib.IsReal (w4 i)) (h5r : ∀ i, Cert.Lib.IsReal (w5 i))
    (h6r : ∀ i, Cert.Lib.IsReal (w6 i)) (h7r : ∀ i, Cert.Lib.IsReal (w7 i)) :
    (∀ i, Cert.Lib.IsReal (Frame.V m c main_v134 i)) ∧ (∀ i, Cert.Lib.IsReal (Frame.V m c main_v141 i))
      ∧ (∀ i, Cert.Lib.IsReal (Frame.V m c main_v160 i)) ∧ (∀ i, Cert.Lib.IsReal (Frame.V m c main_v167 i)) :=
  windows_real_of x ei src tar w4 w5 w6 w7 (Frame.V m c main_v63) (Frame.V m c main_v127) (Frame.V m c main_v120) (Frame.V m c main_v121) (Frame.V m c main_v153) (Frame.V m c main_arg2) (Frame.V m c main_arg3) (Frame.V m c main_v133) (Frame.V m c main_v140) (Frame.V m c main_v159) (Frame.V m c main_v166) (Frame.V m c main_v134) (Frame.V m c main_v141) (Frame.V m c main_v160) (Frame.V m c main_v167) (Frame.V m c main_v174) (Frame.V m c main_v175) (Frame.V m c main_v176) (Frame.V m c main_v177)
    hxd hhh harg2 harg3 (Cert.KernelIdeal.KHost.v127_eq m c) (Cert.KernelIdeal.KHost.v133_eq m c) (Cert.KernelIdeal.KHost.v140_eq m c) (Cert.KernelIdeal.KHost.v159_eq m c) (Cert.KernelIdeal.KHost.v166_eq m c) (Cert.KernelIdeal.KHost.v134_eq m c) (Cert.KernelIdeal.KHost.v141_eq m c) (Cert.KernelIdeal.KHost.v174_eq m c) (Cert.KernelIdeal.KHost.v175_eq m c) (Cert.KernelIdeal.KHost.v121_eq m c) (Cert.KernelIdeal.KHost.v153_eq m c) (Cert.KernelIdeal.KHost.v160_eq m c) (Cert.KernelIdeal.KHost.v167_eq m c) (Cert.KernelIdeal.KHost.v176_eq m c) (Cert.KernelIdeal.KHost.v177_eq m c) hx h4r h5r h6r h7r

end AtMemory

end Cert.Join

end
-- ==== Proof.PreReal.lean ====
/-
  The precondition read back: every entry of the five float arguments is a real.

  The printed predicate is the conjunction, over the five float arguments, of `all (|a| < +inf)`. At the exact
  instance `|a| = max a (-a)` and the comparison is the order's, so an entry below the infinity word in magnitude
  is neither infinity: it is a real.
-/
import proofs.«101945_j60000693125366_2_alg».proof.Proof.Gen.Pre_finite_inputs
import proofs.«101945_j60000693125366_2_alg».proof.Proof.LibReal
import Idealize.ShloMosaic.PureOps.Ideal
import Idealize.ShloMosaic.Lib.ReduceAll
import Idealize.ShloMosaic.Lib.ValueIdx

noncomputable section

namespace Cert.PreReal

open Idealize.ShloMosaic Cert.Pre_finite_inputs Cert.Pre_finite_inputs.Facts Cert.Lib

instance : Subsingleton S_.Idx := ⟨fun a b => funext fun d => d.elim0⟩

/-- The word 0x7F800000 is +infinity. -/
theorem ofBits_inf : Ideal.ofBits .f32 0x7F800000#32 = (⊤ : EReal) := by
  simp [Ideal.ofBits, Ideal.ieee]

/-- An extended real whose magnitude compares below +infinity is a real. -/
theorem isReal_of_abs_lt (x : EReal) (h : Ideal.cmp .olt (max x (-x)) (Ideal.ofBits .f32 0x7F800000#32) = 1#1) : IsReal x := by
  rw [ofBits_inf] at h
  induction x using EReal.rec with
  | bot => exact absurd h (by simp [Ideal.cmp])
  | top => exact absurd h (by simp [Ideal.cmp])
  | coe r => exact ⟨r, rfl⟩

/-- One `all (|a| < +inf)` conjunct read at an entry. -/
theorem isReal_of_all {s : Shape} (a : FVec Ideal s .f32) (hb : S_.BroadcastsInDim s (![] : Fin 0 → Fin s.rank))
    {axes : List (Fin s.rank)} (hr : s.ReducesTo axes S_) (hS : 0 < S_.numel)
    (h : Host.reduce IntOp.andi (cmpf .olt (Host.absf a) (broadcastInDim s ![] hb (constant (F := Ideal) S_ .f32 0x7F800000#32)))
      (constantI S_ 1 1#1) hr hS ValueIdx.ix0 = 1#1) (i : s.Idx) : IsReal (a i) :=
  isReal_of_abs_lt (a i) (Host.reduce_andi_all _ _ hr hS _ h i)

variable [Cert.Pre_finite_inputs.Facts]

/-- THE PRECONDITION READ BACK: the printed predicate all ones means every entry of the node features, of both
    weight matrices and of both biases is a real. -/
theorem reals_of_pre (a0 : FVec Ideal S50000x128 .f32) (a1 : IVec S2x800000 32) (a2 a3 : IVec S8192 32)
    (a4 : FVec Ideal S128x64 .f32) (a5 : FVec Ideal S64 .f32) (a6 : FVec Ideal S192x64 .f32) (a7 : FVec Ideal S64 .f32)
    (h : fn (F := Ideal) a0 a1 a2 a3 a4 a5 a6 a7 = fun _ => 1#1) :
    (∀ i, IsReal (a0 i)) ∧ (∀ i, IsReal (a4 i)) ∧ (∀ i, IsReal (a5 i)) ∧ (∀ i, IsReal (a6 i)) ∧ (∀ i, IsReal (a7 i)) := by
  have h0 := congrFun h ValueIdx.ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨isReal_of_all a0 _ _ _ h3, isReal_of_all a4 _ _ _ h7, isReal_of_all a5 _ _ _ h12, isReal_of_all a6 _ _ _ h17,
    isReal_of_all a7 _ _ _ h22⟩

end Cert.PreReal

end
-- ==== Proof.lean ====
/-
  The certificate of the fused cosine-similarity loss kernel against its jnp reference.

  Both programs compute, from the node features, the edge list, two batches of node indices and two dense layers,
  the 384 neighbour-moment features `xd` (mean, root of the centred second moment, signed cube root of the third
  moment, over each node's neighbours) and the 64-dimensional embedding `h` of the same moments of a first layer's
  output; centre each over all nodes; and return the root of the mean, over all 8192 × 8192 pairs of a source and a
  target batch element, of the squared difference of the cosine of the two embedded rows and the cosine of the two
  feature rows. The kernel program gathers the batch rows first, takes their norms, pads the embedding to 128 columns,
  and computes the sum of squared differences tile by tile (8 × 8 tiles of 1024 × 1024 pairs) in ONE launch whose
  matrix products are split into three bf16 products; the reference forms the two full cosine matrices.

  Over the extended reals the split product is the product when the rows are real (a - a = 0), the padded columns are
  exactly zero, a row statistic commutes with a gather of rows, and a sum may be bracketed tile by tile; the two
  programs' moment matrices are the same term up to gathering before or after an entrywise power.

  frame_Kernel, frame_KernelIdeal: the launch's frame (Proof/KFrame.lean, Proof/KIFrame.lean); frame_ReferenceIdeal:
  the reference's run with its result dropped; preserves: the four bf16 round trips the ideal pass removed;
  algebraic: the kernel program's run (Proof/KValue.lean), the reference's (Proof/RefRunS.lean, Proof/RefTail.lean),
  and the join of the two values (Proof/Join.lean) under the precondition read back (Proof/PreReal.lean).
-/
import proofs.«101945_j60000693125366_2_alg».proof.Defs
import proofs.«101945_j60000693125366_2_alg».proof.Proof.Gen.Kernel
import proofs.«101945_j60000693125366_2_alg».proof.Proof.Gen.KernelIdeal
import proofs.«101945_j60000693125366_2_alg».proof.Proof.Gen.ReferenceIdeal
import proofs.«101945_j60000693125366_2_alg».proof.Proof.Gen.Pre_finite_inputs
import proofs.«101945_j60000693125366_2_alg».proof.Proof.KFrame
import proofs.«101945_j60000693125366_2_alg».proof.Proof.KIFrame
import proofs.«101945_j60000693125366_2_alg».proof.Proof.KValue
import proofs.«101945_j60000693125366_2_alg».proof.Proof.KHostRef
import proofs.«101945_j60000693125366_2_alg».proof.Proof.RefRunS
import proofs.«101945_j60000693125366_2_alg».proof.Proof.RefTail
import proofs.«101945_j60000693125366_2_alg».proof.Proof.Join
import proofs.«101945_j60000693125366_2_alg».proof.Proof.PreReal
import Idealize.ShloMosaic.PureOps.IdealRules
import Idealize.ShloMosaic.Adequacy
import Idealize.ShloMosaic.Init

noncomputable section

namespace Cert.Proof

open Idealize.ShloMosaic Idealize.ShloMosaic.TcCoe Idealize.SL.Sem
open scoped BigOperators

theorem frame_k : Cert.frame_Kernel := fun m ρ _ => Cert.Kernel.Frame.frame m ρ

theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRunS.run (F := Ideal) m ρ)

/-- The four rewrites of the ideal pass: a round trip through bf16 of each matrix-product operand. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- Under the precondition the two idealized programs end with the same loss: the kernel program's run leaves the
    root of the mean of the 64 tile sums (Proof/KValue.lean), the reference's the root of the mean of the sum over all
    pairs (Proof/RefTail.lean over the run), and the two sums agree (Proof/Join.lean) because the gathered centred
    rows are real (the precondition read back, carried through both moment blocks), the two programs' moment matrix
    and embedding are the same arrays, a row norm commutes with the gather, and the padded columns are zero. -/
theorem algebraic : Cert.algebraic_KernelIdeal_ReferenceIdeal := by
  intro m ρ m' ρ' hpre hagree
  have hre := fun c : Dev Cert.KernelIdeal.nD => Cert.PreReal.reals_of_pre _ _ _ _ _ _ _ _ (hpre c)
  refine ⟨fun c => fun _ => Cert.SimSpec.lossOf (∑ i : Fin 8, ∑ j : Fin 8, Cert.KernelIdeal.KValue.tileOf
      (Cert.KernelIdeal.Frame.V m c Cert.KernelIdeal.main_v134) (Cert.KernelIdeal.Frame.V m c Cert.KernelIdeal.main_v141)
      (Cert.KernelIdeal.Frame.V m c Cert.KernelIdeal.main_v160) (Cert.KernelIdeal.Frame.V m c Cert.KernelIdeal.main_v167)
      (Cert.KernelIdeal.Frame.V m c Cert.KernelIdeal.main_v174) (Cert.KernelIdeal.Frame.V m c Cert.KernelIdeal.main_v175)
      (Cert.KernelIdeal.Frame.V m c Cert.KernelIdeal.main_v176) (Cert.KernelIdeal.Frame.V m c Cert.KernelIdeal.main_v177) i j), ?_, ?_⟩
  · exact Cert.KernelIdeal.KValue.run m ρ (fun c => Cert.Join.windows_real m c _ _ _ _ _ _ _ _
      (Cert.KernelIdeal.KHost.xd_eq m c) (Cert.KernelIdeal.KHost.h_eq m c)
      (Cert.KernelIdeal.Frame.V_main_arg2 m c) (Cert.KernelIdeal.Frame.V_main_arg3 m c)
      (hre c).1 (hre c).2.1 (hre c).2.2.1 (hre c).2.2.2.1 (hre c).2.2.2.2)
  · refine (θ_run Cert.ReferenceIdeal.defs _ _).mono (fun _ h c => ⟨(h c).1.trans ?_, (h c).2⟩) (Cert.ReferenceIdeal.RefRunS.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2, Cert.ReferenceIdeal.RefTail.res_val]
    exact congrArg (fun t => fun _ => Cert.SimSpec.lossOf t) (Cert.Join.tiles_eq_total m c _ _ _ _ _ _ _ _
      (Cert.KernelIdeal.KHost.xd_eq m c) (Cert.KernelIdeal.KHost.h_eq m c)
      (Cert.KernelIdeal.Frame.V_main_arg2 m c) (Cert.KernelIdeal.Frame.V_main_arg3 m c)).symm

/-- The certificate: the programs' stated side conditions (the generated instances), then the five claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
